-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x8 : Shape := ⟨2, ![1600000, 8]⟩
abbrev S64x72 : Shape := ⟨2, ![64, 72]⟩
abbrev S72 : Shape := ⟨1, ![72]⟩
abbrev S3x72x72 : Shape := ⟨3, ![3, 72, 72]⟩
abbrev S3x72 : Shape := ⟨2, ![3, 72]⟩
abbrev S144x72 : Shape := ⟨2, ![144, 72]⟩
abbrev S8x72 : Shape := ⟨2, ![8, 72]⟩
abbrev S72x1 : Shape := ⟨2, ![72, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S64x72 : S_.BroadcastsInDim S64x72 (![] : Fin 0 → Fin S64x72.rank)
  reducesTo_S64x72_S_d0_1 : S64x72.ReducesTo [0, 1] S_
  bcast_S_S72 : S_.BroadcastsInDim S72 (![] : Fin 0 → Fin S72.rank)
  reducesTo_S72_S_d0 : S72.ReducesTo [0] S_
  bcast_S_S3x72x72 : S_.BroadcastsInDim S3x72x72 (![] : Fin 0 → Fin S3x72x72.rank)
  reducesTo_S3x72x72_S_d0_1_2 : S3x72x72.ReducesTo [0, 1, 2] S_
  bcast_S_S3x72 : S_.BroadcastsInDim S3x72 (![] : Fin 0 → Fin S3x72.rank)
  reducesTo_S3x72_S_d0_1 : S3x72.ReducesTo [0, 1] S_
  bcast_S_S144x72 : S_.BroadcastsInDim S144x72 (![] : Fin 0 → Fin S144x72.rank)
  reducesTo_S144x72_S_d0_1 : S144x72.ReducesTo [0, 1] S_
  bcast_S_S8x72 : S_.BroadcastsInDim S8x72 (![] : Fin 0 → Fin S8x72.rank)
  reducesTo_S8x72_S_d0_1 : S8x72.ReducesTo [0, 1] S_
  bcast_S_S72x1 : S_.BroadcastsInDim S72x1 (![] : Fin 0 → Fin S72x1.rank)
  reducesTo_S72x1_S_d0_1 : S72x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S72 .f32) (main_arg16 : FVec F S72x1 .f32) (main_arg17 : FVec F S1 .f32) (main_v63 : IVec S_ 1) (main_v67 : IVec S_ 1) : IVec S_ 1 :=
  let main_v68 : IVec S_ 1 := andi main_v63 main_v67
  let main_v69 : FVec F S72 .f32 := Host.absf main_arg15
  let main_cst_26 : FVec F S_ .f32 := constant S_ .f32 0x7F800000#32
  let main_v70 : FVec F S72 .f32 := broadcastInDim S72 ![] bcast_S_S72 main_cst_26
  let main_v71 : IVec S72 1 := cmpf .olt main_v69 main_v70
  let main_c_27 : IVec S_ 1 := constantI S_ 1 1#1
  let main_v72 : IVec S_ 1 := (fun x v => Host.reduce IntOp.andi x v reducesTo_S72_S_d0 h_S_) main_v71 main_c_27
  let main_v73 : IVec S_ 1 := andi main_v68 main_v72
  let main_v74 : FVec F S72x1 .f32 := Host.absf main_arg16
  let main_cst_28 : FVec F S_ .f32 := constant S_ .f32 0x7F800000#32
  let main_v75 : FVec F S72x1 .f32 := broadcastInDim S72x1 ![] bcast_S_S72x1 main_cst_28
  let main_v76 : IVec S72x1 1 := cmpf .olt main_v74 main_v75
  let main_c_29 : IVec S_ 1 := constantI S_ 1 1#1
  let main_v77 : IVec S_ 1 := (fun x v => Host.reduce IntOp.andi x v reducesTo_S72x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S8x72 .f32) (main_arg13 : FVec F S72 .f32) (main_arg14 : FVec F S144x72 .f32) (main_arg15 : FVec F S72 .f32) (main_arg16 : FVec F S72x1 .f32) (main_arg17 : FVec F S1 .f32) (main_v48 : IVec S_ 1) (main_v49 : FVec F S72 .f32) (main_v50 : FVec F S72 .f32) : IVec S_ 1 :=
  let main_v51 : IVec S72 1 := cmpf .olt main_v49 main_v50
  let main_c_19 : IVec S_ 1 := constantI S_ 1 1#1
  let main_v52 : IVec S_ 1 := (fun x v => Host.reduce IntOp.andi x v reducesTo_S72_S_d0 h_S_) main_v51 main_c_19
  let main_v53 : IVec S_ 1 := andi main_v48 main_v52
  let main_v54 : FVec F S8x72 .f32 := Host.absf main_arg12
  let main_cst_20 : FVec F S_ .f32 := constant S_ .f32 0x7F800000#32
  let main_v55 : FVec F S8x72 .f32 := broadcastInDim S8x72 ![] bcast_S_S8x72 main_cst_20
  let main_v56 : IVec S8x72 1 := cmpf .olt main_v54 main_v55
  let main_c_21 : IVec S_ 1 := constantI S_ 1 1#1
  let main_v57 : IVec S_ 1 := (fun x v => Host.reduce IntOp.andi x v reducesTo_S8x72_S_d0_1 h_S_) main_v56 main_c_21
  let main_v58 : IVec S_ 1 := andi main_v53 main_v57
  let main_v59 : FVec F S72 .f32 := Host.absf main_arg13
  let main_cst_22 : FVec F S_ .f32 := constant S_ .f32 0x7F800000#32
  let main_v60 : FVec F S72 .f32 := broadcastInDim S72 ![] bcast_S_S72 main_cst_22
  let main_v61 : IVec S72 1 := cmpf .olt main_v59 main_v60
  let main_c_23 : IVec S_ 1 := constantI S_ 1 1#1
  let main_v62 : IVec S_ 1 := (fun x v => Host.reduce IntOp.andi x v reducesTo_S72_S_d0 h_S_) main_v61 main_c_23
  let main_v63 : IVec S_ 1 := andi main_v58 main_v62
  let main_v64 : FVec F S144x72 .f32 := Host.absf main_arg14
  let main_cst_24 : FVec F S_ .f32 := constant S_ .f32 0x7F800000#32
  let main_v65 : FVec F S144x72 .f32 := broadcastInDim S144x72 ![] bcast_S_S144x72 main_cst_24
  let main_v66 : IVec S144x72 1 := cmpf .olt main_v64 main_v65
  let main_c_25 : IVec S_ 1 := constantI S_ 1 1#1
  let main_v67 : IVec S_ 1 := (fun x v => Host.reduce IntOp.andi x v reducesTo_S144x72_S_d0_1 h_S_) main_v66 main_c_25
  fn_part4 (F := F) main_arg15 main_arg16 main_arg17 main_v63 main_v67

def fn_part2 {F : FTy → Type} [FloatOps F] (main_arg8 : FVec F S3x72 .f32) (main_arg9 : FVec F S3x72 .f32) (main_arg10 : FVec F S144x72 .f32) (main_arg11 : FVec F S72 .f32) (main_arg12 : FVec F S8x72 .f32) (main_arg13 : FVec F S72 .f32) (main_arg14 : FVec F S144x72 .f32) (main_arg15 : FVec F S72 .f32) (main_arg16 : FVec F S72x1 .f32) (main_arg17 : FVec F S1 .f32) (main_v33 : IVec S_ 1) : IVec S_ 1 :=
  let main_v34 : FVec F S3x72 .f32 := Host.absf main_arg8
  let main_cst_12 : FVec F S_ .f32 := constant S_ .f32 0x7F800000#32
  let main_v35 : FVec F S3x72 .f32 := broadcastInDim S3x72 ![] bcast_S_S3x72 main_cst_12
  let main_v36 : IVec S3x72 1 := cmpf .olt main_v34 main_v35
  let main_c_13 : IVec S_ 1 := constantI S_ 1 1#1
  let main_v37 : IVec S_ 1 := (fun x v => Host.reduce IntOp.andi x v reducesTo_S3x72_S_d0_1 h_S_) main_v36 main_c_13
  let main_v38 : IVec S_ 1 := andi main_v33 main_v37
  let main_v39 : FVec F S3x72 .f32 := Host.absf main_arg9
  let main_cst_14 : FVec F S_ .f32 := constant S_ .f32 0x7F800000#32
  let main_v40 : FVec F S3x72 .f32 := broadcastInDim S3x72 ![] bcast_S_S3x72 main_cst_14
  let main_v41 : IVec S3x72 1 := cmpf .olt main_v39 main_v40
  let main_c_15 : IVec S_ 1 := constantI S_ 1 1#1
  let main_v42 : IVec S_ 1 := (fun x v => Host.reduce IntOp.andi x v reducesTo_S3x72_S_d0_1 h_S_) main_v41 main_c_15
  let main_v43 : IVec S_ 1 := andi main_v38 main_v42
  let main_v44 : FVec F S144x72 .f32 := Host.absf main_arg10
  let main_cst_16 : FVec F S_ .f32 := constant S_ .f32 0x7F800000#32
  let main_v45 : FVec F S144x72 .f32 := broadcastInDim S144x72 ![] bcast_S_S144x72 main_cst_16
  let main_v46 : IVec S144x72 1 := cmpf .olt main_v44 main_v45
  let main_c_17 : IVec S_ 1 := constantI S_ 1 1#1
  let main_v47 : IVec S_ 1 := (fun x v => Host.reduce IntOp.andi x v reducesTo_S144x72_S_d0_1 h_S_) main_v46 main_c_17
  let main_v48 : IVec S_ 1 := andi main_v43 main_v47
  let main_v49 : FVec F S72 .f32 := Host.absf main_arg11
  let main_cst_18 : FVec F S_ .f32 := constant S_ .f32 0x7F800000#32
  let main_v50 : FVec F S72 .f32 := broadcastInDim S72 ![] bcast_S_S72 main_cst_18
  fn_part3 (F := F) main_arg12 main_arg13 main_arg14 main_arg15 main_arg16 main_arg17 main_v48 main_v49 main_v50

def fn_part1 {F : FTy → Type} [FloatOps F] (main_arg5 : FVec F S3x72x72 .f32) (main_arg6 : FVec F S3x72x72 .f32) (main_arg7 : FVec F S3x72 .f32) (main_arg8 : FVec F S3x72 .f32) (main_arg9 : FVec F S3x72 .f32) (main_arg10 : FVec F S144x72 .f32) (main_arg11 : FVec F S72 .f32) (main_arg12 : FVec F S8x72 .f32) (main_arg13 : FVec F S72 .f32) (main_arg14 : FVec F S144x72 .f32) (main_arg15 : FVec F S72 .f32) (main_arg16 : FVec F S72x1 .f32) (main_arg17 : FVec F S1 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S3x72x72 .f32 := Host.absf main_arg5
  let main_cst_6 : FVec F S_ .f32 := constant S_ .f32 0x7F800000#32
  let main_v20 : FVec F S3x72x72 .f32 := broadcastInDim S3x72x72 ![] bcast_S_S3x72x72 main_cst_6
  let main_v21 : IVec S3x72x72 1 := cmpf .olt main_v19 main_v20
  let main_c_7 : IVec S_ 1 := constantI S_ 1 1#1
  let main_v22 : IVec S_ 1 := (fun x v => Host.reduce IntOp.andi x v reducesTo_S3x72x72_S_d0_1_2 h_S_) main_v21 main_c_7
  let main_v23 : IVec S_ 1 := andi main_v18 main_v22
  let main_v24 : FVec F S3x72x72 .f32 := Host.absf main_arg6
  let main_cst_8 : FVec F S_ .f32 := constant S_ .f32 0x7F800000#32
  let main_v25 : FVec F S3x72x72 .f32 := broadcastInDim S3x72x72 ![] bcast_S_S3x72x72 main_cst_8
  let main_v26 : IVec S3x72x72 1 := cmpf .olt main_v24 main_v25
  let main_c_9 : IVec S_ 1 := constantI S_ 1 1#1
  let main_v27 : IVec S_ 1 := (fun x v => Host.reduce IntOp.andi x v reducesTo_S3x72x72_S_d0_1_2 h_S_) main_v26 main_c_9
  let main_v28 : IVec S_ 1 := andi main_v23 main_v27
  let main_v29 : FVec F S3x72 .f32 := Host.absf main_arg7
  let main_cst_10 : FVec F S_ .f32 := constant S_ .f32 0x7F800000#32
  let main_v30 : FVec F S3x72 .f32 := broadcastInDim S3x72 ![] bcast_S_S3x72 main_cst_10
  let main_v31 : IVec S3x72 1 := cmpf .olt main_v29 main_v30
  let main_c_11 : IVec S_ 1 := constantI S_ 1 1#1
  let main_v32 : IVec S_ 1 := (fun x v => Host.reduce IntOp.andi x v reducesTo_S3x72_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S1600000x8 .f32) (main_arg3 : FVec F S64x72 .f32) (main_arg4 : FVec F S72 .f32) (main_arg5 : FVec F S3x72x72 .f32) (main_arg6 : FVec F S3x72x72 .f32) (main_arg7 : FVec F S3x72 .f32) (main_arg8 : FVec F S3x72 .f32) (main_arg9 : FVec F S3x72 .f32) (main_arg10 : FVec F S144x72 .f32) (main_arg11 : FVec F S72 .f32) (main_arg12 : FVec F S8x72 .f32) (main_arg13 : FVec F S72 .f32) (main_arg14 : FVec F S144x72 .f32) (main_arg15 : FVec F S72 .f32) (main_arg16 : FVec F S72x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S64x72 .f32 := Host.absf main_arg3
  let main_cst_2 : FVec F S_ .f32 := constant S_ .f32 0x7F800000#32
  let main_v10 : FVec F S64x72 .f32 := broadcastInDim S64x72 ![] bcast_S_S64x72 main_cst_2
  let main_v11 : IVec S64x72 1 := cmpf .olt main_v9 main_v10
  let main_c_3 : IVec S_ 1 := constantI S_ 1 1#1
  let main_v12 : IVec S_ 1 := (fun x v => Host.reduce IntOp.andi x v reducesTo_S64x72_S_d0_1 h_S_) main_v11 main_c_3
  let main_v13 : IVec S_ 1 := andi main_v8 main_v12
  let main_v14 : FVec F S72 .f32 := Host.absf main_arg4
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S1600000x8 : Shape := ⟨2, ![1600000, 8]⟩
abbrev S64x72 : Shape := ⟨2, ![64, 72]⟩
abbrev S72 : Shape := ⟨1, ![72]⟩
abbrev S3x72x72 : Shape := ⟨3, ![3, 72, 72]⟩
abbrev S3x72 : Shape := ⟨2, ![3, 72]⟩
abbrev S144x72 : Shape := ⟨2, ![144, 72]⟩
abbrev S8x72 : Shape := ⟨2, ![8, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S100000x72 : Shape := ⟨2, ![100000, 72]⟩
abbrev S10000x64 : Shape := ⟨2, ![10000, 64]⟩
abbrev S10000x72 : Shape := ⟨2, ![10000, 72]⟩
abbrev S1x72 : Shape := ⟨2, ![1, 72]⟩
abbrev S_ : Shape := ⟨0, ![]⟩
abbrev S100000 : Shape := ⟨1, ![100000]⟩
abbrev S1600000x1 : Shape := ⟨2, ![1600000, 1]⟩
abbrev S1x72x72 : Shape := ⟨3, ![1, 72, 72]⟩
abbrev S72x72 : Shape := ⟨2, ![72, 72]⟩
abbrev S5000x72 : Shape := ⟨2, ![5000, 72]⟩
abbrev S1600000x72 : Shape := ⟨2, ![1600000, 72]⟩
abbrev S1601536 : Shape := ⟨1, ![1601536]⟩
abbrev S1601536x8 : Shape := ⟨2, ![1601536, 8]⟩
abbrev S1601536x1 : Shape := ⟨2, ![1601536, 1]⟩
abbrev S1601536x72 : Shape := ⟨2, ![1601536, 72]⟩
abbrev S4096x72 : Shape := ⟨2, ![4096, 72]⟩
abbrev S4096x8 : Shape := ⟨2, ![4096, 8]⟩
abbrev S4096 : Shape := ⟨1, ![4096]⟩
abbrev S4096x144 : Shape := ⟨2, ![4096, 144]⟩
abbrev S4096x1 : Shape := ⟨2, ![4096, 1]⟩
abbrev S1x1 : Shape := ⟨2, ![1, 1]⟩

abbrev nBuf : Space → Nat
  | .hbm => 326
  | .vmem => 46
  | .smem => 0
  | _ => 0

abbrev hbmTy0_0 (i : Nat) : BufTy := match i % 128 with
  | 0 => ⟨S100000x64, .f32⟩
  | 1 => ⟨S2x1600000, .i32⟩
  | 2 => ⟨S1600000x8, .f32⟩
  | 3 => ⟨S64x72, .f32⟩
  | 4 => ⟨S72, .f32⟩
  | 5 => ⟨S3x72x72, .f32⟩
  | 6 => ⟨S3x72x72, .f32⟩
  | 7 => ⟨S3x72, .f32⟩
  | 8 => ⟨S3x72, .f32⟩
  | 9 => ⟨S3x72, .f32⟩
  | 10 => ⟨S144x72, .f32⟩
  | 11 => ⟨S72, .f32⟩
  | 12 => ⟨S8x72, .f32⟩
  | 13 => ⟨S72, .f32⟩
  | 14 => ⟨S144x72, .f32⟩
  | 15 => ⟨S72, .f32⟩
  | 16 => ⟨S72x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000x72, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1x72x72, .f32⟩
  | 60 => ⟨S72x72, .f32⟩
  | 61 => ⟨S1x72x72, .f32⟩
  | 62 => ⟨S72x72, .f32⟩
  | 63 => ⟨S100000x72, .f32⟩
  | 64 => ⟨S100000x72, .f32⟩
  | 65 => ⟨S1600000x1, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x72, .f32⟩
  | 75 => ⟨S1600000x72, .f32⟩
  | 76 => ⟨S1600000x72, .f32⟩
  | 77 => ⟨S_, .f32⟩
  | 78 => ⟨S100000x72, .f32⟩
  | 79 => ⟨S1600000x1, .i32⟩
  | 80 => ⟨S100000x72, .f32⟩
  | 81 => ⟨S100000x72, .f32⟩
  | 82 => ⟨S1x72, .f32⟩
  | 83 => ⟨S72, .f32⟩
  | 84 => ⟨S1x72, .f32⟩
  | 85 => ⟨S100000x72, .f32⟩
  | 86 => ⟨S100000x72, .f32⟩
  | 87 => ⟨S_, .f32⟩
  | 88 => ⟨S100000x72, .f32⟩
  | 89 => ⟨S100000x72, .f32⟩
  | 90 => ⟨S_, .f32⟩
  | 91 => ⟨S72, .f32⟩
  | 92 => ⟨S_, .f32⟩
  | 93 => ⟨S72, .f32⟩
  | 94 => ⟨S72, .f32⟩
  | 95 => ⟨S_, .i32⟩
  | 96 => ⟨S_, .f32⟩
  | 97 => ⟨S72, .f32⟩
  | 98 => ⟨S1x72, .f32⟩
  | 99 => ⟨S_, .f32⟩
  | 100 => ⟨S1x72, .f32⟩
  | 101 => ⟨S1x72, .f32⟩
  | 102 => ⟨S100000x72, .f32⟩
  | 103 => ⟨S100000x72, .f32⟩
  | 104 => ⟨S100000x72, .f32⟩
  | 105 => ⟨S_, .f32⟩
  | 106 => ⟨S_, .f32⟩
  | 107 => ⟨S_, .f32⟩
  | 108 => ⟨S_, .f32⟩
  | 109 => ⟨S72, .f32⟩
  | 110 => ⟨S72, .f32⟩
  | 111 => ⟨S72, .f32⟩
  | 112 => ⟨S_, .f32⟩
  | 113 => ⟨S_, .i1⟩
  | 114 => ⟨S_, .f32⟩
  | 115 => ⟨S_, .f32⟩
  | 116 => ⟨S72, .f32⟩
  | 117 => ⟨S72, .f32⟩
  | 118 => ⟨S1x72, .f32⟩
  | 119 => ⟨S72, .f32⟩
  | 120 => ⟨S1x72, .f32⟩
  | 121 => ⟨S100000x72, .f32⟩
  | 122 => ⟨S100000x72, .f32⟩
  | 123 => ⟨S1x72, .f32⟩
  | 124 => ⟨S100000x72, .f32⟩
  | 125 => ⟨S100000x72, .f32⟩
  | 126 => ⟨S_, .f32⟩
  | 127 => ⟨S72, .f32⟩
  | _ => ⟨S100000x64, .f32⟩

abbrev hbmTy0_1 (i : Nat) : BufTy := match i % 128 with
  | 0 => ⟨S72, .f32⟩
  | 1 => ⟨S72, .f32⟩
  | 2 => ⟨S1x72, .f32⟩
  | 3 => ⟨S100000x72, .f32⟩
  | 4 => ⟨S100000x72, .f32⟩
  | 5 => ⟨S1x72, .f32⟩
  | 6 => ⟨S72, .f32⟩
  | 7 => ⟨S1x72, .f32⟩
  | 8 => ⟨S100000x72, .f32⟩
  | 9 => ⟨S100000x72, .f32⟩
  | 10 => ⟨S1x72x72, .f32⟩
  | 11 => ⟨S72x72, .f32⟩
  | 12 => ⟨S1x72x72, .f32⟩
  | 13 => ⟨S72x72, .f32⟩
  | 14 => ⟨S100000x72, .f32⟩
  | 15 => ⟨S100000x72, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x72, .f32⟩
  | 26 => ⟨S1600000x72, .f32⟩
  | 27 => ⟨S1600000x72, .f32⟩
  | 28 => ⟨S_, .f32⟩
  | 29 => ⟨S100000x72, .f32⟩
  | 30 => ⟨S1600000x1, .i32⟩
  | 31 => ⟨S100000x72, .f32⟩
  | 32 => ⟨S100000x72, .f32⟩
  | 33 => ⟨S1x72, .f32⟩
  | 34 => ⟨S72, .f32⟩
  | 35 => ⟨S1x72, .f32⟩
  | 36 => ⟨S100000x72, .f32⟩
  | 37 => ⟨S100000x72, .f32⟩
  | 38 => ⟨S_, .f32⟩
  | 39 => ⟨S100000x72, .f32⟩
  | 40 => ⟨S100000x72, .f32⟩
  | 41 => ⟨S_, .f32⟩
  | 42 => ⟨S72, .f32⟩
  | 43 => ⟨S_, .f32⟩
  | 44 => ⟨S72, .f32⟩
  | 45 => ⟨S72, .f32⟩
  | 46 => ⟨S_, .i32⟩
  | 47 => ⟨S_, .f32⟩
  | 48 => ⟨S72, .f32⟩
  | 49 => ⟨S1x72, .f32⟩
  | 50 => ⟨S_, .f32⟩
  | 51 => ⟨S1x72, .f32⟩
  | 52 => ⟨S1x72, .f32⟩
  | 53 => ⟨S100000x72, .f32⟩
  | 54 => ⟨S100000x72, .f32⟩
  | 55 => ⟨S100000x72, .f32⟩
  | 56 => ⟨S_, .f32⟩
  | 57 => ⟨S_, .f32⟩
  | 58 => ⟨S_, .f32⟩
  | 59 => ⟨S_, .f32⟩
  | 60 => ⟨S72, .f32⟩
  | 61 => ⟨S72, .f32⟩
  | 62 => ⟨S72, .f32⟩
  | 63 => ⟨S_, .f32⟩
  | 64 => ⟨S_, .i1⟩
  | 65 => ⟨S_, .f32⟩
  | 66 => ⟨S_, .f32⟩
  | 67 => ⟨S72, .f32⟩
  | 68 => ⟨S72, .f32⟩
  | 69 => ⟨S1x72, .f32⟩
  | 70 => ⟨S72, .f32⟩
  | 71 => ⟨S1x72, .f32⟩
  | 72 => ⟨S100000x72, .f32⟩
  | 73 => ⟨S100000x72, .f32⟩
  | 74 => ⟨S1x72, .f32⟩
  | 75 => ⟨S100000x72, .f32⟩
  | 76 => ⟨S100000x72, .f32⟩
  | 77 => ⟨S_, .f32⟩
  | 78 => ⟨S72, .f32⟩
  | 79 => ⟨S72, .f32⟩
  | 80 => ⟨S72, .f32⟩
  | 81 => ⟨S1x72, .f32⟩
  | 82 => ⟨S100000x72, .f32⟩
  | 83 => ⟨S100000x72, .f32⟩
  | 84 => ⟨S1x72, .f32⟩
  | 85 => ⟨S72, .f32⟩
  | 86 => ⟨S1x72, .f32⟩
  | 87 => ⟨S100000x72, .f32⟩
  | 88 => ⟨S100000x72, .f32⟩
  | 89 => ⟨S1x72x72, .f32⟩
  | 90 => ⟨S72x72, .f32⟩
  | 91 => ⟨S1x72x72, .f32⟩
  | 92 => ⟨S72x72, .f32⟩
  | 93 => ⟨S100000x72, .f32⟩
  | 94 => ⟨S100000x72, .f32⟩
  | 95 => ⟨S1600000x1, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x72, .f32⟩
  | 105 => ⟨S1600000x72, .f32⟩
  | 106 => ⟨S1600000x72, .f32⟩
  | 107 => ⟨S_, .f32⟩
  | 108 => ⟨S100000x72, .f32⟩
  | 109 => ⟨S1600000x1, .i32⟩
  | 110 => ⟨S100000x72, .f32⟩
  | 111 => ⟨S100000x72, .f32⟩
  | 112 => ⟨S1x72, .f32⟩
  | 113 => ⟨S72, .f32⟩
  | 114 => ⟨S1x72, .f32⟩
  | 115 => ⟨S100000x72, .f32⟩
  | 116 => ⟨S100000x72, .f32⟩
  | 117 => ⟨S_, .f32⟩
  | 118 => ⟨S100000x72, .f32⟩
  | 119 => ⟨S100000x72, .f32⟩
  | 120 => ⟨S_, .f32⟩
  | 121 => ⟨S72, .f32⟩
  | 122 => ⟨S_, .f32⟩
  | 123 => ⟨S72, .f32⟩
  | 124 => ⟨S72, .f32⟩
  | 125 => ⟨S_, .i32⟩
  | 126 => ⟨S_, .f32⟩
  | 127 => ⟨S72, .f32⟩
  | _ => ⟨S100000x64, .f32⟩

abbrev hbmTy0_2 (i : Nat) : BufTy := match i % 128 with
  | 0 => ⟨S1x72, .f32⟩
  | 1 => ⟨S_, .f32⟩
  | 2 => ⟨S1x72, .f32⟩
  | 3 => ⟨S1x72, .f32⟩
  | 4 => ⟨S100000x72, .f32⟩
  | 5 => ⟨S100000x72, .f32⟩
  | 6 => ⟨S100000x72, .f32⟩
  | 7 => ⟨S_, .f32⟩
  | 8 => ⟨S_, .f32⟩
  | 9 => ⟨S_, .f32⟩
  | 10 => ⟨S_, .f32⟩
  | 11 => ⟨S72, .f32⟩
  | 12 => ⟨S72, .f32⟩
  | 13 => ⟨S72, .f32⟩
  | 14 => ⟨S_, .f32⟩
  | 15 => ⟨S_, .i1⟩
  | 16 => ⟨S_, .f32⟩
  | 17 => ⟨S_, .f32⟩
  | 18 => ⟨S72, .f32⟩
  | 19 => ⟨S72, .f32⟩
  | 20 => ⟨S1x72, .f32⟩
  | 21 => ⟨S72, .f32⟩
  | 22 => ⟨S1x72, .f32⟩
  | 23 => ⟨S100000x72, .f32⟩
  | 24 => ⟨S100000x72, .f32⟩
  | 25 => ⟨S1x72, .f32⟩
  | 26 => ⟨S100000x72, .f32⟩
  | 27 => ⟨S100000x72, .f32⟩
  | 28 => ⟨S_, .f32⟩
  | 29 => ⟨S72, .f32⟩
  | 30 => ⟨S72, .f32⟩
  | 31 => ⟨S72, .f32⟩
  | 32 => ⟨S1x72, .f32⟩
  | 33 => ⟨S100000x72, .f32⟩
  | 34 => ⟨S100000x72, .f32⟩
  | 35 => ⟨S1x72, .f32⟩
  | 36 => ⟨S72, .f32⟩
  | 37 => ⟨S1x72, .f32⟩
  | 38 => ⟨S100000x72, .f32⟩
  | 39 => ⟨S100000x72, .f32⟩
  | 40 => ⟨S100000x72, .bf16⟩
  | 41 => ⟨S_, .i32⟩
  | 42 => ⟨S_, .i32⟩
  | 43 => ⟨S1601536, .i32⟩
  | 44 => ⟨S_, .i32⟩
  | 45 => ⟨S_, .i32⟩
  | 46 => ⟨S1601536, .i32⟩
  | 47 => ⟨S_, .i32⟩
  | 48 => ⟨S_, .f32⟩
  | 49 => ⟨S1601536x8, .f32⟩
  | 50 => ⟨S_, .i32⟩
  | 51 => ⟨S1601536, .i32⟩
  | 52 => ⟨S1601536, .i1⟩
  | 53 => ⟨S_, .i32⟩
  | 54 => ⟨S1601536, .i32⟩
  | 55 => ⟨S1601536, .i32⟩
  | 56 => ⟨S1601536, .i32⟩
  | 57 => ⟨S1601536x1, .i32⟩
  | 58 => ⟨S1601536x72, .bf16⟩
  | 59 => ⟨S_, .i32⟩
  | 60 => ⟨S1601536, .i32⟩
  | 61 => ⟨S1601536, .i1⟩
  | 62 => ⟨S_, .i32⟩
  | 63 => ⟨S1601536, .i32⟩
  | 64 => ⟨S1601536, .i32⟩
  | 65 => ⟨S1601536, .i32⟩
  | 66 => ⟨S1601536x1, .i32⟩
  | 67 => ⟨S1601536x72, .bf16⟩
  | 68 => ⟨S1601536, .f32⟩
  | 69 => ⟨S1600000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x72, .f32⟩
  | .local _ .vmem, ⟨3, _⟩ => ⟨S72, .f32⟩
  | .local _ .vmem, ⟨4, _⟩ => ⟨S10000x72, .f32⟩
  | .local _ .vmem, ⟨5, _⟩ => ⟨S10000x72, .f32⟩
  | .local _ .vmem, ⟨6, _⟩ => ⟨S5000x72, .f32⟩
  | .local _ .vmem, ⟨7, _⟩ => ⟨S5000x72, .f32⟩
  | .local _ .vmem, ⟨8, _⟩ => ⟨S72x72, .f32⟩
  | .local _ .vmem, ⟨9, _⟩ => ⟨S72x72, .f32⟩
  | .local _ .vmem, ⟨10, _⟩ => ⟨S5000x72, .f32⟩
  | .local _ .vmem, ⟨11, _⟩ => ⟨S5000x72, .f32⟩
  | .local _ .vmem, ⟨12, _⟩ => ⟨S5000x72, .f32⟩
  | .local _ .vmem, ⟨13, _⟩ => ⟨S5000x72, .f32⟩
  | .local _ .vmem, ⟨14, _⟩ => ⟨S5000x72, .f32⟩
  | .local _ .vmem, ⟨15, _⟩ => ⟨S5000x72, .f32⟩
  | .local _ .vmem, ⟨16, _⟩ => ⟨S72x72, .f32⟩
  | .local _ .vmem, ⟨17, _⟩ => ⟨S72x72, .f32⟩
  | .local _ .vmem, ⟨18, _⟩ => ⟨S5000x72, .f32⟩
  | .local _ .vmem, ⟨19, _⟩ => ⟨S5000x72, .f32⟩
  | .local _ .vmem, ⟨20, _⟩ => ⟨S5000x72, .f32⟩
  | .local _ .vmem, ⟨21, _⟩ => ⟨S5000x72, .f32⟩
  | .local _ .vmem, ⟨22, _⟩ => ⟨S5000x72, .f32⟩
  | .local _ .vmem, ⟨23, _⟩ => ⟨S5000x72, .f32⟩
  | .local _ .vmem, ⟨24, _⟩ => ⟨S72x72, .f32⟩
  | .local _ .vmem, ⟨25, _⟩ => ⟨S72x72, .f32⟩
  | .local _ .vmem, ⟨26, _⟩ => ⟨S5000x72, .f32⟩
  | .local _ .vmem, ⟨27, _⟩ => ⟨S5000x72, .f32⟩
  | .local _ .vmem, ⟨28, _⟩ => ⟨S5000x72, .f32⟩
  | .local _ .vmem, ⟨29, _⟩ => ⟨S5000x72, .f32⟩
  | .local _ .vmem, ⟨30, _⟩ => ⟨S4096x72, .bf16⟩
  | .local _ .vmem, ⟨31, _⟩ => ⟨S4096x72, .bf16⟩
  | .local _ .vmem, ⟨32, _⟩ => ⟨S4096x72, .bf16⟩
  | .local _ .vmem, ⟨33, _⟩ => ⟨S4096x72, .bf16⟩
  | .local _ .vmem, ⟨34, _⟩ => ⟨S4096x8, .f32⟩
  | .local _ .vmem, ⟨35, _⟩ => ⟨S4096x8, .f32⟩
  | .local _ .vmem, ⟨36, _⟩ => ⟨S144x72, .f32⟩
  | .local _ .vmem, ⟨37, _⟩ => ⟨S72, .f32⟩
  | .local _ .vmem, ⟨38, _⟩ => ⟨S8x72, .f32⟩
  | .local _ .vmem, ⟨39, _⟩ => ⟨S72, .f32⟩
  | .local _ .vmem, ⟨40, _⟩ => ⟨S144x72, .f32⟩
  | .local _ .vmem, ⟨41, _⟩ => ⟨S72, .f32⟩
  | .local _ .vmem, ⟨42, _⟩ => ⟨S72x1, .f32⟩
  | .local _ .vmem, ⟨43, _⟩ => ⟨S1, .f32⟩
  | .local _ .vmem, ⟨44, _⟩ => ⟨S4096, .f32⟩
  | .local _ .vmem, ⟨45, _⟩ => ⟨S4096, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v35 : Ref sig .tc := ⟨.hbm, 65, rfl⟩
abbrev main_c_7 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call1_cst : Ref sig .tc := ⟨.hbm, 87, rfl⟩
abbrev main_call1_v0 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_v57 : Ref sig .tc := ⟨.hbm, 94, rfl⟩
abbrev main_c_12 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_13 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82_0 : Ref sig .tc := ⟨.hbm, 142, rfl⟩
abbrev main_v82_1 : Ref sig .tc := ⟨.hbm, 143, rfl⟩
abbrev main_v83 : Ref sig .tc := ⟨.hbm, 144, rfl⟩
abbrev main_c_14 : Ref sig .tc := ⟨.hbm, 145, rfl⟩
abbrev main_v84 : Ref sig .tc := ⟨.hbm, 146, rfl⟩
abbrev main_v85 : Ref sig .tc := ⟨.hbm, 147, rfl⟩
abbrev main_c_15 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_16 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_call3_cst : Ref sig .tc := ⟨.hbm, 166, rfl⟩
abbrev main_call3_v0 : Ref sig .tc := ⟨.hbm, 167, rfl⟩
abbrev main_v102 : Ref sig .tc := ⟨.hbm, 168, rfl⟩
abbrev main_cst_17 : Ref sig .tc := ⟨.hbm, 169, rfl⟩
abbrev main_v103 : Ref sig .tc := ⟨.hbm, 170, rfl⟩
abbrev main_cst_18 : Ref sig .tc := ⟨.hbm, 171, rfl⟩
abbrev main_v104 : Ref sig .tc := ⟨.hbm, 172, rfl⟩
abbrev main_v105 : Ref sig .tc := ⟨.hbm, 173, rfl⟩
abbrev main_c_19 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_cst_3 : Ref sig .tc := ⟨.hbm, 191, rfl⟩
abbrev main_call4_v12 : Ref sig .tc := ⟨.hbm, 192, rfl⟩
abbrev main_call4_cst_4 : Ref sig .tc := ⟨.hbm, 193, rfl⟩
abbrev main_call4_call0_v0 : Ref sig .tc := ⟨.hbm, 194, rfl⟩
abbrev main_call4_call0_v1 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_cst_20 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130_0 : Ref sig .tc := ⟨.hbm, 221, rfl⟩
abbrev main_v130_1 : Ref sig .tc := ⟨.hbm, 222, rfl⟩
abbrev main_v131 : Ref sig .tc := ⟨.hbm, 223, rfl⟩
abbrev main_c_21 : Ref sig .tc := ⟨.hbm, 224, rfl⟩
abbrev main_v132 : Ref sig .tc := ⟨.hbm, 225, rfl⟩
abbrev main_v133 : Ref sig .tc := ⟨.hbm, 226, rfl⟩
abbrev main_c_22 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_cst_23 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_call5_cst : Ref sig .tc := ⟨.hbm, 245, rfl⟩
abbrev main_call5_v0 : Ref sig .tc := ⟨.hbm, 246, rfl⟩
abbrev main_v150 : Ref sig .tc := ⟨.hbm, 247, rfl⟩
abbrev main_cst_24 : Ref sig .tc := ⟨.hbm, 248, rfl⟩
abbrev main_v151 : Ref sig .tc := ⟨.hbm, 249, rfl⟩
abbrev main_cst_25 : Ref sig .tc := ⟨.hbm, 250, rfl⟩
abbrev main_v152 : Ref sig .tc := ⟨.hbm, 251, rfl⟩
abbrev main_v153 : Ref sig .tc := ⟨.hbm, 252, rfl⟩
abbrev main_c_26 : Ref sig .tc := ⟨.hbm, 253, rfl⟩
abbrev main_call6_cst : Ref sig .tc := ⟨.hbm, 254, rfl⟩
abbrev main_call6_v0 : Ref sig .tc := ⟨.hbm, 255, rfl⟩
abbrev main_call6_v1 : Ref sig .tc := ⟨.hbm, 256, rfl⟩
abbrev main_call6_cst_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_v6 : Ref sig .tc := ⟨.hbm, 262, rfl⟩
abbrev main_call6_v7 : Ref sig .tc := ⟨.hbm, 263, rfl⟩
abbrev main_call6_cst_1 : Ref sig .tc := ⟨.hbm, 264, rfl⟩
abbrev main_call6_v8 : Ref sig .tc := ⟨.hbm, 265, rfl⟩
abbrev main_call6_cst_2 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_cst_3 : Ref sig .tc := ⟨.hbm, 270, rfl⟩
abbrev main_call6_v12 : Ref sig .tc := ⟨.hbm, 271, rfl⟩
abbrev main_call6_cst_4 : Ref sig .tc := ⟨.hbm, 272, rfl⟩
abbrev main_call6_call0_v0 : Ref sig .tc := ⟨.hbm, 273, rfl⟩
abbrev main_call6_call0_v1 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_27 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_c_28 : Ref sig .tc := ⟨.hbm, 297, rfl⟩
abbrev main_call7_v0 : Ref sig .tc := ⟨.hbm, 298, rfl⟩
abbrev main_v175 : Ref sig .tc := ⟨.hbm, 299, rfl⟩
abbrev main_c_29 : Ref sig .tc := ⟨.hbm, 300, rfl⟩
abbrev main_call8_v0 : Ref sig .tc := ⟨.hbm, 301, rfl⟩
abbrev main_v176 : Ref sig .tc := ⟨.hbm, 302, rfl⟩
abbrev main_c_30 : Ref sig .tc := ⟨.hbm, 303, rfl⟩
abbrev main_call9_v0 : Ref sig .tc := ⟨.hbm, 304, rfl⟩
abbrev main_v177 : Ref sig .tc := ⟨.hbm, 305, rfl⟩
abbrev main_c_31 : Ref sig .tc := ⟨.hbm, 306, rfl⟩
abbrev main_v178 : Ref sig .tc := ⟨.hbm, 307, rfl⟩
abbrev main_v179 : Ref sig .tc := ⟨.hbm, 308, rfl⟩
abbrev main_c_32 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_v183 : Ref sig .tc := ⟨.hbm, 313, rfl⟩
abbrev main_v184 : Ref sig .tc := ⟨.hbm, 314, rfl⟩
abbrev main_c_33 : Ref sig .tc := ⟨.hbm, 315, rfl⟩
abbrev main_v185 : Ref sig .tc := ⟨.hbm, 316, rfl⟩
abbrev main_v186 : Ref sig .tc := ⟨.hbm, 317, rfl⟩
abbrev main_c_34 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg11_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem11_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x72 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S72x72 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S72x72 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x72 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x72 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x72 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S72x72 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S72x72 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x72 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x72 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x72 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S72x72 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S72x72 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x72 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x72 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![391], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S4096x72 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x72 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S144x72 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S72 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S8x72 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S72 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S144x72 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S72 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S72x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S4096 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x72_S64x72_0_0 : ∀ a, (![0, 0] : Fin 2 → Nat) a + S64x72.size a ≤ S64x72.size a
  h_S64x72 : 0 < S64x72.numel
  inb_S72_S72_0 : ∀ a, (![0] : Fin 1 → Nat) a + S72.size a ≤ S72.size a
  h_S72 : 0 < S72.numel
  shapeCasts_S72_S1x72 : S72.ShapeCasts S1x72
  broadcasts_S1x72_S10000x72 : S1x72.Broadcasts S10000x72
  inb_S10000x72_S10000x72_0_0 : ∀ a, (![0, 0] : Fin 2 → Nat) a + S10000x72.size a ≤ S10000x72.size a
  h_S10000x72 : 0 < S10000x72.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x72x72_S1x72x72_0_0_0 : S3x72x72.Slices ![0, 0, 0] S1x72x72
  shapeCasts_S1x72x72_S72x72 : S1x72x72.ShapeCasts S72x72
  inb_S5000x72_S5000x72_0_0 : ∀ a, (![0, 0] : Fin 2 → Nat) a + S5000x72.size a ≤ S5000x72.size a
  h_S5000x72 : 0 < S5000x72.numel
  shapeCasts_S5000x72_S5000x72 : S5000x72.ShapeCasts S5000x72
  inb_S72x72_S72x72_0_0 : ∀ a, (![0, 0] : Fin 2 → Nat) a + S72x72.size a ≤ S72x72.size a
  h_S72x72 : 0 < S72x72.numel
  shapeCasts_S72x72_S72x72 : S72x72.ShapeCasts S72x72
  bcast_S1600000x1_S1600000x72_0_1 : S1600000x1.BroadcastsInDim S1600000x72 (![0, 1] : Fin 2 → Fin S1600000x72.rank)
  bcast_S_S100000x72 : S_.BroadcastsInDim S100000x72 (![] : Fin 0 → Fin S100000x72.rank)
  slices_S3x72_S1x72_0_0 : S3x72.Slices ![0, 0] S1x72
  shapeCasts_S1x72_S72 : S1x72.ShapeCasts S72
  bcast_S72_S1x72_1 : S72.BroadcastsInDim S1x72 (![1] : Fin 1 → Fin S1x72.rank)
  bcast_S1x72_S100000x72_0_1 : S1x72.BroadcastsInDim S100000x72 (![0, 1] : Fin 2 → Fin S100000x72.rank)
  reducesTo_S100000x72_S72_d0 : S100000x72.ReducesTo [0] S72
  h_S_ : 0 < S_.numel
  bcast_S_S72 : S_.BroadcastsInDim S72 (![] : Fin 0 → Fin S72.rank)
  bcast_S_S1x72 : S_.BroadcastsInDim S1x72 (![] : Fin 0 → Fin S1x72.rank)
  slices_S3x72x72_S1x72x72_1_0_0 : S3x72x72.Slices ![1, 0, 0] S1x72x72
  slices_S3x72_S1x72_1_0 : S3x72.Slices ![1, 0] S1x72
  slices_S3x72x72_S1x72x72_2_0_0 : S3x72x72.Slices ![2, 0, 0] S1x72x72
  slices_S3x72_S1x72_2_0 : S3x72.Slices ![2, 0] S1x72
  pads_S1600000_S1601536_015360 : S1600000.Pads (![0] : Fin 1 → Nat) ![1536] ![0] S1601536
  pads_S1600000x8_S1601536x8_015360_000 : S1600000x8.Pads (![0, 0] : Fin 2 → Nat) ![1536, 0] ![0, 0] S1601536x8
  bcast_S_S1601536 : S_.BroadcastsInDim S1601536 (![] : Fin 0 → Fin S1601536.rank)
  bcast_S1601536_S1601536x1_0 : S1601536.BroadcastsInDim S1601536x1 (![0] : Fin 1 → Fin S1601536x1.rank)
  inb_S4096x72_S4096x72_0_0 : ∀ a, (![0, 0] : Fin 2 → Nat) a + S4096x72.size a ≤ S4096x72.size a
  h_S4096x72 : 0 < S4096x72.numel
  shapeCasts_S4096x72_S4096x72 : S4096x72.ShapeCasts S4096x72
  concatenates_S4096x72_S4096x72_S4096x144_d1 : Shape.Concatenates [S4096x72, S4096x72] S4096x144 1
  inb_S144x72_S144x72_0_0 : ∀ a, (![0, 0] : Fin 2 → Nat) a + S144x72.size a ≤ S144x72.size a
  h_S144x72 : 0 < S144x72.numel
  broadcasts_S1x72_S4096x72 : S1x72.Broadcasts S4096x72
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x72_S8x72_0_0 : ∀ a, (![0, 0] : Fin 2 → Nat) a + S8x72.size a ≤ S8x72.size a
  h_S8x72 : 0 < S8x72.numel
  inb_S72x1_S72x1_0_0 : ∀ a, (![0, 0] : Fin 2 → Nat) a + S72x1.size a ≤ S72x1.size a
  h_S72x1 : 0 < S72x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  slices_S1601536_S1600000_0 : S1601536.Slices ![0] S1600000
  dot_S10000x64_S64x72_S10000x72_1_0_0_1_n_n_wf : DotDims.WF S10000x64 S64x72 S10000x72 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x72_S72x72_S5000x72_1_0_0_1_n_n_wf : DotDims.WF S5000x72 S72x72 S5000x72 [1] [0] [0] [1] [] []
  gather_S100000x72_S1600000x1_S1600000x72_1_0_n_n_0_1_172_wf : GatherDims.WF S100000x72 S1600000x1 S1600000x72 [1] [0] [] [0] [] 1 ![1, 72]
  scatter_S100000x72_S1600000x1_S1600000x72_1_0_0_1_wf : ScatterDims.WF S100000x72 S1600000x1 S1600000x72 [1] [0] [0] 1
  gather_S100000x72_S1601536x1_S1601536x72_1_0_n_n_0_1_172_wf : GatherDims.WF S100000x72 S1601536x1 S1601536x72 [1] [0] [] [0] [] 1 ![1, 72]
  dot_S4096x144_S144x72_S4096x72_1_0_0_1_n_n_wf : DotDims.WF S4096x144 S144x72 S4096x72 [1] [0] [0] [1] [] []
  dot_S4096x8_S8x72_S4096x72_1_0_0_1_n_n_wf : DotDims.WF S4096x8 S8x72 S4096x72 [1] [0] [0] [1] [] []
  dot_S4096x72_S72x1_S4096x1_1_0_0_1_n_n_wf : DotDims.WF S4096x72 S72x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x72.size a ≤ S64x72.size a
  hwx0_1 : ∀ i : grid0.Coords, EltTy.bits .f32 = 32 ∨ (Rect.block (s := S64x72) S64x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S72.size a ≤ S72.size a
  hwx0_2 : ∀ i : grid0.Coords, EltTy.bits .f32 = 32 ∨ (Rect.block (s := S72) S72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x72.size a ≤ S100000x72.size a
  hwx0_3 : ∀ i : grid0.Coords, EltTy.bits .f32 = 32 ∨ (Rect.block (s := S100000x72) S10000x72.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x72.size a ≤ S100000x72.size a
  hwx1_0 : ∀ i : grid1.Coords, EltTy.bits .f32 = 32 ∨ (Rect.block (s := S100000x72) S5000x72.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S72x72.size a ≤ S72x72.size a
  hwx1_1 : ∀ i : grid1.Coords, EltTy.bits .f32 = 32 ∨ (Rect.block (s := S72x72) S72x72.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S72x72.size a ≤ S72x72.size a
  hwx1_2 : ∀ i : grid1.Coords, EltTy.bits .f32 = 32 ∨ (Rect.block (s := S72x72) S72x72.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x72.size a ≤ S100000x72.size a
  hwx1_3 : ∀ i : grid1.Coords, EltTy.bits .f32 = 32 ∨ (Rect.block (s := S100000x72) S5000x72.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x72.size a ≤ S100000x72.size a
  hwx1_4 : ∀ i : grid1.Coords, EltTy.bits .f32 = 32 ∨ (Rect.block (s := S100000x72) S5000x72.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x72.size a ≤ S100000x72.size a
  hwx2_0 : ∀ i : grid2.Coords, EltTy.bits .f32 = 32 ∨ (Rect.block (s := S100000x72) S5000x72.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S72x72.size a ≤ S72x72.size a
  hwx2_1 : ∀ i : grid2.Coords, EltTy.bits .f32 = 32 ∨ (Rect.block (s := S72x72) S72x72.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S72x72.size a ≤ S72x72.size a
  hwx2_2 : ∀ i : grid2.Coords, EltTy.bits .f32 = 32 ∨ (Rect.block (s := S72x72) S72x72.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x72.size a ≤ S100000x72.size a
  hwx2_3 : ∀ i : grid2.Coords, EltTy.bits .f32 = 32 ∨ (Rect.block (s := S100000x72) S5000x72.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x72.size a ≤ S100000x72.size a
  hwx2_4 : ∀ i : grid2.Coords, EltTy.bits .f32 = 32 ∨ (Rect.block (s := S100000x72) S5000x72.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x72.size a ≤ S100000x72.size a
  hwx3_0 : ∀ i : grid3.Coords, EltTy.bits .f32 = 32 ∨ (Rect.block (s := S100000x72) S5000x72.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S72x72.size a ≤ S72x72.size a
  hwx3_1 : ∀ i : grid3.Coords, EltTy.bits .f32 = 32 ∨ (Rect.block (s := S72x72) S72x72.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S72x72.size a ≤ S72x72.size a
  hwx3_2 : ∀ i : grid3.Coords, EltTy.bits .f32 = 32 ∨ (Rect.block (s := S72x72) S72x72.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x72.size a ≤ S100000x72.size a
  hwx3_3 : ∀ i : grid3.Coords, EltTy.bits .f32 = 32 ∨ (Rect.block (s := S100000x72) S5000x72.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x72.size a ≤ S100000x72.size a
  hwx3_4 : ∀ i : grid3.Coords, EltTy.bits .f32 = 32 ∨ (Rect.block (s := S100000x72) S5000x72.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x72.size a ≤ S1601536x72.size a
  hwx4_0 : ∀ i : grid4.Coords, EltTy.bits .bf16 = 32 ∨ (Rect.block (s := S1601536x72) S4096x72.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x72.size a ≤ S1601536x72.size a
  hwx4_1 : ∀ i : grid4.Coords, EltTy.bits .bf16 = 32 ∨ (Rect.block (s := S1601536x72) S4096x72.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x8.size a ≤ S1601536x8.size a
  hwx4_2 : ∀ i : grid4.Coords, EltTy.bits .f32 = 32 ∨ (Rect.block (s := S1601536x8) S4096x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S144x72.size a ≤ S144x72.size a
  hwx4_3 : ∀ i : grid4.Coords, EltTy.bits .f32 = 32 ∨ (Rect.block (s := S144x72) S144x72.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S72.size a ≤ S72.size a
  hwx4_4 : ∀ i : grid4.Coords, EltTy.bits .f32 = 32 ∨ (Rect.block (s := S72) S72.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S8x72.size a ≤ S8x72.size a
  hwx4_5 : ∀ i : grid4.Coords, EltTy.bits .f32 = 32 ∨ (Rect.block (s := S8x72) S8x72.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S72.size a ≤ S72.size a
  hwx4_6 : ∀ i : grid4.Coords, EltTy.bits .f32 = 32 ∨ (Rect.block (s := S72) S72.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S144x72.size a ≤ S144x72.size a
  hwx4_7 : ∀ i : grid4.Coords, EltTy.bits .f32 = 32 ∨ (Rect.block (s := S144x72) S144x72.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S72.size a ≤ S72.size a
  hwx4_8 : ∀ i : grid4.Coords, EltTy.bits .f32 = 32 ∨ (Rect.block (s := S72) S72.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S72x1.size a ≤ S72x1.size a
  hwx4_9 : ∀ i : grid4.Coords, EltTy.bits .f32 = 32 ∨ (Rect.block (s := S72x1) S72x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S4096.size a ≤ S1601536.size a
  hwx4_11 : ∀ i : grid4.Coords, EltTy.bits .f32 = 32 ∨ (Rect.block (s := S1601536) S4096.size (cc4_transform_11 i) (hinb4_11 i)).WholeWords (EltTy.packing .f32)

variable [Facts₀]

def dot_S10000x64_S64x72_S10000x72_1_0_0_1_n_n : DotDims S10000x64 S64x72 S10000x72 where
  lhsContracting := [1]
  rhsContracting := [0]
  lhsNonContracting := [0]
  rhsNonContracting := [1]
  lhsBatch := []
  rhsBatch := []
  wf := dot_S10000x64_S64x72_S10000x72_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x72_S72x72_S5000x72_1_0_0_1_n_n : DotDims S5000x72 S72x72 S5000x72 where
  lhsContracting := [1]
  rhsContracting := [0]
  lhsNonContracting := [0]
  rhsNonContracting := [1]
  lhsBatch := []
  rhsBatch := []
  wf := dot_S5000x72_S72x72_S5000x72_1_0_0_1_n_n_wf
def gather_S100000x72_S1600000x1_S1600000x72_1_0_n_n_0_1_172 : GatherDims S100000x72 S1600000x1 S1600000x72 where
  offsetDims := [1]
  collapsedSliceDims := [0]
  operandBatchingDims := []
  startIndicesBatchingDims := []
  startIndexMap := [0]
  indexVectorDim := 1
  sliceSizes := ![1, 72]
  wf := gather_S100000x72_S1600000x1_S1600000x72_1_0_n_n_0_1_172_wf
def scatter_S100000x72_S1600000x1_S1600000x72_1_0_0_1 : ScatterDims S100000x72 S1600000x1 S1600000x72 where
  updateWindowDims := [1]
  insertedWindowDims := [0]
  scatterDimsToOperandDims := [0]
  indexVectorDim := 1
  wf := scatter_S100000x72_S1600000x1_S1600000x72_1_0_0_1_wf
def gather_S100000x72_S1601536x1_S1601536x72_1_0_n_n_0_1_172 : GatherDims S100000x72 S1601536x1 S1601536x72 where
  offsetDims := [1]
  collapsedSliceDims := [0]
  operandBatchingDims := []
  startIndicesBatchingDims := []
  startIndexMap := [0]
  indexVectorDim := 1
  sliceSizes := ![1, 72]
  wf := gather_S100000x72_S1601536x1_S1601536x72_1_0_n_n_0_1_172_wf
def dot_S4096x144_S144x72_S4096x72_1_0_0_1_n_n : DotDims S4096x144 S144x72 S4096x72 where
  lhsContracting := [1]
  rhsContracting := [0]
  lhsNonContracting := [0]
  rhsNonContracting := [1]
  lhsBatch := []
  rhsBatch := []
  wf := dot_S4096x144_S144x72_S4096x72_1_0_0_1_n_n_wf
def dot_S4096x8_S8x72_S4096x72_1_0_0_1_n_n : DotDims S4096x8 S8x72 S4096x72 where
  lhsContracting := [1]
  rhsContracting := [0]
  lhsNonContracting := [0]
  rhsNonContracting := [1]
  lhsBatch := []
  rhsBatch := []
  wf := dot_S4096x8_S8x72_S4096x72_1_0_0_1_n_n_wf
def dot_S4096x72_S72x1_S4096x1_1_0_0_1_n_n : DotDims S4096x72 S72x1 S4096x1 where
  lhsContracting := [1]
  rhsContracting := [0]
  lhsNonContracting := [0]
  rhsNonContracting := [1]
  lhsBatch := []
  rhsBatch := []
  wf := dot_S4096x72_S72x1_S4096x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x72.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S72.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x72.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x72.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S72x72.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S72x72.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34_0) S5000x72.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S5000x72.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v77) S5000x72.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S72x72.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S72x72.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82_0) S5000x72.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v82_1) S5000x72.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v125) S5000x72.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v127) S72x72.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v129) S72x72.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v130_0) S5000x72.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v130_1) S5000x72.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v184) S4096x72.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v191) S4096x72.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v177) S4096x8.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S144x72.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S72.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S8x72.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S72.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S144x72.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg15) S72.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg16) S72x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg17) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v192) S4096.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x8 : Shape := ⟨2, ![1600000, 8]⟩
abbrev S64x72 : Shape := ⟨2, ![64, 72]⟩
abbrev S72 : Shape := ⟨1, ![72]⟩
abbrev S3x72x72 : Shape := ⟨3, ![3, 72, 72]⟩
abbrev S3x72 : Shape := ⟨2, ![3, 72]⟩
abbrev S144x72 : Shape := ⟨2, ![144, 72]⟩
abbrev S8x72 : Shape := ⟨2, ![8, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S100000x72 : Shape := ⟨2, ![100000, 72]⟩
abbrev S1x72 : Shape := ⟨2, ![1, 72]⟩
abbrev S_ : Shape := ⟨0, ![]⟩
abbrev S100000 : Shape := ⟨1, ![100000]⟩
abbrev S1600000x1 : Shape := ⟨2, ![1600000, 1]⟩
abbrev S1x72x72 : Shape := ⟨3, ![1, 72, 72]⟩
abbrev S72x72 : Shape := ⟨2, ![72, 72]⟩
abbrev S1600000x72 : Shape := ⟨2, ![1600000, 72]⟩
abbrev S1600000x144 : Shape := ⟨2, ![1600000, 144]⟩
abbrev S1x1 : Shape := ⟨2, ![1, 1]⟩

abbrev nBuf : Space → Nat
  | .hbm => 340
  | .vmem => 0
  | .smem => 0
  | _ => 0

abbrev hbmTy0_0 (i : Nat) : BufTy := match i % 128 with
  | 0 => ⟨S100000x64, .f32⟩
  | 1 => ⟨S2x1600000, .i32⟩
  | 2 => ⟨S1600000x8, .f32⟩
  | 3 => ⟨S64x72, .f32⟩
  | 4 => ⟨S72, .f32⟩
  | 5 => ⟨S3x72x72, .f32⟩
  | 6 => ⟨S3x72x72, .f32⟩
  | 7 => ⟨S3x72, .f32⟩
  | 8 => ⟨S3x72, .f32⟩
  | 9 => ⟨S3x72, .f32⟩
  | 10 => ⟨S144x72, .f32⟩
  | 11 => ⟨S72, .f32⟩
  | 12 => ⟨S8x72, .f32⟩
  | 13 => ⟨S72, .f32⟩
  | 14 => ⟨S144x72, .f32⟩
  | 15 => ⟨S72, .f32⟩
  | 16 => ⟨S72x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000x72, .f32⟩
  | 23 => ⟨S1x72, .f32⟩
  | 24 => ⟨S100000x72, .f32⟩
  | 25 => ⟨S100000x72, .f32⟩
  | 26 => ⟨S_, .f32⟩
  | 27 => ⟨S100000x72, .f32⟩
  | 28 => ⟨S100000x72, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S1x72x72, .f32⟩
  | 66 => ⟨S72x72, .f32⟩
  | 67 => ⟨S100000x72, .f32⟩
  | 68 => ⟨S1600000x1, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x72, .f32⟩
  | 78 => ⟨S1600000x72, .f32⟩
  | 79 => ⟨S1600000x72, .f32⟩
  | 80 => ⟨S_, .f32⟩
  | 81 => ⟨S100000x72, .f32⟩
  | 82 => ⟨S1600000x1, .i32⟩
  | 83 => ⟨S100000x72, .f32⟩
  | 84 => ⟨S1x72x72, .f32⟩
  | 85 => ⟨S72x72, .f32⟩
  | 86 => ⟨S100000x72, .f32⟩
  | 87 => ⟨S100000x72, .f32⟩
  | 88 => ⟨S1x72, .f32⟩
  | 89 => ⟨S72, .f32⟩
  | 90 => ⟨S1x72, .f32⟩
  | 91 => ⟨S100000x72, .f32⟩
  | 92 => ⟨S100000x72, .f32⟩
  | 93 => ⟨S_, .f32⟩
  | 94 => ⟨S100000x72, .f32⟩
  | 95 => ⟨S100000x72, .f32⟩
  | 96 => ⟨S_, .f32⟩
  | 97 => ⟨S72, .f32⟩
  | 98 => ⟨S_, .f32⟩
  | 99 => ⟨S72, .f32⟩
  | 100 => ⟨S72, .f32⟩
  | 101 => ⟨S_, .i32⟩
  | 102 => ⟨S_, .f32⟩
  | 103 => ⟨S72, .f32⟩
  | 104 => ⟨S1x72, .f32⟩
  | 105 => ⟨S_, .f32⟩
  | 106 => ⟨S1x72, .f32⟩
  | 107 => ⟨S1x72, .f32⟩
  | 108 => ⟨S100000x72, .f32⟩
  | 109 => ⟨S100000x72, .f32⟩
  | 110 => ⟨S100000x72, .f32⟩
  | 111 => ⟨S_, .f32⟩
  | 112 => ⟨S_, .f32⟩
  | 113 => ⟨S_, .f32⟩
  | 114 => ⟨S_, .f32⟩
  | 115 => ⟨S72, .f32⟩
  | 116 => ⟨S72, .f32⟩
  | 117 => ⟨S72, .f32⟩
  | 118 => ⟨S_, .f32⟩
  | 119 => ⟨S_, .i1⟩
  | 120 => ⟨S_, .f32⟩
  | 121 => ⟨S_, .f32⟩
  | 122 => ⟨S72, .f32⟩
  | 123 => ⟨S72, .f32⟩
  | 124 => ⟨S1x72, .f32⟩
  | 125 => ⟨S72, .f32⟩
  | 126 => ⟨S1x72, .f32⟩
  | 127 => ⟨S100000x72, .f32⟩
  | _ => ⟨S100000x64, .f32⟩

abbrev hbmTy0_1 (i : Nat) : BufTy := match i % 128 with
  | 0 => ⟨S100000x72, .f32⟩
  | 1 => ⟨S1x72, .f32⟩
  | 2 => ⟨S100000x72, .f32⟩
  | 3 => ⟨S100000x72, .f32⟩
  | 4 => ⟨S_, .f32⟩
  | 5 => ⟨S72, .f32⟩
  | 6 => ⟨S72, .f32⟩
  | 7 => ⟨S72, .f32⟩
  | 8 => ⟨S1x72, .f32⟩
  | 9 => ⟨S100000x72, .f32⟩
  | 10 => ⟨S100000x72, .f32⟩
  | 11 => ⟨S1x72, .f32⟩
  | 12 => ⟨S72, .f32⟩
  | 13 => ⟨S1x72, .f32⟩
  | 14 => ⟨S100000x72, .f32⟩
  | 15 => ⟨S100000x72, .f32⟩
  | 16 => ⟨S1x72x72, .f32⟩
  | 17 => ⟨S72x72, .f32⟩
  | 18 => ⟨S100000x72, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x72, .f32⟩
  | 29 => ⟨S1600000x72, .f32⟩
  | 30 => ⟨S1600000x72, .f32⟩
  | 31 => ⟨S_, .f32⟩
  | 32 => ⟨S100000x72, .f32⟩
  | 33 => ⟨S1600000x1, .i32⟩
  | 34 => ⟨S100000x72, .f32⟩
  | 35 => ⟨S1x72x72, .f32⟩
  | 36 => ⟨S72x72, .f32⟩
  | 37 => ⟨S100000x72, .f32⟩
  | 38 => ⟨S100000x72, .f32⟩
  | 39 => ⟨S1x72, .f32⟩
  | 40 => ⟨S72, .f32⟩
  | 41 => ⟨S1x72, .f32⟩
  | 42 => ⟨S100000x72, .f32⟩
  | 43 => ⟨S100000x72, .f32⟩
  | 44 => ⟨S_, .f32⟩
  | 45 => ⟨S100000x72, .f32⟩
  | 46 => ⟨S100000x72, .f32⟩
  | 47 => ⟨S_, .f32⟩
  | 48 => ⟨S72, .f32⟩
  | 49 => ⟨S_, .f32⟩
  | 50 => ⟨S72, .f32⟩
  | 51 => ⟨S72, .f32⟩
  | 52 => ⟨S_, .i32⟩
  | 53 => ⟨S_, .f32⟩
  | 54 => ⟨S72, .f32⟩
  | 55 => ⟨S1x72, .f32⟩
  | 56 => ⟨S_, .f32⟩
  | 57 => ⟨S1x72, .f32⟩
  | 58 => ⟨S1x72, .f32⟩
  | 59 => ⟨S100000x72, .f32⟩
  | 60 => ⟨S100000x72, .f32⟩
  | 61 => ⟨S100000x72, .f32⟩
  | 62 => ⟨S_, .f32⟩
  | 63 => ⟨S_, .f32⟩
  | 64 => ⟨S_, .f32⟩
  | 65 => ⟨S_, .f32⟩
  | 66 => ⟨S72, .f32⟩
  | 67 => ⟨S72, .f32⟩
  | 68 => ⟨S72, .f32⟩
  | 69 => ⟨S_, .f32⟩
  | 70 => ⟨S_, .i1⟩
  | 71 => ⟨S_, .f32⟩
  | 72 => ⟨S_, .f32⟩
  | 73 => ⟨S72, .f32⟩
  | 74 => ⟨S72, .f32⟩
  | 75 => ⟨S1x72, .f32⟩
  | 76 => ⟨S72, .f32⟩
  | 77 => ⟨S1x72, .f32⟩
  | 78 => ⟨S100000x72, .f32⟩
  | 79 => ⟨S100000x72, .f32⟩
  | 80 => ⟨S1x72, .f32⟩
  | 81 => ⟨S100000x72, .f32⟩
  | 82 => ⟨S100000x72, .f32⟩
  | 83 => ⟨S_, .f32⟩
  | 84 => ⟨S72, .f32⟩
  | 85 => ⟨S72, .f32⟩
  | 86 => ⟨S72, .f32⟩
  | 87 => ⟨S1x72, .f32⟩
  | 88 => ⟨S100000x72, .f32⟩
  | 89 => ⟨S100000x72, .f32⟩
  | 90 => ⟨S1x72, .f32⟩
  | 91 => ⟨S72, .f32⟩
  | 92 => ⟨S1x72, .f32⟩
  | 93 => ⟨S100000x72, .f32⟩
  | 94 => ⟨S100000x72, .f32⟩
  | 95 => ⟨S1x72x72, .f32⟩
  | 96 => ⟨S72x72, .f32⟩
  | 97 => ⟨S100000x72, .f32⟩
  | 98 => ⟨S1600000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x72, .f32⟩
  | 108 => ⟨S1600000x72, .f32⟩
  | 109 => ⟨S1600000x72, .f32⟩
  | 110 => ⟨S_, .f32⟩
  | 111 => ⟨S100000x72, .f32⟩
  | 112 => ⟨S1600000x1, .i32⟩
  | 113 => ⟨S100000x72, .f32⟩
  | 114 => ⟨S1x72x72, .f32⟩
  | 115 => ⟨S72x72, .f32⟩
  | 116 => ⟨S100000x72, .f32⟩
  | 117 => ⟨S100000x72, .f32⟩
  | 118 => ⟨S1x72, .f32⟩
  | 119 => ⟨S72, .f32⟩
  | 120 => ⟨S1x72, .f32⟩
  | 121 => ⟨S100000x72, .f32⟩
  | 122 => ⟨S100000x72, .f32⟩
  | 123 => ⟨S_, .f32⟩
  | 124 => ⟨S100000x72, .f32⟩
  | 125 => ⟨S100000x72, .f32⟩
  | 126 => ⟨S_, .f32⟩
  | 127 => ⟨S72, .f32⟩
  | _ => ⟨S100000x64, .f32⟩

abbrev hbmTy0_2 (i : Nat) : BufTy := match i % 128 with
  | 0 => ⟨S_, .f32⟩
  | 1 => ⟨S72, .f32⟩
  | 2 => ⟨S72, .f32⟩
  | 3 => ⟨S_, .i32⟩
  | 4 => ⟨S_, .f32⟩
  | 5 => ⟨S72, .f32⟩
  | 6 => ⟨S1x72, .f32⟩
  | 7 => ⟨S_, .f32⟩
  | 8 => ⟨S1x72, .f32⟩
  | 9 => ⟨S1x72, .f32⟩
  | 10 => ⟨S100000x72, .f32⟩
  | 11 => ⟨S100000x72, .f32⟩
  | 12 => ⟨S100000x72, .f32⟩
  | 13 => ⟨S_, .f32⟩
  | 14 => ⟨S_, .f32⟩
  | 15 => ⟨S_, .f32⟩
  | 16 => ⟨S_, .f32⟩
  | 17 => ⟨S72, .f32⟩
  | 18 => ⟨S72, .f32⟩
  | 19 => ⟨S72, .f32⟩
  | 20 => ⟨S_, .f32⟩
  | 21 => ⟨S_, .i1⟩
  | 22 => ⟨S_, .f32⟩
  | 23 => ⟨S_, .f32⟩
  | 24 => ⟨S72, .f32⟩
  | 25 => ⟨S72, .f32⟩
  | 26 => ⟨S1x72, .f32⟩
  | 27 => ⟨S72, .f32⟩
  | 28 => ⟨S1x72, .f32⟩
  | 29 => ⟨S100000x72, .f32⟩
  | 30 => ⟨S100000x72, .f32⟩
  | 31 => ⟨S1x72, .f32⟩
  | 32 => ⟨S100000x72, .f32⟩
  | 33 => ⟨S100000x72, .f32⟩
  | 34 => ⟨S_, .f32⟩
  | 35 => ⟨S72, .f32⟩
  | 36 => ⟨S72, .f32⟩
  | 37 => ⟨S72, .f32⟩
  | 38 => ⟨S1x72, .f32⟩
  | 39 => ⟨S100000x72, .f32⟩
  | 40 => ⟨S100000x72, .f32⟩
  | 41 => ⟨S1x72, .f32⟩
  | 42 => ⟨S72, .f32⟩
  | 43 => ⟨S1x72, .f32⟩
  | 44 => ⟨S100000x72, .f32⟩
  | 45 => ⟨S100000x72, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x72, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x72, .f32⟩
  | 64 => ⟨S1600000x144, .f32⟩
  | 65 => ⟨S1600000x72, .f32⟩
  | 66 => ⟨S1x72, .f32⟩
  | 67 => ⟨S1600000x72, .f32⟩
  | 68 => ⟨S1600000x72, .f32⟩
  | 69 => ⟨S1600000x72, .f32⟩
  | 70 => ⟨S1x72, .f32⟩
  | 71 => ⟨S1600000x72, .f32⟩
  | 72 => ⟨S1600000x72, .f32⟩
  | 73 => ⟨S1600000x144, .f32⟩
  | 74 => ⟨S1600000x72, .f32⟩
  | 75 => ⟨S1x72, .f32⟩
  | 76 => ⟨S1600000x72, .f32⟩
  | 77 => ⟨S1600000x72, .f32⟩
  | 78 => ⟨S1600000x72, .f32⟩
  | 79 => ⟨S1600000x1, .f32⟩
  | 80 => ⟨S1x1, .f32⟩
  | 81 => ⟨S1600000x1, .f32⟩
  | 82 => ⟨S1600000x1, .f32⟩
  | 83 => ⟨S1600000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_cst : Ref sig .tc := ⟨.hbm, 26, rfl⟩
abbrev main_call0_v0 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call2_cst : Ref sig .tc := ⟨.hbm, 93, rfl⟩
abbrev main_call2_v0 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_c_12 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_cst_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_cst_1 : Ref sig .tc := ⟨.hbm, 112, rfl⟩
abbrev main_call3_v8 : Ref sig .tc := ⟨.hbm, 113, rfl⟩
abbrev main_call3_cst_2 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_cst_3 : Ref sig .tc := ⟨.hbm, 118, rfl⟩
abbrev main_call3_v12 : Ref sig .tc := ⟨.hbm, 119, rfl⟩
abbrev main_call3_cst_4 : Ref sig .tc := ⟨.hbm, 120, rfl⟩
abbrev main_call3_call0_v0 : Ref sig .tc := ⟨.hbm, 121, rfl⟩
abbrev main_call3_call0_v1 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_cst_13 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_14 : Ref sig .tc := ⟨.hbm, 148, rfl⟩
abbrev main_v87 : Ref sig .tc := ⟨.hbm, 149, rfl⟩
abbrev main_v88 : Ref sig .tc := ⟨.hbm, 150, rfl⟩
abbrev main_c_15 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_16 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_call4_cst : Ref sig .tc := ⟨.hbm, 172, rfl⟩
abbrev main_call4_v0 : Ref sig .tc := ⟨.hbm, 173, rfl⟩
abbrev main_v108 : Ref sig .tc := ⟨.hbm, 174, rfl⟩
abbrev main_cst_17 : Ref sig .tc := ⟨.hbm, 175, rfl⟩
abbrev main_v109 : Ref sig .tc := ⟨.hbm, 176, rfl⟩
abbrev main_cst_18 : Ref sig .tc := ⟨.hbm, 177, rfl⟩
abbrev main_v110 : Ref sig .tc := ⟨.hbm, 178, rfl⟩
abbrev main_v111 : Ref sig .tc := ⟨.hbm, 179, rfl⟩
abbrev main_c_19 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_cst_0 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_call5_v5 : Ref sig .tc := ⟨.hbm, 188, rfl⟩
abbrev main_call5_v6 : Ref sig .tc := ⟨.hbm, 189, rfl⟩
abbrev main_call5_v7 : Ref sig .tc := ⟨.hbm, 190, rfl⟩
abbrev main_call5_cst_1 : Ref sig .tc := ⟨.hbm, 191, rfl⟩
abbrev main_call5_v8 : Ref sig .tc := ⟨.hbm, 192, rfl⟩
abbrev main_call5_cst_2 : Ref sig .tc := ⟨.hbm, 193, rfl⟩
abbrev main_call5_v9 : Ref sig .tc := ⟨.hbm, 194, rfl⟩
abbrev main_call5_v10 : Ref sig .tc := ⟨.hbm, 195, rfl⟩
abbrev main_call5_v11 : Ref sig .tc := ⟨.hbm, 196, rfl⟩
abbrev main_call5_cst_3 : Ref sig .tc := ⟨.hbm, 197, rfl⟩
abbrev main_call5_v12 : Ref sig .tc := ⟨.hbm, 198, rfl⟩
abbrev main_call5_cst_4 : Ref sig .tc := ⟨.hbm, 199, rfl⟩
abbrev main_call5_call0_v0 : Ref sig .tc := ⟨.hbm, 200, rfl⟩
abbrev main_call5_call0_v1 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_cst_20 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_c_21 : Ref sig .tc := ⟨.hbm, 227, rfl⟩
abbrev main_v136 : Ref sig .tc := ⟨.hbm, 228, rfl⟩
abbrev main_v137 : Ref sig .tc := ⟨.hbm, 229, rfl⟩
abbrev main_c_22 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_cst_23 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_call6_cst : Ref sig .tc := ⟨.hbm, 251, rfl⟩
abbrev main_call6_v0 : Ref sig .tc := ⟨.hbm, 252, rfl⟩
abbrev main_v157 : Ref sig .tc := ⟨.hbm, 253, rfl⟩
abbrev main_cst_24 : Ref sig .tc := ⟨.hbm, 254, rfl⟩
abbrev main_v158 : Ref sig .tc := ⟨.hbm, 255, rfl⟩
abbrev main_cst_25 : Ref sig .tc := ⟨.hbm, 256, rfl⟩
abbrev main_v159 : Ref sig .tc := ⟨.hbm, 257, rfl⟩
abbrev main_v160 : Ref sig .tc := ⟨.hbm, 258, rfl⟩
abbrev main_c_26 : Ref sig .tc := ⟨.hbm, 259, rfl⟩
abbrev main_call7_cst : Ref sig .tc := ⟨.hbm, 260, rfl⟩
abbrev main_call7_v0 : Ref sig .tc := ⟨.hbm, 261, rfl⟩
abbrev main_call7_v1 : Ref sig .tc := ⟨.hbm, 262, rfl⟩
abbrev main_call7_cst_0 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_call7_v5 : Ref sig .tc := ⟨.hbm, 267, rfl⟩
abbrev main_call7_v6 : Ref sig .tc := ⟨.hbm, 268, rfl⟩
abbrev main_call7_v7 : Ref sig .tc := ⟨.hbm, 269, rfl⟩
abbrev main_call7_cst_1 : Ref sig .tc := ⟨.hbm, 270, rfl⟩
abbrev main_call7_v8 : Ref sig .tc := ⟨.hbm, 271, rfl⟩
abbrev main_call7_cst_2 : Ref sig .tc := ⟨.hbm, 272, rfl⟩
abbrev main_call7_v9 : Ref sig .tc := ⟨.hbm, 273, rfl⟩
abbrev main_call7_v10 : Ref sig .tc := ⟨.hbm, 274, rfl⟩
abbrev main_call7_v11 : Ref sig .tc := ⟨.hbm, 275, rfl⟩
abbrev main_call7_cst_3 : Ref sig .tc := ⟨.hbm, 276, rfl⟩
abbrev main_call7_v12 : Ref sig .tc := ⟨.hbm, 277, rfl⟩
abbrev main_call7_cst_4 : Ref sig .tc := ⟨.hbm, 278, rfl⟩
abbrev main_call7_call0_v0 : Ref sig .tc := ⟨.hbm, 279, rfl⟩
abbrev main_call7_call0_v1 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_cst_27 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_c_28 : Ref sig .tc := ⟨.hbm, 302, rfl⟩
abbrev main_v181 : Ref sig .tc := ⟨.hbm, 303, rfl⟩
abbrev main_v182 : Ref sig .tc := ⟨.hbm, 304, rfl⟩
abbrev main_c_29 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_c_30 : Ref sig .tc := ⟨.hbm, 311, rfl⟩
abbrev main_v188 : Ref sig .tc := ⟨.hbm, 312, rfl⟩
abbrev main_v189 : Ref sig .tc := ⟨.hbm, 313, rfl⟩
abbrev main_c_31 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S72_S1x72_1 : S72.BroadcastsInDim S1x72 (![1] : Fin 1 → Fin S1x72.rank)
  bcast_S1x72_S100000x72_0_1 : S1x72.BroadcastsInDim S100000x72 (![0, 1] : Fin 2 → Fin S100000x72.rank)
  bcast_S_S100000x72 : S_.BroadcastsInDim S100000x72 (![] : Fin 0 → Fin S100000x72.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x72x72_S1x72x72_0_0_0 : S3x72x72.Slices ![0, 0, 0] S1x72x72
  shapeCasts_S1x72x72_S72x72 : S1x72x72.ShapeCasts S72x72
  bcast_S1600000x1_S1600000x72_0_1 : S1600000x1.BroadcastsInDim S1600000x72 (![0, 1] : Fin 2 → Fin S1600000x72.rank)
  slices_S3x72_S1x72_0_0 : S3x72.Slices ![0, 0] S1x72
  shapeCasts_S1x72_S72 : S1x72.ShapeCasts S72
  reducesTo_S100000x72_S72_d0 : S100000x72.ReducesTo [0] S72
  h_S_ : 0 < S_.numel
  bcast_S_S72 : S_.BroadcastsInDim S72 (![] : Fin 0 → Fin S72.rank)
  bcast_S_S1x72 : S_.BroadcastsInDim S1x72 (![] : Fin 0 → Fin S1x72.rank)
  slices_S3x72x72_S1x72x72_1_0_0 : S3x72x72.Slices ![1, 0, 0] S1x72x72
  slices_S3x72_S1x72_1_0 : S3x72.Slices ![1, 0] S1x72
  slices_S3x72x72_S1x72x72_2_0_0 : S3x72x72.Slices ![2, 0, 0] S1x72x72
  slices_S3x72_S1x72_2_0 : S3x72.Slices ![2, 0] S1x72
  concatenates_S1600000x72_S1600000x72_S1600000x144_d1 : Shape.Concatenates [S1600000x72, S1600000x72] S1600000x144 1
  bcast_S1x72_S1600000x72_0_1 : S1x72.BroadcastsInDim S1600000x72 (![0, 1] : Fin 2 → Fin S1600000x72.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  dot_S100000x64_S64x72_S100000x72_1_0_0_1_n_n_wf : DotDims.WF S100000x64 S64x72 S100000x72 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x72_S72x72_S100000x72_1_0_0_1_n_n_wf : DotDims.WF S100000x72 S72x72 S100000x72 [1] [0] [0] [1] [] []
  gather_S100000x72_S1600000x1_S1600000x72_1_0_n_n_0_1_172_wf : GatherDims.WF S100000x72 S1600000x1 S1600000x72 [1] [0] [] [0] [] 1 ![1, 72]
  scatter_S100000x72_S1600000x1_S1600000x72_1_0_0_1_wf : ScatterDims.WF S100000x72 S1600000x1 S1600000x72 [1] [0] [0] 1
  dot_S1600000x144_S144x72_S1600000x72_1_0_0_1_n_n_wf : DotDims.WF S1600000x144 S144x72 S1600000x72 [1] [0] [0] [1] [] []
  dot_S1600000x8_S8x72_S1600000x72_1_0_0_1_n_n_wf : DotDims.WF S1600000x8 S8x72 S1600000x72 [1] [0] [0] [1] [] []
  dot_S1600000x72_S72x1_S1600000x1_1_0_0_1_n_n_wf : DotDims.WF S1600000x72 S72x1 S1600000x1 [1] [0] [0] [1] [] []

variable [Facts₀]

def dot_S100000x64_S64x72_S100000x72_1_0_0_1_n_n : DotDims S100000x64 S64x72 S100000x72 where
  lhsContracting := [1]
  rhsContracting := [0]
  lhsNonContracting := [0]
  rhsNonContracting := [1]
  lhsBatch := []
  rhsBatch := []
  wf := dot_S100000x64_S64x72_S100000x72_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x72_S72x72_S100000x72_1_0_0_1_n_n : DotDims S100000x72 S72x72 S100000x72 where
  lhsContracting := [1]
  rhsContracting := [0]
  lhsNonContracting := [0]
  rhsNonContracting := [1]
  lhsBatch := []
  rhsBatch := []
  wf := dot_S100000x72_S72x72_S100000x72_1_0_0_1_n_n_wf
def gather_S100000x72_S1600000x1_S1600000x72_1_0_n_n_0_1_172 : GatherDims S100000x72 S1600000x1 S1600000x72 where
  offsetDims := [1]
  collapsedSliceDims := [0]
  operandBatchingDims := []
  startIndicesBatchingDims := []
  startIndexMap := [0]
  indexVectorDim := 1
  sliceSizes := ![1, 72]
  wf := gather_S100000x72_S1600000x1_S1600000x72_1_0_n_n_0_1_172_wf
def scatter_S100000x72_S1600000x1_S1600000x72_1_0_0_1 : ScatterDims S100000x72 S1600000x1 S1600000x72 where
  updateWindowDims := [1]
  insertedWindowDims := [0]
  scatterDimsToOperandDims := [0]
  indexVectorDim := 1
  wf := scatter_S100000x72_S1600000x1_S1600000x72_1_0_0_1_wf
def dot_S1600000x144_S144x72_S1600000x72_1_0_0_1_n_n : DotDims S1600000x144 S144x72 S1600000x72 where
  lhsContracting := [1]
  rhsContracting := [0]
  lhsNonContracting := [0]
  rhsNonContracting := [1]
  lhsBatch := []
  rhsBatch := []
  wf := dot_S1600000x144_S144x72_S1600000x72_1_0_0_1_n_n_wf
def dot_S1600000x8_S8x72_S1600000x72_1_0_0_1_n_n : DotDims S1600000x8 S8x72 S1600000x72 where
  lhsContracting := [1]
  rhsContracting := [0]
  lhsNonContracting := [0]
  rhsNonContracting := [1]
  lhsBatch := []
  rhsBatch := []
  wf := dot_S1600000x8_S8x72_S1600000x72_1_0_0_1_n_n_wf
def dot_S1600000x72_S72x1_S1600000x1_1_0_0_1_n_n : DotDims S1600000x72 S72x1 S1600000x1 where
  lhsContracting := [1]
  rhsContracting := [0]
  lhsNonContracting := [0]
  rhsNonContracting := [1]
  lhsBatch := []
  rhsBatch := []
  wf := dot_S1600000x72_S72x1_S1600000x1_1_0_0_1_n_n_wf

class Facts : Prop extends Facts₀ where

variable [Facts]
-- ==== Proof.KRun.lean ====
/-
  The kernel program's run with its result array named.  Every weakly fair execution of the kernel program's @main
  terminates without a fault; at the end every unscoped buffer of core c holds the last boundary contents `W31 m ρ c`
  of the generated frame's fold (host stretches applied in order, each region's arrays at what its write-backs leave).
  Read at the result buffer this names the result; read at the arguments it gives them back unchanged.
-/
import proofs.«122625_j53163105190631_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: termination without a fault, the result buffer at the last boundary contents, the arguments as launched. -/
theorem run_result : θ_run defs (onTc (τ := τ) (main (F := F))) ⟨m, fun _ => 0, ρ⟩ (fun r => ∀ c : Dev nD,
      r.2.mem ((c.tc : Thread nD τ).loc main_v193) = W31 m ρ c (Proc.devRef .tc main_v193) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c =>
      ⟨h c _ (mem_uc main_v193 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c),
       (h c _ (mem_uc main_arg14 (by decide))).trans (W31_main_arg14 m ρ c),
       (h c _ (mem_uc main_arg15 (by decide))).trans (W31_main_arg15 m ρ c),
       (h c _ (mem_uc main_arg16 (by decide))).trans (W31_main_arg16 m ρ c),
       (h c _ (mem_uc main_arg17 (by decide))).trans (W31_main_arg17 m ρ c)⟩)

end Cert.KernelIdeal.KRun

end
-- ==== Proof.RefOps.lean ====
/- The reference program's operations as a list, in program order, cut into named segments.

  Each outlined function (relu, the two selects against a scalar, the column variance) is listed inline at its
  call site over that call's own buffers, so the whole of @main is one straight line of operations.  The segments
  follow the layers of the network: the edge index columns, the node embedding, the symmetric degree
  normalisation, then per layer the two weight slices, the transformed features, the normalised neighbourhood sum,
  the root product, the bias, and the batch normalisation; last the gathered edge features and the edge head.
  For every segment the list of its result buffers is stated and checked against the line, so that any buffer
  outside the list holds after the segment what it held before. -/
import proofs.«122625_j53163105190631_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose only written buffer is among a list's writes inside that list's buffers. -/
theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- @main's operations with results `main_v0` … `main_v3` (4). -/
abbrev segIdx : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- @main's operations with results `main_v4` … `main_v8` (7). -/
abbrev segNode : List (HloOp τ sig (Elt F)) :=
  [ StableHlo.binary main_arg0 main_arg3 main_v4 ((fun l r => Host.dotGeneral dot_S100000x64_S64x72_S100000x72_1_0_0_1_n_n none l r) : (⟨S100000x64, .f32⟩ : BufTy).Contents (Elt F) → (⟨S64x72, .f32⟩ : BufTy).Contents (Elt F) → (⟨S100000x72, .f32⟩ : BufTy).Contents (Elt F)),
    StableHlo.unary main_arg4 main_v5 (broadcastInDim S1x72 ![1] bcast_S72_S1x72_1 : (⟨S72, .f32⟩ : BufTy).Contents (Elt F) → (⟨S1x72, .f32⟩ : BufTy).Contents (Elt F)),
    StableHlo.unary main_v5 main_v6 (broadcastInDim S100000x72 ![0, 1] bcast_S1x72_S100000x72_0_1 : (⟨S1x72, .f32⟩ : BufTy).Contents (Elt F) → (⟨S100000x72, .f32⟩ : BufTy).Contents (Elt F)),
    StableHlo.binary main_v4 main_v6 main_v7 (addf : (⟨S100000x72, .f32⟩ : BufTy).Contents (Elt F) → (⟨S100000x72, .f32⟩ : BufTy).Contents (Elt F) → (⟨S100000x72, .f32⟩ : BufTy).Contents (Elt F)),
    StableHlo.TRef.nullary main_call0.cst (constant S_ .f32 0x00000000#32),
    StableHlo.TRef.unary main_call0.cst main_call0.v0 (broadcastInDim S100000x72 ![] bcast_S_S100000x72),
    StableHlo.TRef.binary (.of main_v7) main_call0.v0 main_call0.v1 maximumf ]

/-- @main's operations with results `main_cst` … `main_v33` (36). -/
abbrev segNorm : List (HloOp τ sig (Elt F)) :=
  [ StableHlo.nullary main_cst (constant S_ .f32 0x3F800000#32),
    StableHlo.unary main_cst main_v9 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v3 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call1.v0 id,
    StableHlo.TRef.unary main_call1.v0 main_call1.v1 (broadcastInDim S100000 ![] bcast_S_S100000),
    StableHlo.TRef.ternary (.of main_v14) (.of main_v17) main_call1.v1 main_call1.v2 select,
    StableHlo.nullary main_c (constantI S_ 32 0#32),
    StableHlo.unary main_c main_v19 (broadcastInDim S1600000 ![] bcast_S_S1600000 : (⟨S_, .i32⟩ : BufTy).Contents (Elt F) → (⟨S1600000, .i32⟩ : BufTy).Contents (Elt F)),
    StableHlo.binary main_v1 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v1 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v18 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_v3 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v18 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v25 main_v32 main_v33 (mulf : (⟨S1600000, .f32⟩ : BufTy).Contents (Elt F) → (⟨S1600000, .f32⟩ : BufTy).Contents (Elt F) → (⟨S1600000, .f32⟩ : BufTy).Contents (Elt F)) ]

/-- @main's operations with results `main_v34` … `main_v35` (2). -/
abbrev segWi0 : List (HloOp τ sig (Elt F)) :=
  [ StableHlo.unary main_arg5 main_v34 ((extractStridedSlice S1x72x72 ![0, 0, 0] · slices_S3x72x72_S1x72x72_0_0_0) : (⟨S3x72x72, .f32⟩ : BufTy).Contents (Elt F) → (⟨S1x72x72, .f32⟩ : BufTy).Contents (Elt F)),
    StableHlo.reshape main_v34 main_v35 rfl shapeCasts_S1x72x72_S72x72 ]

/-- @main's operations with results `main_v36` … `main_v36` (1). -/
abbrev segT0 : List (HloOp τ sig (Elt F)) :=
  [ StableHlo.binary main_v8 main_v35 main_v36 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v37` … `main_v49` (16). -/
abbrev segAgg0 : List (HloOp τ sig (Elt F)) :=
  [ StableHlo.unary main_v33 main_v37 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v38 (broadcastInDim S1600000 ![] bcast_S_S1600000 : (⟨S_, .i32⟩ : BufTy).Contents (Elt F) → (⟨S1600000, .i32⟩ : BufTy).Contents (Elt F)),
    StableHlo.binary main_v1 main_v38 main_v39 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v40 (broadcastInDim S1600000 ![] bcast_S_S1600000 : (⟨S_, .i32⟩ : BufTy).Contents (Elt F) → (⟨S1600000, .i32⟩ : BufTy).Contents (Elt F)),
    StableHlo.binary main_v1 main_v40 main_v41 (addi : (⟨S1600000, .i32⟩ : BufTy).Contents (Elt F) → (⟨S1600000, .i32⟩ : BufTy).Contents (Elt F) → (⟨S1600000, .i32⟩ : BufTy).Contents (Elt F)),
    StableHlo.ternary main_v39 main_v41 main_v1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v42 main_v43 (broadcastInDim S1600000x1 ![0] bcast_S1600000_S1600000x1_0 : (⟨S1600000, .i32⟩ : BufTy).Contents (Elt F) → (⟨S1600000x1, .i32⟩ : BufTy).Contents (Elt F)),
    StableHlo.binary main_v36 main_v43 main_v44 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v37 main_v45 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v45 main_v44 main_v46 (mulf : (⟨S1600000x72, .f32⟩ : BufTy).Contents (Elt F) → (⟨S1600000x72, .f32⟩ : BufTy).Contents (Elt F) → (⟨S1600000x72, .f32⟩ : BufTy).Contents (Elt F)),
    StableHlo.nullary main_cst_9 (constant S_ .f32 0x00000000#32),
    StableHlo.unary main_cst_9 main_v47 (broadcastInDim S100000x72 ![] bcast_S_S100000x72 : (⟨S_, .f32⟩ : BufTy).Contents (Elt F) → (⟨S100000x72, .f32⟩ : BufTy).Contents (Elt F)),
    StableHlo.unary main_v3 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)) ]

/-- @main's operations with results `main_v50` … `main_v51` (2). -/
abbrev segWr0 : List (HloOp τ sig (Elt F)) :=
  [ StableHlo.unary main_arg6 main_v50 ((extractStridedSlice S1x72x72 ![0, 0, 0] · slices_S3x72x72_S1x72x72_0_0_0) : (⟨S3x72x72, .f32⟩ : BufTy).Contents (Elt F) → (⟨S1x72x72, .f32⟩ : BufTy).Contents (Elt F)),
    StableHlo.reshape main_v50 main_v51 rfl shapeCasts_S1x72x72_S72x72 ]

/-- @main's operations with results `main_v52` … `main_v52` (1). -/
abbrev segRoot0 : List (HloOp τ sig (Elt F)) :=
  [ StableHlo.binary main_v8 main_v51 main_v52 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v53` … `main_v58` (6). -/
abbrev segBias0 : List (HloOp τ sig (Elt F)) :=
  [ StableHlo.binary main_v49 main_v52 main_v53 (addf : (⟨S100000x72, .f32⟩ : BufTy).Contents (Elt F) → (⟨S100000x72, .f32⟩ : BufTy).Contents (Elt F) → (⟨S100000x72, .f32⟩ : BufTy).Contents (Elt F)),
    StableHlo.unary main_arg7 main_v54 ((extractStridedSlice S1x72 ![0, 0] · slices_S3x72_S1x72_0_0) : (⟨S3x72, .f32⟩ : BufTy).Contents (Elt F) → (⟨S1x72, .f32⟩ : BufTy).Contents (Elt F)),
    StableHlo.reshape main_v54 main_v55 rfl shapeCasts_S1x72_S72,
    StableHlo.unary main_v55 main_v56 (broadcastInDim S1x72 ![1] bcast_S72_S1x72_1 : (⟨S72, .f32⟩ : BufTy).Contents (Elt F) → (⟨S1x72, .f32⟩ : BufTy).Contents (Elt F)),
    StableHlo.unary main_v56 main_v57 (broadcastInDim S100000x72 ![0, 1] bcast_S1x72_S100000x72_0_1 : (⟨S1x72, .f32⟩ : BufTy).Contents (Elt F) → (⟨S100000x72, .f32⟩ : BufTy).Contents (Elt F)),
    StableHlo.binary main_v53 main_v57 main_v58 (addf : (⟨S100000x72, .f32⟩ : BufTy).Contents (Elt F) → (⟨S100000x72, .f32⟩ : BufTy).Contents (Elt F) → (⟨S100000x72, .f32⟩ : BufTy).Contents (Elt F)) ]

/-- @main's operations with results `main_call2_cst` … `main_v82` (51). -/
abbrev segBn0 : List (HloOp τ sig (Elt F)) :=
  [ StableHlo.TRef.nullary main_call2.cst (constant S_ .f32 0x00000000#32),
    StableHlo.TRef.unary main_call2.cst main_call2.v0 (broadcastInDim S100000x72 ![] bcast_S_S100000x72),
    StableHlo.TRef.binary (.of main_v58) main_call2.v0 main_call2.v1 maximumf,
    StableHlo.nullary main_cst_10 (constant S_ .f32 0x00000000#32),
    StableHlo.binary main_v59 main_cst_10 main_v60 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_11 (constant S_ .f32 0x47C35000#32),
    StableHlo.unary main_cst_11 main_v61 (broadcastInDim S72 ![] bcast_S_S72 : (⟨S_, .f32⟩ : BufTy).Contents (Elt F) → (⟨S72, .f32⟩ : BufTy).Contents (Elt F)),
    StableHlo.binary main_v60 main_v61 main_v62 (Host.divf : (⟨S72, .f32⟩ : BufTy).Contents (Elt F) → (⟨S72, .f32⟩ : BufTy).Contents (Elt F) → (⟨S72, .f32⟩ : BufTy).Contents (Elt F)),
    StableHlo.nullary main_c_12 (constantI S_ 32 0#32),
    StableHlo.TRef.nullary main_call3.cst (constant S_ .f32 0x00000000#32),
    StableHlo.TRef.binary (.of main_v59) main_call3.cst main_call3.v0 (fun x v => Host.reduceAdd x v reducesTo_S100000x72_S72_d0 h_S_),
    StableHlo.TRef.unary main_call3.v0 main_call3.v1 (broadcastInDim S1x72 ![1] bcast_S72_S1x72_1),
    StableHlo.TRef.nullary main_call3.cst_0 (constant S_ .f32 0x47C35000#32),
    StableHlo.TRef.unary main_call3.cst_0 main_call3.v2 (broadcastInDim S1x72 ![] bcast_S_S1x72),
    StableHlo.TRef.binary main_call3.v1 main_call3.v2 main_call3.v3 Host.divf,
    StableHlo.TRef.unary main_call3.v3 main_call3.v4 (broadcastInDim S100000x72 ![0, 1] bcast_S1x72_S100000x72_0_1),
    StableHlo.TRef.binary (.of main_v59) main_call3.v4 main_call3.v5 subf,
    StableHlo.TRef.binary main_call3.v5 main_call3.v5 main_call3.v6 mulf,
    StableHlo.TRef.unary (.of main_c_12) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x72_S72_d0 h_S_),
    StableHlo.TRef.unary main_call3.v8 main_call3.v10 (broadcastInDim S72 ![] bcast_S_S72),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S72 ![] bcast_S_S72),
    StableHlo.TRef.ternary main_call3.v12 main_call3.v11 main_call3.call0.v1 main_call3.call0.v2 (fun p a b => select (broadcastInDim S72 ![] bcast_S_S72 p) a b),
    StableHlo.unary main_arg8 main_v64 ((extractStridedSlice S1x72 ![0, 0] · slices_S3x72_S1x72_0_0) : (⟨S3x72, .f32⟩ : BufTy).Contents (Elt F) → (⟨S1x72, .f32⟩ : BufTy).Contents (Elt F)),
    StableHlo.reshape main_v64 main_v65 rfl shapeCasts_S1x72_S72,
    StableHlo.unary main_v62 main_v66 (broadcastInDim S1x72 ![1] bcast_S72_S1x72_1 : (⟨S72, .f32⟩ : BufTy).Contents (Elt F) → (⟨S1x72, .f32⟩ : BufTy).Contents (Elt F)),
    StableHlo.unary main_v66 main_v67 (broadcastInDim S100000x72 ![0, 1] bcast_S1x72_S100000x72_0_1 : (⟨S1x72, .f32⟩ : BufTy).Contents (Elt F) → (⟨S100000x72, .f32⟩ : BufTy).Contents (Elt F)),
    StableHlo.binary main_v59 main_v67 main_v68 (subf : (⟨S100000x72, .f32⟩ : BufTy).Contents (Elt F) → (⟨S100000x72, .f32⟩ : BufTy).Contents (Elt F) → (⟨S100000x72, .f32⟩ : BufTy).Contents (Elt F)),
    StableHlo.unary main_v65 main_v69 (broadcastInDim S1x72 ![1] bcast_S72_S1x72_1 : (⟨S72, .f32⟩ : BufTy).Contents (Elt F) → (⟨S1x72, .f32⟩ : BufTy).Contents (Elt F)),
    StableHlo.unary main_v69 main_v70 (broadcastInDim S100000x72 ![0, 1] bcast_S1x72_S100000x72_0_1 : (⟨S1x72, .f32⟩ : BufTy).Contents (Elt F) → (⟨S100000x72, .f32⟩ : BufTy).Contents (Elt F)),
    StableHlo.binary main_v70 main_v68 main_v71 (mulf : (⟨S100000x72, .f32⟩ : BufTy).Contents (Elt F) → (⟨S100000x72, .f32⟩ : BufTy).Contents (Elt F) → (⟨S100000x72, .f32⟩ : BufTy).Contents (Elt F)),
    StableHlo.nullary main_cst_13 (constant S_ .f32 0x3727C5AC#32),
    StableHlo.unary main_cst_13 main_v72 (broadcastInDim S72 ![] bcast_S_S72 : (⟨S_, .f32⟩ : BufTy).Contents (Elt F) → (⟨S72, .f32⟩ : BufTy).Contents (Elt F)),
    StableHlo.binary main_v63 main_v72 main_v73 (addf : (⟨S72, .f32⟩ : BufTy).Contents (Elt F) → (⟨S72, .f32⟩ : BufTy).Contents (Elt F) → (⟨S72, .f32⟩ : BufTy).Contents (Elt F)),
    StableHlo.unary main_v73 main_v74 (Host.rsqrt : (⟨S72, .f32⟩ : BufTy).Contents (Elt F) → (⟨S72, .f32⟩ : BufTy).Contents (Elt F)),
    StableHlo.unary main_v74 main_v75 (broadcastInDim S1x72 ![1] bcast_S72_S1x72_1 : (⟨S72, .f32⟩ : BufTy).Contents (Elt F) → (⟨S1x72, .f32⟩ : BufTy).Contents (Elt F)),
    StableHlo.unary main_v75 main_v76 (broadcastInDim S100000x72 ![0, 1] bcast_S1x72_S100000x72_0_1 : (⟨S1x72, .f32⟩ : BufTy).Contents (Elt F) → (⟨S100000x72, .f32⟩ : BufTy).Contents (Elt F)),
    StableHlo.binary main_v71 main_v76 main_v77 (mulf : (⟨S100000x72, .f32⟩ : BufTy).Contents (Elt F) → (⟨S100000x72, .f32⟩ : BufTy).Contents (Elt F) → (⟨S100000x72, .f32⟩ : BufTy).Contents (Elt F)),
    StableHlo.unary main_arg9 main_v78 ((extractStridedSlice S1x72 ![0, 0] · slices_S3x72_S1x72_0_0) : (⟨S3x72, .f32⟩ : BufTy).Contents (Elt F) → (⟨S1x72, .f32⟩ : BufTy).Contents (Elt F)),
    StableHlo.reshape main_v78 main_v79 rfl shapeCasts_S1x72_S72,
    StableHlo.unary main_v79 main_v80 (broadcastInDim S1x72 ![1] bcast_S72_S1x72_1 : (⟨S72, .f32⟩ : BufTy).Contents (Elt F) → (⟨S1x72, .f32⟩ : BufTy).Contents (Elt F)),
    StableHlo.unary main_v80 main_v81 (broadcastInDim S100000x72 ![0, 1] bcast_S1x72_S100000x72_0_1 : (⟨S1x72, .f32⟩ : BufTy).Contents (Elt F) → (⟨S100000x72, .f32⟩ : BufTy).Contents (Elt F)),
    StableHlo.binary main_v77 main_v81 main_v82 (addf : (⟨S100000x72, .f32⟩ : BufTy).Contents (Elt F) → (⟨S100000x72, .f32⟩ : BufTy).Contents (Elt F) → (⟨S100000x72, .f32⟩ : BufTy).Contents (Elt F)) ]

/-- @main's operations with results `main_v83` … `main_v84` (2). -/
abbrev segWi1 : List (HloOp τ sig (Elt F)) :=
  [ StableHlo.unary main_arg5 main_v83 ((extractStridedSlice S1x72x72 ![1, 0, 0] · slices_S3x72x72_S1x72x72_1_0_0) : (⟨S3x72x72, .f32⟩ : BufTy).Contents (Elt F) → (⟨S1x72x72, .f32⟩ : BufTy).Contents (Elt F)),
    StableHlo.reshape main_v83 main_v84 rfl shapeCasts_S1x72x72_S72x72 ]

/-- @main's operations with results `main_v85` … `main_v85` (1). -/
abbrev segT1 : List (HloOp τ sig (Elt F)) :=
  [ StableHlo.binary main_v82 main_v84 main_v85 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v86` … `main_v98` (16). -/
abbrev segAgg1 : List (HloOp τ sig (Elt F)) :=
  [ StableHlo.unary main_v33 main_v86 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v87 (broadcastInDim S1600000 ![] bcast_S_S1600000 : (⟨S_, .i32⟩ : BufTy).Contents (Elt F) → (⟨S1600000, .i32⟩ : BufTy).Contents (Elt F)),
    StableHlo.binary main_v1 main_v87 main_v88 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v89 (broadcastInDim S1600000 ![] bcast_S_S1600000 : (⟨S_, .i32⟩ : BufTy).Contents (Elt F) → (⟨S1600000, .i32⟩ : BufTy).Contents (Elt F)),
    StableHlo.binary main_v1 main_v89 main_v90 (addi : (⟨S1600000, .i32⟩ : BufTy).Contents (Elt F) → (⟨S1600000, .i32⟩ : BufTy).Contents (Elt F) → (⟨S1600000, .i32⟩ : BufTy).Contents (Elt F)),
    StableHlo.ternary main_v88 main_v90 main_v1 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v91 main_v92 (broadcastInDim S1600000x1 ![0] bcast_S1600000_S1600000x1_0 : (⟨S1600000, .i32⟩ : BufTy).Contents (Elt F) → (⟨S1600000x1, .i32⟩ : BufTy).Contents (Elt F)),
    StableHlo.binary main_v85 main_v92 main_v93 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v86 main_v94 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v94 main_v93 main_v95 (mulf : (⟨S1600000x72, .f32⟩ : BufTy).Contents (Elt F) → (⟨S1600000x72, .f32⟩ : BufTy).Contents (Elt F) → (⟨S1600000x72, .f32⟩ : BufTy).Contents (Elt F)),
    StableHlo.nullary main_cst_16 (constant S_ .f32 0x00000000#32),
    StableHlo.unary main_cst_16 main_v96 (broadcastInDim S100000x72 ![] bcast_S_S100000x72 : (⟨S_, .f32⟩ : BufTy).Contents (Elt F) → (⟨S100000x72, .f32⟩ : BufTy).Contents (Elt F)),
    StableHlo.unary main_v3 main_v97 (broadcastInDim S1600000x1 ![0] bcast_S1600000_S1600000x1_0 : (⟨S1600000, .i32⟩ : BufTy).Contents (Elt F) → (⟨S1600000x1, .i32⟩ : BufTy).Contents (Elt F)),
    StableHlo.ternary main_v96 main_v97 main_v95 main_v98 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)) ]

/-- @main's operations with results `main_v99` … `main_v100` (2). -/
abbrev segWr1 : List (HloOp τ sig (Elt F)) :=
  [ StableHlo.unary main_arg6 main_v99 ((extractStridedSlice S1x72x72 ![1, 0, 0] · slices_S3x72x72_S1x72x72_1_0_0) : (⟨S3x72x72, .f32⟩ : BufTy).Contents (Elt F) → (⟨S1x72x72, .f32⟩ : BufTy).Contents (Elt F)),
    StableHlo.reshape main_v99 main_v100 rfl shapeCasts_S1x72x72_S72x72 ]

/-- @main's operations with results `main_v101` … `main_v101` (1). -/
abbrev segRoot1 : List (HloOp τ sig (Elt F)) :=
  [ StableHlo.binary main_v82 main_v100 main_v101 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v102` … `main_v107` (6). -/
abbrev segBias1 : List (HloOp τ sig (Elt F)) :=
  [ StableHlo.binary main_v98 main_v101 main_v102 (addf : (⟨S100000x72, .f32⟩ : BufTy).Contents (Elt F) → (⟨S100000x72, .f32⟩ : BufTy).Contents (Elt F) → (⟨S100000x72, .f32⟩ : BufTy).Contents (Elt F)),
    StableHlo.unary main_arg7 main_v103 ((extractStridedSlice S1x72 ![1, 0] · slices_S3x72_S1x72_1_0) : (⟨S3x72, .f32⟩ : BufTy).Contents (Elt F) → (⟨S1x72, .f32⟩ : BufTy).Contents (Elt F)),
    StableHlo.reshape main_v103 main_v104 rfl shapeCasts_S1x72_S72,
    StableHlo.unary main_v104 main_v105 (broadcastInDim S1x72 ![1] bcast_S72_S1x72_1 : (⟨S72, .f32⟩ : BufTy).Contents (Elt F) → (⟨S1x72, .f32⟩ : BufTy).Contents (Elt F)),
    StableHlo.unary main_v105 main_v106 (broadcastInDim S100000x72 ![0, 1] bcast_S1x72_S100000x72_0_1 : (⟨S1x72, .f32⟩ : BufTy).Contents (Elt F) → (⟨S100000x72, .f32⟩ : BufTy).Contents (Elt F)),
    StableHlo.binary main_v102 main_v106 main_v107 (addf : (⟨S100000x72, .f32⟩ : BufTy).Contents (Elt F) → (⟨S100000x72, .f32⟩ : BufTy).Contents (Elt F) → (⟨S100000x72, .f32⟩ : BufTy).Contents (Elt F)) ]

/-- @main's operations with results `main_call4_cst` … `main_v131` (51). -/
abbrev segBn1 : List (HloOp τ sig (Elt F)) :=
  [ StableHlo.TRef.nullary main_call4.cst (constant S_ .f32 0x00000000#32),
    StableHlo.TRef.unary main_call4.cst main_call4.v0 (broadcastInDim S100000x72 ![] bcast_S_S100000x72),
    StableHlo.TRef.binary (.of main_v107) main_call4.v0 main_call4.v1 maximumf,
    StableHlo.nullary main_cst_17 (constant S_ .f32 0x00000000#32),
    StableHlo.binary main_v108 main_cst_17 main_v109 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_18 (constant S_ .f32 0x47C35000#32),
    StableHlo.unary main_cst_18 main_v110 (broadcastInDim S72 ![] bcast_S_S72 : (⟨S_, .f32⟩ : BufTy).Contents (Elt F) → (⟨S72, .f32⟩ : BufTy).Contents (Elt F)),
    StableHlo.binary main_v109 main_v110 main_v111 (Host.divf : (⟨S72, .f32⟩ : BufTy).Contents (Elt F) → (⟨S72, .f32⟩ : BufTy).Contents (Elt F) → (⟨S72, .f32⟩ : BufTy).Contents (Elt F)),
    StableHlo.nullary main_c_19 (constantI S_ 32 0#32),
    StableHlo.TRef.nullary main_call5.cst (constant S_ .f32 0x00000000#32),
    StableHlo.TRef.binary (.of main_v108) main_call5.cst main_call5.v0 (fun x v => Host.reduceAdd x v reducesTo_S100000x72_S72_d0 h_S_),
    StableHlo.TRef.unary main_call5.v0 main_call5.v1 (broadcastInDim S1x72 ![1] bcast_S72_S1x72_1),
    StableHlo.TRef.nullary main_call5.cst_0 (constant S_ .f32 0x47C35000#32),
    StableHlo.TRef.unary main_call5.cst_0 main_call5.v2 (broadcastInDim S1x72 ![] bcast_S_S1x72),
    StableHlo.TRef.binary main_call5.v1 main_call5.v2 main_call5.v3 Host.divf,
    StableHlo.TRef.unary main_call5.v3 main_call5.v4 (broadcastInDim S100000x72 ![0, 1] bcast_S1x72_S100000x72_0_1),
    StableHlo.TRef.binary (.of main_v108) main_call5.v4 main_call5.v5 subf,
    StableHlo.TRef.binary main_call5.v5 main_call5.v5 main_call5.v6 mulf,
    StableHlo.TRef.unary (.of main_c_19) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x72_S72_d0 h_S_),
    StableHlo.TRef.unary main_call5.v8 main_call5.v10 (broadcastInDim S72 ![] bcast_S_S72),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S72 ![] bcast_S_S72),
    StableHlo.TRef.ternary main_call5.v12 main_call5.v11 main_call5.call0.v1 main_call5.call0.v2 (fun p a b => select (broadcastInDim S72 ![] bcast_S_S72 p) a b),
    StableHlo.unary main_arg8 main_v113 ((extractStridedSlice S1x72 ![1, 0] · slices_S3x72_S1x72_1_0) : (⟨S3x72, .f32⟩ : BufTy).Contents (Elt F) → (⟨S1x72, .f32⟩ : BufTy).Contents (Elt F)),
    StableHlo.reshape main_v113 main_v114 rfl shapeCasts_S1x72_S72,
    StableHlo.unary main_v111 main_v115 (broadcastInDim S1x72 ![1] bcast_S72_S1x72_1 : (⟨S72, .f32⟩ : BufTy).Contents (Elt F) → (⟨S1x72, .f32⟩ : BufTy).Contents (Elt F)),
    StableHlo.unary main_v115 main_v116 (broadcastInDim S100000x72 ![0, 1] bcast_S1x72_S100000x72_0_1 : (⟨S1x72, .f32⟩ : BufTy).Contents (Elt F) → (⟨S100000x72, .f32⟩ : BufTy).Contents (Elt F)),
    StableHlo.binary main_v108 main_v116 main_v117 (subf : (⟨S100000x72, .f32⟩ : BufTy).Contents (Elt F) → (⟨S100000x72, .f32⟩ : BufTy).Contents (Elt F) → (⟨S100000x72, .f32⟩ : BufTy).Contents (Elt F)),
    StableHlo.unary main_v114 main_v118 (broadcastInDim S1x72 ![1] bcast_S72_S1x72_1 : (⟨S72, .f32⟩ : BufTy).Contents (Elt F) → (⟨S1x72, .f32⟩ : BufTy).Contents (Elt F)),
    StableHlo.unary main_v118 main_v119 (broadcastInDim S100000x72 ![0, 1] bcast_S1x72_S100000x72_0_1 : (⟨S1x72, .f32⟩ : BufTy).Contents (Elt F) → (⟨S100000x72, .f32⟩ : BufTy).Contents (Elt F)),
    StableHlo.binary main_v119 main_v117 main_v120 (mulf : (⟨S100000x72, .f32⟩ : BufTy).Contents (Elt F) → (⟨S100000x72, .f32⟩ : BufTy).Contents (Elt F) → (⟨S100000x72, .f32⟩ : BufTy).Contents (Elt F)),
    StableHlo.nullary main_cst_20 (constant S_ .f32 0x3727C5AC#32),
    StableHlo.unary main_cst_20 main_v121 (broadcastInDim S72 ![] bcast_S_S72 : (⟨S_, .f32⟩ : BufTy).Contents (Elt F) → (⟨S72, .f32⟩ : BufTy).Contents (Elt F)),
    StableHlo.binary main_v112 main_v121 main_v122 (addf : (⟨S72, .f32⟩ : BufTy).Contents (Elt F) → (⟨S72, .f32⟩ : BufTy).Contents (Elt F) → (⟨S72, .f32⟩ : BufTy).Contents (Elt F)),
    StableHlo.unary main_v122 main_v123 (Host.rsqrt : (⟨S72, .f32⟩ : BufTy).Contents (Elt F) → (⟨S72, .f32⟩ : BufTy).Contents (Elt F)),
    StableHlo.unary main_v123 main_v124 (broadcastInDim S1x72 ![1] bcast_S72_S1x72_1 : (⟨S72, .f32⟩ : BufTy).Contents (Elt F) → (⟨S1x72, .f32⟩ : BufTy).Contents (Elt F)),
    StableHlo.unary main_v124 main_v125 (broadcastInDim S100000x72 ![0, 1] bcast_S1x72_S100000x72_0_1 : (⟨S1x72, .f32⟩ : BufTy).Contents (Elt F) → (⟨S100000x72, .f32⟩ : BufTy).Contents (Elt F)),
    StableHlo.binary main_v120 main_v125 main_v126 (mulf : (⟨S100000x72, .f32⟩ : BufTy).Contents (Elt F) → (⟨S100000x72, .f32⟩ : BufTy).Contents (Elt F) → (⟨S100000x72, .f32⟩ : BufTy).Contents (Elt F)),
    StableHlo.unary main_arg9 main_v127 ((extractStridedSlice S1x72 ![1, 0] · slices_S3x72_S1x72_1_0) : (⟨S3x72, .f32⟩ : BufTy).Contents (Elt F) → (⟨S1x72, .f32⟩ : BufTy).Contents (Elt F)),
    StableHlo.reshape main_v127 main_v128 rfl shapeCasts_S1x72_S72,
    StableHlo.unary main_v128 main_v129 (broadcastInDim S1x72 ![1] bcast_S72_S1x72_1 : (⟨S72, .f32⟩ : BufTy).Contents (Elt F) → (⟨S1x72, .f32⟩ : BufTy).Contents (Elt F)),
    StableHlo.unary main_v129 main_v130 (broadcastInDim S100000x72 ![0, 1] bcast_S1x72_S100000x72_0_1 : (⟨S1x72, .f32⟩ : BufTy).Contents (Elt F) → (⟨S100000x72, .f32⟩ : BufTy).Contents (Elt F)),
    StableHlo.binary main_v126 main_v130 main_v131 (addf : (⟨S100000x72, .f32⟩ : BufTy).Contents (Elt F) → (⟨S100000x72, .f32⟩ : BufTy).Contents (Elt F) → (⟨S100000x72, .f32⟩ : BufTy).Contents (Elt F)) ]

/-- @main's operations with results `main_v132` … `main_v133` (2). -/
abbrev segWi2 : List (HloOp τ sig (Elt F)) :=
  [ StableHlo.unary main_arg5 main_v132 ((extractStridedSlice S1x72x72 ![2, 0, 0] · slices_S3x72x72_S1x72x72_2_0_0) : (⟨S3x72x72, .f32⟩ : BufTy).Contents (Elt F) → (⟨S1x72x72, .f32⟩ : BufTy).Contents (Elt F)),
    StableHlo.reshape main_v132 main_v133 rfl shapeCasts_S1x72x72_S72x72 ]

/-- @main's operations with results `main_v134` … `main_v134` (1). -/
abbrev segT2 : List (HloOp τ sig (Elt F)) :=
  [ StableHlo.binary main_v131 main_v133 main_v134 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v135` … `main_v147` (16). -/
abbrev segAgg2 : List (HloOp τ sig (Elt F)) :=
  [ StableHlo.unary main_v33 main_v135 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v136 (broadcastInDim S1600000 ![] bcast_S_S1600000 : (⟨S_, .i32⟩ : BufTy).Contents (Elt F) → (⟨S1600000, .i32⟩ : BufTy).Contents (Elt F)),
    StableHlo.binary main_v1 main_v136 main_v137 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 100000#32),
    StableHlo.unary main_c_22 main_v138 (broadcastInDim S1600000 ![] bcast_S_S1600000 : (⟨S_, .i32⟩ : BufTy).Contents (Elt F) → (⟨S1600000, .i32⟩ : BufTy).Contents (Elt F)),
    StableHlo.binary main_v1 main_v138 main_v139 (addi : (⟨S1600000, .i32⟩ : BufTy).Contents (Elt F) → (⟨S1600000, .i32⟩ : BufTy).Contents (Elt F) → (⟨S1600000, .i32⟩ : BufTy).Contents (Elt F)),
    StableHlo.ternary main_v137 main_v139 main_v1 main_v140 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v140 main_v141 (broadcastInDim S1600000x1 ![0] bcast_S1600000_S1600000x1_0 : (⟨S1600000, .i32⟩ : BufTy).Contents (Elt F) → (⟨S1600000x1, .i32⟩ : BufTy).Contents (Elt F)),
    StableHlo.binary main_v134 main_v141 main_v142 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v135 main_v143 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v143 main_v142 main_v144 (mulf : (⟨S1600000x72, .f32⟩ : BufTy).Contents (Elt F) → (⟨S1600000x72, .f32⟩ : BufTy).Contents (Elt F) → (⟨S1600000x72, .f32⟩ : BufTy).Contents (Elt F)),
    StableHlo.nullary main_cst_23 (constant S_ .f32 0x00000000#32),
    StableHlo.unary main_cst_23 main_v145 (broadcastInDim S100000x72 ![] bcast_S_S100000x72 : (⟨S_, .f32⟩ : BufTy).Contents (Elt F) → (⟨S100000x72, .f32⟩ : BufTy).Contents (Elt F)),
    StableHlo.unary main_v3 main_v146 (broadcastInDim S1600000x1 ![0] bcast_S1600000_S1600000x1_0 : (⟨S1600000, .i32⟩ : BufTy).Contents (Elt F) → (⟨S1600000x1, .i32⟩ : BufTy).Contents (Elt F)),
    StableHlo.ternary main_v145 main_v146 main_v144 main_v147 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)) ]

/-- @main's operations with results `main_v148` … `main_v149` (2). -/
abbrev segWr2 : List (HloOp τ sig (Elt F)) :=
  [ StableHlo.unary main_arg6 main_v148 ((extractStridedSlice S1x72x72 ![2, 0, 0] · slices_S3x72x72_S1x72x72_2_0_0) : (⟨S3x72x72, .f32⟩ : BufTy).Contents (Elt F) → (⟨S1x72x72, .f32⟩ : BufTy).Contents (Elt F)),
    StableHlo.reshape main_v148 main_v149 rfl shapeCasts_S1x72x72_S72x72 ]

/-- @main's operations with results `main_v150` … `main_v150` (1). -/
abbrev segRoot2 : List (HloOp τ sig (Elt F)) :=
  [ StableHlo.binary main_v131 main_v149 main_v150 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)) ]

/-- @main's operations with results `main_v151` … `main_v156` (6). -/
abbrev segBias2 : List (HloOp τ sig (Elt F)) :=
  [ StableHlo.binary main_v147 main_v150 main_v151 (addf : (⟨S100000x72, .f32⟩ : BufTy).Contents (Elt F) → (⟨S100000x72, .f32⟩ : BufTy).Contents (Elt F) → (⟨S100000x72, .f32⟩ : BufTy).Contents (Elt F)),
    StableHlo.unary main_arg7 main_v152 ((extractStridedSlice S1x72 ![2, 0] · slices_S3x72_S1x72_2_0) : (⟨S3x72, .f32⟩ : BufTy).Contents (Elt F) → (⟨S1x72, .f32⟩ : BufTy).Contents (Elt F)),
    StableHlo.reshape main_v152 main_v153 rfl shapeCasts_S1x72_S72,
    StableHlo.unary main_v153 main_v154 (broadcastInDim S1x72 ![1] bcast_S72_S1x72_1 : (⟨S72, .f32⟩ : BufTy).Contents (Elt F) → (⟨S1x72, .f32⟩ : BufTy).Contents (Elt F)),
    StableHlo.unary main_v154 main_v155 (broadcastInDim S100000x72 ![0, 1] bcast_S1x72_S100000x72_0_1 : (⟨S1x72, .f32⟩ : BufTy).Contents (Elt F) → (⟨S100000x72, .f32⟩ : BufTy).Contents (Elt F)),
    StableHlo.binary main_v151 main_v155 main_v156 (addf : (⟨S100000x72, .f32⟩ : BufTy).Contents (Elt F) → (⟨S100000x72, .f32⟩ : BufTy).Contents (Elt F) → (⟨S100000x72, .f32⟩ : BufTy).Contents (Elt F)) ]

/-- @main's operations with results `main_call6_cst` … `main_v180` (51). -/
abbrev segBn2 : List (HloOp τ sig (Elt F)) :=
  [ StableHlo.TRef.nullary main_call6.cst (constant S_ .f32 0x00000000#32),
    StableHlo.TRef.unary main_call6.cst main_call6.v0 (broadcastInDim S100000x72 ![] bcast_S_S100000x72),
    StableHlo.TRef.binary (.of main_v156) main_call6.v0 main_call6.v1 maximumf,
    StableHlo.nullary main_cst_24 (constant S_ .f32 0x00000000#32),
    StableHlo.binary main_v157 main_cst_24 main_v158 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_25 (constant S_ .f32 0x47C35000#32),
    StableHlo.unary main_cst_25 main_v159 (broadcastInDim S72 ![] bcast_S_S72 : (⟨S_, .f32⟩ : BufTy).Contents (Elt F) → (⟨S72, .f32⟩ : BufTy).Contents (Elt F)),
    StableHlo.binary main_v158 main_v159 main_v160 (Host.divf : (⟨S72, .f32⟩ : BufTy).Contents (Elt F) → (⟨S72, .f32⟩ : BufTy).Contents (Elt F) → (⟨S72, .f32⟩ : BufTy).Contents (Elt F)),
    StableHlo.nullary main_c_26 (constantI S_ 32 0#32),
    StableHlo.TRef.nullary main_call7.cst (constant S_ .f32 0x00000000#32),
    StableHlo.TRef.binary (.of main_v157) main_call7.cst main_call7.v0 (fun x v => Host.reduceAdd x v reducesTo_S100000x72_S72_d0 h_S_),
    StableHlo.TRef.unary main_call7.v0 main_call7.v1 (broadcastInDim S1x72 ![1] bcast_S72_S1x72_1),
    StableHlo.TRef.nullary main_call7.cst_0 (constant S_ .f32 0x47C35000#32),
    StableHlo.TRef.unary main_call7.cst_0 main_call7.v2 (broadcastInDim S1x72 ![] bcast_S_S1x72),
    StableHlo.TRef.binary main_call7.v1 main_call7.v2 main_call7.v3 Host.divf,
    StableHlo.TRef.unary main_call7.v3 main_call7.v4 (broadcastInDim S100000x72 ![0, 1] bcast_S1x72_S100000x72_0_1),
    StableHlo.TRef.binary (.of main_v157) main_call7.v4 main_call7.v5 subf,
    StableHlo.TRef.binary main_call7.v5 main_call7.v5 main_call7.v6 mulf,
    StableHlo.TRef.unary (.of main_c_26) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x72_S72_d0 h_S_),
    StableHlo.TRef.unary main_call7.v8 main_call7.v10 (broadcastInDim S72 ![] bcast_S_S72),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S72 ![] bcast_S_S72),
    StableHlo.TRef.ternary main_call7.v12 main_call7.v11 main_call7.call0.v1 main_call7.call0.v2 (fun p a b => select (broadcastInDim S72 ![] bcast_S_S72 p) a b),
    StableHlo.unary main_arg8 main_v162 ((extractStridedSlice S1x72 ![2, 0] · slices_S3x72_S1x72_2_0) : (⟨S3x72, .f32⟩ : BufTy).Contents (Elt F) → (⟨S1x72, .f32⟩ : BufTy).Contents (Elt F)),
    StableHlo.reshape main_v162 main_v163 rfl shapeCasts_S1x72_S72,
    StableHlo.unary main_v160 main_v164 (broadcastInDim S1x72 ![1] bcast_S72_S1x72_1 : (⟨S72, .f32⟩ : BufTy).Contents (Elt F) → (⟨S1x72, .f32⟩ : BufTy).Contents (Elt F)),
    StableHlo.unary main_v164 main_v165 (broadcastInDim S100000x72 ![0, 1] bcast_S1x72_S100000x72_0_1 : (⟨S1x72, .f32⟩ : BufTy).Contents (Elt F) → (⟨S100000x72, .f32⟩ : BufTy).Contents (Elt F)),
    StableHlo.binary main_v157 main_v165 main_v166 (subf : (⟨S100000x72, .f32⟩ : BufTy).Contents (Elt F) → (⟨S100000x72, .f32⟩ : BufTy).Contents (Elt F) → (⟨S100000x72, .f32⟩ : BufTy).Contents (Elt F)),
    StableHlo.unary main_v163 main_v167 (broadcastInDim S1x72 ![1] bcast_S72_S1x72_1 : (⟨S72, .f32⟩ : BufTy).Contents (Elt F) → (⟨S1x72, .f32⟩ : BufTy).Contents (Elt F)),
    StableHlo.unary main_v167 main_v168 (broadcastInDim S100000x72 ![0, 1] bcast_S1x72_S100000x72_0_1 : (⟨S1x72, .f32⟩ : BufTy).Contents (Elt F) → (⟨S100000x72, .f32⟩ : BufTy).Contents (Elt F)),
    StableHlo.binary main_v168 main_v166 main_v169 (mulf : (⟨S100000x72, .f32⟩ : BufTy).Contents (Elt F) → (⟨S100000x72, .f32⟩ : BufTy).Contents (Elt F) → (⟨S100000x72, .f32⟩ : BufTy).Contents (Elt F)),
    StableHlo.nullary main_cst_27 (constant S_ .f32 0x3727C5AC#32),
    StableHlo.unary main_cst_27 main_v170 (broadcastInDim S72 ![] bcast_S_S72 : (⟨S_, .f32⟩ : BufTy).Contents (Elt F) → (⟨S72, .f32⟩ : BufTy).Contents (Elt F)),
    StableHlo.binary main_v161 main_v170 main_v171 (addf : (⟨S72, .f32⟩ : BufTy).Contents (Elt F) → (⟨S72, .f32⟩ : BufTy).Contents (Elt F) → (⟨S72, .f32⟩ : BufTy).Contents (Elt F)),
    StableHlo.unary main_v171 main_v172 (Host.rsqrt : (⟨S72, .f32⟩ : BufTy).Contents (Elt F) → (⟨S72, .f32⟩ : BufTy).Contents (Elt F)),
    StableHlo.unary main_v172 main_v173 (broadcastInDim S1x72 ![1] bcast_S72_S1x72_1 : (⟨S72, .f32⟩ : BufTy).Contents (Elt F) → (⟨S1x72, .f32⟩ : BufTy).Contents (Elt F)),
    StableHlo.unary main_v173 main_v174 (broadcastInDim S100000x72 ![0, 1] bcast_S1x72_S100000x72_0_1 : (⟨S1x72, .f32⟩ : BufTy).Contents (Elt F) → (⟨S100000x72, .f32⟩ : BufTy).Contents (Elt F)),
    StableHlo.binary main_v169 main_v174 main_v175 (mulf : (⟨S100000x72, .f32⟩ : BufTy).Contents (Elt F) → (⟨S100000x72, .f32⟩ : BufTy).Contents (Elt F) → (⟨S100000x72, .f32⟩ : BufTy).Contents (Elt F)),
    StableHlo.unary main_arg9 main_v176 ((extractStridedSlice S1x72 ![2, 0] · slices_S3x72_S1x72_2_0) : (⟨S3x72, .f32⟩ : BufTy).Contents (Elt F) → (⟨S1x72, .f32⟩ : BufTy).Contents (Elt F)),
    StableHlo.reshape main_v176 main_v177 rfl shapeCasts_S1x72_S72,
    StableHlo.unary main_v177 main_v178 (broadcastInDim S1x72 ![1] bcast_S72_S1x72_1 : (⟨S72, .f32⟩ : BufTy).Contents (Elt F) → (⟨S1x72, .f32⟩ : BufTy).Contents (Elt F)),
    StableHlo.unary main_v178 main_v179 (broadcastInDim S100000x72 ![0, 1] bcast_S1x72_S100000x72_0_1 : (⟨S1x72, .f32⟩ : BufTy).Contents (Elt F) → (⟨S100000x72, .f32⟩ : BufTy).Contents (Elt F)),
    StableHlo.binary main_v175 main_v179 main_v180 (addf : (⟨S100000x72, .f32⟩ : BufTy).Contents (Elt F) → (⟨S100000x72, .f32⟩ : BufTy).Contents (Elt F) → (⟨S100000x72, .f32⟩ : BufTy).Contents (Elt F)) ]

/-- @main's operations with results `main_c_28` … `main_v194` (18). -/
abbrev segGather : List (HloOp τ sig (Elt F)) :=
  [ StableHlo.nullary main_c_28 (constantI S_ 32 0#32),
    StableHlo.unary main_c_28 main_v181 (broadcastInDim S1600000 ![] bcast_S_S1600000 : (⟨S_, .i32⟩ : BufTy).Contents (Elt F) → (⟨S1600000, .i32⟩ : BufTy).Contents (Elt F)),
    StableHlo.binary main_v1 main_v181 main_v182 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v183 (broadcastInDim S1600000 ![] bcast_S_S1600000 : (⟨S_, .i32⟩ : BufTy).Contents (Elt F) → (⟨S1600000, .i32⟩ : BufTy).Contents (Elt F)),
    StableHlo.binary main_v1 main_v183 main_v184 (addi : (⟨S1600000, .i32⟩ : BufTy).Contents (Elt F) → (⟨S1600000, .i32⟩ : BufTy).Contents (Elt F) → (⟨S1600000, .i32⟩ : BufTy).Contents (Elt F)),
    StableHlo.ternary main_v182 main_v184 main_v1 main_v185 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v185 main_v186 (broadcastInDim S1600000x1 ![0] bcast_S1600000_S1600000x1_0 : (⟨S1600000, .i32⟩ : BufTy).Contents (Elt F) → (⟨S1600000x1, .i32⟩ : BufTy).Contents (Elt F)),
    StableHlo.binary main_v180 main_v186 main_v187 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.nullary main_c_30 (constantI S_ 32 0#32),
    StableHlo.unary main_c_30 main_v188 (broadcastInDim S1600000 ![] bcast_S_S1600000 : (⟨S_, .i32⟩ : BufTy).Contents (Elt F) → (⟨S1600000, .i32⟩ : BufTy).Contents (Elt F)),
    StableHlo.binary main_v3 main_v188 main_v189 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v190 (broadcastInDim S1600000 ![] bcast_S_S1600000 : (⟨S_, .i32⟩ : BufTy).Contents (Elt F) → (⟨S1600000, .i32⟩ : BufTy).Contents (Elt F)),
    StableHlo.binary main_v3 main_v190 main_v191 (addi : (⟨S1600000, .i32⟩ : BufTy).Contents (Elt F) → (⟨S1600000, .i32⟩ : BufTy).Contents (Elt F) → (⟨S1600000, .i32⟩ : BufTy).Contents (Elt F)),
    StableHlo.ternary main_v189 main_v191 main_v3 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v192 main_v193 (broadcastInDim S1600000x1 ![0] bcast_S1600000_S1600000x1_0 : (⟨S1600000, .i32⟩ : BufTy).Contents (Elt F) → (⟨S1600000x1, .i32⟩ : BufTy).Contents (Elt F)),
    StableHlo.binary main_v180 main_v193 main_v194 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)) ]

/-- @main's operations with results `main_v195` … `main_v214` (20). -/
abbrev segMlp : List (HloOp τ sig (Elt F)) :=
  [ StableHlo.binary main_v187 main_v194 main_v195 ((fun a b => concatenate S1600000x144 1 [⟨S1600000x72, a⟩, ⟨S1600000x72, b⟩] concatenates_S1600000x72_S1600000x72_S1600000x144_d1) : (⟨S1600000x72, .f32⟩ : BufTy).Contents (Elt F) → (⟨S1600000x72, .f32⟩ : BufTy).Contents (Elt F) → (⟨S1600000x144, .f32⟩ : BufTy).Contents (Elt F)),
    StableHlo.binary main_v195 main_arg10 main_v196 ((fun l r => Host.dotGeneral dot_S1600000x144_S144x72_S1600000x72_1_0_0_1_n_n none l r) : (⟨S1600000x144, .f32⟩ : BufTy).Contents (Elt F) → (⟨S144x72, .f32⟩ : BufTy).Contents (Elt F) → (⟨S1600000x72, .f32⟩ : BufTy).Contents (Elt F)),
    StableHlo.unary main_arg11 main_v197 (broadcastInDim S1x72 ![1] bcast_S72_S1x72_1 : (⟨S72, .f32⟩ : BufTy).Contents (Elt F) → (⟨S1x72, .f32⟩ : BufTy).Contents (Elt F)),
    StableHlo.unary main_v197 main_v198 (broadcastInDim S1600000x72 ![0, 1] bcast_S1x72_S1600000x72_0_1 : (⟨S1x72, .f32⟩ : BufTy).Contents (Elt F) → (⟨S1600000x72, .f32⟩ : BufTy).Contents (Elt F)),
    StableHlo.binary main_v196 main_v198 main_v199 (addf : (⟨S1600000x72, .f32⟩ : BufTy).Contents (Elt F) → (⟨S1600000x72, .f32⟩ : BufTy).Contents (Elt F) → (⟨S1600000x72, .f32⟩ : BufTy).Contents (Elt F)),
    StableHlo.binary main_arg2 main_arg12 main_v200 ((fun l r => Host.dotGeneral dot_S1600000x8_S8x72_S1600000x72_1_0_0_1_n_n none l r) : (⟨S1600000x8, .f32⟩ : BufTy).Contents (Elt F) → (⟨S8x72, .f32⟩ : BufTy).Contents (Elt F) → (⟨S1600000x72, .f32⟩ : BufTy).Contents (Elt F)),
    StableHlo.unary main_arg13 main_v201 (broadcastInDim S1x72 ![1] bcast_S72_S1x72_1 : (⟨S72, .f32⟩ : BufTy).Contents (Elt F) → (⟨S1x72, .f32⟩ : BufTy).Contents (Elt F)),
    StableHlo.unary main_v201 main_v202 (broadcastInDim S1600000x72 ![0, 1] bcast_S1x72_S1600000x72_0_1 : (⟨S1x72, .f32⟩ : BufTy).Contents (Elt F) → (⟨S1600000x72, .f32⟩ : BufTy).Contents (Elt F)),
    StableHlo.binary main_v200 main_v202 main_v203 (addf : (⟨S1600000x72, .f32⟩ : BufTy).Contents (Elt F) → (⟨S1600000x72, .f32⟩ : BufTy).Contents (Elt F) → (⟨S1600000x72, .f32⟩ : BufTy).Contents (Elt F)),
    StableHlo.binary main_v199 main_v203 main_v204 ((fun a b => concatenate S1600000x144 1 [⟨S1600000x72, a⟩, ⟨S1600000x72, b⟩] concatenates_S1600000x72_S1600000x72_S1600000x144_d1) : (⟨S1600000x72, .f32⟩ : BufTy).Contents (Elt F) → (⟨S1600000x72, .f32⟩ : BufTy).Contents (Elt F) → (⟨S1600000x144, .f32⟩ : BufTy).Contents (Elt F)),
    StableHlo.binary main_v204 main_arg14 main_v205 ((fun l r => Host.dotGeneral dot_S1600000x144_S144x72_S1600000x72_1_0_0_1_n_n none l r) : (⟨S1600000x144, .f32⟩ : BufTy).Contents (Elt F) → (⟨S144x72, .f32⟩ : BufTy).Contents (Elt F) → (⟨S1600000x72, .f32⟩ : BufTy).Contents (Elt F)),
    StableHlo.unary main_arg15 main_v206 (broadcastInDim S1x72 ![1] bcast_S72_S1x72_1 : (⟨S72, .f32⟩ : BufTy).Contents (Elt F) → (⟨S1x72, .f32⟩ : BufTy).Contents (Elt F)),
    StableHlo.unary main_v206 main_v207 (broadcastInDim S1600000x72 ![0, 1] bcast_S1x72_S1600000x72_0_1 : (⟨S1x72, .f32⟩ : BufTy).Contents (Elt F) → (⟨S1600000x72, .f32⟩ : BufTy).Contents (Elt F)),
    StableHlo.binary main_v205 main_v207 main_v208 (addf : (⟨S1600000x72, .f32⟩ : BufTy).Contents (Elt F) → (⟨S1600000x72, .f32⟩ : BufTy).Contents (Elt F) → (⟨S1600000x72, .f32⟩ : BufTy).Contents (Elt F)),
    StableHlo.unary main_v208 main_v209 (Host.tanh : (⟨S1600000x72, .f32⟩ : BufTy).Contents (Elt F) → (⟨S1600000x72, .f32⟩ : BufTy).Contents (Elt F)),
    StableHlo.binary main_v209 main_arg16 main_v210 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)),
    StableHlo.unary main_arg17 main_v211 (broadcastInDim S1x1 ![1] bcast_S1_S1x1_1 : (⟨S1, .f32⟩ : BufTy).Contents (Elt F) → (⟨S1x1, .f32⟩ : BufTy).Contents (Elt F)),
    StableHlo.unary main_v211 main_v212 (broadcastInDim S1600000x1 ![0, 1] bcast_S1x1_S1600000x1_0_1 : (⟨S1x1, .f32⟩ : BufTy).Contents (Elt F) → (⟨S1600000x1, .f32⟩ : BufTy).Contents (Elt F)),
    StableHlo.binary main_v210 main_v212 main_v213 (addf : (⟨S1600000x1, .f32⟩ : BufTy).Contents (Elt F) → (⟨S1600000x1, .f32⟩ : BufTy).Contents (Elt F) → (⟨S1600000x1, .f32⟩ : BufTy).Contents (Elt F)),
    StableHlo.reshape main_v213 main_v214 rfl shapeCasts_S1600000x1_S1600000 ]

/-- @main's 322 operations in order: the segments, concatenated from the left. -/
abbrev ops : List (HloOp τ sig (Elt F)) :=
  segIdx ++ segNode ++ segNorm ++ segWi0 ++ segT0 ++ segAgg0 ++ segWr0 ++ segRoot0 ++ segBias0 ++ segBn0 ++ segWi1 ++ segT1 ++ segAgg1 ++ segWr1 ++ segRoot1 ++ segBias1 ++ segBn1 ++ segWi2 ++ segT2 ++ segAgg2 ++ segWr2 ++ segRoot2 ++ segBias2 ++ segBn2 ++ segGather ++ segMlp

/-- The result buffers of `segIdx`, in order. -/
abbrev segIdx_W : List (Ref sig .tc) := [main_v0, main_v1, main_v2, main_v3]
theorem segIdx_writes : (segIdx : List (HloOp τ sig (Elt F))).Forall fun op => op.writes ⊆ ((segIdx_W).map (Proc.devRef (τ := τ) .tc)).toFinset :=
  ⟨writes_sub_of_mem (by decide), writes_sub_of_mem (by decide), writes_sub_of_mem (by decide), writes_sub_of_mem (by decide)⟩
/-- A buffer outside that list holds after `segIdx` what it held before. -/
theorem segIdx_keeps (V : Valuation τ sig (Elt F)) (r : Ref sig .tc) (h : r ∉ segIdx_W) :
    StableHlo.after (segIdx (F := F)) V (Proc.devRef .tc r) = V (Proc.devRef .tc r) :=
  StableHlo.after_of_writes_sub segIdx V segIdx_writes h

/-- The result buffers of `segNode`, in order. -/
abbrev segNode_W : List (Ref sig .tc) := [main_v4, main_v5, main_v6, main_v7, main_call0_cst, main_call0_v0, main_v8]
theorem segNode_writes : (segNode : List (HloOp τ sig (Elt F))).Forall fun op => op.writes ⊆ ((segNode_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segNode` what it held before. -/
theorem segNode_keeps (V : Valuation τ sig (Elt F)) (r : Ref sig .tc) (h : r ∉ segNode_W) :
    StableHlo.after (segNode (F := F)) V (Proc.devRef .tc r) = V (Proc.devRef .tc r) :=
  StableHlo.after_of_writes_sub segNode V segNode_writes h

/-- The result buffers of `segNorm`, in order. -/
abbrev segNorm_W : List (Ref sig .tc) := [main_cst, main_v9, main_cst_0, main_v10, main_v11, main_v12, main_cst_1, main_v13, main_v14, main_cst_2, main_v15, main_v16, main_v17, main_cst_3, main_call1_v0, main_call1_v1, main_v18, main_c, main_v19, main_v20, main_c_4, main_v21, main_v22, main_v23, main_v24, main_v25, main_c_5, main_v26, main_v27, main_c_6, main_v28, main_v29, main_v30, main_v31, main_v32, main_v33]
theorem segNorm_writes : (segNorm : List (HloOp τ sig (Elt F))).Forall fun op => op.writes ⊆ ((segNorm_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segNorm` what it held before. -/
theorem segNorm_keeps (V : Valuation τ sig (Elt F)) (r : Ref sig .tc) (h : r ∉ segNorm_W) :
    StableHlo.after (segNorm (F := F)) V (Proc.devRef .tc r) = V (Proc.devRef .tc r) :=
  StableHlo.after_of_writes_sub segNorm V segNorm_writes h

/-- The result buffers of `segWi0`, in order. -/
abbrev segWi0_W : List (Ref sig .tc) := [main_v34, main_v35]
theorem segWi0_writes : (segWi0 : List (HloOp τ sig (Elt F))).Forall fun op => op.writes ⊆ ((segWi0_W).map (Proc.devRef (τ := τ) .tc)).toFinset :=
  ⟨writes_sub_of_mem (by decide), writes_sub_of_mem (by decide)⟩
/-- A buffer outside that list holds after `segWi0` what it held before. -/
theorem segWi0_keeps (V : Valuation τ sig (Elt F)) (r : Ref sig .tc) (h : r ∉ segWi0_W) :
    StableHlo.after (segWi0 (F := F)) V (Proc.devRef .tc r) = V (Proc.devRef .tc r) :=
  StableHlo.after_of_writes_sub segWi0 V segWi0_writes h

/-- The result buffers of `segT0`, in order. -/
abbrev segT0_W : List (Ref sig .tc) := [main_v36]
theorem segT0_writes : (segT0 : List (HloOp τ sig (Elt F))).Forall fun op => op.writes ⊆ ((segT0_W).map (Proc.devRef (τ := τ) .tc)).toFinset :=
  writes_sub_of_mem (by decide)
/-- A buffer outside that list holds after `segT0` what it held before. -/
theorem segT0_keeps (V : Valuation τ sig (Elt F)) (r : Ref sig .tc) (h : r ∉ segT0_W) :
    StableHlo.after (segT0 (F := F)) V (Proc.devRef .tc r) = V (Proc.devRef .tc r) :=
  StableHlo.after_of_writes_sub segT0 V segT0_writes h

/-- The result buffers of `segAgg0`, in order. -/
abbrev segAgg0_W : List (Ref sig .tc) := [main_v37, main_c_7, main_v38, main_v39, main_c_8, main_v40, main_v41, main_v42, main_v43, main_v44, main_v45, main_v46, main_cst_9, main_v47, main_v48, main_v49]
theorem segAgg0_writes : (segAgg0 : List (HloOp τ sig (Elt F))).Forall fun op => op.writes ⊆ ((segAgg0_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segAgg0` what it held before. -/
theorem segAgg0_keeps (V : Valuation τ sig (Elt F)) (r : Ref sig .tc) (h : r ∉ segAgg0_W) :
    StableHlo.after (segAgg0 (F := F)) V (Proc.devRef .tc r) = V (Proc.devRef .tc r) :=
  StableHlo.after_of_writes_sub segAgg0 V segAgg0_writes h

/-- The result buffers of `segWr0`, in order. -/
abbrev segWr0_W : List (Ref sig .tc) := [main_v50, main_v51]
theorem segWr0_writes : (segWr0 : List (HloOp τ sig (Elt F))).Forall fun op => op.writes ⊆ ((segWr0_W).map (Proc.devRef (τ := τ) .tc)).toFinset :=
  ⟨writes_sub_of_mem (by decide), writes_sub_of_mem (by decide)⟩
/-- A buffer outside that list holds after `segWr0` what it held before. -/
theorem segWr0_keeps (V : Valuation τ sig (Elt F)) (r : Ref sig .tc) (h : r ∉ segWr0_W) :
    StableHlo.after (segWr0 (F := F)) V (Proc.devRef .tc r) = V (Proc.devRef .tc r) :=
  StableHlo.after_of_writes_sub segWr0 V segWr0_writes h

/-- The result buffers of `segRoot0`, in order. -/
abbrev segRoot0_W : List (Ref sig .tc) := [main_v52]
theorem segRoot0_writes : (segRoot0 : List (HloOp τ sig (Elt F))).Forall fun op => op.writes ⊆ ((segRoot0_W).map (Proc.devRef (τ := τ) .tc)).toFinset :=
  writes_sub_of_mem (by decide)
/-- A buffer outside that list holds after `segRoot0` what it held before. -/
theorem segRoot0_keeps (V : Valuation τ sig (Elt F)) (r : Ref sig .tc) (h : r ∉ segRoot0_W) :
    StableHlo.after (segRoot0 (F := F)) V (Proc.devRef .tc r) = V (Proc.devRef .tc r) :=
  StableHlo.after_of_writes_sub segRoot0 V segRoot0_writes h

/-- The result buffers of `segBias0`, in order. -/
abbrev segBias0_W : List (Ref sig .tc) := [main_v53, main_v54, main_v55, main_v56, main_v57, main_v58]
theorem segBias0_writes : (segBias0 : List (HloOp τ sig (Elt F))).Forall fun op => op.writes ⊆ ((segBias0_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide)⟩
/-- A buffer outside that list holds after `segBias0` what it held before. -/
theorem segBias0_keeps (V : Valuation τ sig (Elt F)) (r : Ref sig .tc) (h : r ∉ segBias0_W) :
    StableHlo.after (segBias0 (F := F)) V (Proc.devRef .tc r) = V (Proc.devRef .tc r) :=
  StableHlo.after_of_writes_sub segBias0 V segBias0_writes h

/-- The result buffers of `segBn0`, in order. -/
abbrev segBn0_W : List (Ref sig .tc) := [main_call2_cst, main_call2_v0, main_v59, main_cst_10, main_v60, main_cst_11, main_v61, main_v62, main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v63, main_v64, main_v65, main_v66, main_v67, main_v68, main_v69, main_v70, main_v71, main_cst_13, main_v72, main_v73, main_v74, main_v75, main_v76, main_v77, main_v78, main_v79, main_v80, main_v81, main_v82]
theorem segBn0_writes : (segBn0 : List (HloOp τ sig (Elt F))).Forall fun op => op.writes ⊆ ((segBn0_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segBn0` what it held before. -/
theorem segBn0_keeps (V : Valuation τ sig (Elt F)) (r : Ref sig .tc) (h : r ∉ segBn0_W) :
    StableHlo.after (segBn0 (F := F)) V (Proc.devRef .tc r) = V (Proc.devRef .tc r) :=
  StableHlo.after_of_writes_sub segBn0 V segBn0_writes h

/-- The result buffers of `segWi1`, in order. -/
abbrev segWi1_W : List (Ref sig .tc) := [main_v83, main_v84]
theorem segWi1_writes : (segWi1 : List (HloOp τ sig (Elt F))).Forall fun op => op.writes ⊆ ((segWi1_W).map (Proc.devRef (τ := τ) .tc)).toFinset :=
  ⟨writes_sub_of_mem (by decide), writes_sub_of_mem (by decide)⟩
/-- A buffer outside that list holds after `segWi1` what it held before. -/
theorem segWi1_keeps (V : Valuation τ sig (Elt F)) (r : Ref sig .tc) (h : r ∉ segWi1_W) :
    StableHlo.after (segWi1 (F := F)) V (Proc.devRef .tc r) = V (Proc.devRef .tc r) :=
  StableHlo.after_of_writes_sub segWi1 V segWi1_writes h

/-- The result buffers of `segT1`, in order. -/
abbrev segT1_W : List (Ref sig .tc) := [main_v85]
theorem segT1_writes : (segT1 : List (HloOp τ sig (Elt F))).Forall fun op => op.writes ⊆ ((segT1_W).map (Proc.devRef (τ := τ) .tc)).toFinset :=
  writes_sub_of_mem (by decide)
/-- A buffer outside that list holds after `segT1` what it held before. -/
theorem segT1_keeps (V : Valuation τ sig (Elt F)) (r : Ref sig .tc) (h : r ∉ segT1_W) :
    StableHlo.after (segT1 (F := F)) V (Proc.devRef .tc r) = V (Proc.devRef .tc r) :=
  StableHlo.after_of_writes_sub segT1 V segT1_writes h

/-- The result buffers of `segAgg1`, in order. -/
abbrev segAgg1_W : List (Ref sig .tc) := [main_v86, main_c_14, main_v87, main_v88, main_c_15, main_v89, main_v90, main_v91, main_v92, main_v93, main_v94, main_v95, main_cst_16, main_v96, main_v97, main_v98]
theorem segAgg1_writes : (segAgg1 : List (HloOp τ sig (Elt F))).Forall fun op => op.writes ⊆ ((segAgg1_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segAgg1` what it held before. -/
theorem segAgg1_keeps (V : Valuation τ sig (Elt F)) (r : Ref sig .tc) (h : r ∉ segAgg1_W) :
    StableHlo.after (segAgg1 (F := F)) V (Proc.devRef .tc r) = V (Proc.devRef .tc r) :=
  StableHlo.after_of_writes_sub segAgg1 V segAgg1_writes h

/-- The result buffers of `segWr1`, in order. -/
abbrev segWr1_W : List (Ref sig .tc) := [main_v99, main_v100]
theorem segWr1_writes : (segWr1 : List (HloOp τ sig (Elt F))).Forall fun op => op.writes ⊆ ((segWr1_W).map (Proc.devRef (τ := τ) .tc)).toFinset :=
  ⟨writes_sub_of_mem (by decide), writes_sub_of_mem (by decide)⟩
/-- A buffer outside that list holds after `segWr1` what it held before. -/
theorem segWr1_keeps (V : Valuation τ sig (Elt F)) (r : Ref sig .tc) (h : r ∉ segWr1_W) :
    StableHlo.after (segWr1 (F := F)) V (Proc.devRef .tc r) = V (Proc.devRef .tc r) :=
  StableHlo.after_of_writes_sub segWr1 V segWr1_writes h

/-- The result buffers of `segRoot1`, in order. -/
abbrev segRoot1_W : List (Ref sig .tc) := [main_v101]
theorem segRoot1_writes : (segRoot1 : List (HloOp τ sig (Elt F))).Forall fun op => op.writes ⊆ ((segRoot1_W).map (Proc.devRef (τ := τ) .tc)).toFinset :=
  writes_sub_of_mem (by decide)
/-- A buffer outside that list holds after `segRoot1` what it held before. -/
theorem segRoot1_keeps (V : Valuation τ sig (Elt F)) (r : Ref sig .tc) (h : r ∉ segRoot1_W) :
    StableHlo.after (segRoot1 (F := F)) V (Proc.devRef .tc r) = V (Proc.devRef .tc r) :=
  StableHlo.after_of_writes_sub segRoot1 V segRoot1_writes h

/-- The result buffers of `segBias1`, in order. -/
abbrev segBias1_W : List (Ref sig .tc) := [main_v102, main_v103, main_v104, main_v105, main_v106, main_v107]
theorem segBias1_writes : (segBias1 : List (HloOp τ sig (Elt F))).Forall fun op => op.writes ⊆ ((segBias1_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide)⟩
/-- A buffer outside that list holds after `segBias1` what it held before. -/
theorem segBias1_keeps (V : Valuation τ sig (Elt F)) (r : Ref sig .tc) (h : r ∉ segBias1_W) :
    StableHlo.after (segBias1 (F := F)) V (Proc.devRef .tc r) = V (Proc.devRef .tc r) :=
  StableHlo.after_of_writes_sub segBias1 V segBias1_writes h

/-- The result buffers of `segBn1`, in order. -/
abbrev segBn1_W : List (Ref sig .tc) := [main_call4_cst, main_call4_v0, main_v108, main_cst_17, main_v109, main_cst_18, main_v110, main_v111, main_c_19, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v112, main_v113, main_v114, main_v115, main_v116, main_v117, main_v118, main_v119, main_v120, main_cst_20, main_v121, main_v122, main_v123, main_v124, main_v125, main_v126, main_v127, main_v128, main_v129, main_v130, main_v131]
theorem segBn1_writes : (segBn1 : List (HloOp τ sig (Elt F))).Forall fun op => op.writes ⊆ ((segBn1_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segBn1` what it held before. -/
theorem segBn1_keeps (V : Valuation τ sig (Elt F)) (r : Ref sig .tc) (h : r ∉ segBn1_W) :
    StableHlo.after (segBn1 (F := F)) V (Proc.devRef .tc r) = V (Proc.devRef .tc r) :=
  StableHlo.after_of_writes_sub segBn1 V segBn1_writes h

/-- The result buffers of `segWi2`, in order. -/
abbrev segWi2_W : List (Ref sig .tc) := [main_v132, main_v133]
theorem segWi2_writes : (segWi2 : List (HloOp τ sig (Elt F))).Forall fun op => op.writes ⊆ ((segWi2_W).map (Proc.devRef (τ := τ) .tc)).toFinset :=
  ⟨writes_sub_of_mem (by decide), writes_sub_of_mem (by decide)⟩
/-- A buffer outside that list holds after `segWi2` what it held before. -/
theorem segWi2_keeps (V : Valuation τ sig (Elt F)) (r : Ref sig .tc) (h : r ∉ segWi2_W) :
    StableHlo.after (segWi2 (F := F)) V (Proc.devRef .tc r) = V (Proc.devRef .tc r) :=
  StableHlo.after_of_writes_sub segWi2 V segWi2_writes h

/-- The result buffers of `segT2`, in order. -/
abbrev segT2_W : List (Ref sig .tc) := [main_v134]
theorem segT2_writes : (segT2 : List (HloOp τ sig (Elt F))).Forall fun op => op.writes ⊆ ((segT2_W).map (Proc.devRef (τ := τ) .tc)).toFinset :=
  writes_sub_of_mem (by decide)
/-- A buffer outside that list holds after `segT2` what it held before. -/
theorem segT2_keeps (V : Valuation τ sig (Elt F)) (r : Ref sig .tc) (h : r ∉ segT2_W) :
    StableHlo.after (segT2 (F := F)) V (Proc.devRef .tc r) = V (Proc.devRef .tc r) :=
  StableHlo.after_of_writes_sub segT2 V segT2_writes h

/-- The result buffers of `segAgg2`, in order. -/
abbrev segAgg2_W : List (Ref sig .tc) := [main_v135, main_c_21, main_v136, main_v137, main_c_22, main_v138, main_v139, main_v140, main_v141, main_v142, main_v143, main_v144, main_cst_23, main_v145, main_v146, main_v147]
theorem segAgg2_writes : (segAgg2 : List (HloOp τ sig (Elt F))).Forall fun op => op.writes ⊆ ((segAgg2_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segAgg2` what it held before. -/
theorem segAgg2_keeps (V : Valuation τ sig (Elt F)) (r : Ref sig .tc) (h : r ∉ segAgg2_W) :
    StableHlo.after (segAgg2 (F := F)) V (Proc.devRef .tc r) = V (Proc.devRef .tc r) :=
  StableHlo.after_of_writes_sub segAgg2 V segAgg2_writes h

/-- The result buffers of `segWr2`, in order. -/
abbrev segWr2_W : List (Ref sig .tc) := [main_v148, main_v149]
theorem segWr2_writes : (segWr2 : List (HloOp τ sig (Elt F))).Forall fun op => op.writes ⊆ ((segWr2_W).map (Proc.devRef (τ := τ) .tc)).toFinset :=
  ⟨writes_sub_of_mem (by decide), writes_sub_of_mem (by decide)⟩
/-- A buffer outside that list holds after `segWr2` what it held before. -/
theorem segWr2_keeps (V : Valuation τ sig (Elt F)) (r : Ref sig .tc) (h : r ∉ segWr2_W) :
    StableHlo.after (segWr2 (F := F)) V (Proc.devRef .tc r) = V (Proc.devRef .tc r) :=
  StableHlo.after_of_writes_sub segWr2 V segWr2_writes h

/-- The result buffers of `segRoot2`, in order. -/
abbrev segRoot2_W : List (Ref sig .tc) := [main_v150]
theorem segRoot2_writes : (segRoot2 : List (HloOp τ sig (Elt F))).Forall fun op => op.writes ⊆ ((segRoot2_W).map (Proc.devRef (τ := τ) .tc)).toFinset :=
  writes_sub_of_mem (by decide)
/-- A buffer outside that list holds after `segRoot2` what it held before. -/
theorem segRoot2_keeps (V : Valuation τ sig (Elt F)) (r : Ref sig .tc) (h : r ∉ segRoot2_W) :
    StableHlo.after (segRoot2 (F := F)) V (Proc.devRef .tc r) = V (Proc.devRef .tc r) :=
  StableHlo.after_of_writes_sub segRoot2 V segRoot2_writes h

/-- The result buffers of `segBias2`, in order. -/
abbrev segBias2_W : List (Ref sig .tc) := [main_v151, main_v152, main_v153, main_v154, main_v155, main_v156]
theorem segBias2_writes : (segBias2 : List (HloOp τ sig (Elt F))).Forall fun op => op.writes ⊆ ((segBias2_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide)⟩
/-- A buffer outside that list holds after `segBias2` what it held before. -/
theorem segBias2_keeps (V : Valuation τ sig (Elt F)) (r : Ref sig .tc) (h : r ∉ segBias2_W) :
    StableHlo.after (segBias2 (F := F)) V (Proc.devRef .tc r) = V (Proc.devRef .tc r) :=
  StableHlo.after_of_writes_sub segBias2 V segBias2_writes h

/-- The result buffers of `segBn2`, in order. -/
abbrev segBn2_W : List (Ref sig .tc) := [main_call6_cst, main_call6_v0, main_v157, main_cst_24, main_v158, main_cst_25, main_v159, main_v160, main_c_26, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v161, main_v162, main_v163, main_v164, main_v165, main_v166, main_v167, main_v168, main_v169, main_cst_27, main_v170, main_v171, main_v172, main_v173, main_v174, main_v175, main_v176, main_v177, main_v178, main_v179, main_v180]
theorem segBn2_writes : (segBn2 : List (HloOp τ sig (Elt F))).Forall fun op => op.writes ⊆ ((segBn2_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segBn2` what it held before. -/
theorem segBn2_keeps (V : Valuation τ sig (Elt F)) (r : Ref sig .tc) (h : r ∉ segBn2_W) :
    StableHlo.after (segBn2 (F := F)) V (Proc.devRef .tc r) = V (Proc.devRef .tc r) :=
  StableHlo.after_of_writes_sub segBn2 V segBn2_writes h

/-- The result buffers of `segGather`, in order. -/
abbrev segGather_W : List (Ref sig .tc) := [main_c_28, main_v181, main_v182, main_c_29, main_v183, main_v184, main_v185, main_v186, main_v187, main_c_30, main_v188, main_v189, main_c_31, main_v190, main_v191, main_v192, main_v193, main_v194]
theorem segGather_writes : (segGather : List (HloOp τ sig (Elt F))).Forall fun op => op.writes ⊆ ((segGather_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segGather` what it held before. -/
theorem segGather_keeps (V : Valuation τ sig (Elt F)) (r : Ref sig .tc) (h : r ∉ segGather_W) :
    StableHlo.after (segGather (F := F)) V (Proc.devRef .tc r) = V (Proc.devRef .tc r) :=
  StableHlo.after_of_writes_sub segGather V segGather_writes h

/-- The result buffers of `segMlp`, in order. -/
abbrev segMlp_W : List (Ref sig .tc) := [main_v195, main_v196, main_v197, main_v198, main_v199, main_v200, main_v201, main_v202, main_v203, main_v204, main_v205, main_v206, main_v207, main_v208, main_v209, main_v210, main_v211, main_v212, main_v213, main_v214]
theorem segMlp_writes : (segMlp : List (HloOp τ sig (Elt F))).Forall fun op => op.writes ⊆ ((segMlp_W).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer outside that list holds after `segMlp` what it held before. -/
theorem segMlp_keeps (V : Valuation τ sig (Elt F)) (r : Ref sig .tc) (h : r ∉ segMlp_W) :
    StableHlo.after (segMlp (F := F)) V (Proc.devRef .tc r) = V (Proc.devRef .tc r) :=
  StableHlo.after_of_writes_sub segMlp V segMlp_writes h

end Cert.ReferenceIdeal.RefRun

end
-- ==== Proof.RefRun.lean ====
/- The reference program's run.

  @main is printed in five consecutive windows; each window, with the outlined functions unfolded at their calls,
  is a straight line of operations, and the five lines in a row are the operation list `ops`.  A straight line
  run from any memory with zero counters terminates, and every buffer ends at the fold of the operations' results
  over its contents at launch. -/
import proofs.«122625_j53163105190631_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, the calls in it unfolded (64). -/
abbrev part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x64_S64x72_S100000x72_1_0_0_1_n_n none l r) : (⟨S100000x64, .f32⟩ : BufTy).Contents (Elt F) → (⟨S64x72, .f32⟩ : BufTy).Contents (Elt F) → (⟨S100000x72, .f32⟩ : BufTy).Contents (Elt F)),
    StableHlo.unary main_arg4 main_v5 (broadcastInDim S1x72 ![1] bcast_S72_S1x72_1 : (⟨S72, .f32⟩ : BufTy).Contents (Elt F) → (⟨S1x72, .f32⟩ : BufTy).Contents (Elt F)),
    StableHlo.unary main_v5 main_v6 (broadcastInDim S100000x72 ![0, 1] bcast_S1x72_S100000x72_0_1 : (⟨S1x72, .f32⟩ : BufTy).Contents (Elt F) → (⟨S100000x72, .f32⟩ : BufTy).Contents (Elt F)),
    StableHlo.binary main_v4 main_v6 main_v7 (addf : (⟨S100000x72, .f32⟩ : BufTy).Contents (Elt F) → (⟨S100000x72, .f32⟩ : BufTy).Contents (Elt F) → (⟨S100000x72, .f32⟩ : BufTy).Contents (Elt F)),
    StableHlo.TRef.nullary main_call0.cst (constant S_ .f32 0x00000000#32),
    StableHlo.TRef.unary main_call0.cst main_call0.v0 (broadcastInDim S100000x72 ![] bcast_S_S100000x72),
    StableHlo.TRef.binary (.of main_v7) main_call0.v0 main_call0.v1 maximumf,
    StableHlo.nullary main_cst (constant S_ .f32 0x3F800000#32),
    StableHlo.unary main_cst main_v9 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v3 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call1.v0 id,
    StableHlo.TRef.unary main_call1.v0 main_call1.v1 (broadcastInDim S100000 ![] bcast_S_S100000),
    StableHlo.TRef.ternary (.of main_v14) (.of main_v17) main_call1.v1 main_call1.v2 select,
    StableHlo.nullary main_c (constantI S_ 32 0#32),
    StableHlo.unary main_c main_v19 (broadcastInDim S1600000 ![] bcast_S_S1600000 : (⟨S_, .i32⟩ : BufTy).Contents (Elt F) → (⟨S1600000, .i32⟩ : BufTy).Contents (Elt F)),
    StableHlo.binary main_v1 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v1 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v1 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v18 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v26 (broadcastInDim S1600000 ![] bcast_S_S1600000 : (⟨S_, .i32⟩ : BufTy).Contents (Elt F) → (⟨S1600000, .i32⟩ : BufTy).Contents (Elt F)),
    StableHlo.binary main_v3 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v28 (broadcastInDim S1600000 ![] bcast_S_S1600000 : (⟨S_, .i32⟩ : BufTy).Contents (Elt F) → (⟨S1600000, .i32⟩ : BufTy).Contents (Elt F)),
    StableHlo.binary main_v3 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v18 main_v31 main_v32 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v25 main_v32 main_v33 (mulf : (⟨S1600000, .f32⟩ : BufTy).Contents (Elt F) → (⟨S1600000, .f32⟩ : BufTy).Contents (Elt F) → (⟨S1600000, .f32⟩ : BufTy).Contents (Elt F)),
    StableHlo.unary main_arg5 main_v34 ((extractStridedSlice S1x72x72 ![0, 0, 0] · slices_S3x72x72_S1x72x72_0_0_0) : (⟨S3x72x72, .f32⟩ : BufTy).Contents (Elt F) → (⟨S1x72x72, .f32⟩ : BufTy).Contents (Elt F)),
    StableHlo.reshape main_v34 main_v35 rfl shapeCasts_S1x72x72_S72x72,
    StableHlo.binary main_v8 main_v35 main_v36 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.unary main_v33 main_v37 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v38 (broadcastInDim S1600000 ![] bcast_S_S1600000 : (⟨S_, .i32⟩ : BufTy).Contents (Elt F) → (⟨S1600000, .i32⟩ : BufTy).Contents (Elt F)),
    StableHlo.binary main_v1 main_v38 main_v39 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v40 (broadcastInDim S1600000 ![] bcast_S_S1600000 : (⟨S_, .i32⟩ : BufTy).Contents (Elt F) → (⟨S1600000, .i32⟩ : BufTy).Contents (Elt F)),
    StableHlo.binary main_v1 main_v40 main_v41 (addi : (⟨S1600000, .i32⟩ : BufTy).Contents (Elt F) → (⟨S1600000, .i32⟩ : BufTy).Contents (Elt F) → (⟨S1600000, .i32⟩ : BufTy).Contents (Elt F)),
    StableHlo.ternary main_v39 main_v41 main_v1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v42 main_v43 (broadcastInDim S1600000x1 ![0] bcast_S1600000_S1600000x1_0 : (⟨S1600000, .i32⟩ : BufTy).Contents (Elt F) → (⟨S1600000x1, .i32⟩ : BufTy).Contents (Elt F)),
    StableHlo.binary main_v36 main_v43 main_v44 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v37 main_v45 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v45 main_v44 main_v46 (mulf : (⟨S1600000x72, .f32⟩ : BufTy).Contents (Elt F) → (⟨S1600000x72, .f32⟩ : BufTy).Contents (Elt F) → (⟨S1600000x72, .f32⟩ : BufTy).Contents (Elt F)),
    StableHlo.nullary main_cst_9 (constant S_ .f32 0x00000000#32),
    StableHlo.unary main_cst_9 main_v47 (broadcastInDim S100000x72 ![] bcast_S_S100000x72 : (⟨S_, .f32⟩ : BufTy).Contents (Elt F) → (⟨S100000x72, .f32⟩ : BufTy).Contents (Elt F)) ]

/-- The operations of @main's window 1, the calls in it unfolded (83). -/
abbrev part1 : List (HloOp τ sig (Elt F)) :=
  [ StableHlo.unary main_v3 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)),
    StableHlo.unary main_arg6 main_v50 ((extractStridedSlice S1x72x72 ![0, 0, 0] · slices_S3x72x72_S1x72x72_0_0_0) : (⟨S3x72x72, .f32⟩ : BufTy).Contents (Elt F) → (⟨S1x72x72, .f32⟩ : BufTy).Contents (Elt F)),
    StableHlo.reshape main_v50 main_v51 rfl shapeCasts_S1x72x72_S72x72,
    StableHlo.binary main_v8 main_v51 main_v52 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.binary main_v49 main_v52 main_v53 (addf : (⟨S100000x72, .f32⟩ : BufTy).Contents (Elt F) → (⟨S100000x72, .f32⟩ : BufTy).Contents (Elt F) → (⟨S100000x72, .f32⟩ : BufTy).Contents (Elt F)),
    StableHlo.unary main_arg7 main_v54 ((extractStridedSlice S1x72 ![0, 0] · slices_S3x72_S1x72_0_0) : (⟨S3x72, .f32⟩ : BufTy).Contents (Elt F) → (⟨S1x72, .f32⟩ : BufTy).Contents (Elt F)),
    StableHlo.reshape main_v54 main_v55 rfl shapeCasts_S1x72_S72,
    StableHlo.unary main_v55 main_v56 (broadcastInDim S1x72 ![1] bcast_S72_S1x72_1 : (⟨S72, .f32⟩ : BufTy).Contents (Elt F) → (⟨S1x72, .f32⟩ : BufTy).Contents (Elt F)),
    StableHlo.unary main_v56 main_v57 (broadcastInDim S100000x72 ![0, 1] bcast_S1x72_S100000x72_0_1 : (⟨S1x72, .f32⟩ : BufTy).Contents (Elt F) → (⟨S100000x72, .f32⟩ : BufTy).Contents (Elt F)),
    StableHlo.binary main_v53 main_v57 main_v58 (addf : (⟨S100000x72, .f32⟩ : BufTy).Contents (Elt F) → (⟨S100000x72, .f32⟩ : BufTy).Contents (Elt F) → (⟨S100000x72, .f32⟩ : BufTy).Contents (Elt F)),
    StableHlo.TRef.nullary main_call2.cst (constant S_ .f32 0x00000000#32),
    StableHlo.TRef.unary main_call2.cst main_call2.v0 (broadcastInDim S100000x72 ![] bcast_S_S100000x72),
    StableHlo.TRef.binary (.of main_v58) main_call2.v0 main_call2.v1 maximumf,
    StableHlo.nullary main_cst_10 (constant S_ .f32 0x00000000#32),
    StableHlo.binary main_v59 main_cst_10 main_v60 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_11 (constant S_ .f32 0x47C35000#32),
    StableHlo.unary main_cst_11 main_v61 (broadcastInDim S72 ![] bcast_S_S72 : (⟨S_, .f32⟩ : BufTy).Contents (Elt F) → (⟨S72, .f32⟩ : BufTy).Contents (Elt F)),
    StableHlo.binary main_v60 main_v61 main_v62 (Host.divf : (⟨S72, .f32⟩ : BufTy).Contents (Elt F) → (⟨S72, .f32⟩ : BufTy).Contents (Elt F) → (⟨S72, .f32⟩ : BufTy).Contents (Elt F)),
    StableHlo.nullary main_c_12 (constantI S_ 32 0#32),
    StableHlo.TRef.nullary main_call3.cst (constant S_ .f32 0x00000000#32),
    StableHlo.TRef.binary (.of main_v59) main_call3.cst main_call3.v0 (fun x v => Host.reduceAdd x v reducesTo_S100000x72_S72_d0 h_S_),
    StableHlo.TRef.unary main_call3.v0 main_call3.v1 (broadcastInDim S1x72 ![1] bcast_S72_S1x72_1),
    StableHlo.TRef.nullary main_call3.cst_0 (constant S_ .f32 0x47C35000#32),
    StableHlo.TRef.unary main_call3.cst_0 main_call3.v2 (broadcastInDim S1x72 ![] bcast_S_S1x72),
    StableHlo.TRef.binary main_call3.v1 main_call3.v2 main_call3.v3 Host.divf,
    StableHlo.TRef.unary main_call3.v3 main_call3.v4 (broadcastInDim S100000x72 ![0, 1] bcast_S1x72_S100000x72_0_1),
    StableHlo.TRef.binary (.of main_v59) main_call3.v4 main_call3.v5 subf,
    StableHlo.TRef.binary main_call3.v5 main_call3.v5 main_call3.v6 mulf,
    StableHlo.TRef.unary (.of main_c_12) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x72_S72_d0 h_S_),
    StableHlo.TRef.unary main_call3.v8 main_call3.v10 (broadcastInDim S72 ![] bcast_S_S72),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S72 ![] bcast_S_S72),
    StableHlo.TRef.ternary main_call3.v12 main_call3.v11 main_call3.call0.v1 main_call3.call0.v2 (fun p a b => select (broadcastInDim S72 ![] bcast_S_S72 p) a b),
    StableHlo.unary main_arg8 main_v64 ((extractStridedSlice S1x72 ![0, 0] · slices_S3x72_S1x72_0_0) : (⟨S3x72, .f32⟩ : BufTy).Contents (Elt F) → (⟨S1x72, .f32⟩ : BufTy).Contents (Elt F)),
    StableHlo.reshape main_v64 main_v65 rfl shapeCasts_S1x72_S72,
    StableHlo.unary main_v62 main_v66 (broadcastInDim S1x72 ![1] bcast_S72_S1x72_1 : (⟨S72, .f32⟩ : BufTy).Contents (Elt F) → (⟨S1x72, .f32⟩ : BufTy).Contents (Elt F)),
    StableHlo.unary main_v66 main_v67 (broadcastInDim S100000x72 ![0, 1] bcast_S1x72_S100000x72_0_1 : (⟨S1x72, .f32⟩ : BufTy).Contents (Elt F) → (⟨S100000x72, .f32⟩ : BufTy).Contents (Elt F)),
    StableHlo.binary main_v59 main_v67 main_v68 (subf : (⟨S100000x72, .f32⟩ : BufTy).Contents (Elt F) → (⟨S100000x72, .f32⟩ : BufTy).Contents (Elt F) → (⟨S100000x72, .f32⟩ : BufTy).Contents (Elt F)),
    StableHlo.unary main_v65 main_v69 (broadcastInDim S1x72 ![1] bcast_S72_S1x72_1 : (⟨S72, .f32⟩ : BufTy).Contents (Elt F) → (⟨S1x72, .f32⟩ : BufTy).Contents (Elt F)),
    StableHlo.unary main_v69 main_v70 (broadcastInDim S100000x72 ![0, 1] bcast_S1x72_S100000x72_0_1 : (⟨S1x72, .f32⟩ : BufTy).Contents (Elt F) → (⟨S100000x72, .f32⟩ : BufTy).Contents (Elt F)),
    StableHlo.binary main_v70 main_v68 main_v71 (mulf : (⟨S100000x72, .f32⟩ : BufTy).Contents (Elt F) → (⟨S100000x72, .f32⟩ : BufTy).Contents (Elt F) → (⟨S100000x72, .f32⟩ : BufTy).Contents (Elt F)),
    StableHlo.nullary main_cst_13 (constant S_ .f32 0x3727C5AC#32),
    StableHlo.unary main_cst_13 main_v72 (broadcastInDim S72 ![] bcast_S_S72 : (⟨S_, .f32⟩ : BufTy).Contents (Elt F) → (⟨S72, .f32⟩ : BufTy).Contents (Elt F)),
    StableHlo.binary main_v63 main_v72 main_v73 (addf : (⟨S72, .f32⟩ : BufTy).Contents (Elt F) → (⟨S72, .f32⟩ : BufTy).Contents (Elt F) → (⟨S72, .f32⟩ : BufTy).Contents (Elt F)),
    StableHlo.unary main_v73 main_v74 (Host.rsqrt : (⟨S72, .f32⟩ : BufTy).Contents (Elt F) → (⟨S72, .f32⟩ : BufTy).Contents (Elt F)),
    StableHlo.unary main_v74 main_v75 (broadcastInDim S1x72 ![1] bcast_S72_S1x72_1 : (⟨S72, .f32⟩ : BufTy).Contents (Elt F) → (⟨S1x72, .f32⟩ : BufTy).Contents (Elt F)),
    StableHlo.unary main_v75 main_v76 (broadcastInDim S100000x72 ![0, 1] bcast_S1x72_S100000x72_0_1 : (⟨S1x72, .f32⟩ : BufTy).Contents (Elt F) → (⟨S100000x72, .f32⟩ : BufTy).Contents (Elt F)),
    StableHlo.binary main_v71 main_v76 main_v77 (mulf : (⟨S100000x72, .f32⟩ : BufTy).Contents (Elt F) → (⟨S100000x72, .f32⟩ : BufTy).Contents (Elt F) → (⟨S100000x72, .f32⟩ : BufTy).Contents (Elt F)),
    StableHlo.unary main_arg9 main_v78 ((extractStridedSlice S1x72 ![0, 0] · slices_S3x72_S1x72_0_0) : (⟨S3x72, .f32⟩ : BufTy).Contents (Elt F) → (⟨S1x72, .f32⟩ : BufTy).Contents (Elt F)),
    StableHlo.reshape main_v78 main_v79 rfl shapeCasts_S1x72_S72,
    StableHlo.unary main_v79 main_v80 (broadcastInDim S1x72 ![1] bcast_S72_S1x72_1 : (⟨S72, .f32⟩ : BufTy).Contents (Elt F) → (⟨S1x72, .f32⟩ : BufTy).Contents (Elt F)),
    StableHlo.unary main_v80 main_v81 (broadcastInDim S100000x72 ![0, 1] bcast_S1x72_S100000x72_0_1 : (⟨S1x72, .f32⟩ : BufTy).Contents (Elt F) → (⟨S100000x72, .f32⟩ : BufTy).Contents (Elt F)),
    StableHlo.binary main_v77 main_v81 main_v82 (addf : (⟨S100000x72, .f32⟩ : BufTy).Contents (Elt F) → (⟨S100000x72, .f32⟩ : BufTy).Contents (Elt F) → (⟨S100000x72, .f32⟩ : BufTy).Contents (Elt F)),
    StableHlo.unary main_arg5 main_v83 ((extractStridedSlice S1x72x72 ![1, 0, 0] · slices_S3x72x72_S1x72x72_1_0_0) : (⟨S3x72x72, .f32⟩ : BufTy).Contents (Elt F) → (⟨S1x72x72, .f32⟩ : BufTy).Contents (Elt F)),
    StableHlo.reshape main_v83 main_v84 rfl shapeCasts_S1x72x72_S72x72,
    StableHlo.binary main_v82 main_v84 main_v85 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.unary main_v33 main_v86 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v87 (broadcastInDim S1600000 ![] bcast_S_S1600000 : (⟨S_, .i32⟩ : BufTy).Contents (Elt F) → (⟨S1600000, .i32⟩ : BufTy).Contents (Elt F)),
    StableHlo.binary main_v1 main_v87 main_v88 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v89 (broadcastInDim S1600000 ![] bcast_S_S1600000 : (⟨S_, .i32⟩ : BufTy).Contents (Elt F) → (⟨S1600000, .i32⟩ : BufTy).Contents (Elt F)),
    StableHlo.binary main_v1 main_v89 main_v90 (addi : (⟨S1600000, .i32⟩ : BufTy).Contents (Elt F) → (⟨S1600000, .i32⟩ : BufTy).Contents (Elt F) → (⟨S1600000, .i32⟩ : BufTy).Contents (Elt F)),
    StableHlo.ternary main_v88 main_v90 main_v1 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v91 main_v92 (broadcastInDim S1600000x1 ![0] bcast_S1600000_S1600000x1_0 : (⟨S1600000, .i32⟩ : BufTy).Contents (Elt F) → (⟨S1600000x1, .i32⟩ : BufTy).Contents (Elt F)),
    StableHlo.binary main_v85 main_v92 main_v93 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v86 main_v94 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v94 main_v93 main_v95 (mulf : (⟨S1600000x72, .f32⟩ : BufTy).Contents (Elt F) → (⟨S1600000x72, .f32⟩ : BufTy).Contents (Elt F) → (⟨S1600000x72, .f32⟩ : BufTy).Contents (Elt F)),
    StableHlo.nullary main_cst_16 (constant S_ .f32 0x00000000#32),
    StableHlo.unary main_cst_16 main_v96 (broadcastInDim S100000x72 ![] bcast_S_S100000x72 : (⟨S_, .f32⟩ : BufTy).Contents (Elt F) → (⟨S100000x72, .f32⟩ : BufTy).Contents (Elt F)),
    StableHlo.unary main_v3 main_v97 (broadcastInDim S1600000x1 ![0] bcast_S1600000_S1600000x1_0 : (⟨S1600000, .i32⟩ : BufTy).Contents (Elt F) → (⟨S1600000x1, .i32⟩ : BufTy).Contents (Elt F)),
    StableHlo.ternary main_v96 main_v97 main_v95 main_v98 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)),
    StableHlo.unary main_arg6 main_v99 ((extractStridedSlice S1x72x72 ![1, 0, 0] · slices_S3x72x72_S1x72x72_1_0_0) : (⟨S3x72x72, .f32⟩ : BufTy).Contents (Elt F) → (⟨S1x72x72, .f32⟩ : BufTy).Contents (Elt F)),
    StableHlo.reshape main_v99 main_v100 rfl shapeCasts_S1x72x72_S72x72 ]

/-- The operations of @main's window 2, the calls in it unfolded (83). -/
abbrev part2 : List (HloOp τ sig (Elt F)) :=
  [ StableHlo.binary main_v82 main_v100 main_v101 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.binary main_v98 main_v101 main_v102 (addf : (⟨S100000x72, .f32⟩ : BufTy).Contents (Elt F) → (⟨S100000x72, .f32⟩ : BufTy).Contents (Elt F) → (⟨S100000x72, .f32⟩ : BufTy).Contents (Elt F)),
    StableHlo.unary main_arg7 main_v103 ((extractStridedSlice S1x72 ![1, 0] · slices_S3x72_S1x72_1_0) : (⟨S3x72, .f32⟩ : BufTy).Contents (Elt F) → (⟨S1x72, .f32⟩ : BufTy).Contents (Elt F)),
    StableHlo.reshape main_v103 main_v104 rfl shapeCasts_S1x72_S72,
    StableHlo.unary main_v104 main_v105 (broadcastInDim S1x72 ![1] bcast_S72_S1x72_1 : (⟨S72, .f32⟩ : BufTy).Contents (Elt F) → (⟨S1x72, .f32⟩ : BufTy).Contents (Elt F)),
    StableHlo.unary main_v105 main_v106 (broadcastInDim S100000x72 ![0, 1] bcast_S1x72_S100000x72_0_1 : (⟨S1x72, .f32⟩ : BufTy).Contents (Elt F) → (⟨S100000x72, .f32⟩ : BufTy).Contents (Elt F)),
    StableHlo.binary main_v102 main_v106 main_v107 (addf : (⟨S100000x72, .f32⟩ : BufTy).Contents (Elt F) → (⟨S100000x72, .f32⟩ : BufTy).Contents (Elt F) → (⟨S100000x72, .f32⟩ : BufTy).Contents (Elt F)),
    StableHlo.TRef.nullary main_call4.cst (constant S_ .f32 0x00000000#32),
    StableHlo.TRef.unary main_call4.cst main_call4.v0 (broadcastInDim S100000x72 ![] bcast_S_S100000x72),
    StableHlo.TRef.binary (.of main_v107) main_call4.v0 main_call4.v1 maximumf,
    StableHlo.nullary main_cst_17 (constant S_ .f32 0x00000000#32),
    StableHlo.binary main_v108 main_cst_17 main_v109 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_18 (constant S_ .f32 0x47C35000#32),
    StableHlo.unary main_cst_18 main_v110 (broadcastInDim S72 ![] bcast_S_S72 : (⟨S_, .f32⟩ : BufTy).Contents (Elt F) → (⟨S72, .f32⟩ : BufTy).Contents (Elt F)),
    StableHlo.binary main_v109 main_v110 main_v111 (Host.divf : (⟨S72, .f32⟩ : BufTy).Contents (Elt F) → (⟨S72, .f32⟩ : BufTy).Contents (Elt F) → (⟨S72, .f32⟩ : BufTy).Contents (Elt F)),
    StableHlo.nullary main_c_19 (constantI S_ 32 0#32),
    StableHlo.TRef.nullary main_call5.cst (constant S_ .f32 0x00000000#32),
    StableHlo.TRef.binary (.of main_v108) main_call5.cst main_call5.v0 (fun x v => Host.reduceAdd x v reducesTo_S100000x72_S72_d0 h_S_),
    StableHlo.TRef.unary main_call5.v0 main_call5.v1 (broadcastInDim S1x72 ![1] bcast_S72_S1x72_1),
    StableHlo.TRef.nullary main_call5.cst_0 (constant S_ .f32 0x47C35000#32),
    StableHlo.TRef.unary main_call5.cst_0 main_call5.v2 (broadcastInDim S1x72 ![] bcast_S_S1x72),
    StableHlo.TRef.binary main_call5.v1 main_call5.v2 main_call5.v3 Host.divf,
    StableHlo.TRef.unary main_call5.v3 main_call5.v4 (broadcastInDim S100000x72 ![0, 1] bcast_S1x72_S100000x72_0_1),
    StableHlo.TRef.binary (.of main_v108) main_call5.v4 main_call5.v5 subf,
    StableHlo.TRef.binary main_call5.v5 main_call5.v5 main_call5.v6 mulf,
    StableHlo.TRef.unary (.of main_c_19) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x72_S72_d0 h_S_),
    StableHlo.TRef.unary main_call5.v8 main_call5.v10 (broadcastInDim S72 ![] bcast_S_S72),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S72 ![] bcast_S_S72),
    StableHlo.TRef.ternary main_call5.v12 main_call5.v11 main_call5.call0.v1 main_call5.call0.v2 (fun p a b => select (broadcastInDim S72 ![] bcast_S_S72 p) a b),
    StableHlo.unary main_arg8 main_v113 ((extractStridedSlice S1x72 ![1, 0] · slices_S3x72_S1x72_1_0) : (⟨S3x72, .f32⟩ : BufTy).Contents (Elt F) → (⟨S1x72, .f32⟩ : BufTy).Contents (Elt F)),
    StableHlo.reshape main_v113 main_v114 rfl shapeCasts_S1x72_S72,
    StableHlo.unary main_v111 main_v115 (broadcastInDim S1x72 ![1] bcast_S72_S1x72_1 : (⟨S72, .f32⟩ : BufTy).Contents (Elt F) → (⟨S1x72, .f32⟩ : BufTy).Contents (Elt F)),
    StableHlo.unary main_v115 main_v116 (broadcastInDim S100000x72 ![0, 1] bcast_S1x72_S100000x72_0_1 : (⟨S1x72, .f32⟩ : BufTy).Contents (Elt F) → (⟨S100000x72, .f32⟩ : BufTy).Contents (Elt F)),
    StableHlo.binary main_v108 main_v116 main_v117 (subf : (⟨S100000x72, .f32⟩ : BufTy).Contents (Elt F) → (⟨S100000x72, .f32⟩ : BufTy).Contents (Elt F) → (⟨S100000x72, .f32⟩ : BufTy).Contents (Elt F)),
    StableHlo.unary main_v114 main_v118 (broadcastInDim S1x72 ![1] bcast_S72_S1x72_1 : (⟨S72, .f32⟩ : BufTy).Contents (Elt F) → (⟨S1x72, .f32⟩ : BufTy).Contents (Elt F)),
    StableHlo.unary main_v118 main_v119 (broadcastInDim S100000x72 ![0, 1] bcast_S1x72_S100000x72_0_1 : (⟨S1x72, .f32⟩ : BufTy).Contents (Elt F) → (⟨S100000x72, .f32⟩ : BufTy).Contents (Elt F)),
    StableHlo.binary main_v119 main_v117 main_v120 (mulf : (⟨S100000x72, .f32⟩ : BufTy).Contents (Elt F) → (⟨S100000x72, .f32⟩ : BufTy).Contents (Elt F) → (⟨S100000x72, .f32⟩ : BufTy).Contents (Elt F)),
    StableHlo.nullary main_cst_20 (constant S_ .f32 0x3727C5AC#32),
    StableHlo.unary main_cst_20 main_v121 (broadcastInDim S72 ![] bcast_S_S72 : (⟨S_, .f32⟩ : BufTy).Contents (Elt F) → (⟨S72, .f32⟩ : BufTy).Contents (Elt F)),
    StableHlo.binary main_v112 main_v121 main_v122 (addf : (⟨S72, .f32⟩ : BufTy).Contents (Elt F) → (⟨S72, .f32⟩ : BufTy).Contents (Elt F) → (⟨S72, .f32⟩ : BufTy).Contents (Elt F)),
    StableHlo.unary main_v122 main_v123 (Host.rsqrt : (⟨S72, .f32⟩ : BufTy).Contents (Elt F) → (⟨S72, .f32⟩ : BufTy).Contents (Elt F)),
    StableHlo.unary main_v123 main_v124 (broadcastInDim S1x72 ![1] bcast_S72_S1x72_1 : (⟨S72, .f32⟩ : BufTy).Contents (Elt F) → (⟨S1x72, .f32⟩ : BufTy).Contents (Elt F)),
    StableHlo.unary main_v124 main_v125 (broadcastInDim S100000x72 ![0, 1] bcast_S1x72_S100000x72_0_1 : (⟨S1x72, .f32⟩ : BufTy).Contents (Elt F) → (⟨S100000x72, .f32⟩ : BufTy).Contents (Elt F)),
    StableHlo.binary main_v120 main_v125 main_v126 (mulf : (⟨S100000x72, .f32⟩ : BufTy).Contents (Elt F) → (⟨S100000x72, .f32⟩ : BufTy).Contents (Elt F) → (⟨S100000x72, .f32⟩ : BufTy).Contents (Elt F)),
    StableHlo.unary main_arg9 main_v127 ((extractStridedSlice S1x72 ![1, 0] · slices_S3x72_S1x72_1_0) : (⟨S3x72, .f32⟩ : BufTy).Contents (Elt F) → (⟨S1x72, .f32⟩ : BufTy).Contents (Elt F)),
    StableHlo.reshape main_v127 main_v128 rfl shapeCasts_S1x72_S72,
    StableHlo.unary main_v128 main_v129 (broadcastInDim S1x72 ![1] bcast_S72_S1x72_1 : (⟨S72, .f32⟩ : BufTy).Contents (Elt F) → (⟨S1x72, .f32⟩ : BufTy).Contents (Elt F)),
    StableHlo.unary main_v129 main_v130 (broadcastInDim S100000x72 ![0, 1] bcast_S1x72_S100000x72_0_1 : (⟨S1x72, .f32⟩ : BufTy).Contents (Elt F) → (⟨S100000x72, .f32⟩ : BufTy).Contents (Elt F)),
    StableHlo.binary main_v126 main_v130 main_v131 (addf : (⟨S100000x72, .f32⟩ : BufTy).Contents (Elt F) → (⟨S100000x72, .f32⟩ : BufTy).Contents (Elt F) → (⟨S100000x72, .f32⟩ : BufTy).Contents (Elt F)),
    StableHlo.unary main_arg5 main_v132 ((extractStridedSlice S1x72x72 ![2, 0, 0] · slices_S3x72x72_S1x72x72_2_0_0) : (⟨S3x72x72, .f32⟩ : BufTy).Contents (Elt F) → (⟨S1x72x72, .f32⟩ : BufTy).Contents (Elt F)),
    StableHlo.reshape main_v132 main_v133 rfl shapeCasts_S1x72x72_S72x72,
    StableHlo.binary main_v131 main_v133 main_v134 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.unary main_v33 main_v135 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v136 (broadcastInDim S1600000 ![] bcast_S_S1600000 : (⟨S_, .i32⟩ : BufTy).Contents (Elt F) → (⟨S1600000, .i32⟩ : BufTy).Contents (Elt F)),
    StableHlo.binary main_v1 main_v136 main_v137 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 100000#32),
    StableHlo.unary main_c_22 main_v138 (broadcastInDim S1600000 ![] bcast_S_S1600000 : (⟨S_, .i32⟩ : BufTy).Contents (Elt F) → (⟨S1600000, .i32⟩ : BufTy).Contents (Elt F)),
    StableHlo.binary main_v1 main_v138 main_v139 (addi : (⟨S1600000, .i32⟩ : BufTy).Contents (Elt F) → (⟨S1600000, .i32⟩ : BufTy).Contents (Elt F) → (⟨S1600000, .i32⟩ : BufTy).Contents (Elt F)),
    StableHlo.ternary main_v137 main_v139 main_v1 main_v140 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v140 main_v141 (broadcastInDim S1600000x1 ![0] bcast_S1600000_S1600000x1_0 : (⟨S1600000, .i32⟩ : BufTy).Contents (Elt F) → (⟨S1600000x1, .i32⟩ : BufTy).Contents (Elt F)),
    StableHlo.binary main_v134 main_v141 main_v142 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.unary main_v135 main_v143 (broadcastInDim S1600000x72 ![0, 1] bcast_S1600000x1_S1600000x72_0_1 : (⟨S1600000x1, .f32⟩ : BufTy).Contents (Elt F) → (⟨S1600000x72, .f32⟩ : BufTy).Contents (Elt F)),
    StableHlo.binary main_v143 main_v142 main_v144 (mulf : (⟨S1600000x72, .f32⟩ : BufTy).Contents (Elt F) → (⟨S1600000x72, .f32⟩ : BufTy).Contents (Elt F) → (⟨S1600000x72, .f32⟩ : BufTy).Contents (Elt F)),
    StableHlo.nullary main_cst_23 (constant S_ .f32 0x00000000#32),
    StableHlo.unary main_cst_23 main_v145 (broadcastInDim S100000x72 ![] bcast_S_S100000x72 : (⟨S_, .f32⟩ : BufTy).Contents (Elt F) → (⟨S100000x72, .f32⟩ : BufTy).Contents (Elt F)),
    StableHlo.unary main_v3 main_v146 (broadcastInDim S1600000x1 ![0] bcast_S1600000_S1600000x1_0 : (⟨S1600000, .i32⟩ : BufTy).Contents (Elt F) → (⟨S1600000x1, .i32⟩ : BufTy).Contents (Elt F)),
    StableHlo.ternary main_v145 main_v146 main_v144 main_v147 ((fun x i u => Host.scatterAdd scatter_S100000x72_S1600000x1_S1600000x72_1_0_0_1 x i u) : (⟨S100000x72, .f32⟩ : BufTy).Contents (Elt F) → (⟨S1600000x1, .i32⟩ : BufTy).Contents (Elt F) → (⟨S1600000x72, .f32⟩ : BufTy).Contents (Elt F) → (⟨S100000x72, .f32⟩ : BufTy).Contents (Elt F)),
    StableHlo.unary main_arg6 main_v148 ((extractStridedSlice S1x72x72 ![2, 0, 0] · slices_S3x72x72_S1x72x72_2_0_0) : (⟨S3x72x72, .f32⟩ : BufTy).Contents (Elt F) → (⟨S1x72x72, .f32⟩ : BufTy).Contents (Elt F)),
    StableHlo.reshape main_v148 main_v149 rfl shapeCasts_S1x72x72_S72x72,
    StableHlo.binary main_v131 main_v149 main_v150 ((fun l r => Host.dotGeneral dot_S100000x72_S72x72_S100000x72_1_0_0_1_n_n none l r) : (⟨S100000x72, .f32⟩ : BufTy).Contents (Elt F) → (⟨S72x72, .f32⟩ : BufTy).Contents (Elt F) → (⟨S100000x72, .f32⟩ : BufTy).Contents (Elt F)),
    StableHlo.binary main_v147 main_v150 main_v151 (addf : (⟨S100000x72, .f32⟩ : BufTy).Contents (Elt F) → (⟨S100000x72, .f32⟩ : BufTy).Contents (Elt F) → (⟨S100000x72, .f32⟩ : BufTy).Contents (Elt F)),
    StableHlo.unary main_arg7 main_v152 ((extractStridedSlice S1x72 ![2, 0] · slices_S3x72_S1x72_2_0) : (⟨S3x72, .f32⟩ : BufTy).Contents (Elt F) → (⟨S1x72, .f32⟩ : BufTy).Contents (Elt F)),
    StableHlo.reshape main_v152 main_v153 rfl shapeCasts_S1x72_S72 ]

/-- The operations of @main's window 3, the calls in it unfolded (83). -/
abbrev part3 : List (HloOp τ sig (Elt F)) :=
  [ StableHlo.unary main_v153 main_v154 (broadcastInDim S1x72 ![1] bcast_S72_S1x72_1 : (⟨S72, .f32⟩ : BufTy).Contents (Elt F) → (⟨S1x72, .f32⟩ : BufTy).Contents (Elt F)),
    StableHlo.unary main_v154 main_v155 (broadcastInDim S100000x72 ![0, 1] bcast_S1x72_S100000x72_0_1 : (⟨S1x72, .f32⟩ : BufTy).Contents (Elt F) → (⟨S100000x72, .f32⟩ : BufTy).Contents (Elt F)),
    StableHlo.binary main_v151 main_v155 main_v156 (addf : (⟨S100000x72, .f32⟩ : BufTy).Contents (Elt F) → (⟨S100000x72, .f32⟩ : BufTy).Contents (Elt F) → (⟨S100000x72, .f32⟩ : BufTy).Contents (Elt F)),
    StableHlo.TRef.nullary main_call6.cst (constant S_ .f32 0x00000000#32),
    StableHlo.TRef.unary main_call6.cst main_call6.v0 (broadcastInDim S100000x72 ![] bcast_S_S100000x72),
    StableHlo.TRef.binary (.of main_v156) main_call6.v0 main_call6.v1 maximumf,
    StableHlo.nullary main_cst_24 (constant S_ .f32 0x00000000#32),
    StableHlo.binary main_v157 main_cst_24 main_v158 ((fun x v => Host.reduceAdd x v reducesTo_S100000x72_S72_d0 h_S_) : (⟨S100000x72, .f32⟩ : BufTy).Contents (Elt F) → (⟨S_, .f32⟩ : BufTy).Contents (Elt F) → (⟨S72, .f32⟩ : BufTy).Contents (Elt F)),
    StableHlo.nullary main_cst_25 (constant S_ .f32 0x47C35000#32),
    StableHlo.unary main_cst_25 main_v159 (broadcastInDim S72 ![] bcast_S_S72 : (⟨S_, .f32⟩ : BufTy).Contents (Elt F) → (⟨S72, .f32⟩ : BufTy).Contents (Elt F)),
    StableHlo.binary main_v158 main_v159 main_v160 (Host.divf : (⟨S72, .f32⟩ : BufTy).Contents (Elt F) → (⟨S72, .f32⟩ : BufTy).Contents (Elt F) → (⟨S72, .f32⟩ : BufTy).Contents (Elt F)),
    StableHlo.nullary main_c_26 (constantI S_ 32 0#32),
    StableHlo.TRef.nullary main_call7.cst (constant S_ .f32 0x00000000#32),
    StableHlo.TRef.binary (.of main_v157) main_call7.cst main_call7.v0 (fun x v => Host.reduceAdd x v reducesTo_S100000x72_S72_d0 h_S_),
    StableHlo.TRef.unary main_call7.v0 main_call7.v1 (broadcastInDim S1x72 ![1] bcast_S72_S1x72_1),
    StableHlo.TRef.nullary main_call7.cst_0 (constant S_ .f32 0x47C35000#32),
    StableHlo.TRef.unary main_call7.cst_0 main_call7.v2 (broadcastInDim S1x72 ![] bcast_S_S1x72),
    StableHlo.TRef.binary main_call7.v1 main_call7.v2 main_call7.v3 Host.divf,
    StableHlo.TRef.unary main_call7.v3 main_call7.v4 (broadcastInDim S100000x72 ![0, 1] bcast_S1x72_S100000x72_0_1),
    StableHlo.TRef.binary (.of main_v157) main_call7.v4 main_call7.v5 subf,
    StableHlo.TRef.binary main_call7.v5 main_call7.v5 main_call7.v6 mulf,
    StableHlo.TRef.unary (.of main_c_26) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x72_S72_d0 h_S_),
    StableHlo.TRef.unary main_call7.v8 main_call7.v10 (broadcastInDim S72 ![] bcast_S_S72),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S72 ![] bcast_S_S72),
    StableHlo.TRef.ternary main_call7.v12 main_call7.v11 main_call7.call0.v1 main_call7.call0.v2 (fun p a b => select (broadcastInDim S72 ![] bcast_S_S72 p) a b),
    StableHlo.unary main_arg8 main_v162 ((extractStridedSlice S1x72 ![2, 0] · slices_S3x72_S1x72_2_0) : (⟨S3x72, .f32⟩ : BufTy).Contents (Elt F) → (⟨S1x72, .f32⟩ : BufTy).Contents (Elt F)),
    StableHlo.reshape main_v162 main_v163 rfl shapeCasts_S1x72_S72,
    StableHlo.unary main_v160 main_v164 (broadcastInDim S1x72 ![1] bcast_S72_S1x72_1 : (⟨S72, .f32⟩ : BufTy).Contents (Elt F) → (⟨S1x72, .f32⟩ : BufTy).Contents (Elt F)),
    StableHlo.unary main_v164 main_v165 (broadcastInDim S100000x72 ![0, 1] bcast_S1x72_S100000x72_0_1 : (⟨S1x72, .f32⟩ : BufTy).Contents (Elt F) → (⟨S100000x72, .f32⟩ : BufTy).Contents (Elt F)),
    StableHlo.binary main_v157 main_v165 main_v166 (subf : (⟨S100000x72, .f32⟩ : BufTy).Contents (Elt F) → (⟨S100000x72, .f32⟩ : BufTy).Contents (Elt F) → (⟨S100000x72, .f32⟩ : BufTy).Contents (Elt F)),
    StableHlo.unary main_v163 main_v167 (broadcastInDim S1x72 ![1] bcast_S72_S1x72_1 : (⟨S72, .f32⟩ : BufTy).Contents (Elt F) → (⟨S1x72, .f32⟩ : BufTy).Contents (Elt F)),
    StableHlo.unary main_v167 main_v168 (broadcastInDim S100000x72 ![0, 1] bcast_S1x72_S100000x72_0_1 : (⟨S1x72, .f32⟩ : BufTy).Contents (Elt F) → (⟨S100000x72, .f32⟩ : BufTy).Contents (Elt F)),
    StableHlo.binary main_v168 main_v166 main_v169 (mulf : (⟨S100000x72, .f32⟩ : BufTy).Contents (Elt F) → (⟨S100000x72, .f32⟩ : BufTy).Contents (Elt F) → (⟨S100000x72, .f32⟩ : BufTy).Contents (Elt F)),
    StableHlo.nullary main_cst_27 (constant S_ .f32 0x3727C5AC#32),
    StableHlo.unary main_cst_27 main_v170 (broadcastInDim S72 ![] bcast_S_S72 : (⟨S_, .f32⟩ : BufTy).Contents (Elt F) → (⟨S72, .f32⟩ : BufTy).Contents (Elt F)),
    StableHlo.binary main_v161 main_v170 main_v171 (addf : (⟨S72, .f32⟩ : BufTy).Contents (Elt F) → (⟨S72, .f32⟩ : BufTy).Contents (Elt F) → (⟨S72, .f32⟩ : BufTy).Contents (Elt F)),
    StableHlo.unary main_v171 main_v172 (Host.rsqrt : (⟨S72, .f32⟩ : BufTy).Contents (Elt F) → (⟨S72, .f32⟩ : BufTy).Contents (Elt F)),
    StableHlo.unary main_v172 main_v173 (broadcastInDim S1x72 ![1] bcast_S72_S1x72_1 : (⟨S72, .f32⟩ : BufTy).Contents (Elt F) → (⟨S1x72, .f32⟩ : BufTy).Contents (Elt F)),
    StableHlo.unary main_v173 main_v174 (broadcastInDim S100000x72 ![0, 1] bcast_S1x72_S100000x72_0_1 : (⟨S1x72, .f32⟩ : BufTy).Contents (Elt F) → (⟨S100000x72, .f32⟩ : BufTy).Contents (Elt F)),
    StableHlo.binary main_v169 main_v174 main_v175 (mulf : (⟨S100000x72, .f32⟩ : BufTy).Contents (Elt F) → (⟨S100000x72, .f32⟩ : BufTy).Contents (Elt F) → (⟨S100000x72, .f32⟩ : BufTy).Contents (Elt F)),
    StableHlo.unary main_arg9 main_v176 ((extractStridedSlice S1x72 ![2, 0] · slices_S3x72_S1x72_2_0) : (⟨S3x72, .f32⟩ : BufTy).Contents (Elt F) → (⟨S1x72, .f32⟩ : BufTy).Contents (Elt F)),
    StableHlo.reshape main_v176 main_v177 rfl shapeCasts_S1x72_S72,
    StableHlo.unary main_v177 main_v178 (broadcastInDim S1x72 ![1] bcast_S72_S1x72_1 : (⟨S72, .f32⟩ : BufTy).Contents (Elt F) → (⟨S1x72, .f32⟩ : BufTy).Contents (Elt F)),
    StableHlo.unary main_v178 main_v179 (broadcastInDim S100000x72 ![0, 1] bcast_S1x72_S100000x72_0_1 : (⟨S1x72, .f32⟩ : BufTy).Contents (Elt F) → (⟨S100000x72, .f32⟩ : BufTy).Contents (Elt F)),
    StableHlo.binary main_v175 main_v179 main_v180 (addf : (⟨S100000x72, .f32⟩ : BufTy).Contents (Elt F) → (⟨S100000x72, .f32⟩ : BufTy).Contents (Elt F) → (⟨S100000x72, .f32⟩ : BufTy).Contents (Elt F)),
    StableHlo.nullary main_c_28 (constantI S_ 32 0#32),
    StableHlo.unary main_c_28 main_v181 (broadcastInDim S1600000 ![] bcast_S_S1600000 : (⟨S_, .i32⟩ : BufTy).Contents (Elt F) → (⟨S1600000, .i32⟩ : BufTy).Contents (Elt F)),
    StableHlo.binary main_v1 main_v181 main_v182 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v183 (broadcastInDim S1600000 ![] bcast_S_S1600000 : (⟨S_, .i32⟩ : BufTy).Contents (Elt F) → (⟨S1600000, .i32⟩ : BufTy).Contents (Elt F)),
    StableHlo.binary main_v1 main_v183 main_v184 (addi : (⟨S1600000, .i32⟩ : BufTy).Contents (Elt F) → (⟨S1600000, .i32⟩ : BufTy).Contents (Elt F) → (⟨S1600000, .i32⟩ : BufTy).Contents (Elt F)),
    StableHlo.ternary main_v182 main_v184 main_v1 main_v185 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v185 main_v186 (broadcastInDim S1600000x1 ![0] bcast_S1600000_S1600000x1_0 : (⟨S1600000, .i32⟩ : BufTy).Contents (Elt F) → (⟨S1600000x1, .i32⟩ : BufTy).Contents (Elt F)),
    StableHlo.binary main_v180 main_v186 main_v187 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.nullary main_c_30 (constantI S_ 32 0#32),
    StableHlo.unary main_c_30 main_v188 (broadcastInDim S1600000 ![] bcast_S_S1600000 : (⟨S_, .i32⟩ : BufTy).Contents (Elt F) → (⟨S1600000, .i32⟩ : BufTy).Contents (Elt F)),
    StableHlo.binary main_v3 main_v188 main_v189 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v190 (broadcastInDim S1600000 ![] bcast_S_S1600000 : (⟨S_, .i32⟩ : BufTy).Contents (Elt F) → (⟨S1600000, .i32⟩ : BufTy).Contents (Elt F)),
    StableHlo.binary main_v3 main_v190 main_v191 (addi : (⟨S1600000, .i32⟩ : BufTy).Contents (Elt F) → (⟨S1600000, .i32⟩ : BufTy).Contents (Elt F) → (⟨S1600000, .i32⟩ : BufTy).Contents (Elt F)),
    StableHlo.ternary main_v189 main_v191 main_v3 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v192 main_v193 (broadcastInDim S1600000x1 ![0] bcast_S1600000_S1600000x1_0 : (⟨S1600000, .i32⟩ : BufTy).Contents (Elt F) → (⟨S1600000x1, .i32⟩ : BufTy).Contents (Elt F)),
    StableHlo.binary main_v180 main_v193 main_v194 ((fun x i => Host.gather gather_S100000x72_S1600000x1_S1600000x72_1_0_n_n_0_1_172 x i) : (⟨S100000x72, .f32⟩ : BufTy).Contents (Elt F) → (⟨S1600000x1, .i32⟩ : BufTy).Contents (Elt F) → (⟨S1600000x72, .f32⟩ : BufTy).Contents (Elt F)),
    StableHlo.binary main_v187 main_v194 main_v195 ((fun a b => concatenate S1600000x144 1 [⟨S1600000x72, a⟩, ⟨S1600000x72, b⟩] concatenates_S1600000x72_S1600000x72_S1600000x144_d1) : (⟨S1600000x72, .f32⟩ : BufTy).Contents (Elt F) → (⟨S1600000x72, .f32⟩ : BufTy).Contents (Elt F) → (⟨S1600000x144, .f32⟩ : BufTy).Contents (Elt F)),
    StableHlo.binary main_v195 main_arg10 main_v196 ((fun l r => Host.dotGeneral dot_S1600000x144_S144x72_S1600000x72_1_0_0_1_n_n none l r) : (⟨S1600000x144, .f32⟩ : BufTy).Contents (Elt F) → (⟨S144x72, .f32⟩ : BufTy).Contents (Elt F) → (⟨S1600000x72, .f32⟩ : BufTy).Contents (Elt F)),
    StableHlo.unary main_arg11 main_v197 (broadcastInDim S1x72 ![1] bcast_S72_S1x72_1 : (⟨S72, .f32⟩ : BufTy).Contents (Elt F) → (⟨S1x72, .f32⟩ : BufTy).Contents (Elt F)),
    StableHlo.unary main_v197 main_v198 (broadcastInDim S1600000x72 ![0, 1] bcast_S1x72_S1600000x72_0_1 : (⟨S1x72, .f32⟩ : BufTy).Contents (Elt F) → (⟨S1600000x72, .f32⟩ : BufTy).Contents (Elt F)),
    StableHlo.binary main_v196 main_v198 main_v199 (addf : (⟨S1600000x72, .f32⟩ : BufTy).Contents (Elt F) → (⟨S1600000x72, .f32⟩ : BufTy).Contents (Elt F) → (⟨S1600000x72, .f32⟩ : BufTy).Contents (Elt F)),
    StableHlo.binary main_arg2 main_arg12 main_v200 ((fun l r => Host.dotGeneral dot_S1600000x8_S8x72_S1600000x72_1_0_0_1_n_n none l r) : (⟨S1600000x8, .f32⟩ : BufTy).Contents (Elt F) → (⟨S8x72, .f32⟩ : BufTy).Contents (Elt F) → (⟨S1600000x72, .f32⟩ : BufTy).Contents (Elt F)),
    StableHlo.unary main_arg13 main_v201 (broadcastInDim S1x72 ![1] bcast_S72_S1x72_1 : (⟨S72, .f32⟩ : BufTy).Contents (Elt F) → (⟨S1x72, .f32⟩ : BufTy).Contents (Elt F)),
    StableHlo.unary main_v201 main_v202 (broadcastInDim S1600000x72 ![0, 1] bcast_S1x72_S1600000x72_0_1 : (⟨S1x72, .f32⟩ : BufTy).Contents (Elt F) → (⟨S1600000x72, .f32⟩ : BufTy).Contents (Elt F)),
    StableHlo.binary main_v200 main_v202 main_v203 (addf : (⟨S1600000x72, .f32⟩ : BufTy).Contents (Elt F) → (⟨S1600000x72, .f32⟩ : BufTy).Contents (Elt F) → (⟨S1600000x72, .f32⟩ : BufTy).Contents (Elt F)),
    StableHlo.binary main_v199 main_v203 main_v204 ((fun a b => concatenate S1600000x144 1 [⟨S1600000x72, a⟩, ⟨S1600000x72, b⟩] concatenates_S1600000x72_S1600000x72_S1600000x144_d1) : (⟨S1600000x72, .f32⟩ : BufTy).Contents (Elt F) → (⟨S1600000x72, .f32⟩ : BufTy).Contents (Elt F) → (⟨S1600000x144, .f32⟩ : BufTy).Contents (Elt F)),
    StableHlo.binary main_v204 main_arg14 main_v205 ((fun l r => Host.dotGeneral dot_S1600000x144_S144x72_S1600000x72_1_0_0_1_n_n none l r) : (⟨S1600000x144, .f32⟩ : BufTy).Contents (Elt F) → (⟨S144x72, .f32⟩ : BufTy).Contents (Elt F) → (⟨S1600000x72, .f32⟩ : BufTy).Contents (Elt F)) ]

/-- The operations of @main's window 4, the calls in it unfolded (9). -/
abbrev part4 : List (HloOp τ sig (Elt F)) :=
  [ StableHlo.unary main_arg15 main_v206 (broadcastInDim S1x72 ![1] bcast_S72_S1x72_1 : (⟨S72, .f32⟩ : BufTy).Contents (Elt F) → (⟨S1x72, .f32⟩ : BufTy).Contents (Elt F)),
    StableHlo.unary main_v206 main_v207 (broadcastInDim S1600000x72 ![0, 1] bcast_S1x72_S1600000x72_0_1 : (⟨S1x72, .f32⟩ : BufTy).Contents (Elt F) → (⟨S1600000x72, .f32⟩ : BufTy).Contents (Elt F)),
    StableHlo.binary main_v205 main_v207 main_v208 (addf : (⟨S1600000x72, .f32⟩ : BufTy).Contents (Elt F) → (⟨S1600000x72, .f32⟩ : BufTy).Contents (Elt F) → (⟨S1600000x72, .f32⟩ : BufTy).Contents (Elt F)),
    StableHlo.unary main_v208 main_v209 (Host.tanh : (⟨S1600000x72, .f32⟩ : BufTy).Contents (Elt F) → (⟨S1600000x72, .f32⟩ : BufTy).Contents (Elt F)),
    StableHlo.binary main_v209 main_arg16 main_v210 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)),
    StableHlo.unary main_arg17 main_v211 (broadcastInDim S1x1 ![1] bcast_S1_S1x1_1 : (⟨S1, .f32⟩ : BufTy).Contents (Elt F) → (⟨S1x1, .f32⟩ : BufTy).Contents (Elt F)),
    StableHlo.unary main_v211 main_v212 (broadcastInDim S1600000x1 ![0, 1] bcast_S1x1_S1600000x1_0_1 : (⟨S1x1, .f32⟩ : BufTy).Contents (Elt F) → (⟨S1600000x1, .f32⟩ : BufTy).Contents (Elt F)),
    StableHlo.binary main_v210 main_v212 main_v213 (addf : (⟨S1600000x1, .f32⟩ : BufTy).Contents (Elt F) → (⟨S1600000x1, .f32⟩ : BufTy).Contents (Elt F) → (⟨S1600000x1, .f32⟩ : BufTy).Contents (Elt F)),
    StableHlo.reshape main_v213 main_v214 rfl shapeCasts_S1600000x1_S1600000 ]

-- one rewrite under the chain per statement: deeper than the default recursion bound
set_option maxRecDepth 4096 in
/-- Window 0 is that straight line: the functions' bodies unfolded at their calls, both sides are one chain of
    steps once sequencing is reassociated. -/
theorem part0_eq (d : Dev nD) : main_part0 (F := F) d = seq part0 := by
  simp only [main_part0, fn_relu.body, fn_where.body, fn_where_0.body, fn_var.body, seq, bind_assoc, pure_bind]
  <;> rfl

-- one rewrite under the chain per statement: deeper than the default recursion bound
set_option maxRecDepth 4096 in
/-- Window 1 is that straight line: the functions' bodies unfolded at their calls, both sides are one chain of
    steps once sequencing is reassociated. -/
theorem part1_eq (d : Dev nD) : main_part1 (F := F) d = seq part1 := by
  simp only [main_part1, fn_relu.body, fn_where.body, fn_where_0.body, fn_var.body, seq, bind_assoc, pure_bind]
  <;> rfl

-- one rewrite under the chain per statement: deeper than the default recursion bound
set_option maxRecDepth 4096 in
/-- Window 2 is that straight line: the functions' bodies unfolded at their calls, both sides are one chain of
    steps once sequencing is reassociated. -/
theorem part2_eq (d : Dev nD) : main_part2 (F := F) d = seq part2 := by
  simp only [main_part2, fn_relu.body, fn_where.body, fn_where_0.body, fn_var.body, seq, bind_assoc, pure_bind]
  <;> rfl

-- one rewrite under the chain per statement: deeper than the default recursion bound
set_option maxRecDepth 4096 in
/-- Window 3 is that straight line: the functions' bodies unfolded at their calls, both sides are one chain of
    steps once sequencing is reassociated. -/
theorem part3_eq (d : Dev nD) : main_part3 (F := F) d = seq part3 := by
  simp only [main_part3, fn_relu.body, fn_where.body, fn_where_0.body, fn_var.body, seq, bind_assoc, pure_bind]
  <;> rfl

-- one rewrite under the chain per statement: deeper than the default recursion bound
set_option maxRecDepth 4096 in
/-- Window 4 is that straight line: the functions' bodies unfolded at their calls, both sides are one chain of
    steps once sequencing is reassociated. -/
theorem part4_eq (d : Dev nD) : main_part4 (F := F) d = seq part4 := by
  simp only [main_part4, fn_relu.body, fn_where.body, fn_where_0.body, fn_var.body, seq, bind_assoc, pure_bind]
  <;> rfl

universe u in
/-- A property of every member of two lists holds of every member of their concatenation. -/
theorem forall_mem_append {α : Type u} {p : α → Prop} {l₁ l₂ : List α} (h₁ : ∀ a ∈ l₁, p a) (h₂ : ∀ a ∈ l₂, p a) :
    ∀ a ∈ l₁ ++ l₂, p a :=
  fun a ha => (List.mem_append.mp ha).elim (h₁ a) (h₂ a)

set_option maxRecDepth 8192 in
set_option maxHeartbeats 1000000 in
/-- The five windows in a row are the segments in a row: both sides are the same literal list once the
    concatenations are carried out. -/
theorem parts_ops : part0 ++ (part1 ++ (part2 ++ (part3 ++ part4))) = (ops : List (HloOp τ sig (Elt F))) := by
  simp only [ops, part0, part1, part2, part3, part4, segIdx, segNode, segNorm, segWi0, segT0, segAgg0, segWr0, segRoot0, segBias0, segBn0, segWi1, segT1, segAgg1, segWr1, segRoot1, segBias1, segBn1, segWi2, segT2, segAgg2, segWr2, segRoot2, segBias2, segBn2, segGather, segMlp, List.cons_append, List.nil_append, List.append_assoc]

/-- @main is the straight line `ops`: its five windows run in order, and lines run in a row are their
    concatenation run as one. -/
theorem main_eq (d : Dev nD) : main (F := F) d = seq ops := by
  have h : main (F := F) d = seq (part0 ++ (part1 ++ (part2 ++ (part3 ++ part4)))) := by
    rw [seq_append, seq_append, seq_append, seq_append, ← part0_eq d, ← part1_eq d, ← part2_eq d, ← part3_eq d, ← part4_eq d]
    rfl
  rw [h, parts_ops]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! Every operation touches references of the device only, and determines its results. -/

theorem segIdx_sub : (segIdx : List (HloOp τ sig (Elt F))).Forall fun op => op.bufs ⊆ tcRefs τ sig :=
  ⟨unary_bufs_sub .., reshape_bufs_sub .., unary_bufs_sub .., reshape_bufs_sub ..⟩
theorem segIdx_fresh : (segIdx : List (HloOp τ sig (Elt F))).Forall fun op => op.fresh = ∅ :=
  ⟨rfl, rfl, rfl, rfl⟩

theorem segNode_sub : (segNode : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem segNode_fresh : (segNode : List (HloOp τ sig (Elt F))).Forall fun op => op.fresh = ∅ :=
  ⟨rfl, rfl, rfl, rfl, rfl, rfl, rfl⟩

theorem segNorm_sub : (segNorm : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem segNorm_fresh : (segNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segWi0_sub : (segWi0 : List (HloOp τ sig (Elt F))).Forall fun op => op.bufs ⊆ tcRefs τ sig :=
  ⟨unary_bufs_sub .., reshape_bufs_sub ..⟩
theorem segWi0_fresh : (segWi0 : List (HloOp τ sig (Elt F))).Forall fun op => op.fresh = ∅ :=
  ⟨rfl, rfl⟩

theorem segT0_sub : (segT0 : List (HloOp τ sig (Elt F))).Forall fun op => op.bufs ⊆ tcRefs τ sig :=
  binary_bufs_sub ..
theorem segT0_fresh : (segT0 : List (HloOp τ sig (Elt F))).Forall fun op => op.fresh = ∅ :=
  rfl

theorem segAgg0_sub : (segAgg0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segAgg0_fresh : (segAgg0 : List (HloOp τ sig (Elt F))).Forall fun op => op.fresh = ∅ :=
  ⟨rfl, rfl, rfl, rfl, rfl, rfl, rfl, rfl, rfl, rfl, rfl, rfl, rfl, rfl, rfl, rfl⟩

theorem segWr0_sub : (segWr0 : List (HloOp τ sig (Elt F))).Forall fun op => op.bufs ⊆ tcRefs τ sig :=
  ⟨unary_bufs_sub .., reshape_bufs_sub ..⟩
theorem segWr0_fresh : (segWr0 : List (HloOp τ sig (Elt F))).Forall fun op => op.fresh = ∅ :=
  ⟨rfl, rfl⟩

theorem segRoot0_sub : (segRoot0 : List (HloOp τ sig (Elt F))).Forall fun op => op.bufs ⊆ tcRefs τ sig :=
  binary_bufs_sub ..
theorem segRoot0_fresh : (segRoot0 : List (HloOp τ sig (Elt F))).Forall fun op => op.fresh = ∅ :=
  rfl

theorem segBias0_sub : (segBias0 : List (HloOp τ sig (Elt F))).Forall fun op => op.bufs ⊆ tcRefs τ sig :=
  ⟨binary_bufs_sub .., unary_bufs_sub .., reshape_bufs_sub .., unary_bufs_sub .., unary_bufs_sub .., binary_bufs_sub ..⟩
theorem segBias0_fresh : (segBias0 : List (HloOp τ sig (Elt F))).Forall fun op => op.fresh = ∅ :=
  ⟨rfl, rfl, rfl, rfl, rfl, rfl⟩

theorem segBn0_sub : (segBn0 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
theorem segBn0_fresh : (segBn0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segWi1_sub : (segWi1 : List (HloOp τ sig (Elt F))).Forall fun op => op.bufs ⊆ tcRefs τ sig :=
  ⟨unary_bufs_sub .., reshape_bufs_sub ..⟩
theorem segWi1_fresh : (segWi1 : List (HloOp τ sig (Elt F))).Forall fun op => op.fresh = ∅ :=
  ⟨rfl, rfl⟩

theorem segT1_sub : (segT1 : List (HloOp τ sig (Elt F))).Forall fun op => op.bufs ⊆ tcRefs τ sig :=
  binary_bufs_sub ..
theorem segT1_fresh : (segT1 : List (HloOp τ sig (Elt F))).Forall fun op => op.fresh = ∅ :=
  rfl

theorem segAgg1_sub : (segAgg1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segAgg1_fresh : (segAgg1 : List (HloOp τ sig (Elt F))).Forall fun op => op.fresh = ∅ :=
  ⟨rfl, rfl, rfl, rfl, rfl, rfl, rfl, rfl, rfl, rfl, rfl, rfl, rfl, rfl, rfl, rfl⟩

theorem segWr1_sub : (segWr1 : List (HloOp τ sig (Elt F))).Forall fun op => op.bufs ⊆ tcRefs τ sig :=
  ⟨unary_bufs_sub .., reshape_bufs_sub ..⟩
theorem segWr1_fresh : (segWr1 : List (HloOp τ sig (Elt F))).Forall fun op => op.fresh = ∅ :=
  ⟨rfl, rfl⟩

theorem segRoot1_sub : (segRoot1 : List (HloOp τ sig (Elt F))).Forall fun op => op.bufs ⊆ tcRefs τ sig :=
  binary_bufs_sub ..
theorem segRoot1_fresh : (segRoot1 : List (HloOp τ sig (Elt F))).Forall fun op => op.fresh = ∅ :=
  rfl

theorem segBias1_sub : (segBias1 : List (HloOp τ sig (Elt F))).Forall fun op => op.bufs ⊆ tcRefs τ sig :=
  ⟨binary_bufs_sub .., unary_bufs_sub .., reshape_bufs_sub .., unary_bufs_sub .., unary_bufs_sub .., binary_bufs_sub ..⟩
theorem segBias1_fresh : (segBias1 : List (HloOp τ sig (Elt F))).Forall fun op => op.fresh = ∅ :=
  ⟨rfl, rfl, rfl, rfl, rfl, rfl⟩

theorem segBn1_sub : (segBn1 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
theorem segBn1_fresh : (segBn1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segWi2_sub : (segWi2 : List (HloOp τ sig (Elt F))).Forall fun op => op.bufs ⊆ tcRefs τ sig :=
  ⟨unary_bufs_sub .., reshape_bufs_sub ..⟩
theorem segWi2_fresh : (segWi2 : List (HloOp τ sig (Elt F))).Forall fun op => op.fresh = ∅ :=
  ⟨rfl, rfl⟩

theorem segT2_sub : (segT2 : List (HloOp τ sig (Elt F))).Forall fun op => op.bufs ⊆ tcRefs τ sig :=
  binary_bufs_sub ..
theorem segT2_fresh : (segT2 : List (HloOp τ sig (Elt F))).Forall fun op => op.fresh = ∅ :=
  rfl

theorem segAgg2_sub : (segAgg2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem segAgg2_fresh : (segAgg2 : List (HloOp τ sig (Elt F))).Forall fun op => op.fresh = ∅ :=
  ⟨rfl, rfl, rfl, rfl, rfl, rfl, rfl, rfl, rfl, rfl, rfl, rfl, rfl, rfl, rfl, rfl⟩

theorem segWr2_sub : (segWr2 : List (HloOp τ sig (Elt F))).Forall fun op => op.bufs ⊆ tcRefs τ sig :=
  ⟨unary_bufs_sub .., reshape_bufs_sub ..⟩
theorem segWr2_fresh : (segWr2 : List (HloOp τ sig (Elt F))).Forall fun op => op.fresh = ∅ :=
  ⟨rfl, rfl⟩

theorem segRoot2_sub : (segRoot2 : List (HloOp τ sig (Elt F))).Forall fun op => op.bufs ⊆ tcRefs τ sig :=
  binary_bufs_sub ..
theorem segRoot2_fresh : (segRoot2 : List (HloOp τ sig (Elt F))).Forall fun op => op.fresh = ∅ :=
  rfl

theorem segBias2_sub : (segBias2 : List (HloOp τ sig (Elt F))).Forall fun op => op.bufs ⊆ tcRefs τ sig :=
  ⟨binary_bufs_sub .., unary_bufs_sub .., reshape_bufs_sub .., unary_bufs_sub .., unary_bufs_sub .., binary_bufs_sub ..⟩
theorem segBias2_fresh : (segBias2 : List (HloOp τ sig (Elt F))).Forall fun op => op.fresh = ∅ :=
  ⟨rfl, rfl, rfl, rfl, rfl, rfl⟩

theorem segBn2_sub : (segBn2 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
theorem segBn2_fresh : (segBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segGather_sub : (segGather : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem segGather_fresh : (segGather : List (HloOp τ sig (Elt F))).Forall fun op => op.fresh = ∅ :=
  ⟨rfl, rfl, rfl, rfl, rfl, rfl, rfl, rfl, rfl, rfl, rfl, rfl, rfl, rfl, rfl, rfl, rfl, rfl⟩

theorem segMlp_sub : (segMlp : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., reshape_bufs_sub ..⟩
theorem segMlp_fresh : (segMlp : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops_sub_mem : ∀ op ∈ (ops : List (HloOp τ sig (Elt F))), op.bufs ⊆ tcRefs τ sig :=
  forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (List.forall_iff_forall_mem.mp segIdx_sub) (List.forall_iff_forall_mem.mp segNode_sub)) (List.forall_iff_forall_mem.mp segNorm_sub)) (List.forall_iff_forall_mem.mp segWi0_sub)) (List.forall_iff_forall_mem.mp segT0_sub)) (List.forall_iff_forall_mem.mp segAgg0_sub)) (List.forall_iff_forall_mem.mp segWr0_sub)) (List.forall_iff_forall_mem.mp segRoot0_sub)) (List.forall_iff_forall_mem.mp segBias0_sub)) (List.forall_iff_forall_mem.mp segBn0_sub)) (List.forall_iff_forall_mem.mp segWi1_sub)) (List.forall_iff_forall_mem.mp segT1_sub)) (List.forall_iff_forall_mem.mp segAgg1_sub)) (List.forall_iff_forall_mem.mp segWr1_sub)) (List.forall_iff_forall_mem.mp segRoot1_sub)) (List.forall_iff_forall_mem.mp segBias1_sub)) (List.forall_iff_forall_mem.mp segBn1_sub)) (List.forall_iff_forall_mem.mp segWi2_sub)) (List.forall_iff_forall_mem.mp segT2_sub)) (List.forall_iff_forall_mem.mp segAgg2_sub)) (List.forall_iff_forall_mem.mp segWr2_sub)) (List.forall_iff_forall_mem.mp segRoot2_sub)) (List.forall_iff_forall_mem.mp segBias2_sub)) (List.forall_iff_forall_mem.mp segBn2_sub)) (List.forall_iff_forall_mem.mp segGather_sub)) (List.forall_iff_forall_mem.mp segMlp_sub)
theorem ops_fresh_mem : ∀ op ∈ (ops : List (HloOp τ sig (Elt F))), op.fresh = ∅ :=
  forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (List.forall_iff_forall_mem.mp segIdx_fresh) (List.forall_iff_forall_mem.mp segNode_fresh)) (List.forall_iff_forall_mem.mp segNorm_fresh)) (List.forall_iff_forall_mem.mp segWi0_fresh)) (List.forall_iff_forall_mem.mp segT0_fresh)) (List.forall_iff_forall_mem.mp segAgg0_fresh)) (List.forall_iff_forall_mem.mp segWr0_fresh)) (List.forall_iff_forall_mem.mp segRoot0_fresh)) (List.forall_iff_forall_mem.mp segBias0_fresh)) (List.forall_iff_forall_mem.mp segBn0_fresh)) (List.forall_iff_forall_mem.mp segWi1_fresh)) (List.forall_iff_forall_mem.mp segT1_fresh)) (List.forall_iff_forall_mem.mp segAgg1_fresh)) (List.forall_iff_forall_mem.mp segWr1_fresh)) (List.forall_iff_forall_mem.mp segRoot1_fresh)) (List.forall_iff_forall_mem.mp segBias1_fresh)) (List.forall_iff_forall_mem.mp segBn1_fresh)) (List.forall_iff_forall_mem.mp segWi2_fresh)) (List.forall_iff_forall_mem.mp segT2_fresh)) (List.forall_iff_forall_mem.mp segAgg2_fresh)) (List.forall_iff_forall_mem.mp segWr2_fresh)) (List.forall_iff_forall_mem.mp segRoot2_fresh)) (List.forall_iff_forall_mem.mp segBias2_fresh)) (List.forall_iff_forall_mem.mp segBn2_fresh)) (List.forall_iff_forall_mem.mp segGather_fresh)) (List.forall_iff_forall_mem.mp segMlp_fresh)

/-- The operation list under a name that is not unfolded: a statement over it is read without walking the list. -/
@[irreducible] def opsI : List (HloOp τ sig (Elt F)) := ops
theorem opsI_eq : (opsI : List (HloOp τ sig (Elt F))) = ops := by unfold opsI; rfl

theorem opsI_sub : (opsI : List (HloOp τ sig (Elt F))).Forall fun op => op.bufs ⊆ tcRefs τ sig :=
  List.forall_iff_forall_mem.mpr fun op h => ops_sub_mem op (by rw [opsI_eq] at h; exact h)
theorem opsI_fresh : ∀ op ∈ (opsI : List (HloOp τ sig (Elt F))), op.fresh = ∅ :=
  fun op h => ops_fresh_mem op (by rw [opsI_eq] at h; exact h)
theorem mainI_eq (d : Dev nD) : main (F := F) d = seq opsI := (main_eq d).trans (congrArg seq opsI_eq.symm)

/-- On every device, for any float values, from any memory with zero counters: every weakly fair execution of
    @main terminates, and every final state has each buffer of the device at the operations' fold over its
    contents at launch. -/
theorem run (m : (ℓ : Loc nD τ sig) → Buf (Elt F) ℓ) (ρ : Dev nD → PrngReg) :
    θ_run defs (onTc (τ := τ) (main (F := F))) ⟨m, fun _ => 0, ρ⟩ (fun r =>
      ∀ (d : Dev nD) (b : Ref sig .tc),
        r.2.mem ((d.tc : Thread nD τ).loc b) = StableHlo.after ops (StableHlo.launchContents m d) (Proc.devRef .tc b)) := by
  have h := run_seq scopedRefs_eq scopedSems_eq defs main (fun _ => opsI (F := F)) mainI_eq (fun _ => opsI_sub) m ρ
    (fun _ => opsI_fresh)
  rw [opsI_eq] at h
  exact h

end Cert.ReferenceIdeal.RefRun

end
-- ==== Proof.SimBase.lean ====
/-
  Two small facts about the fold `StableHlo.after` of a line of host operations over buffer contents.

  * The fold of a concatenation is the fold of the second line over the fold of the first.
  * (`after_results_at h`: the library's evaluation of such a fold, applied to a hypothesis.)
  * A buffer that no operation of a line writes holds after the line what it held before.  The side condition
    "no operation writes it" is a finite check over the literal line: each operation writes exactly its result
    buffer, and two references differ when their indices do.  The tactic `line_keeps` runs that check for a
    line given by name.
-/
import Idealize.ShloMosaic.Lib.StableHlo.Run

noncomputable section

namespace Cert.Sim

open Idealize.ShloMosaic

variable {τ : Topo} {sig : RefSig} {Val : EltTy → Type}

/-- Running two lines one after the other is running their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => simp only [List.cons_append, StableHlo.after_cons, ih]

/-- `line_keeps [L₁, L₂, …]` closes a goal `StableHlo.after L V (Proc.devRef .tc b) = V (Proc.devRef .tc b)` where the
    line `L` is a literal list, possibly behind the definitions `L₁, L₂, …`: no operation of the line writes `b`. -/
syntax "line_keeps" "[" ident,* "]" : tactic
macro_rules
  | `(tactic| line_keeps [$ls,*]) =>
    `(tactic| exact StableHlo.after_of_forall_not_mem _ _ (List.forall_iff_forall_mem.mp (by
        simp only [$[$ls:ident],*, List.flatten_cons, List.flatten_nil, List.append_nil, List.cons_append, List.nil_append,
          List.Forall, StableHlo.nullary_writes, StableHlo.unary_writes, StableHlo.binary_writes, StableHlo.ternary_writes,
          StableHlo.quaternary_writes, StableHlo.reshape_writes, StableHlo.binaryIndexed_writes, StableHlo.nary_writes,
          StableHlo.unaryIndexed_writes, Finset.mem_singleton]
        repeat' apply And.intro
        all_goals exact StableHlo.devRef_ne_of_ne (by decide))))

/-- The library's one-pass evaluation of a fold over a literal line, at a hypothesis. -/
macro "after_results_at" h:ident : tactic =>
  `(tactic| simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne',
      StableHlo.unaryIndexed_result_ne', StableHlo.binaryIndexed_result_ne'] at $h:ident)

end Cert.Sim

end
-- ==== Proof.RefArgs.lean ====
/- The plain program leaves its argument arrays as it found them.

  The program is one straight line of host operations, cut into segments; each segment writes only its own result
  buffers, so a buffer outside every segment's results holds after the whole line what it held before. The eighteen
  argument arrays are such buffers. With the run of the line read back buffer by buffer, this is the frame claim:
  the program terminates and its arguments end unchanged. -/
import proofs.«122625_j53163105190631_2_alg».proof.Proof.RefOps
import proofs.«122625_j53163105190631_2_alg».proof.Proof.SimBase
import proofs.«122625_j53163105190631_2_alg».proof.Proof.Gen.Pre_finite_inputs
import proofs.«122625_j53163105190631_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer that is a result of no segment holds after the whole line what it held before: the line is the segments
    one after the other, and each keeps it. -/
theorem ops_keeps (V : Valuation τ sig (Elt F)) (r : Ref sig .tc)
    (h : r ∉ segIdx_W ++ segNode_W ++ segNorm_W ++ segWi0_W ++ segT0_W ++ segAgg0_W ++ segWr0_W ++ segRoot0_W ++ segBias0_W ++ segBn0_W ++ segWi1_W ++ segT1_W ++ segAgg1_W ++ segWr1_W ++ segRoot1_W ++ segBias1_W ++ segBn1_W ++ segWi2_W ++ segT2_W ++ segAgg2_W ++ segWr2_W ++ segRoot2_W ++ segBias2_W ++ segBn2_W ++ segGather_W ++ segMlp_W) :
    StableHlo.after (ops (F := F)) V (Proc.devRef .tc r) = V (Proc.devRef .tc r) := by
  simp only [List.mem_append, not_or] at h
  obtain ⟨⟨⟨⟨⟨⟨⟨⟨⟨⟨⟨⟨⟨⟨⟨⟨⟨⟨⟨⟨⟨⟨⟨⟨⟨hIdx, hNode⟩, hNorm⟩, hWi0⟩, hT0⟩, hAgg0⟩, hWr0⟩, hRoot0⟩, hBias0⟩, hBn0⟩, hWi1⟩, hT1⟩, hAgg1⟩, hWr1⟩, hRoot1⟩, hBias1⟩, hBn1⟩, hWi2⟩, hT2⟩, hAgg2⟩, hWr2⟩, hRoot2⟩, hBias2⟩, hBn2⟩, hGather⟩, hMlp⟩ := h
  simp only [ops, Cert.Sim.after_append]
  rw [segMlp_keeps _ r hMlp, segGather_keeps _ r hGather, segBn2_keeps _ r hBn2, segBias2_keeps _ r hBias2, segRoot2_keeps _ r hRoot2, segWr2_keeps _ r hWr2, segAgg2_keeps _ r hAgg2, segT2_keeps _ r hT2, segWi2_keeps _ r hWi2, segBn1_keeps _ r hBn1, segBias1_keeps _ r hBias1, segRoot1_keeps _ r hRoot1, segWr1_keeps _ r hWr1, segAgg1_keeps _ r hAgg1, segT1_keeps _ r hT1, segWi1_keeps _ r hWi1, segBn0_keeps _ r hBn0, segBias0_keeps _ r hBias0, segRoot0_keeps _ r hRoot0, segWr0_keeps _ r hWr0, segAgg0_keeps _ r hAgg0, segT0_keeps _ r hT0, segWi0_keeps _ r hWi0, segNorm_keeps _ r hNorm, segNode_keeps _ r hNode, segIdx_keeps _ r hIdx]

/-! ## The argument arrays -/

theorem ops_keeps_arg0 (V : Valuation τ sig (Elt F)) :
    StableHlo.after (ops (F := F)) V (Proc.devRef .tc main_arg0) = V (Proc.devRef .tc main_arg0) :=
  ops_keeps V main_arg0 (by decide)
theorem ops_keeps_arg1 (V : Valuation τ sig (Elt F)) :
    StableHlo.after (ops (F := F)) V (Proc.devRef .tc main_arg1) = V (Proc.devRef .tc main_arg1) :=
  ops_keeps V main_arg1 (by decide)
theorem ops_keeps_arg2 (V : Valuation τ sig (Elt F)) :
    StableHlo.after (ops (F := F)) V (Proc.devRef .tc main_arg2) = V (Proc.devRef .tc main_arg2) :=
  ops_keeps V main_arg2 (by decide)
theorem ops_keeps_arg3 (V : Valuation τ sig (Elt F)) :
    StableHlo.after (ops (F := F)) V (Proc.devRef .tc main_arg3) = V (Proc.devRef .tc main_arg3) :=
  ops_keeps V main_arg3 (by decide)
theorem ops_keeps_arg4 (V : Valuation τ sig (Elt F)) :
    StableHlo.after (ops (F := F)) V (Proc.devRef .tc main_arg4) = V (Proc.devRef .tc main_arg4) :=
  ops_keeps V main_arg4 (by decide)
theorem ops_keeps_arg5 (V : Valuation τ sig (Elt F)) :
    StableHlo.after (ops (F := F)) V (Proc.devRef .tc main_arg5) = V (Proc.devRef .tc main_arg5) :=
  ops_keeps V main_arg5 (by decide)
theorem ops_keeps_arg6 (V : Valuation τ sig (Elt F)) :
    StableHlo.after (ops (F := F)) V (Proc.devRef .tc main_arg6) = V (Proc.devRef .tc main_arg6) :=
  ops_keeps V main_arg6 (by decide)
theorem ops_keeps_arg7 (V : Valuation τ sig (Elt F)) :
    StableHlo.after (ops (F := F)) V (Proc.devRef .tc main_arg7) = V (Proc.devRef .tc main_arg7) :=
  ops_keeps V main_arg7 (by decide)
theorem ops_keeps_arg8 (V : Valuation τ sig (Elt F)) :
    StableHlo.after (ops (F := F)) V (Proc.devRef .tc main_arg8) = V (Proc.devRef .tc main_arg8) :=
  ops_keeps V main_arg8 (by decide)
theorem ops_keeps_arg9 (V : Valuation τ sig (Elt F)) :
    StableHlo.after (ops (F := F)) V (Proc.devRef .tc main_arg9) = V (Proc.devRef .tc main_arg9) :=
  ops_keeps V main_arg9 (by decide)
theorem ops_keeps_arg10 (V : Valuation τ sig (Elt F)) :
    StableHlo.after (ops (F := F)) V (Proc.devRef .tc main_arg10) = V (Proc.devRef .tc main_arg10) :=
  ops_keeps V main_arg10 (by decide)
theorem ops_keeps_arg11 (V : Valuation τ sig (Elt F)) :
    StableHlo.after (ops (F := F)) V (Proc.devRef .tc main_arg11) = V (Proc.devRef .tc main_arg11) :=
  ops_keeps V main_arg11 (by decide)
theorem ops_keeps_arg12 (V : Valuation τ sig (Elt F)) :
    StableHlo.after (ops (F := F)) V (Proc.devRef .tc main_arg12) = V (Proc.devRef .tc main_arg12) :=
  ops_keeps V main_arg12 (by decide)
theorem ops_keeps_arg13 (V : Valuation τ sig (Elt F)) :
    StableHlo.after (ops (F := F)) V (Proc.devRef .tc main_arg13) = V (Proc.devRef .tc main_arg13) :=
  ops_keeps V main_arg13 (by decide)
theorem ops_keeps_arg14 (V : Valuation τ sig (Elt F)) :
    StableHlo.after (ops (F := F)) V (Proc.devRef .tc main_arg14) = V (Proc.devRef .tc main_arg14) :=
  ops_keeps V main_arg14 (by decide)
theorem ops_keeps_arg15 (V : Valuation τ sig (Elt F)) :
    StableHlo.after (ops (F := F)) V (Proc.devRef .tc main_arg15) = V (Proc.devRef .tc main_arg15) :=
  ops_keeps V main_arg15 (by decide)
theorem ops_keeps_arg16 (V : Valuation τ sig (Elt F)) :
    StableHlo.after (ops (F := F)) V (Proc.devRef .tc main_arg16) = V (Proc.devRef .tc main_arg16) :=
  ops_keeps V main_arg16 (by decide)
theorem ops_keeps_arg17 (V : Valuation τ sig (Elt F)) :
    StableHlo.after (ops (F := F)) V (Proc.devRef .tc main_arg17) = V (Proc.devRef .tc main_arg17) :=
  ops_keeps V main_arg17 (by decide)

/-! ## The frame claim from the run -/

/-- When the run of @main ends with every buffer at the line's fold over the launch contents, the program runs and its
    argument arrays end unchanged. -/
theorem frame_ri_of
    (hrun : ∀ (m : (ℓ : Loc nD τ sig) → Buf (Elt Ideal) ℓ) (ρ : Dev nD → PrngReg),
      θ_run defs (onTc (τ := τ) (main (F := Ideal))) ⟨m, fun _ => 0, ρ⟩ (fun r => ∀ (d : Dev nD) (b : Ref sig .tc),
        r.2.mem ((d.tc : Thread nD τ).loc b) = StableHlo.after (ops (F := Ideal)) (StableHlo.launchContents m d) (Proc.devRef .tc b))) :
    Cert.frame_ReferenceIdeal := fun m ρ _ =>
  (θ_run defs _ _).mono (fun _ h c => ⟨(h c main_arg0).trans (ops_keeps_arg0 _),
      (h c main_arg1).trans (ops_keeps_arg1 _),
      (h c main_arg2).trans (ops_keeps_arg2 _),
      (h c main_arg3).trans (ops_keeps_arg3 _),
      (h c main_arg4).trans (ops_keeps_arg4 _),
      (h c main_arg5).trans (ops_keeps_arg5 _),
      (h c main_arg6).trans (ops_keeps_arg6 _),
      (h c main_arg7).trans (ops_keeps_arg7 _),
      (h c main_arg8).trans (ops_keeps_arg8 _),
      (h c main_arg9).trans (ops_keeps_arg9 _),
      (h c main_arg10).trans (ops_keeps_arg10 _),
      (h c main_arg11).trans (ops_keeps_arg11 _),
      (h c main_arg12).trans (ops_keeps_arg12 _),
      (h c main_arg13).trans (ops_keeps_arg13 _),
      (h c main_arg14).trans (ops_keeps_arg14 _),
      (h c main_arg15).trans (ops_keeps_arg15 _),
      (h c main_arg16).trans (ops_keeps_arg16 _),
      (h c main_arg17).trans (ops_keeps_arg17 _)⟩)
    (hrun m ρ)

end Cert.ReferenceIdeal.RefRun

end
-- ==== Proof.KCarry.lean ====
/-
  Buffers carried unchanged along the kernel program's run.

  The generated frame describes core c's buffer contents at every segment boundary: `W0` at the launch, then one
  boundary per stretch of host operations and per region (`W1` … `W31`).  A stretch keeps every buffer outside its
  result list; a region keeps every buffer that is not one of its arrays.  Here these steps are composed over the
  runs of boundaries between two regions, for an arbitrary buffer r with the finite side conditions as hypotheses.
-/
import proofs.«122625_j53163105190631_2_alg».proof.Proof.Gen.KernelIdeal.Frame
import proofs.«122625_j53163105190631_2_alg».proof.Proof.KWrites

set_option maxRecDepth 16384

noncomputable section

namespace Cert.KernelIdeal.KCarry

open Idealize.ShloMosaic Idealize.ShloMosaic.TcCoe Cert.KernelIdeal Cert.KernelIdeal.Gen Cert.KernelIdeal.KWrites

variable {F : FTy → Type} [FloatOps F]
variable (m : (ℓ : Loc nD τ sig) → Buf (Elt F) ℓ) (ρ : Dev nD → PrngReg) (c : Dev nD)

/-- From the launch to the first region's entry. -/
theorem keep_0to1 (r : Ref sig .tc) (h : r ∉ hostOps0_W) :
    W1 m ρ c (Proc.devRef .tc r) = W0 m ρ c (Proc.devRef .tc r) :=
  hostOps0_keeps _ r h

/-- Across the stretches between the first and the second region. -/
theorem keep_2to5 (r : Ref sig .tc) (h : r ∉ hostOps1_W ++ hostOps1_1_W ++ hostOps1_2_W) :
    W5 m ρ c (Proc.devRef .tc r) = W2 m ρ c (Proc.devRef .tc r) := by
  simp only [List.mem_append, not_or] at h
  obtain ⟨⟨h1, h2⟩, h3⟩ := h
  exact (hostOps1_2_keeps _ r h3).trans ((hostOps1_1_keeps _ r h2).trans (hostOps1_keeps _ r h1))

/-- Across the stretches between the second and the third region. -/
theorem keep_6to11 (r : Ref sig .tc) (h : r ∉ hostOps2_W ++ hostOps2_1_W ++ hostOps2_2_W ++ hostOps2_3_W ++ hostOps2_4_W) :
    W11 m ρ c (Proc.devRef .tc r) = W6 m ρ c (Proc.devRef .tc r) := by
  simp only [List.mem_append, not_or] at h
  obtain ⟨⟨⟨⟨h1, h2⟩, h3⟩, h4⟩, h5⟩ := h
  exact (hostOps2_4_keeps _ r h5).trans ((hostOps2_3_keeps _ r h4).trans ((hostOps2_2_keeps _ r h3).trans
    ((hostOps2_1_keeps _ r h2).trans (hostOps2_keeps _ r h1))))

/-- Across the stretches between the third and the fourth region. -/
theorem keep_12to17 (r : Ref sig .tc) (h : r ∉ hostOps3_W ++ hostOps3_1_W ++ hostOps3_2_W ++ hostOps3_3_W ++ hostOps3_4_W) :
    W17 m ρ c (Proc.devRef .tc r) = W12 m ρ c (Proc.devRef .tc r) := by
  simp only [List.mem_append, not_or] at h
  obtain ⟨⟨⟨⟨h1, h2⟩, h3⟩, h4⟩, h5⟩ := h
  exact (hostOps3_4_keeps _ r h5).trans ((hostOps3_3_keeps _ r h4).trans ((hostOps3_2_keeps _ r h3).trans
    ((hostOps3_1_keeps _ r h2).trans (hostOps3_keeps _ r h1))))

/-- Across the first five stretches after the fourth region (up to the last layer's output and its narrowing). -/
theorem keep_18to23 (r : Ref sig .tc) (h : r ∉ hostOps4_W ++ hostOps4_1_W ++ hostOps4_2_W ++ hostOps4_3_W ++ hostOps4_4_W) :
    W23 m ρ c (Proc.devRef .tc r) = W18 m ρ c (Proc.devRef .tc r) := by
  simp only [List.mem_append, not_or] at h
  obtain ⟨⟨⟨⟨h1, h2⟩, h3⟩, h4⟩, h5⟩ := h
  exact (hostOps4_4_keeps _ r h5).trans ((hostOps4_3_keeps _ r h4).trans ((hostOps4_2_keeps _ r h3).trans
    ((hostOps4_1_keeps _ r h2).trans (hostOps4_keeps _ r h1))))

/-- Across the remaining stretches before the last region (the paddings, the index tables, the two row gathers). -/
theorem keep_23to29 (r : Ref sig .tc)
    (h : r ∉ hostOps4_5_W ++ hostOps4_6_W ++ hostOps4_7_W ++ hostOps4_8_W ++ hostOps4_9_W ++ hostOps4_10_W) :
    W29 m ρ c (Proc.devRef .tc r) = W23 m ρ c (Proc.devRef .tc r) := by
  simp only [List.mem_append, not_or] at h
  obtain ⟨⟨⟨⟨⟨h1, h2⟩, h3⟩, h4⟩, h5⟩, h6⟩ := h
  exact (hostOps4_10_keeps _ r h6).trans ((hostOps4_9_keeps _ r h5).trans ((hostOps4_8_keeps _ r h4).trans
    ((hostOps4_7_keeps _ r h3).trans ((hostOps4_6_keeps _ r h2).trans (hostOps4_5_keeps _ r h1)))))

end Cert.KernelIdeal.KCarry

end
-- ==== Proof.KAt.lean ====
/-
  Buffers the kernel program never rewrites after its first stretch, read at the later boundaries.

  For a buffer r outside the result lists of the stretches passed and outside the arrays of the regions passed, the
  contents at a later boundary are the contents at the first region's entry (`W1`); the side conditions are finite
  checks, supplied by `decide` at each use.  An argument is also kept by the first stretch, so it is read back to the
  launch contents (`W0`).
-/
import proofs.«122625_j53163105190631_2_alg».proof.Proof.Gen.KernelIdeal.Frame
import proofs.«122625_j53163105190631_2_alg».proof.Proof.KWrites
import proofs.«122625_j53163105190631_2_alg».proof.Proof.KCarry

set_option maxRecDepth 16384

noncomputable section

namespace Cert.KernelIdeal.KAt

open Idealize.ShloMosaic Idealize.ShloMosaic.TcCoe Cert.KernelIdeal Cert.KernelIdeal.Gen Cert.KernelIdeal.KWrites
  Cert.KernelIdeal.KCarry

variable {F : FTy → Type} [FloatOps F]
variable (m : (ℓ : Loc nD τ sig) → Buf (Elt F) ℓ) (ρ : Dev nD → PrngReg) (c : Dev nD)

theorem k0 (r : Ref sig .tc) (h0 : r ∉ hostOps0_W := by decide) : W1 m ρ c (Proc.devRef .tc r) = W0 m ρ c (Proc.devRef .tc r) :=
  keep_0to1 m ρ c r h0

theorem k2 (r : Ref sig .tc) (hr0 : ∀ w, Pipeline.arrRef spec0 w ≠ r := by decide) : W2 m ρ c (Proc.devRef .tc r) = W1 m ρ c (Proc.devRef .tc r) :=
  W2_of_ne m ρ c r hr0

theorem k5 (r : Ref sig .tc) (hr0 : ∀ w, Pipeline.arrRef spec0 w ≠ r := by decide) (h1 : r ∉ hostOps1_W ++ hostOps1_1_W ++ hostOps1_2_W := by decide) : W5 m ρ c (Proc.devRef .tc r) = W1 m ρ c (Proc.devRef .tc r) :=
  (keep_2to5 m ρ c r h1).trans (k2 m ρ c r hr0)

theorem k6 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) : W6 m ρ c (Proc.devRef .tc r) = W1 m ρ c (Proc.devRef .tc r) :=
  (W6_of_ne m ρ c r hr1).trans (k5 m ρ c r hr0 h1)

theorem k7 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2a : r ∉ hostOps2_W := by decide) : W7 m ρ c (Proc.devRef .tc r) = W1 m ρ c (Proc.devRef .tc r) :=
  (hostOps2_keeps _ r h2a).trans (k6 m ρ c r hr0 h1 hr1)

theorem k11 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) : W11 m ρ c (Proc.devRef .tc r) = W1 m ρ c (Proc.devRef .tc r) :=
  (keep_6to11 m ρ c r h2).trans (k6 m ρ c r hr0 h1 hr1)

theorem k12 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) : W12 m ρ c (Proc.devRef .tc r) = W1 m ρ c (Proc.devRef .tc r) :=
  (W12_of_ne m ρ c r hr2).trans (k11 m ρ c r hr0 h1 hr1 h2)

theorem k13 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3a : r ∉ hostOps3_W := by decide) :
    W13 m ρ c (Proc.devRef .tc r) = W1 m ρ c (Proc.devRef .tc r) :=
  (hostOps3_keeps _ r h3a).trans (k12 m ρ c r hr0 h1 hr1 h2 hr2)

theorem k17 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3 : r ∉ hostOps3_W ++ hostOps3_1_W ++ hostOps3_2_W ++ hostOps3_3_W ++ hostOps3_4_W := by decide) : W17 m ρ c (Proc.devRef .tc r) = W1 m ρ c (Proc.devRef .tc r) :=
  (keep_12to17 m ρ c r h3).trans (k12 m ρ c r hr0 h1 hr1 h2 hr2)

theorem k18 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3 : r ∉ hostOps3_W ++ hostOps3_1_W ++ hostOps3_2_W ++ hostOps3_3_W ++ hostOps3_4_W := by decide) (hr3 : ∀ w, Pipeline.arrRef spec3 w ≠ r := by decide) :
    W18 m ρ c (Proc.devRef .tc r) = W1 m ρ c (Proc.devRef .tc r) :=
  (W18_of_ne m ρ c r hr3).trans (k17 m ρ c r hr0 h1 hr1 h2 hr2 h3)

theorem k19 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3 : r ∉ hostOps3_W ++ hostOps3_1_W ++ hostOps3_2_W ++ hostOps3_3_W ++ hostOps3_4_W := by decide) (hr3 : ∀ w, Pipeline.arrRef spec3 w ≠ r := by decide)
    (h4a : r ∉ hostOps4_W := by decide) : W19 m ρ c (Proc.devRef .tc r) = W1 m ρ c (Proc.devRef .tc r) :=
  (hostOps4_keeps _ r h4a).trans (k18 m ρ c r hr0 h1 hr1 h2 hr2 h3 hr3)

theorem k23 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3 : r ∉ hostOps3_W ++ hostOps3_1_W ++ hostOps3_2_W ++ hostOps3_3_W ++ hostOps3_4_W := by decide) (hr3 : ∀ w, Pipeline.arrRef spec3 w ≠ r := by decide) (h4 : r ∉ hostOps4_W ++ hostOps4_1_W ++ hostOps4_2_W ++ hostOps4_3_W ++ hostOps4_4_W := by decide) :
    W23 m ρ c (Proc.devRef .tc r) = W1 m ρ c (Proc.devRef .tc r) :=
  (keep_18to23 m ρ c r h4).trans (k18 m ρ c r hr0 h1 hr1 h2 hr2 h3 hr3)

theorem k29 (r : Ref sig .tc) (hr0 : ∀ w, Pipeline.arrRef spec0 w ≠ r := by decide) (h1 : r ∉ hostOps1_W ++ hostOps1_1_W ++ hostOps1_2_W := by decide) (hr1 : ∀ w, Pipeline.arrRef spec1 w ≠ r := by decide) (h2 : r ∉ hostOps2_W ++ hostOps2_1_W ++ hostOps2_2_W ++ hostOps2_3_W ++ hostOps2_4_W := by decide) (hr2 : ∀ w, Pipeline.arrRef spec2 w ≠ r := by decide) (h3 : r ∉ hostOps3_W ++ hostOps3_1_W ++ hostOps3_2_W ++ hostOps3_3_W ++ hostOps3_4_W := by decide) (hr3 : ∀ w, Pipeline.arrRef spec3 w ≠ r := by decide) (h4 : r ∉ hostOps4_W ++ hostOps4_1_W ++ hostOps4_2_W ++ hostOps4_3_W ++ hostOps4_4_W := by decide) (h5 : r ∉ hostOps4_5_W ++ hostOps4_6_W ++ hostOps4_7_W ++ hostOps4_8_W ++ hostOps4_9_W ++ hostOps4_10_W := by decide) :
    W29 m ρ c (Proc.devRef .tc r) = W1 m ρ c (Proc.devRef .tc r) :=
  (keep_23to29 m ρ c r h5).trans (k23 m ρ c r hr0 h1 hr1 h2 hr2 h3 hr3 h4)

end Cert.KernelIdeal.KAt

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.RegionNode.lean ====
/-
  The node layer's region, read as one whole-array function.

  The region walks the 100000 rows of X : [100000, 64] in 10 blocks of 10000 rows. At block t it multiplies rows
  10000·t … 10000·t + 9999 of X by the whole matrix W : [64, 72] (both first narrowed to bf16, which keeps the ideal
  value) into a zero accumulator, adds the bias B : [72] along the rows, takes the maximum with zero, and writes the
  result to rows 10000·t … of its output. At the ideal values the entry (10000·t + p, q) is
      max ((∑ c, X[10000·t + p, c] · W[c, q]) + B[q]) 0,
  which is what the host's dot_general, bias broadcast, addition and rectifier give at that entry. The 10 blocks cover
  every row (row r lies in block r / 10000), so after the region the output is the host's node layer of X, W, B.
-/
import proofs.«122625_j53163105190631_2_alg».proof.Proof.Gen.KernelIdeal.Frame
import proofs.«122625_j53163105190631_2_alg».proof.Proof.Gen.ReferenceIdeal
import proofs.«122625_j53163105190631_2_alg».proof.ReferenceIdeal
import proofs.«122625_j53163105190631_2_alg».proof.Proof.LibMlpAt
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access of rank 2, as the constant function. -/
theorem node_hz2 : (![0, 0] : Fin 2 → Nat) = fun _ => 0 := funext fun a => by fin_cases a <;> rfl
/-- The zero offset of a whole-block access of rank 1, as the constant function. -/
theorem node_hz1 : (![0] : Fin 1 → Nat) = fun _ => 0 := funext fun a => by fin_cases a; rfl

/-- The host's node layer: X · W, plus the bias B made a row and broadcast along the rows, rectified by a maximum
    with a broadcast zero. -/
def refNode (X : FVec Ideal S100000x64 .f32) (W : FVec Ideal S64x72 .f32) (B : FVec Ideal S72 .f32) : FVec Ideal S100000x72 .f32 :=
  maximumf
    (addf (Host.dotGeneral (F := Ideal) Cert.ReferenceIdeal.dot_S100000x64_S64x72_S100000x72_1_0_0_1_n_n none X W)
      (broadcastInDim Cert.ReferenceIdeal.S100000x72 ![0, 1] Cert.ReferenceIdeal.Facts₀.bcast_S1x72_S100000x72_0_1
        (broadcastInDim Cert.ReferenceIdeal.S1x72 ![1] Cert.ReferenceIdeal.Facts₀.bcast_S72_S1x72_1 B)))
    (broadcastInDim Cert.ReferenceIdeal.S100000x72 ![] Cert.ReferenceIdeal.Facts₀.bcast_S_S100000x72
      (constant (F := Ideal) Cert.ReferenceIdeal.S_ .f32 0x00000000#32))

/-- The host's node layer at the entry (a, b): max ((∑ c, X[a, c] · W[c, b]) + B[b]) 0. -/
theorem refNode_at (X : FVec Ideal S100000x64 .f32) (W : FVec Ideal S64x72 .f32) (B : FVec Ideal S72 .f32)
    (a : Fin 100000) (b : Fin 72) :
    refNode X W B (ix2 a b)
      = max ((∑ c : Fin 64, X (ix2 a c) * W (ix2 c b)) + B (ix1 b)) (Ideal.ofBits .f32 0x00000000#32) := by
  unfold refNode
  rw [maximumf_apply, addf_apply]
  refine congrArg₂ max (congrArg₂ (· + ·) ?_ ?_) ?_
  · exact Cert.Mlp.dotGeneral_at (m := 100000) (k := 64) (n := 72)
      Cert.ReferenceIdeal.Facts₀.dot_S100000x64_S64x72_S100000x72_1_0_0_1_n_n_wf none X W a b
  · refine (Cert.Mlp.bcastRow_at (N := 100000) (D := 72) Cert.ReferenceIdeal.Facts₀.bcast_S1x72_S100000x72_0_1 _ a b).trans ?_
    refine broadcastInDim_apply _ Cert.ReferenceIdeal.Facts₀.bcast_S72_S1x72_1 B (ix2 (0 : Fin 1) b) (ix1 b) fun ax => ?_
    match ax with
    | ⟨0, _⟩ =>
      show b.val = if 72 = 1 then 0 else b.val
      rfl
  · exact (Cert.Mlp.bcastScalar_at (N := 100000) (D := 72) Cert.ReferenceIdeal.Facts₀.bcast_S_S100000x72 _ (ix2 a b)).trans
      (constant_apply _ _)

/-- One entry of a block's result: when the block xb holds rows r, r + 1, … of X and wb, bb are all of W, B, the
    block's value at (p, q) is the host's node layer of X, W, B at (r + p, q). -/
theorem node_pay_at (X : FVec Ideal S100000x64 .f32) (W : FVec Ideal S64x72 .f32) (B : FVec Ideal S72 .f32)
    (xb : Vec Ideal S10000x64 .f32) (wb : Vec Ideal S64x72 .f32) (bb : Vec Ideal S72 .f32)
    (r : Nat) (j : S10000x72.Idx) (i : S100000x72.Idx)
    (hi0 : (i 0).val = r + (j 0).val) (hi1 : (i 1).val = (j 1).val)
    (hxb : ∀ (y : S10000x64.Idx) (k : S100000x64.Idx), (k 0).val = r + (y 0).val → (k 1).val = (y 1).val → xb y = X k)
    (hwb : ∀ y : S64x72.Idx, wb y = W y) (hbb : ∀ y : S72.Idx, bb y = B y) :
    k0_pay1 xb wb bb j = refNode X W B i := by
  obtain ⟨p, q, rfl⟩ : ∃ (p : Fin 10000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  rw [refNode_at]
  unfold k0_pay1
  show maximumf (addf (matmul _ none (truncf .bf16 _ _) (truncf .bf16 _ _) _) (broadcastTo _ (shapeCast _ _ _) _)) (broadcast _ _) (ix2 p b) = _
  rw [maximumf_apply, addf_apply, broadcast_apply]
  refine congrArg₂ max (congrArg₂ (· + ·) ?_ ?_) rfl
  · refine (Cert.Mlp.matmul_zero_at (m := 10000) (k := 64) (n := 72) Facts₀.dot_S10000x64_S64x72_S10000x72_1_0_0_1_n_n_wf none _ _ p b).trans ?_
    refine Finset.sum_congr rfl fun c _ => ?_
    rw [truncf_apply, truncf_apply, hwb (ix2 c b), hxb (ix2 p c) (ix2 a c) ha rfl]
  · refine (broadcastTo_1b_ab_apply (a := 10000) (b := 72) _ _ p b).trans ?_
    refine (shapeCast_a_1a_apply _ _ (0 : Fin 1) b).trans ?_
    exact hbb (ix1 b)

/-- Where the windows' blocks sit at grid point t: the row-blocked windows (X and the output) at row block t, column
    block 0; the weight and bias windows at block 0. Decided over the 10 points. -/
theorem node_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- X's block at point t holds rows 10000·t, 10000·t + 1, … of the array. -/
theorem node_blk0_read (c : Dev nD) (t : Fin cfg0.N) (y : S10000x64.Idx) (k : S100000x64.Idx)
    (h0 : (k 0).val = 10000 * t.val + (y 0).val) (h1 : (k 1).val = (y 1).val) :
    (iblk0 V c 0 t : S10000x64.Idx → EReal) y = (V c main_arg0 : S100000x64.Idx → EReal) k := by
  obtain ⟨e0, e1, -⟩ := node_idx_facts t
  unfold iblk0
  rw [View.read_apply]
  show (V c main_arg0 : S100000x64.Idx → EReal) _ = _
  congr 1
  funext a
  apply Fin.ext
  match a with
  | ⟨0, _⟩ => show win0_0.index t 0 * 10000 + 1 * (y 0).val = (k 0).val; rw [e0, h0]; omega
  | ⟨1, _⟩ => show win0_0.index t 1 * 64 + 1 * (y 1).val = (k 1).val; rw [e1, h1]; omega

/-- The weight window's block at every point is the whole matrix. -/
theorem node_blk1_read (c : Dev nD) (t : Fin cfg0.N) (y : S64x72.Idx) :
    (iblk0 V c 1 t : S64x72.Idx → EReal) y = (V c main_arg3 : S64x72.Idx → EReal) y := by
  obtain ⟨-, -, e0, e1, -⟩ := node_idx_facts t
  unfold iblk0
  rw [View.read_apply]
  show (V c main_arg3 : S64x72.Idx → EReal) _ = _
  congr 1
  funext a
  apply Fin.ext
  match a with
  | ⟨0, _⟩ => show win0_1.index t 0 * 64 + 1 * (y 0).val = (y 0).val; rw [e0]; omega
  | ⟨1, _⟩ => show win0_1.index t 1 * 72 + 1 * (y 1).val = (y 1).val; rw [e1]; omega

/-- The bias window's block at every point is the whole vector. -/
theorem node_blk2_read (c : Dev nD) (t : Fin cfg0.N) (y : S72.Idx) :
    (iblk0 V c 2 t : S72.Idx → EReal) y = (V c main_arg4 : S72.Idx → EReal) y := by
  obtain ⟨-, -, -, -, e0, -⟩ := node_idx_facts t
  unfold iblk0
  rw [View.read_apply]
  show (V c main_arg4 : S72.Idx → EReal) _ = _
  congr 1
  funext a
  apply Fin.ext
  match a with
  | ⟨0, _⟩ => show win0_2.index t 0 * 72 + 1 * (y 0).val = (y 0).val; rw [e0]; omega

/-- What point t writes back is block t of the host's node layer of the arrays the region found. -/
theorem node_flushed_eq (c : Dev nD) (t : Fin cfg0.N) :
    (dat0 V c).flushed 3 t
      = ((cfg0.win 3).blk t).view.read (Elt Ideal) (refNode (V c main_arg0) (V c main_arg3) (V c main_arg4)) := by
  show (cfg0.win 3).cut (grid0.coords t) ((dat0 V c).after 3 t) = _
  rw [after0_3]
  unfold out0_3
  rw [View.canon_unit_zero node_hz2]
  simp only [View.ld_unit_zero (S := S10000x64) node_hz2, View.ld_unit_zero (S := S64x72) node_hz2,
    View.ld_unit_zero (S := S72) node_hz1]
  obtain ⟨-, -, -, -, -, e0, e1⟩ := node_idx_facts t
  funext j
  show k0_pay1 (iblk0 V c 0 t) (iblk0 V c 1 t) (iblk0 V c 2 t) j
    = refNode (V c main_arg0) (V c main_arg3) (V c main_arg4) (((cfg0.win 3).blk t).view.emb j)
  refine node_pay_at (V c main_arg0) (V c main_arg3) (V c main_arg4) (iblk0 V c 0 t) (iblk0 V c 1 t) (iblk0 V c 2 t)
    (10000 * t.val) j _ ?_ ?_
    (fun y k h0 h1 => node_blk0_read V c t y k h0 h1) (fun y => node_blk1_read V c t y) (fun y => node_blk2_read V c t y)
  · show win0_3.index t 0 * 10000 + 1 * (j 0).val = _; rw [e0]; omega
  · show win0_3.index t 1 * 72 + 1 * (j 1).val = _; rw [e1]; omega

/-- An index of the output is in point t's block iff each coordinate is in the block's range on its axis. -/
theorem node_mem_blk (t : Fin cfg0.N) (i : S100000x72.Idx) :
    i ∈ ((cfg0.win 3).blk t).view.set ↔ ∀ a : Fin 2, win0_3.index t a * S10000x72.size a ≤ (i a).val ∧ (i a).val < win0_3.index t a * S10000x72.size a + S10000x72.size a := by
  show i ∈ ((View.whole main_v4).slice (win0_3.rect t)).set ↔ _
  rw [View.set_slice_whole, Rect.mem_set_unit]
  exact Iff.rfl

/-- Every row of the output is in some point's block: row r is in block r / 10000. -/
theorem node_cover (i : S100000x72.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 72 := (i 1).isLt
  let t : Fin cfg0.N := ⟨(i 0).val / 10000, by rw [hN]; omega⟩
  have ht : t.val = (i 0).val / 10000 := rfl
  obtain ⟨-, -, -, -, -, e0, e1⟩ := node_idx_facts t
  refine ⟨t, flush0_3 t, ?_⟩
  rw [node_mem_blk]
  intro a
  match a with
  | ⟨0, _⟩ => show win0_3.index t 0 * 10000 ≤ (i 0).val ∧ (i 0).val < win0_3.index t 0 * 10000 + 10000; rw [e0, ht]; omega
  | ⟨1, _⟩ => show win0_3.index t 1 * 72 ≤ (i 1).val ∧ (i 1).val < win0_3.index t 1 * 72 + 72; rw [e1]; omega

/-- After region 0 its output is the host's node layer of the arrays the region found. -/
theorem node_final (c : Dev nD) :
    ((dat0 (F := Ideal) V c).arrAt 3 cfg0.N : S100000x72.Idx → EReal)
      = refNode (V c main_arg0) (V c main_arg3) (V c main_arg4) :=
  (dat0 V c).arrAt_eq_of_cover 3 (refNode (V c main_arg0) (V c main_arg3) (V c main_arg4))
    (fun t _ => node_flushed_eq V c t) node_cover

end Cert.KernelIdeal.RegionValue

end
-- ==== Proof.RegionArma.lean ====
/-
  The three ARMA linear regions, each read as one whole-array function.

  Each region walks the 100000 rows of its left operand h : [100000, 72] in 20 blocks of 5000 rows. At block t it
  multiplies rows 5000·t … 5000·t + 4999 of h by the whole 72 × 72 matrices Wi and Wr (both operands first narrowed to
  bf16, which keeps the ideal value) into a zero accumulator, and writes the two products to rows 5000·t … of its two
  outputs. At the ideal values a product into zeros is the plain sum over the contracted coordinate, and the entry
  (5000·t + p, q) of the full product h · W is the same sum, because it reads only row 5000·t + p of h. The 20 blocks
  cover every row (row r lies in block r / 5000), so after the region each output is the full product h · Wi, h · Wr:
  the host's dot_general of the two arrays.
-/
import proofs.«122625_j53163105190631_2_alg».proof.Proof.Gen.KernelIdeal.Frame
import proofs.«122625_j53163105190631_2_alg».proof.Proof.Gen.ReferenceIdeal
import proofs.«122625_j53163105190631_2_alg».proof.ReferenceIdeal
import proofs.«122625_j53163105190631_2_alg».proof.Proof.LibMlpAt
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as the constant function. -/
theorem arma_hz : (![0, 0] : Fin 2 → Nat) = fun _ => 0 := funext fun a => by fin_cases a <;> rfl

/-- The full product X · W of a [100000, 72] array and a [72, 72] matrix, as the host computes it. -/
abbrev armaProd (X : FVec Ideal S100000x72 .f32) (W : FVec Ideal S72x72 .f32) : FVec Ideal S100000x72 .f32 :=
  Host.dotGeneral (F := Ideal) Cert.ReferenceIdeal.dot_S100000x72_S72x72_S100000x72_1_0_0_1_n_n none X W

/-! ## Region 1 -/

/-- One entry of a block's first product: when the block xb holds rows r, r + 1, … of X and wb is all of W, the
    product of the narrowed blocks into zeros at (p, q) is the sum over c of X[r + p, c] · W[c, q], which is the full
    product X · W at (r + p, q). -/
theorem arma1_pay2_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k1_pay2 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k1_pay2 k1_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- The same for the block's second product. -/
theorem arma1_pay3_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k1_pay3 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k1_pay3 k1_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- Where the windows' blocks sit at grid point t: the row-blocked windows (the left operand and the two outputs) at
    row block t, column block 0; the two weight windows at block (0, 0). Decided over the 20 points. -/
theorem arma1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The left operand's block at point t holds rows 5000·t, 5000·t + 1, … of the array. -/
theorem arma1_blk0_read (c : Dev nD) (t : Fin cfg1.N) (y : S5000x72.Idx) (k : S100000x72.Idx)
    (h0 : (k 0).val = 5000 * t.val + (y 0).val) (h1 : (k 1).val = (y 1).val) :
    (iblk1 V c 0 t : S5000x72.Idx → EReal) y = (V c main_v4 : S100000x72.Idx → EReal) k := by
  obtain ⟨e0, e1, -⟩ := arma1_idx_facts t
  unfold iblk1
  rw [View.read_apply]
  show (V c main_v4 : S100000x72.Idx → EReal) _ = _
  congr 1
  funext a
  apply Fin.ext
  match a with
  | ⟨0, _⟩ => show win1_0.index t 0 * 5000 + 1 * (y 0).val = (k 0).val; rw [e0, h0]; omega
  | ⟨1, _⟩ => show win1_0.index t 1 * 72 + 1 * (y 1).val = (k 1).val; rw [e1, h1]; omega

/-- The first weight window's block at every point is the whole matrix. -/
theorem arma1_blk1_read (c : Dev nD) (t : Fin cfg1.N) (y : S72x72.Idx) :
    (iblk1 V c 1 t : S72x72.Idx → EReal) y = (V c main_v31 : S72x72.Idx → EReal) y := by
  obtain ⟨-, -, e0, e1, -⟩ := arma1_idx_facts t
  unfold iblk1
  rw [View.read_apply]
  show (V c main_v31 : S72x72.Idx → EReal) _ = _
  congr 1
  funext a
  apply Fin.ext
  match a with
  | ⟨0, _⟩ => show win1_1.index t 0 * 72 + 1 * (y 0).val = (y 0).val; rw [e0]; omega
  | ⟨1, _⟩ => show win1_1.index t 1 * 72 + 1 * (y 1).val = (y 1).val; rw [e1]; omega

/-- The second weight window's block at every point is the whole matrix. -/
theorem arma1_blk2_read (c : Dev nD) (t : Fin cfg1.N) (y : S72x72.Idx) :
    (iblk1 V c 2 t : S72x72.Idx → EReal) y = (V c main_v33 : S72x72.Idx → EReal) y := by
  obtain ⟨-, -, -, -, e0, e1, -⟩ := arma1_idx_facts t
  unfold iblk1
  rw [View.read_apply]
  show (V c main_v33 : S72x72.Idx → EReal) _ = _
  congr 1
  funext a
  apply Fin.ext
  match a with
  | ⟨0, _⟩ => show win1_2.index t 0 * 72 + 1 * (y 0).val = (y 0).val; rw [e0]; omega
  | ⟨1, _⟩ => show win1_2.index t 1 * 72 + 1 * (y 1).val = (y 1).val; rw [e1]; omega

/-- What point t writes back to the first output is block t of the full product h · Wi. -/
theorem arma1_flushed3_eq (c : Dev nD) (t : Fin cfg1.N) :
    (dat1 V c).flushed 3 t = ((cfg1.win 3).blk t).view.read (Elt Ideal) (armaProd (V c main_v4) (V c main_v31)) := by
  show (cfg1.win 3).cut (grid1.coords t) ((dat1 V c).after 3 t) = _
  rw [after1_3]
  unfold out1_3
  rw [View.canon_unit_zero arma_hz]
  simp only [View.ld_unit_zero (S := S5000x72) arma_hz, View.ld_unit_zero (S := S72x72) arma_hz]
  obtain ⟨-, -, -, -, -, -, e0, e1, -⟩ := arma1_idx_facts t
  funext j
  show k1_pay2 (iblk1 V c 0 t) (iblk1 V c 1 t) j = armaProd (V c main_v4) (V c main_v31) (((cfg1.win 3).blk t).view.emb j)
  refine arma1_pay2_at (V c main_v4) (V c main_v31) (iblk1 V c 0 t) (iblk1 V c 1 t) (5000 * t.val) j _ ?_ ?_
    (fun y k h0 h1 => arma1_blk0_read V c t y k h0 h1) (fun y => arma1_blk1_read V c t y)
  · show win1_3.index t 0 * 5000 + 1 * (j 0).val = _; rw [e0]; omega
  · show win1_3.index t 1 * 72 + 1 * (j 1).val = _; rw [e1]; omega

/-- What point t writes back to the second output is block t of the full product h · Wr. -/
theorem arma1_flushed4_eq (c : Dev nD) (t : Fin cfg1.N) :
    (dat1 V c).flushed 4 t = ((cfg1.win 4).blk t).view.read (Elt Ideal) (armaProd (V c main_v4) (V c main_v33)) := by
  show (cfg1.win 4).cut (grid1.coords t) ((dat1 V c).after 4 t) = _
  rw [after1_4]
  unfold out1_4
  rw [View.canon_unit_zero arma_hz]
  simp only [View.ld_unit_zero (S := S5000x72) arma_hz, View.ld_unit_zero (S := S72x72) arma_hz]
  obtain ⟨-, -, -, -, -, -, -, -, e0, e1⟩ := arma1_idx_facts t
  funext j
  show k1_pay3 (iblk1 V c 0 t) (iblk1 V c 2 t) j = armaProd (V c main_v4) (V c main_v33) (((cfg1.win 4).blk t).view.emb j)
  refine arma1_pay3_at (V c main_v4) (V c main_v33) (iblk1 V c 0 t) (iblk1 V c 2 t) (5000 * t.val) j _ ?_ ?_
    (fun y k h0 h1 => arma1_blk0_read V c t y k h0 h1) (fun y => arma1_blk2_read V c t y)
  · show win1_4.index t 0 * 5000 + 1 * (j 0).val = _; rw [e0]; omega
  · show win1_4.index t 1 * 72 + 1 * (j 1).val = _; rw [e1]; omega

/-- An index of the first output is in point t's block iff each coordinate is in the block's range on its axis. -/
theorem arma1_mem_blk3 (t : Fin cfg1.N) (i : S100000x72.Idx) :
    i ∈ ((cfg1.win 3).blk t).view.set ↔ ∀ a : Fin 2, win1_3.index t a * S5000x72.size a ≤ (i a).val ∧ (i a).val < win1_3.index t a * S5000x72.size a + S5000x72.size a := by
  show i ∈ ((View.whole main_v34_0).slice (win1_3.rect t)).set ↔ _
  rw [View.set_slice_whole, Rect.mem_set_unit]
  exact Iff.rfl

/-- The same for the second output. -/
theorem arma1_mem_blk4 (t : Fin cfg1.N) (i : S100000x72.Idx) :
    i ∈ ((cfg1.win 4).blk t).view.set ↔ ∀ a : Fin 2, win1_4.index t a * S5000x72.size a ≤ (i a).val ∧ (i a).val < win1_4.index t a * S5000x72.size a + S5000x72.size a := by
  show i ∈ ((View.whole main_v34_1).slice (win1_4.rect t)).set ↔ _
  rw [View.set_slice_whole, Rect.mem_set_unit]
  exact Iff.rfl

/-- Every row of the first output is in some point's block: row r is in block r / 5000. -/
theorem arma1_cover3 (i : S100000x72.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 72 := (i 1).isLt
  let t : Fin cfg1.N := ⟨(i 0).val / 5000, by rw [hN]; omega⟩
  have ht : t.val = (i 0).val / 5000 := rfl
  obtain ⟨-, -, -, -, -, -, e0, e1, -⟩ := arma1_idx_facts t
  refine ⟨t, flush1_3 t, ?_⟩
  rw [arma1_mem_blk3]
  intro a
  match a with
  | ⟨0, _⟩ => show win1_3.index t 0 * 5000 ≤ (i 0).val ∧ (i 0).val < win1_3.index t 0 * 5000 + 5000; rw [e0, ht]; omega
  | ⟨1, _⟩ => show win1_3.index t 1 * 72 ≤ (i 1).val ∧ (i 1).val < win1_3.index t 1 * 72 + 72; rw [e1]; omega

/-- The same for the second output. -/
theorem arma1_cover4 (i : S100000x72.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 72 := (i 1).isLt
  let t : Fin cfg1.N := ⟨(i 0).val / 5000, by rw [hN]; omega⟩
  have ht : t.val = (i 0).val / 5000 := rfl
  obtain ⟨-, -, -, -, -, -, -, -, e0, e1⟩ := arma1_idx_facts t
  refine ⟨t, flush1_4 t, ?_⟩
  rw [arma1_mem_blk4]
  intro a
  match a with
  | ⟨0, _⟩ => show win1_4.index t 0 * 5000 ≤ (i 0).val ∧ (i 0).val < win1_4.index t 0 * 5000 + 5000; rw [e0, ht]; omega
  | ⟨1, _⟩ => show win1_4.index t 1 * 72 ≤ (i 1).val ∧ (i 1).val < win1_4.index t 1 * 72 + 72; rw [e1]; omega

/-- After region 1 its first output is the full product h · Wi of the arrays the region found. -/
theorem arma_t_final1 (c : Dev nD) :
    ((dat1 (F := Ideal) V c).arrAt 3 cfg1.N : S100000x72.Idx → EReal)
      = Host.dotGeneral (F := Ideal) (φ₁ := .f32) (φ₂ := .f32) Cert.ReferenceIdeal.dot_S100000x72_S72x72_S100000x72_1_0_0_1_n_n none (V c main_v4) (V c main_v31) :=
  (dat1 V c).arrAt_eq_of_cover 3 (armaProd (V c main_v4) (V c main_v31)) (fun t _ => arma1_flushed3_eq V c t) arma1_cover3

/-- After region 1 its second output is the full product h · Wr of the arrays the region found. -/
theorem arma_r_final1 (c : Dev nD) :
    ((dat1 (F := Ideal) V c).arrAt 4 cfg1.N : S100000x72.Idx → EReal)
      = Host.dotGeneral (F := Ideal) (φ₁ := .f32) (φ₂ := .f32) Cert.ReferenceIdeal.dot_S100000x72_S72x72_S100000x72_1_0_0_1_n_n none (V c main_v4) (V c main_v33) :=
  (dat1 V c).arrAt_eq_of_cover 4 (armaProd (V c main_v4) (V c main_v33)) (fun t _ => arma1_flushed4_eq V c t) arma1_cover4

/-! ## Region 2 -/

/-- One entry of a block's first product: when the block xb holds rows r, r + 1, … of X and wb is all of W, the
    product of the narrowed blocks into zeros at (p, q) is the sum over c of X[r + p, c] · W[c, q], which is the full
    product X · W at (r + p, q). -/
theorem arma2_pay2_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k2_pay2 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k2_pay2 k2_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- The same for the block's second product. -/
theorem arma2_pay3_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k2_pay3 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k2_pay3 k2_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- Where the windows' blocks sit at grid point t: the row-blocked windows (the left operand and the two outputs) at
    row block t, column block 0; the two weight windows at block (0, 0). Decided over the 20 points. -/
theorem arma2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The left operand's block at point t holds rows 5000·t, 5000·t + 1, … of the array. -/
theorem arma2_blk0_read (c : Dev nD) (t : Fin cfg2.N) (y : S5000x72.Idx) (k : S100000x72.Idx)
    (h0 : (k 0).val = 5000 * t.val + (y 0).val) (h1 : (k 1).val = (y 1).val) :
    (iblk2 V c 0 t : S5000x72.Idx → EReal) y = (V c main_v77 : S100000x72.Idx → EReal) k := by
  obtain ⟨e0, e1, -⟩ := arma2_idx_facts t
  unfold iblk2
  rw [View.read_apply]
  show (V c main_v77 : S100000x72.Idx → EReal) _ = _
  congr 1
  funext a
  apply Fin.ext
  match a with
  | ⟨0, _⟩ => show win2_0.index t 0 * 5000 + 1 * (y 0).val = (k 0).val; rw [e0, h0]; omega
  | ⟨1, _⟩ => show win2_0.index t 1 * 72 + 1 * (y 1).val = (k 1).val; rw [e1, h1]; omega

/-- The first weight window's block at every point is the whole matrix. -/
theorem arma2_blk1_read (c : Dev nD) (t : Fin cfg2.N) (y : S72x72.Idx) :
    (iblk2 V c 1 t : S72x72.Idx → EReal) y = (V c main_v79 : S72x72.Idx → EReal) y := by
  obtain ⟨-, -, e0, e1, -⟩ := arma2_idx_facts t
  unfold iblk2
  rw [View.read_apply]
  show (V c main_v79 : S72x72.Idx → EReal) _ = _
  congr 1
  funext a
  apply Fin.ext
  match a with
  | ⟨0, _⟩ => show win2_1.index t 0 * 72 + 1 * (y 0).val = (y 0).val; rw [e0]; omega
  | ⟨1, _⟩ => show win2_1.index t 1 * 72 + 1 * (y 1).val = (y 1).val; rw [e1]; omega

/-- The second weight window's block at every point is the whole matrix. -/
theorem arma2_blk2_read (c : Dev nD) (t : Fin cfg2.N) (y : S72x72.Idx) :
    (iblk2 V c 2 t : S72x72.Idx → EReal) y = (V c main_v81 : S72x72.Idx → EReal) y := by
  obtain ⟨-, -, -, -, e0, e1, -⟩ := arma2_idx_facts t
  unfold iblk2
  rw [View.read_apply]
  show (V c main_v81 : S72x72.Idx → EReal) _ = _
  congr 1
  funext a
  apply Fin.ext
  match a with
  | ⟨0, _⟩ => show win2_2.index t 0 * 72 + 1 * (y 0).val = (y 0).val; rw [e0]; omega
  | ⟨1, _⟩ => show win2_2.index t 1 * 72 + 1 * (y 1).val = (y 1).val; rw [e1]; omega

/-- What point t writes back to the first output is block t of the full product h · Wi. -/
theorem arma2_flushed3_eq (c : Dev nD) (t : Fin cfg2.N) :
    (dat2 V c).flushed 3 t = ((cfg2.win 3).blk t).view.read (Elt Ideal) (armaProd (V c main_v77) (V c main_v79)) := by
  show (cfg2.win 3).cut (grid2.coords t) ((dat2 V c).after 3 t) = _
  rw [after2_3]
  unfold out2_3
  rw [View.canon_unit_zero arma_hz]
  simp only [View.ld_unit_zero (S := S5000x72) arma_hz, View.ld_unit_zero (S := S72x72) arma_hz]
  obtain ⟨-, -, -, -, -, -, e0, e1, -⟩ := arma2_idx_facts t
  funext j
  show k2_pay2 (iblk2 V c 0 t) (iblk2 V c 1 t) j = armaProd (V c main_v77) (V c main_v79) (((cfg2.win 3).blk t).view.emb j)
  refine arma2_pay2_at (V c main_v77) (V c main_v79) (iblk2 V c 0 t) (iblk2 V c 1 t) (5000 * t.val) j _ ?_ ?_
    (fun y k h0 h1 => arma2_blk0_read V c t y k h0 h1) (fun y => arma2_blk1_read V c t y)
  · show win2_3.index t 0 * 5000 + 1 * (j 0).val = _; rw [e0]; omega
  · show win2_3.index t 1 * 72 + 1 * (j 1).val = _; rw [e1]; omega

/-- What point t writes back to the second output is block t of the full product h · Wr. -/
theorem arma2_flushed4_eq (c : Dev nD) (t : Fin cfg2.N) :
    (dat2 V c).flushed 4 t = ((cfg2.win 4).blk t).view.read (Elt Ideal) (armaProd (V c main_v77) (V c main_v81)) := by
  show (cfg2.win 4).cut (grid2.coords t) ((dat2 V c).after 4 t) = _
  rw [after2_4]
  unfold out2_4
  rw [View.canon_unit_zero arma_hz]
  simp only [View.ld_unit_zero (S := S5000x72) arma_hz, View.ld_unit_zero (S := S72x72) arma_hz]
  obtain ⟨-, -, -, -, -, -, -, -, e0, e1⟩ := arma2_idx_facts t
  funext j
  show k2_pay3 (iblk2 V c 0 t) (iblk2 V c 2 t) j = armaProd (V c main_v77) (V c main_v81) (((cfg2.win 4).blk t).view.emb j)
  refine arma2_pay3_at (V c main_v77) (V c main_v81) (iblk2 V c 0 t) (iblk2 V c 2 t) (5000 * t.val) j _ ?_ ?_
    (fun y k h0 h1 => arma2_blk0_read V c t y k h0 h1) (fun y => arma2_blk2_read V c t y)
  · show win2_4.index t 0 * 5000 + 1 * (j 0).val = _; rw [e0]; omega
  · show win2_4.index t 1 * 72 + 1 * (j 1).val = _; rw [e1]; omega

/-- An index of the first output is in point t's block iff each coordinate is in the block's range on its axis. -/
theorem arma2_mem_blk3 (t : Fin cfg2.N) (i : S100000x72.Idx) :
    i ∈ ((cfg2.win 3).blk t).view.set ↔ ∀ a : Fin 2, win2_3.index t a * S5000x72.size a ≤ (i a).val ∧ (i a).val < win2_3.index t a * S5000x72.size a + S5000x72.size a := by
  show i ∈ ((View.whole main_v82_0).slice (win2_3.rect t)).set ↔ _
  rw [View.set_slice_whole, Rect.mem_set_unit]
  exact Iff.rfl

/-- The same for the second output. -/
theorem arma2_mem_blk4 (t : Fin cfg2.N) (i : S100000x72.Idx) :
    i ∈ ((cfg2.win 4).blk t).view.set ↔ ∀ a : Fin 2, win2_4.index t a * S5000x72.size a ≤ (i a).val ∧ (i a).val < win2_4.index t a * S5000x72.size a + S5000x72.size a := by
  show i ∈ ((View.whole main_v82_1).slice (win2_4.rect t)).set ↔ _
  rw [View.set_slice_whole, Rect.mem_set_unit]
  exact Iff.rfl

/-- Every row of the first output is in some point's block: row r is in block r / 5000. -/
theorem arma2_cover3 (i : S100000x72.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 72 := (i 1).isLt
  let t : Fin cfg2.N := ⟨(i 0).val / 5000, by rw [hN]; omega⟩
  have ht : t.val = (i 0).val / 5000 := rfl
  obtain ⟨-, -, -, -, -, -, e0, e1, -⟩ := arma2_idx_facts t
  refine ⟨t, flush2_3 t, ?_⟩
  rw [arma2_mem_blk3]
  intro a
  match a with
  | ⟨0, _⟩ => show win2_3.index t 0 * 5000 ≤ (i 0).val ∧ (i 0).val < win2_3.index t 0 * 5000 + 5000; rw [e0, ht]; omega
  | ⟨1, _⟩ => show win2_3.index t 1 * 72 ≤ (i 1).val ∧ (i 1).val < win2_3.index t 1 * 72 + 72; rw [e1]; omega

/-- The same for the second output. -/
theorem arma2_cover4 (i : S100000x72.Idx) : ∃ t : Fin cfg2.N, (cfg2.win 4).flush t = true ∧ i ∈ ((cfg2.win 4).blk t).view.set := by
  have hN : cfg2.N = 20 := N_2
  have hi0 : (i 0).val < 100000 := (i 0).isLt
  have hi1 : (i 1).val < 72 := (i 1).isLt
  let t : Fin cfg2.N := ⟨(i 0).val / 5000, by rw [hN]; omega⟩
  have ht : t.val = (i 0).val / 5000 := rfl
  obtain ⟨-, -, -, -, -, -, -, -, e0, e1⟩ := arma2_idx_facts t
  refine ⟨t, flush2_4 t, ?_⟩
  rw [arma2_mem_blk4]
  intro a
  match a with
  | ⟨0, _⟩ => show win2_4.index t 0 * 5000 ≤ (i 0).val ∧ (i 0).val < win2_4.index t 0 * 5000 + 5000; rw [e0, ht]; omega
  | ⟨1, _⟩ => show win2_4.index t 1 * 72 ≤ (i 1).val ∧ (i 1).val < win2_4.index t 1 * 72 + 72; rw [e1]; omega

/-- After region 2 its first output is the full product h · Wi of the arrays the region found. -/
theorem arma_t_final2 (c : Dev nD) :
    ((dat2 (F := Ideal) V c).arrAt 3 cfg2.N : S100000x72.Idx → EReal)
      = Host.dotGeneral (F := Ideal) (φ₁ := .f32) (φ₂ := .f32) Cert.ReferenceIdeal.dot_S100000x72_S72x72_S100000x72_1_0_0_1_n_n none (V c main_v77) (V c main_v79) :=
  (dat2 V c).arrAt_eq_of_cover 3 (armaProd (V c main_v77) (V c main_v79)) (fun t _ => arma2_flushed3_eq V c t) arma2_cover3

/-- After region 2 its second output is the full product h · Wr of the arrays the region found. -/
theorem arma_r_final2 (c : Dev nD) :
    ((dat2 (F := Ideal) V c).arrAt 4 cfg2.N : S100000x72.Idx → EReal)
      = Host.dotGeneral (F := Ideal) (φ₁ := .f32) (φ₂ := .f32) Cert.ReferenceIdeal.dot_S100000x72_S72x72_S100000x72_1_0_0_1_n_n none (V c main_v77) (V c main_v81) :=
  (dat2 V c).arrAt_eq_of_cover 4 (armaProd (V c main_v77) (V c main_v81)) (fun t _ => arma2_flushed4_eq V c t) arma2_cover4

/-! ## Region 3 -/

/-- One entry of a block's first product: when the block xb holds rows r, r + 1, … of X and wb is all of W, the
    product of the narrowed blocks into zeros at (p, q) is the sum over c of X[r + p, c] · W[c, q], which is the full
    product X · W at (r + p, q). -/
theorem arma3_pay2_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k3_pay2 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k3_pay2 k3_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- The same for the block's second product. -/
theorem arma3_pay3_at (X : FVec Ideal S100000x72 .f32) (W : FVec Ideal S72x72 .f32)
    (xb : Vec Ideal S5000x72 .f32) (wb : Vec Ideal S72x72 .f32) (r : Nat) (j : S5000x72.Idx) (i : S100000x72.Idx)
    (hi0 : (i 0).val = r + (j 0).val) (hi1 : (i 1).val = (j 1).val)
    (hxb : ∀ (y : S5000x72.Idx) (k : S100000x72.Idx), (k 0).val = r + (y 0).val → (k 1).val = (y 1).val → xb y = X k)
    (hwb : ∀ y : S72x72.Idx, wb y = W y) :
    k3_pay3 xb wb j = armaProd X W i := by
  obtain ⟨p, q, rfl⟩ : ∃ (p : Fin 5000) (q : Fin 72), j = ix2 p q := ⟨j 0, j 1, eq_ix2 j⟩
  obtain ⟨a, b, rfl⟩ : ∃ (a : Fin 100000) (b : Fin 72), i = ix2 a b := ⟨i 0, i 1, eq_ix2 i⟩
  have hb : b = q := Fin.ext hi1
  subst hb
  have ha : a.val = r + p.val := hi0
  unfold k3_pay3 k3_pay1
  show matmul _ none (truncf .bf16 _ _) (truncf .bf16 _ _) _ (ix2 p b) = _
  rw [shapeCast_self, shapeCast_self]
  refine (Cert.Mlp.matmul_zero_at (m := 5000) (k := 72) (n := 72) Facts₀.dot_S5000x72_S72x72_S5000x72_1_0_0_1_n_n_wf none _ _ p b).trans ?_
  refine Eq.trans ?_ (Cert.Mlp.dotGeneral_at (m := 100000) (k := 72) (n := 72) Cert.ReferenceIdeal.Facts₀.dot_S100000x72_S72x72_S100000x72_1_0_0_1_n_n_wf none X W a b).symm
  refine Finset.sum_congr rfl fun c _ => ?_
  rw [truncf_apply, truncf_apply, hwb (ix2 c b), hxb (ix2 p c) (ix2 a c) ha rfl]

/-- Where the windows' blocks sit at grid point t: the row-blocked windows (the left operand and the two outputs) at
    row block t, column block 0; the two weight windows at block (0, 0). Decided over the 20 points. -/
theorem arma3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The left operand's block at point t holds rows 5000·t, 5000·t + 1, … of the array. -/
theorem arma3_blk0_read (c : Dev nD) (t : Fin cfg3.N) (y : S5000x72.Idx) (k : S100000x72.Idx)
    (h0 : (k 0).val = 5000 * t.val + (y 0).val) (h1 : (k 1).val = (y 1).val) :
    (iblk3 V c 0 t : S5000x72.Idx → EReal) y = (V c main_v125 : S100000x72.Idx → EReal) k := by
  obtain ⟨e0, e1, -⟩ := arma3_idx_facts t
  unfold iblk3
  rw [View.read_apply]
  show (V c main_v125 : S100000x72.Idx → EReal) _ = _
  congr 1
  funext a
  apply Fin.ext
  match a with
  | ⟨0, _⟩ => show win3_0.index t 0 * 5000 + 1 * (y 0).val = (k 0).val; rw [e0, h0]; omega
  | ⟨1, _⟩ => show win3_0.index t 1 * 72 + 1 * (y 1).val = (k 1).val; rw [e1, h1]; omega

/-- The first weight window's block at every point is the whole matrix. -/
theorem arma3_blk1_read (c : Dev nD) (t : Fin cfg3.N) (y : S72x72.Idx) :
    (iblk3 V c 1 t : S72x72.Idx → EReal) y = (V c main_v127 : S72x72.Idx → EReal) y := by
  obtain ⟨-, -, e0, e1, -⟩ := arma3_idx_facts t
  unfold iblk3
  rw [View.read_apply]
  show (V c main_v127 : S72x72.Idx → EReal) _ = _
  congr 1
  funext a
  apply Fin.ext
  match a with
  | ⟨0, _⟩ => show win3_1.index t 0 * 72 + 1 * (y 0).val = (y 0).val; rw [e0]; omega
  | ⟨1, _⟩ => show win3_1.index t 1 * 72 + 1 * (y 1).val = (y 1).val; rw [e1]; omega

/-- The second weight window's block at every point is the whole matrix. -/
theorem arma3_blk2_read (c : Dev nD) (t : Fin cfg3.N) (y : S72x72.Idx) :
    (iblk3 V c 2 t : S72x72.Idx → EReal) y = (V c main_v129 : S72x72.Idx → EReal) y := by
  obtain ⟨-, -, -, -, e0, e1, -⟩ := arma3_idx_facts t
  unfold iblk3
  rw [View.read_apply]
  show (V c main_v129 : S72x72.Idx → EReal) _ = _
  congr 1
  funext a
  apply Fin.ext
  match a with
  | ⟨0, _⟩ => show win3_2.index t 0 * 72 + 1 * (y 0).val = (y 0).val; rw [e0]; omega
  | ⟨1, _⟩ => show win3_2.index t 1 * 72 + 1 * (y 1).val = (y 1).val; rw [e1]; omega

/-- What point t writes back to the first output is block t of the full product h · Wi. -/
theorem arma3_flushed3_eq (c : Dev nD) (t : Fin cfg3.N) :
    (dat3 V c).flushed 3 t = ((cfg3.win 3).blk t).view.read (Elt Ideal) (armaProd (V c main_v125) (V c main_v127)) := by
  show (cfg3.win 3).cut (grid3.coords t) ((dat3 V c).after 3 t) = _
  rw [after3_3]
  unfold out3_3
  rw [View.canon_unit_zero arma_hz]
  simp only [View.ld_unit_zero (S := S5000x72) arma_hz, View.ld_unit_zero (S := S72x72) arma_hz]
  obtain ⟨-, -, -, -, -, -, e0, e1, -⟩ := arma3_idx_facts t
  funext j
  show k3_pay2 (iblk3 V c 0 t) (iblk3 V c 1 t) j = armaProd (V c main_v125) (V c main_v127) (((cfg3.win 3).blk t).view.emb j)
  refine arma3_pay2_at (V c main_v125) (V c main_v127) (iblk3 V c 0 t) (iblk3 V c 1 t) (5000 * t.val) j _ ?_ ?_
    (fun y k h0 h1 => arma3_blk0_read V c t y k h0 h1) (fun y => arma3_blk1_read V c t y)
  · show win3_3.index t 0 * 5000 + 1 * (j 0).val = _; rw [e0]; omega
  · show win3_3.index t 1 * 72 + 1 * (j 1).val = _; rw [e1]; omega

/-- What point t writes back to the second output is block t of the full product h · Wr. -/
theorem arma3_flushed4_eq (c : Dev nD) (t : Fin cfg3.N) :
    (dat3 V c).flushed 4 t = ((cfg3.win 4).blk t).view.read (Elt Ideal) (armaProd (V c main_v125) (V c main_v129)) := by
  show (cfg3.win 4).cut (grid3.coords t) ((dat3 V c).after 4 t) = _
  rw [after3_4]
  unfold out3_4
  rw [View.canon_unit_zero arma_hz]
  simp only [View.ld_unit_zero (S := S5000x72) arma_hz, View.ld_unit_zero (S := S72x72) arma_hz]
  obtain ⟨-, -, -, -, -, -, -, -, e0, e1⟩ := arma3_idx_facts t
  funext j
  show k3_pay3 (iblk3 V c 0 t) (iblk3 V c 2 t) j = armaProd (V c main_v125) (V c main_v129) (((cfg3.win 4).blk t).view.emb j)
  refine arma3_pay3_at (V c main_v125) (V c main_v129) (iblk3 V c 0 t) (iblk3 V c 2 t) (5000 * t.val) j _ ?_ ?_
    (fun y k h0 h1 => arma3_blk0_read V c t y k h0 h1) (fun y => arma3_blk2_read V c t y)
  · show win3_4.index t 0 * 5000 + 1 * (j 0).val = _; rw [e0]; omega
  · show win3_4.index t 1 * 72 + 1 * (j 1).val = _; rw [e1]; omega

/-- An index of the first output is in point t's block iff each coordinate is in the block's range on its axis. -/
theorem arma3_mem_blk3 (t : Fin cfg3.N) (i : S100000x72.Idx) :
    i ∈ ((cfg3.win 3).blk t).view.set ↔ ∀ a : Fin 2, win3_3.index t a * S5000x72.size a ≤ (i a).val ∧ (i a).val < win3_3.index t a * S5000x72.size a + S5000x72.size a := by
  show i ∈ ((View.whole main_v130_0).slice (win3_3.rect t)).set ↔ _
  rw [View.set_slice_whole, Rect.mem_set_unit]
  exact Iff.rfl

/-- The same for the second output. -/
theorem arma3_mem_blk4 (t : Fin cfg3.N) (i : S100000x72.Idx) :
    i ∈ ((cfg3.win 4).blk t).view.set ↔ ∀ a : Fin 2, win3_4.index t a * S5000x72.size a ≤ (i a).val ∧ (i a).val < win3_4.index t a * S5000x72.size a + S5000x72.size a := by
  show i ∈ ((View.whole main_v130_1).slice (win3_4.rect t)).set ↔ _
  rw [View.set_slice_whole, Rect.mem_set_unit]
  exact Iff.rfl

/-- Every row of the first output is in some point's block: row r is in block r / 5000. -/
theorem arma3_cover3 (i : S100000x72.Idx) : ∃ t : Fin cfg3.N, (cfg3.win 3).flush t = true ∧ i ∈ ((cfg3.win 3).blk t).view.set := by
  have hN : cfg3.N = 20 := N_3
  have hi0 : (i 0).val < 100000 := (i 0).isLt
  have hi1 : (i 1).val < 72 := (i 1).isLt
  let t : Fin cfg3.N := ⟨(i 0).val / 5000, by rw [hN]; omega⟩
  have ht : t.val = (i 0).val / 5000 := rfl
  obtain ⟨-, -, -, -, -, -, e0, e1, -⟩ := arma3_idx_facts t
  refine ⟨t, flush3_3 t, ?_⟩
  rw [arma3_mem_blk3]
  intro a
  match a with
  | ⟨0, _⟩ => show win3_3.index t 0 * 5000 ≤ (i 0).val ∧ (i 0).val < win3_3.index t 0 * 5000 + 5000; rw [e0, ht]; omega
  | ⟨1, _⟩ => show win3_3.index t 1 * 72 ≤ (i 1).val ∧ (i 1).val < win3_3.index t 1 * 72 + 72; rw [e1]; omega

/-- The same for the second output. -/
theorem arma3_cover4 (i : S100000x72.Idx) : ∃ t : Fin cfg3.N, (cfg3.win 4).flush t = true ∧ i ∈ ((cfg3.win 4).blk t).view.set := by
  have hN : cfg3.N = 20 := N_3
  have hi0 : (i 0).val < 100000 := (i 0).isLt
  have hi1 : (i 1).val < 72 := (i 1).isLt
  let t : Fin cfg3.N := ⟨(i 0).val / 5000, by rw [hN]; omega⟩
  have ht : t.val = (i 0).val / 5000 := rfl
  obtain ⟨-, -, -, -, -, -, -, -, e0, e1⟩ := arma3_idx_facts t
  refine ⟨t, flush3_4 t, ?_⟩
  rw [arma3_mem_blk4]
  intro a
  match a with
  | ⟨0, _⟩ => show win3_4.index t 0 * 5000 ≤ (i 0).val ∧ (i 0).val < win3_4.index t 0 * 5000 + 5000; rw [e0, ht]; omega
  | ⟨1, _⟩ => show win3_4.index t 1 * 72 ≤ (i 1).val ∧ (i 1).val < win3_4.index t 1 * 72 + 72; rw [e1]; omega

/-- After region 3 its first output is the full product h · Wi of the arrays the region found. -/
theorem arma_t_final3 (c : Dev nD) :
    ((dat3 (F := Ideal) V c).arrAt 3 cfg3.N : S100000x72.Idx → EReal)
      = Host.dotGeneral (F := Ideal) (φ₁ := .f32) (φ₂ := .f32) Cert.ReferenceIdeal.dot_S100000x72_S72x72_S100000x72_1_0_0_1_n_n none (V c main_v125) (V c main_v127) :=
  (dat3 V c).arrAt_eq_of_cover 3 (armaProd (V c main_v125) (V c main_v127)) (fun t _ => arma3_flushed3_eq V c t) arma3_cover3

/-- After region 3 its second output is the full product h · Wr of the arrays the region found. -/
theorem arma_r_final3 (c : Dev nD) :
    ((dat3 (F := Ideal) V c).arrAt 4 cfg3.N : S100000x72.Idx → EReal)
      = Host.dotGeneral (F := Ideal) (φ₁ := .f32) (φ₂ := .f32) Cert.ReferenceIdeal.dot_S100000x72_S72x72_S100000x72_1_0_0_1_n_n none (V c main_v125) (V c main_v129) :=
  (dat3 V c).arrAt_eq_of_cover 4 (armaProd (V c main_v125) (V c main_v129)) (fun t _ => arma3_flushed4_eq V c t) arma3_cover4

end Cert.KernelIdeal.RegionValue

end
-- ==== Proof.KRegions.lean ====
/-
  The four node-feature regions of the kernel program, read along its run.

  The generated frame names core c's buffer contents at every boundary of the run (W0 at the launch, then one
  boundary per stretch of host operations and per region). A region's output arrays after the region are what its
  write-backs leave, which the region modules read as one whole-array function of the arrays the region found; the
  arrays a region finds were written by an earlier region or stretch and carried unchanged across the stretches
  between. Composing the two: the first region's output is the host's node layer of the three launch arguments, and
  each ARMA region's two outputs are the full products of its left operand with its two weight matrices.
-/
import proofs.«122625_j53163105190631_2_alg».proof.Proof.Gen.KernelIdeal.Frame
import proofs.«122625_j53163105190631_2_alg».proof.Proof.RegionNode
import proofs.«122625_j53163105190631_2_alg».proof.Proof.RegionArma
import proofs.«122625_j53163105190631_2_alg».proof.Proof.KWrites
import proofs.«122625_j53163105190631_2_alg».proof.Proof.KCarry

set_option maxRecDepth 16384

noncomputable section

namespace Cert.KernelIdeal.KRegions

open Idealize.ShloMosaic Idealize.ShloMosaic.TcCoe Cert.KernelIdeal Cert.KernelIdeal.Gen
open Cert.KernelIdeal.KWrites Cert.KernelIdeal.KCarry Cert.KernelIdeal.RegionValue

variable (m : (ℓ : Loc nD τ sig) → Buf (Elt Ideal) ℓ) (ρ : Dev nD → PrngReg) (c : Dev nD)

/-- After the first region, its output holds the host's node layer of the three arguments as launched: the region
    finds the arguments untouched (the stretch before it writes other buffers). -/
theorem k_h0 : (W2 m ρ c (Proc.devRef .tc main_v4) : S100000x72.Idx → EReal)
    = refNode (m ((c : Thread nD τ).loc main_arg0)) (m ((c : Thread nD τ).loc main_arg3)) (m ((c : Thread nD τ).loc main_arg4)) := by
  have e0 : V1 m ρ c main_arg0 = m ((c : Thread nD τ).loc main_arg0) := (keep_0to1 m ρ c main_arg0 (by decide)).trans rfl
  have e3 : V1 m ρ c main_arg3 = m ((c : Thread nD τ).loc main_arg3) := (keep_0to1 m ρ c main_arg3 (by decide)).trans rfl
  have e4 : V1 m ρ c main_arg4 = m ((c : Thread nD τ).loc main_arg4) := (keep_0to1 m ρ c main_arg4 (by decide)).trans rfl
  have h := node_final (V1 m ρ) c
  rw [e0, e3, e4] at h
  exact (W2_arr m ρ c 3).trans h

/-- After the second region, its first output is the product of the first region's output (carried unchanged across
    the stretches between) with the first weight matrix the region finds. -/
theorem k_t0 : (W6 m ρ c (Proc.devRef .tc main_v34_0) : S100000x72.Idx → EReal)
    = armaProd (W2 m ρ c (Proc.devRef .tc main_v4)) (W5 m ρ c (Proc.devRef .tc main_v31)) := by
  have e : V5 m ρ c main_v4 = W2 m ρ c (Proc.devRef .tc main_v4) := keep_2to5 m ρ c main_v4 (by decide)
  have h := arma_t_final1 (V5 m ρ) c
  rw [e] at h
  exact (W6_arr m ρ c 3).trans h

/-- And its second output the product with the second weight matrix. -/
theorem k_r0 : (W6 m ρ c (Proc.devRef .tc main_v34_1) : S100000x72.Idx → EReal)
    = armaProd (W2 m ρ c (Proc.devRef .tc main_v4)) (W5 m ρ c (Proc.devRef .tc main_v33)) := by
  have e : V5 m ρ c main_v4 = W2 m ρ c (Proc.devRef .tc main_v4) := keep_2to5 m ρ c main_v4 (by decide)
  have h := arma_r_final1 (V5 m ρ) c
  rw [e] at h
  exact (W6_arr m ρ c 4).trans h

/-- After the third region, its two outputs are the products of the left operand it finds with its two weight
    matrices. -/
theorem k_t1 : (W12 m ρ c (Proc.devRef .tc main_v82_0) : S100000x72.Idx → EReal)
    = armaProd (W11 m ρ c (Proc.devRef .tc main_v77)) (W11 m ρ c (Proc.devRef .tc main_v79)) :=
  (W12_arr m ρ c 3).trans (arma_t_final2 (V11 m ρ) c)

theorem k_r1 : (W12 m ρ c (Proc.devRef .tc main_v82_1) : S100000x72.Idx → EReal)
    = armaProd (W11 m ρ c (Proc.devRef .tc main_v77)) (W11 m ρ c (Proc.devRef .tc main_v81)) :=
  (W12_arr m ρ c 4).trans (arma_r_final2 (V11 m ρ) c)

/-- After the fourth region, likewise. -/
theorem k_t2 : (W18 m ρ c (Proc.devRef .tc main_v130_0) : S100000x72.Idx → EReal)
    = armaProd (W17 m ρ c (Proc.devRef .tc main_v125)) (W17 m ρ c (Proc.devRef .tc main_v127)) :=
  (W18_arr m ρ c 3).trans (arma_t_final3 (V17 m ρ) c)

theorem k_r2 : (W18 m ρ c (Proc.devRef .tc main_v130_1) : S100000x72.Idx → EReal)
    = armaProd (W17 m ρ c (Proc.devRef .tc main_v125)) (W17 m ρ c (Proc.devRef .tc main_v129)) :=
  (W18_arr m ρ c 4).trans (arma_r_final3 (V17 m ρ) c)

end Cert.KernelIdeal.KRegions

end
-- ==== Proof.RefSeq.lean ====
/-
  The reference's buffer contents after its first k segments.

  `Uat U0 k` is what the buffers hold once the first k of the reference's 26 segments have run from contents U0; after all
  26 it is what they hold after the whole program.  A buffer that none of the segments k = i, …, j - 1 writes holds at j
  what it held at i: a bounded check over the segments' result lists.
-/
import proofs.«122625_j53163105190631_2_alg».proof.Proof.RefOps
import proofs.«122625_j53163105190631_2_alg».proof.Proof.SimBase

set_option maxRecDepth 16384

noncomputable section

namespace Cert.ReferenceIdeal.RefRun

open Idealize.ShloMosaic

variable {F : FTy → Type} [FloatOps F]

/-- The segments in program order. -/
def segs : List (List (HloOp τ sig (Elt F))) :=
  [segIdx, segNode, segNorm, segWi0, segT0, segAgg0, segWr0, segRoot0, segBias0, segBn0, segWi1, segT1, segAgg1, segWr1, segRoot1, segBias1, segBn1, segWi2, segT2, segAgg2, segWr2, segRoot2, segBias2, segBn2, segGather, segMlp]

/-- Their result lists, in the same order. -/
def segWs : List (List (Ref sig .tc)) :=
  [segIdx_W, segNode_W, segNorm_W, segWi0_W, segT0_W, segAgg0_W, segWr0_W, segRoot0_W, segBias0_W, segBn0_W, segWi1_W, segT1_W, segAgg1_W, segWr1_W, segRoot1_W, segBias1_W, segBn1_W, segWi2_W, segT2_W, segAgg2_W, segWr2_W, segRoot2_W, segBias2_W, segBn2_W, segGather_W, segMlp_W]

/-- The contents after the first k segments, from contents U0. -/
def Uat (U0 : Valuation τ sig (Elt F)) : Nat → Valuation τ sig (Elt F)
  | 0 => U0
  | k + 1 => StableHlo.after (segs.getD k []) (Uat U0 k)

theorem Uat_succ (U0 : Valuation τ sig (Elt F)) (k : Nat) :
    Uat U0 (k + 1) = StableHlo.after (segs.getD k []) (Uat U0 k) := rfl

/-- Each segment writes only the buffers of its result list. -/
theorem segs_writes (k : Nat) (hk : k < 26) :
    ((segs (F := F)).getD k []).Forall fun op => op.writes ⊆ ((segWs.getD k []).map (Proc.devRef (τ := τ) .tc)).toFinset := by
  match k, hk with
  | 0, _ => exact segIdx_writes
  | 1, _ => exact segNode_writes
  | 2, _ => exact segNorm_writes
  | 3, _ => exact segWi0_writes
  | 4, _ => exact segT0_writes
  | 5, _ => exact segAgg0_writes
  | 6, _ => exact segWr0_writes
  | 7, _ => exact segRoot0_writes
  | 8, _ => exact segBias0_writes
  | 9, _ => exact segBn0_writes
  | 10, _ => exact segWi1_writes
  | 11, _ => exact segT1_writes
  | 12, _ => exact segAgg1_writes
  | 13, _ => exact segWr1_writes
  | 14, _ => exact segRoot1_writes
  | 15, _ => exact segBias1_writes
  | 16, _ => exact segBn1_writes
  | 17, _ => exact segWi2_writes
  | 18, _ => exact segT2_writes
  | 19, _ => exact segAgg2_writes
  | 20, _ => exact segWr2_writes
  | 21, _ => exact segRoot2_writes
  | 22, _ => exact segBias2_writes
  | 23, _ => exact segBn2_writes
  | 24, _ => exact segGather_writes
  | 25, _ => exact segMlp_writes
  | (n + 26), h => exact absurd h (by omega)

/-- A buffer outside the result lists of the segments i, …, j - 1 holds at j what it held at i. -/
theorem Uat_keep (U0 : Valuation τ sig (Elt F)) (r : Ref sig .tc) (i j : Nat) (hij : i ≤ j) (hj : j ≤ 26)
    (h : ∀ k, k < j → i ≤ k → r ∉ segWs.getD k []) :
    Uat U0 j (Proc.devRef .tc r) = Uat U0 i (Proc.devRef .tc r) := by
  induction j with
  | zero =>
    have hi : i = 0 := by omega
    subst hi
    rfl
  | succ j ih =>
    rcases Nat.eq_or_lt_of_le hij with rfl | hlt
    · rfl
    · have hij' : i ≤ j := by omega
      rw [Uat_succ]
      exact (StableHlo.after_of_writes_sub _ _ (segs_writes j (by omega)) (h j (by omega) hij')).trans
        (ih hij' (by omega) (fun k hk hik => h k (by omega) hik))

/-- After all 26 segments: the whole program. -/
theorem Uat_all (U0 : Valuation τ sig (Elt F)) : Uat U0 26 = StableHlo.after (ops (F := F)) U0 := by
  simp only [ops, Cert.Sim.after_append]
  rfl

end Cert.ReferenceIdeal.RefRun

end
-- ==== Proof.SimHead.lean ====
/-
  The host operations before the first layer, side by side.

  The kernel program and the reference apply the same host operations to the edge index (two column slices), and,
  from the two index vectors, the same chain computing the symmetric degree normalisation of every edge; the layer
  weights are cut out of the stacked weights by the same slices.  Each lemma runs the kernel program's stretch from
  arbitrary contents W and the reference's segment from arbitrary contents U that agree on the buffers read, and
  concludes that the results agree: both sides unfold to the same composition of pure operations.
-/
import proofs.«122625_j53163105190631_2_alg».proof.Proof.Gen.KernelIdeal.Launch
import proofs.«122625_j53163105190631_2_alg».proof.Proof.RefOps
import proofs.«122625_j53163105190631_2_alg».proof.Proof.SimBase
import Idealize.ShloMosaic.Lib.StableHlo.Run
import Idealize.ShloMosaic.PureOps.Ideal

set_option maxRecDepth 16384

noncomputable section

namespace Cert.Sim

open Idealize.ShloMosaic Idealize.ShloMosaic.StableHlo
open Cert.KernelIdeal.Gen (hostOps0 hostOps1 hostOps1_1 hostOps1_2 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7 hostOps4_8 hostOps4_9 hostOps4_10 hostOps5)
open Cert.ReferenceIdeal.RefRun

/-- Buffer contents of the kernel program's core, and of the reference's, at the ideal values. -/
local notation "KVal" => Valuation Cert.KernelIdeal.τ Cert.KernelIdeal.sig (Elt Ideal)
local notation "RVal" => Valuation Cert.ReferenceIdeal.τ Cert.ReferenceIdeal.sig (Elt Ideal)

/-- The two index vectors: the rows of the edge index. -/
theorem sim_idx (W : KVal) (U : RVal)
    (h : (W (Proc.devRef .tc Cert.KernelIdeal.main_arg1) : IVec Cert.KernelIdeal.S2x1600000 32) = U (Proc.devRef .tc Cert.ReferenceIdeal.main_arg1)) :
    ((after hostOps0 W (Proc.devRef .tc Cert.KernelIdeal.main_v1) : IVec Cert.KernelIdeal.S1600000 32) = after segIdx U (Proc.devRef .tc Cert.ReferenceIdeal.main_v1))
    ∧ ((after hostOps0 W (Proc.devRef .tc Cert.KernelIdeal.main_v3) : IVec Cert.KernelIdeal.S1600000 32) = after segIdx U (Proc.devRef .tc Cert.ReferenceIdeal.main_v3)) := by
  constructor
  · after_results_simp
    rw [h]
    try rfl
  · after_results_simp
    rw [h]
    try rfl

/-- The edge normalisation (degree by scatter-add of ones, its guarded inverse square root, the product of the two
    gathered endpoints' values), from the two index vectors. -/
theorem sim_norm (W : KVal) (U : RVal)
    (h1 : (W (Proc.devRef .tc Cert.KernelIdeal.main_v1) : IVec Cert.KernelIdeal.S1600000 32) = U (Proc.devRef .tc Cert.ReferenceIdeal.main_v1))
    (h3 : (W (Proc.devRef .tc Cert.KernelIdeal.main_v3) : IVec Cert.KernelIdeal.S1600000 32) = U (Proc.devRef .tc Cert.ReferenceIdeal.main_v3)) :
    (after hostOps1_2 (after hostOps1_1 (after hostOps1 W)) (Proc.devRef .tc Cert.KernelIdeal.main_v29) : Cert.KernelIdeal.S1600000.Idx → EReal)
      = after segNorm U (Proc.devRef .tc Cert.ReferenceIdeal.main_v33) := by
  after_results_simp
  rw [h1, h3]
  try rfl

/-- The first layer's two weight matrices: slices of the stacked weights. -/
theorem sim_wi0 (W : KVal) (U : RVal)
    (h : (W (Proc.devRef .tc Cert.KernelIdeal.main_arg5) : Cert.KernelIdeal.S3x72x72.Idx → EReal) = U (Proc.devRef .tc Cert.ReferenceIdeal.main_arg5)) :
    (after hostOps1_2 (after hostOps1_1 (after hostOps1 W)) (Proc.devRef .tc Cert.KernelIdeal.main_v31) : Cert.KernelIdeal.S72x72.Idx → EReal)
      = after segWi0 U (Proc.devRef .tc Cert.ReferenceIdeal.main_v35) := by
  after_results_simp
  rw [h]
  try rfl

theorem sim_wr0 (W : KVal) (U : RVal)
    (h : (W (Proc.devRef .tc Cert.KernelIdeal.main_arg6) : Cert.KernelIdeal.S3x72x72.Idx → EReal) = U (Proc.devRef .tc Cert.ReferenceIdeal.main_arg6)) :
    (after hostOps1_2 (after hostOps1_1 (after hostOps1 W)) (Proc.devRef .tc Cert.KernelIdeal.main_v33) : Cert.KernelIdeal.S72x72.Idx → EReal)
      = after segWr0 U (Proc.devRef .tc Cert.ReferenceIdeal.main_v51) := by
  after_results_simp
  rw [h]
  try rfl

end Cert.Sim

end
-- ==== Proof.LibRowGatherScatter.lean ====
/- Rows gathered and rows scattered, read at an index. A gather of whole rows of an [N, C] array at an [E, 1] table
   of row numbers gives an [E, C] array whose row e is the row the table names, the number read signed and clamped
   into [0, N - 1]. A scatter of the rows of an [E, C] array into an [N, C] array by addition, at an [E, 1] table of
   row numbers, adds row e to the row the table names, the number read signed and NOT clamped: a row whose number
   falls outside [0, N) is dropped. At the ideal values the scattered array at (n, c) is therefore the operand's
   entry plus the sum, over the rows e that land on n, of the update's entry (e, c). Stated over abstract sizes. -/
import Idealize.ShloMosaic.Lib.ValueIdx
import Idealize.ShloMosaic.PureOps.Ideal.Laws

noncomputable section

open scoped BigOperators

namespace Cert.Lib.RowGatherScatter

open Idealize.ShloMosaic Idealize.ShloMosaic.ValueIdx

variable {N E C w : Nat}

/-! ## The gather of rows -/

/-- The dimension numbers of a gather of whole rows: axis 0 collapsed and named by the one-component start index,
    axis 1 the offset axis, a slice one row long. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row e reads: the table's entry e as a signed integer, clamped into [0, N - 1]. -/
def gatherPos (hN : 0 < N) (idx : IVec ⟨2, ![E, 1]⟩ w) (e : Fin E) : Fin N :=
  ⟨min (idx (ix2 e (0 : Fin 1))).toInt.toNat (N - 1), by omega⟩

/-- THE GATHER READ AT (e, c): the operand at the row the table names for e, same column. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherPos hN idx e) c) := by
  unfold Host.gather
  congr 1
  funext a
  refine Fin.ext ?_
  match a with
  | ⟨0, _⟩ =>
    show (rowGatherDims N E C wf).start (ix2 e c) idx (0 : Fin 2) + (rowGatherDims N E C wf).batchCoord (ix2 e c) (0 : Fin 2)
      + (rowGatherDims N E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx (1 : Fin 2) + (rowGatherDims N E C wf).batchCoord (ix2 e c) (1 : Fin 2)
      + (rowGatherDims N E C wf).offCoord (ix2 e c) (1 : Fin 2) = c.val
    have hs : (rowGatherDims N E C wf).start (ix2 e c) idx (1 : Fin 2) = 0 := by
      unfold GatherDims.start
      rw [dif_neg (show (1 : Fin 2) ∉ (rowGatherDims N E C wf).startIndexMap from
        fun h => absurd (List.mem_singleton.mp h) (show ¬ ((1 : Fin 2) = 0) by decide))]
    have hk : (1 : Fin 2) ∈ (rowGatherDims N E C wf).sKept :=
      (GatherDims.mem_sKept _ _).mpr ⟨fun h => absurd (List.mem_singleton.mp h) (show ¬ ((1 : Fin 2) = 0) by decide), List.not_mem_nil⟩
    have ho : (rowGatherDims N E C wf).offCoord (ix2 e c) (1 : Fin 2) = c.val := by
      unfold GatherDims.offCoord
      rw [dif_pos hk]
      rfl
    rw [hs, GatherDims.batchCoord_eq_zero _ _ _ List.not_mem_nil, ho]
    omega

/-! ## The scatter of rows by addition -/

/-- The dimension numbers of a scatter of whole rows: the operand's axis 0 inserted and named by the one-component
    scatter index, the update's axis 1 its window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row that update row e lands on: the table's entry e as a signed integer when it lies in [0, N), no row
    otherwise (the update row is dropped). -/
def landPos (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Update entry (e, c) lands on operand entry (n, c') exactly when the table sends e to n and c = c'. -/
theorem resultIdx_rows (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c') ↔ (landPos N idx e = some n ∧ c = c') := by
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have s0 : (rowScatterDims N E C wf).start (ix2 e c) idx (0 : Fin 2) = (idx (ix2 e (0 : Fin 1))).toInt := by
    unfold ScatterDims.start
    rw [dif_pos (show (0 : Fin 2) ∈ (rowScatterDims N E C wf).scatterDimsToOperandDims from List.mem_singleton.mpr rfl), hsi]
  have s1 : (rowScatterDims N E C wf).start (ix2 e c) idx (1 : Fin 2) = 0 := by
    unfold ScatterDims.start
    rw [dif_neg (show (1 : Fin 2) ∉ (rowScatterDims N E C wf).scatterDimsToOperandDims from
      fun h => absurd (List.mem_singleton.mp h) (show ¬ ((1 : Fin 2) = 0) by decide))]
  have k0 : (0 : Fin 2) ∉ (rowScatterDims N E C wf).sKept := by
    simp [ScatterDims.sKept, Shape.kept, List.mem_filter]
  have k1 : (1 : Fin 2) ∈ (rowScatterDims N E C wf).sKept := by
    refine List.mem_filter.mpr ⟨List.mem_finRange _, ?_⟩
    simpa using (show ¬ ((1 : Fin 2) = 0) by decide)
  have w0 : (rowScatterDims N E C wf).window (ix2 e c) (0 : Fin 2) = 0 := by
    unfold ScatterDims.window
    rw [dif_neg k0]
  have w1 : (rowScatterDims N E C wf).window (ix2 e c) (1 : Fin 2) = c.val := by
    unfold ScatterDims.window
    rw [dif_pos k1]
    rfl
  have hc := c.isLt
  unfold ScatterDims.resultIdx? landPos
  by_cases hl : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro a
      match a with
      | ⟨0, _⟩ =>
        show 0 ≤ (rowScatterDims N E C wf).start (ix2 e c) idx (0 : Fin 2) + ((rowScatterDims N E C wf).window (ix2 e c) (0 : Fin 2) : Int)
          ∧ (rowScatterDims N E C wf).start (ix2 e c) idx (0 : Fin 2) + ((rowScatterDims N E C wf).window (ix2 e c) (0 : Fin 2) : Int) < (N : Int)
        rw [s0, w0]; omega
      | ⟨1, _⟩ =>
        show 0 ≤ (rowScatterDims N E C wf).start (ix2 e c) idx (1 : Fin 2) + ((rowScatterDims N E C wf).window (ix2 e c) (1 : Fin 2) : Int)
          ∧ (rowScatterDims N E C wf).start (ix2 e c) idx (1 : Fin 2) + ((rowScatterDims N E C wf).window (ix2 e c) (1 : Fin 2) : Int) < (C : Int)
        rw [s1, w1]; omega
    rw [dif_pos hall, dif_pos hl]
    simp only [Option.some.injEq]
    constructor
    · intro h
      have e0 := congrArg (fun i => (i (0 : Fin 2)).val) h
      have e1 := congrArg (fun i => (i (1 : Fin 2)).val) h
      simp only at e0 e1
      have e0' : ((rowScatterDims N E C wf).start (ix2 e c) idx (0 : Fin 2) + ((rowScatterDims N E C wf).window (ix2 e c) (0 : Fin 2) : Int)).toNat = n.val := e0
      have e1' : ((rowScatterDims N E C wf).start (ix2 e c) idx (1 : Fin 2) + ((rowScatterDims N E C wf).window (ix2 e c) (1 : Fin 2) : Int)).toNat = c'.val := e1
      rw [s0, w0] at e0'
      rw [s1, w1] at e1'
      exact ⟨Fin.ext (by simp only; omega), Fin.ext (by omega)⟩
    · rintro ⟨hn, rfl⟩
      have hn' : (idx (ix2 e (0 : Fin 1))).toInt.toNat = n.val := congrArg Fin.val hn
      funext a; refine Fin.ext ?_
      match a with
      | ⟨0, _⟩ =>
        show ((rowScatterDims N E C wf).start (ix2 e c) idx (0 : Fin 2) + ((rowScatterDims N E C wf).window (ix2 e c) (0 : Fin 2) : Int)).toNat = n.val
        rw [s0, w0]; omega
      | ⟨1, _⟩ =>
        show ((rowScatterDims N E C wf).start (ix2 e c) idx (1 : Fin 2) + ((rowScatterDims N E C wf).window (ix2 e c) (1 : Fin 2) : Int)).toNat = c.val
        rw [s1, w1]; omega
  · have hnot : ¬ ∀ a, 0 ≤ (rowScatterDims N E C wf).start (ix2 e c) idx a + (rowScatterDims N E C wf).window (ix2 e c) a
        ∧ (rowScatterDims N E C wf).start (ix2 e c) idx a + (rowScatterDims N E C wf).window (ix2 e c) a < ((⟨2, ![N, C]⟩ : Shape).size a : Int) := by
      intro h
      have h0 := h (0 : Fin 2)
      rw [s0, w0] at h0
      have h0' : 0 ≤ (idx (ix2 e (0 : Fin 1))).toInt + ((0 : Nat) : Int) ∧ (idx (ix2 e (0 : Fin 1))).toInt + ((0 : Nat) : Int) < (N : Int) := h0
      exact hl (by omega)
    rw [dif_neg hnot, dif_neg hl]
    simp

/-- THE SCATTER BY ADDITION READ AT (n, c), at the ideal values: the operand's entry plus the sum, over the update
    rows that land on n, of the update's entry in column c. -/
theorem scatterAdd_rows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N E C wf) x idx upd (ix2 n c)
      = x (ix2 n c) + ∑ e ∈ Finset.univ.filter (fun e : Fin E => landPos N idx e = some n), upd (ix2 e c) := by
  unfold Ideal.hostScatterAdd
  congr 1
  rw [Finset.sum_filter, sum_idx2, Finset.sum_filter]
  refine Finset.sum_congr rfl fun e _ => ?_
  by_cases hL : landPos N idx e = some n
  · simp [resultIdx_rows, hL]
  · simp [resultIdx_rows, hL]

/-- The same, stated of the host operation's own spelling (at the ideal values it is that exact sum). -/
theorem host_scatterAdd_rows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatterDims N E C wf) x idx upd (ix2 n c)
      = x (ix2 n c) + ∑ e ∈ Finset.univ.filter (fun e : Fin E => landPos N idx e = some n), upd (ix2 e c) :=
  scatterAdd_rows_apply wf x idx upd n c

end Cert.Lib.RowGatherScatter

end
-- ==== Proof.GatherRows.lean ====
/-
  The rows that the two programs' row gathers read.

  Both programs normalise a 32-bit row index the way jnp does (a negative word is shifted up by the extent 100000),
  spread the index vector into a one-column table and gather whole rows of a [100000, 72] array, the row clamped into
  range.  The kernel program first pads the index vector from 1600000 to 1601536 entries; on the first 1600000 entries
  the padded vector is the original, so row e of the kernel program's gather is the same row of the operand as row e of
  the reference's gather: the row named by the word at entry e.
-/
import proofs.«122625_j53163105190631_2_alg».proof.Proof.Gen.KernelIdeal
import proofs.«122625_j53163105190631_2_alg».proof.Proof.Gen.ReferenceIdeal
import proofs.«122625_j53163105190631_2_alg».proof.Proof.LibRowGatherScatter
import Idealize.ShloMosaic.Lib.KernelVsHost
import Idealize.ShloMosaic.Lib.IdealHost
import Idealize.ShloMosaic.Lib.Pipeline.Value
import Idealize.ShloMosaic.Lib.ValueIdx

noncomputable section

namespace Cert.Sim.GatherRows

open Idealize.ShloMosaic Idealize.ShloMosaic.ValueIdx Cert.Lib.RowGatherScatter

/-- jnp's normalisation of one index word against the extent 100000: a negative word is shifted up by the extent. -/
def wrap (w : BitVec 32) : BitVec 32 := Scalar.select (IntOp.cmpi .slt w 0#32) (w + 100000#32) w

/-- The row of a [100000, ·] array that an index word names: the normalised word as a signed number, clamped. -/
def rowOf (w : BitVec 32) : Fin 100000 := ⟨min (wrap w).toInt.toNat (100000 - 1), by omega⟩

section Kernel
open Cert.KernelIdeal Cert.KernelIdeal.Facts₀

/-- The kernel program's normalised, spread index table at entry (e, 0), e below 1600000: the normalised word of the
    unpadded vector at e. -/
theorem kernel_table (src : IVec S1600000 32) (z : IVec S_ 32) (e : Fin 1600000) :
    (broadcastInDim S1601536x1 ![0] bcast_S1601536_S1601536x1_0
      (select (cmpi .slt (pad S1601536 ![0] ![1536] ![0] src z pads_S1600000_S1601536_015360 h_S_)
                (broadcastInDim S1601536 ![] bcast_S_S1601536 (constantI S_ 32 0#32)))
              (addi (pad S1601536 ![0] ![1536] ![0] src z pads_S1600000_S1601536_015360 h_S_)
                (broadcastInDim S1601536 ![] bcast_S_S1601536 (constantI S_ 32 100000#32)))
              (pad S1601536 ![0] ![1536] ![0] src z pads_S1600000_S1601536_015360 h_S_)) : IVec S1601536x1 32)
      (ix2 (⟨e.val, by omega⟩ : Fin 1601536) (0 : Fin 1)) = wrap (src (ix1 e)) := by
  have hp : pad S1601536 ![0] ![1536] ![0] src z pads_S1600000_S1601536_015360 h_S_ (ix1 (⟨e.val, by omega⟩ : Fin 1601536))
      = src (ix1 e) :=
    pad_apply_of_inside _ _ _ src z pads_S1600000_S1601536_015360 h_S_ _ (ix1 e) (fun a => by
      have ha : a = 0 := Subsingleton.elim _ _
      subst ha
      simp [ix1])
  rw [broadcastInDim_apply _ _ _ _ (ix1 (⟨e.val, by omega⟩ : Fin 1601536)) (fun a => by
      have ha : a = 0 := Subsingleton.elim _ _
      subst ha
      simp [ix1, ix2])]
  rw [select_apply]
  show Scalar.select (IntOp.cmpi .slt (pad S1601536 ![0] ![1536] ![0] src z pads_S1600000_S1601536_015360 h_S_ (ix1 ⟨e.val, _⟩)) _)
    (pad S1601536 ![0] ![1536] ![0] src z pads_S1600000_S1601536_015360 h_S_ (ix1 ⟨e.val, _⟩) + _)
    (pad S1601536 ![0] ![1536] ![0] src z pads_S1600000_S1601536_015360 h_S_ (ix1 ⟨e.val, _⟩)) = _
  rw [hp]
  rfl

end Kernel

section Reference
open Cert.ReferenceIdeal Cert.ReferenceIdeal.Facts₀

/-- The reference's normalised, spread index table at entry (e, 0): the normalised word of the vector at e. -/
theorem reference_table (src : IVec S1600000 32) (e : Fin 1600000) :
    (broadcastInDim S1600000x1 ![0] bcast_S1600000_S1600000x1_0
      (select (cmpi .slt src (broadcastInDim S1600000 ![] bcast_S_S1600000 (constantI S_ 32 0#32)))
              (addi src (broadcastInDim S1600000 ![] bcast_S_S1600000 (constantI S_ 32 100000#32)))
              src) : IVec S1600000x1 32)
      (ix2 e (0 : Fin 1)) = wrap (src (ix1 e)) := by
  rw [broadcastInDim_apply _ _ _ _ (ix1 e) (fun a => by
      have ha : a = 0 := Subsingleton.elim _ _
      subst ha
      simp [ix1, ix2])]
  rfl

end Reference

/-- A gather of whole rows of a [100000, 72] array through a one-column table reads, at (e, k), the operand's row named
    by the word w when the table's entry (e, 0) is the normalised w. -/
theorem gather_row_of_word {E : Nat} {α : Type}
    (wf : GatherDims.WF ⟨2, ![100000, 72]⟩ ⟨2, ![E, 1]⟩ ⟨2, ![E, 72]⟩ [1] [0] [] [0] [] 1 ![1, 72])
    (h : (⟨2, ![100000, 72]⟩ : Shape).Idx → α) (idx : IVec ⟨2, ![E, 1]⟩ 32) (e : Fin E) (k : Fin 72) (w : BitVec 32)
    (hidx : idx (ix2 e (0 : Fin 1)) = wrap w) :
    Host.gather (rowGatherDims 100000 E 72 wf) h idx (ix2 e k) = h (ix2 (rowOf w) k) := by
  rw [gather_rows_apply (by decide : 0 < 100000)]
  have hp : gatherPos (by decide : 0 < 100000) idx e = rowOf w := by
    apply Fin.ext
    show min (idx (ix2 e (0 : Fin 1))).toInt.toNat (100000 - 1) = min (wrap w).toInt.toNat (100000 - 1)
    rw [hidx]
  rw [hp]

end Cert.Sim.GatherRows

end
-- ==== Proof.SimTail.lean ====
/-
  What the reference's node embedding and its two row gathers compute, from arbitrary buffer contents.

  The reference's first layer is a straight line of host operations: the product of the node features with the
  embedding matrix, the bias made a row and broadcast along the rows, their sum, and the rectifier as a maximum with
  a broadcast zero; its result is that composition of the three argument arrays. Before the edge head the reference
  normalises the two index vectors the way jnp does, spreads each into a one-column table and gathers whole rows of the
  last layer's node features: row e of either gather is the node-feature row named by the index word at entry e.
-/
import proofs.«122625_j53163105190631_2_alg».proof.Proof.RefOps
import proofs.«122625_j53163105190631_2_alg».proof.Proof.GatherRows
import proofs.«122625_j53163105190631_2_alg».proof.Proof.RegionNode
import Idealize.ShloMosaic.Lib.StableHlo.Run
import Idealize.ShloMosaic.PureOps.Ideal
import Idealize.ShloMosaic.Lib.KernelVsHost
import Idealize.ShloMosaic.Lib.Pipeline.Value

set_option maxRecDepth 16384

noncomputable section

namespace Cert.Sim

open Idealize.ShloMosaic Idealize.ShloMosaic.StableHlo Idealize.ShloMosaic.ValueIdx
open Cert.ReferenceIdeal.RefRun Cert.Sim.GatherRows

local notation "RVal" => Valuation Cert.ReferenceIdeal.τ Cert.ReferenceIdeal.sig (Elt Ideal)

/-- Row e of the reference's source-side gather: the node features' row named by the source index word at e. -/
theorem ref_hs_row (U : RVal) (e : Fin 1600000) (k : Fin 72) :
    (after segGather U (Proc.devRef .tc Cert.ReferenceIdeal.main_v187) : Cert.ReferenceIdeal.S1600000x72.Idx → EReal) (ix2 e k)
      = (U (Proc.devRef .tc Cert.ReferenceIdeal.main_v180) : Cert.ReferenceIdeal.S100000x72.Idx → EReal)
          (ix2 (rowOf ((U (Proc.devRef .tc Cert.ReferenceIdeal.main_v1) : IVec Cert.ReferenceIdeal.S1600000 32) (ix1 e))) k) := by
  after_results_simp
  exact gather_row_of_word Cert.ReferenceIdeal.Facts₀.gather_S100000x72_S1600000x1_S1600000x72_1_0_n_n_0_1_172_wf _ _ _ k _ (reference_table _ e)

/-- Row e of the reference's destination-side gather: the node features' row named by the destination index word at e. -/
theorem ref_hd_row (U : RVal) (e : Fin 1600000) (k : Fin 72) :
    (after segGather U (Proc.devRef .tc Cert.ReferenceIdeal.main_v194) : Cert.ReferenceIdeal.S1600000x72.Idx → EReal) (ix2 e k)
      = (U (Proc.devRef .tc Cert.ReferenceIdeal.main_v180) : Cert.ReferenceIdeal.S100000x72.Idx → EReal)
          (ix2 (rowOf ((U (Proc.devRef .tc Cert.ReferenceIdeal.main_v3) : IVec Cert.ReferenceIdeal.S1600000 32) (ix1 e))) k) := by
  after_results_simp
  exact gather_row_of_word Cert.ReferenceIdeal.Facts₀.gather_S100000x72_S1600000x1_S1600000x72_1_0_n_n_0_1_172_wf _ _ _ k _ (reference_table _ e)

/-- The reference's node embedding: the host's node layer of the three argument arrays. -/
theorem ref_node (U : RVal) :
    (after segNode U (Proc.devRef .tc Cert.ReferenceIdeal.main_v8) : Cert.ReferenceIdeal.S100000x72.Idx → EReal)
      = Cert.KernelIdeal.RegionValue.refNode (U (Proc.devRef .tc Cert.ReferenceIdeal.main_arg0))
          (U (Proc.devRef .tc Cert.ReferenceIdeal.main_arg3)) (U (Proc.devRef .tc Cert.ReferenceIdeal.main_arg4)) := by
  after_results_simp
  simp only [TRef.toBuf, TRef.ofBuf, cast_eq, id_eq]
  rfl

end Cert.Sim

end
-- ==== Proof.BridgeBase.lean ====
/-
  The two programs side by side: the launch, and the agreement of the arguments.

  The kernel program runs from a memory m, the reference from contents U0; they agree on the eighteen arguments.  An
  argument is never rewritten by either program, so at every later boundary both still hold it: the kernel program's
  boundary contents read back to m, the reference's contents after any number of segments read back to U0.
-/
import proofs.«122625_j53163105190631_2_alg».proof.Proof.Gen.KernelIdeal.Frame
import proofs.«122625_j53163105190631_2_alg».proof.Proof.KAt
import proofs.«122625_j53163105190631_2_alg».proof.Proof.RefSeq
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.KernelIdeal.KAt

/-- The kernel program's memory, the reference's buffer contents, and the kernel program's devices, at the ideal values. -/
abbrev KMem := (ℓ : Loc Cert.KernelIdeal.nD Cert.KernelIdeal.τ Cert.KernelIdeal.sig) → Buf (Elt Ideal) ℓ
abbrev RVal := Valuation Cert.ReferenceIdeal.τ Cert.ReferenceIdeal.sig (Elt Ideal)
abbrev KDev := Dev Cert.KernelIdeal.nD

/-- The two programs are launched on the same arguments. -/
structure ArgsAgree (m : KMem) (c : KDev) (U0 : RVal) : Prop where
  arg0 : (m ((c : Thread Cert.KernelIdeal.nD Cert.KernelIdeal.τ).loc Cert.KernelIdeal.main_arg0) : Cert.KernelIdeal.S100000x64.Idx → EReal) = U0 (Proc.devRef .tc Cert.ReferenceIdeal.main_arg0)
  arg1 : (m ((c : Thread Cert.KernelIdeal.nD Cert.KernelIdeal.τ).loc Cert.KernelIdeal.main_arg1) : IVec Cert.KernelIdeal.S2x1600000 32) = U0 (Proc.devRef .tc Cert.ReferenceIdeal.main_arg1)
  arg2 : (m ((c : Thread Cert.KernelIdeal.nD Cert.KernelIdeal.τ).loc Cert.KernelIdeal.main_arg2) : Cert.KernelIdeal.S1600000x8.Idx → EReal) = U0 (Proc.devRef .tc Cert.ReferenceIdeal.main_arg2)
  arg3 : (m ((c : Thread Cert.KernelIdeal.nD Cert.KernelIdeal.τ).loc Cert.KernelIdeal.main_arg3) : Cert.KernelIdeal.S64x72.Idx → EReal) = U0 (Proc.devRef .tc Cert.ReferenceIdeal.main_arg3)
  arg4 : (m ((c : Thread Cert.KernelIdeal.nD Cert.KernelIdeal.τ).loc Cert.KernelIdeal.main_arg4) : Cert.KernelIdeal.S72.Idx → EReal) = U0 (Proc.devRef .tc Cert.ReferenceIdeal.main_arg4)
  arg5 : (m ((c : Thread Cert.KernelIdeal.nD Cert.KernelIdeal.τ).loc Cert.KernelIdeal.main_arg5) : Cert.KernelIdeal.S3x72x72.Idx → EReal) = U0 (Proc.devRef .tc Cert.ReferenceIdeal.main_arg5)
  arg6 : (m ((c : Thread Cert.KernelIdeal.nD Cert.KernelIdeal.τ).loc Cert.KernelIdeal.main_arg6) : Cert.KernelIdeal.S3x72x72.Idx → EReal) = U0 (Proc.devRef .tc Cert.ReferenceIdeal.main_arg6)
  arg7 : (m ((c : Thread Cert.KernelIdeal.nD Cert.KernelIdeal.τ).loc Cert.KernelIdeal.main_arg7) : Cert.KernelIdeal.S3x72.Idx → EReal) = U0 (Proc.devRef .tc Cert.ReferenceIdeal.main_arg7)
  arg8 : (m ((c : Thread Cert.KernelIdeal.nD Cert.KernelIdeal.τ).loc Cert.KernelIdeal.main_arg8) : Cert.KernelIdeal.S3x72.Idx → EReal) = U0 (Proc.devRef .tc Cert.ReferenceIdeal.main_arg8)
  arg9 : (m ((c : Thread Cert.KernelIdeal.nD Cert.KernelIdeal.τ).loc Cert.KernelIdeal.main_arg9) : Cert.KernelIdeal.S3x72.Idx → EReal) = U0 (Proc.devRef .tc Cert.ReferenceIdeal.main_arg9)
  arg10 : (m ((c : Thread Cert.KernelIdeal.nD Cert.KernelIdeal.τ).loc Cert.KernelIdeal.main_arg10) : Cert.KernelIdeal.S144x72.Idx → EReal) = U0 (Proc.devRef .tc Cert.ReferenceIdeal.main_arg10)
  arg11 : (m ((c : Thread Cert.KernelIdeal.nD Cert.KernelIdeal.τ).loc Cert.KernelIdeal.main_arg11) : Cert.KernelIdeal.S72.Idx → EReal) = U0 (Proc.devRef .tc Cert.ReferenceIdeal.main_arg11)
  arg12 : (m ((c : Thread Cert.KernelIdeal.nD Cert.KernelIdeal.τ).loc Cert.KernelIdeal.main_arg12) : Cert.KernelIdeal.S8x72.Idx → EReal) = U0 (Proc.devRef .tc Cert.ReferenceIdeal.main_arg12)
  arg13 : (m ((c : Thread Cert.KernelIdeal.nD Cert.KernelIdeal.τ).loc Cert.KernelIdeal.main_arg13) : Cert.KernelIdeal.S72.Idx → EReal) = U0 (Proc.devRef .tc Cert.ReferenceIdeal.main_arg13)
  arg14 : (m ((c : Thread Cert.KernelIdeal.nD Cert.KernelIdeal.τ).loc Cert.KernelIdeal.main_arg14) : Cert.KernelIdeal.S144x72.Idx → EReal) = U0 (Proc.devRef .tc Cert.ReferenceIdeal.main_arg14)
  arg15 : (m ((c : Thread Cert.KernelIdeal.nD Cert.KernelIdeal.τ).loc Cert.KernelIdeal.main_arg15) : Cert.KernelIdeal.S72.Idx → EReal) = U0 (Proc.devRef .tc Cert.ReferenceIdeal.main_arg15)
  arg16 : (m ((c : Thread Cert.KernelIdeal.nD Cert.KernelIdeal.τ).loc Cert.KernelIdeal.main_arg16) : Cert.KernelIdeal.S72x1.Idx → EReal) = U0 (Proc.devRef .tc Cert.ReferenceIdeal.main_arg16)
  arg17 : (m ((c : Thread Cert.KernelIdeal.nD Cert.KernelIdeal.τ).loc Cert.KernelIdeal.main_arg17) : Cert.KernelIdeal.S1.Idx → EReal) = U0 (Proc.devRef .tc Cert.ReferenceIdeal.main_arg17)

/-- The kernel program's launch contents are the memory. -/
theorem W0_eq (m : KMem) (ρ : KDev → PrngReg) (c : KDev) (r : Ref Cert.KernelIdeal.sig .tc) :
    W0 m ρ c (Proc.devRef .tc r) = m ((c : Thread Cert.KernelIdeal.nD Cert.KernelIdeal.τ).loc r) := rfl

section ReadBack
variable (m : KMem) (ρ : KDev → PrngReg) (c : KDev)

/-- A buffer never rewritten up to boundary 2 holds there what the memory holds. -/
theorem m2 (r : Ref Cert.KernelIdeal.sig .tc) (h0 : r ∉ Cert.KernelIdeal.KWrites.hostOps0_W := by decide)
    (hr0 : ∀ w, Pipeline.arrRef Cert.KernelIdeal.spec0 w ≠ r := by decide) :
    W2 m ρ c (Proc.devRef .tc r) = m ((c : Thread Cert.KernelIdeal.nD Cert.KernelIdeal.τ).loc r) :=
  (k2 m ρ c r hr0).trans ((k0 m ρ c r h0).trans (W0_eq m ρ c r))

/-- A buffer never rewritten up to boundary 6 holds there what the memory holds. -/
theorem m6 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide) :
    W6 m ρ c (Proc.devRef .tc r) = m ((c : Thread Cert.KernelIdeal.nD Cert.KernelIdeal.τ).loc r) :=
  (k6 m ρ c r hr0 h1 hr1).trans ((k0 m ρ c r h0).trans (W0_eq m ρ c r))

/-- A buffer never rewritten up to boundary 7 holds there what the memory holds. -/
theorem m7 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2a : r ∉ Cert.KernelIdeal.KWrites.hostOps2_W := by decide) :
    W7 m ρ c (Proc.devRef .tc r) = m ((c : Thread Cert.KernelIdeal.nD Cert.KernelIdeal.τ).loc r) :=
  (k7 m ρ c r hr0 h1 hr1 h2a).trans ((k0 m ρ c r h0).trans (W0_eq m ρ c r))

/-- A buffer never rewritten up to boundary 12 holds there what the memory holds. -/
theorem m12 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide) :
    W12 m ρ c (Proc.devRef .tc r) = m ((c : Thread Cert.KernelIdeal.nD Cert.KernelIdeal.τ).loc r) :=
  (k12 m ρ c r hr0 h1 hr1 h2 hr2).trans ((k0 m ρ c r h0).trans (W0_eq m ρ c r))

/-- A buffer never rewritten up to boundary 13 holds there what the memory holds. -/
theorem m13 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide)
    (h3a : r ∉ Cert.KernelIdeal.KWrites.hostOps3_W := by decide) :
    W13 m ρ c (Proc.devRef .tc r) = m ((c : Thread Cert.KernelIdeal.nD Cert.KernelIdeal.τ).loc r) :=
  (k13 m ρ c r hr0 h1 hr1 h2 hr2 h3a).trans ((k0 m ρ c r h0).trans (W0_eq m ρ c r))

/-- A buffer never rewritten up to boundary 18 holds there what the memory holds. -/
theorem m18 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide)
    (h3 : r ∉ Cert.KernelIdeal.KWrites.hostOps3_W ++ Cert.KernelIdeal.KWrites.hostOps3_1_W ++ Cert.KernelIdeal.KWrites.hostOps3_2_W ++ Cert.KernelIdeal.KWrites.hostOps3_3_W ++ Cert.KernelIdeal.KWrites.hostOps3_4_W := by decide)
    (hr3 : ∀ w, Pipeline.arrRef Cert.KernelIdeal.spec3 w ≠ r := by decide) :
    W18 m ρ c (Proc.devRef .tc r) = m ((c : Thread Cert.KernelIdeal.nD Cert.KernelIdeal.τ).loc r) :=
  (k18 m ρ c r hr0 h1 hr1 h2 hr2 h3 hr3).trans ((k0 m ρ c r h0).trans (W0_eq m ρ c r))

/-- A buffer never rewritten up to boundary 19 holds there what the memory holds. -/
theorem m19 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide)
    (h3 : r ∉ Cert.KernelIdeal.KWrites.hostOps3_W ++ Cert.KernelIdeal.KWrites.hostOps3_1_W ++ Cert.KernelIdeal.KWrites.hostOps3_2_W ++ Cert.KernelIdeal.KWrites.hostOps3_3_W ++ Cert.KernelIdeal.KWrites.hostOps3_4_W := by decide)
    (hr3 : ∀ w, Pipeline.arrRef Cert.KernelIdeal.spec3 w ≠ r := by decide)
    (h4a : r ∉ Cert.KernelIdeal.KWrites.hostOps4_W := by decide) :
    W19 m ρ c (Proc.devRef .tc r) = m ((c : Thread Cert.KernelIdeal.nD Cert.KernelIdeal.τ).loc r) :=
  (k19 m ρ c r hr0 h1 hr1 h2 hr2 h3 hr3 h4a).trans ((k0 m ρ c r h0).trans (W0_eq m ρ c r))

/-- A buffer never rewritten up to boundary 23 holds there what the memory holds. -/
theorem m23 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide)
    (h3 : r ∉ Cert.KernelIdeal.KWrites.hostOps3_W ++ Cert.KernelIdeal.KWrites.hostOps3_1_W ++ Cert.KernelIdeal.KWrites.hostOps3_2_W ++ Cert.KernelIdeal.KWrites.hostOps3_3_W ++ Cert.KernelIdeal.KWrites.hostOps3_4_W := by decide)
    (hr3 : ∀ w, Pipeline.arrRef Cert.KernelIdeal.spec3 w ≠ r := by decide)
    (h4 : r ∉ Cert.KernelIdeal.KWrites.hostOps4_W ++ Cert.KernelIdeal.KWrites.hostOps4_1_W ++ Cert.KernelIdeal.KWrites.hostOps4_2_W ++ Cert.KernelIdeal.KWrites.hostOps4_3_W ++ Cert.KernelIdeal.KWrites.hostOps4_4_W := by decide) :
    W23 m ρ c (Proc.devRef .tc r) = m ((c : Thread Cert.KernelIdeal.nD Cert.KernelIdeal.τ).loc r) :=
  (k23 m ρ c r hr0 h1 hr1 h2 hr2 h3 hr3 h4).trans ((k0 m ρ c r h0).trans (W0_eq m ρ c r))

/-- A buffer never rewritten up to boundary 29 holds there what the memory holds. -/
theorem m29 (r : Ref Cert.KernelIdeal.sig .tc) (h0 : r ∉ Cert.KernelIdeal.KWrites.hostOps0_W := by decide)
    (hr0 : ∀ w, Pipeline.arrRef Cert.KernelIdeal.spec0 w ≠ r := by decide)
    (h1 : r ∉ Cert.KernelIdeal.KWrites.hostOps1_W ++ Cert.KernelIdeal.KWrites.hostOps1_1_W ++ Cert.KernelIdeal.KWrites.hostOps1_2_W := by decide)
    (hr1 : ∀ w, Pipeline.arrRef Cert.KernelIdeal.spec1 w ≠ r := by decide)
    (h2 : r ∉ Cert.KernelIdeal.KWrites.hostOps2_W ++ Cert.KernelIdeal.KWrites.hostOps2_1_W ++ Cert.KernelIdeal.KWrites.hostOps2_2_W ++ Cert.KernelIdeal.KWrites.hostOps2_3_W ++ Cert.KernelIdeal.KWrites.hostOps2_4_W := by decide)
    (hr2 : ∀ w, Pipeline.arrRef Cert.KernelIdeal.spec2 w ≠ r := by decide)
    (h3 : r ∉ Cert.KernelIdeal.KWrites.hostOps3_W ++ Cert.KernelIdeal.KWrites.hostOps3_1_W ++ Cert.KernelIdeal.KWrites.hostOps3_2_W ++ Cert.KernelIdeal.KWrites.hostOps3_3_W ++ Cert.KernelIdeal.KWrites.hostOps3_4_W := by decide)
    (hr3 : ∀ w, Pipeline.arrRef Cert.KernelIdeal.spec3 w ≠ r := by decide)
    (h4 : r ∉ Cert.KernelIdeal.KWrites.hostOps4_W ++ Cert.KernelIdeal.KWrites.hostOps4_1_W ++ Cert.KernelIdeal.KWrites.hostOps4_2_W ++ Cert.KernelIdeal.KWrites.hostOps4_3_W ++ Cert.KernelIdeal.KWrites.hostOps4_4_W := by decide)
    (h5 : r ∉ Cert.KernelIdeal.KWrites.hostOps4_5_W ++ Cert.KernelIdeal.KWrites.hostOps4_6_W ++ Cert.KernelIdeal.KWrites.hostOps4_7_W ++ Cert.KernelIdeal.KWrites.hostOps4_8_W ++ Cert.KernelIdeal.KWrites.hostOps4_9_W ++ Cert.KernelIdeal.KWrites.hostOps4_10_W := by decide) :
    W29 m ρ c (Proc.devRef .tc r) = m ((c : Thread Cert.KernelIdeal.nD Cert.KernelIdeal.τ).loc r) :=
  (k29 m ρ c r hr0 h1 hr1 h2 hr2 h3 hr3 h4 h5).trans ((k0 m ρ c r h0).trans (W0_eq m ρ c r))

end ReadBack

section Norm
variable (m : KMem) (ρ : KDev → PrngReg) (c : KDev)

/-- The edge normalisation, computed before the second region, is still there when each layer reads it. -/
theorem n6 : W6 m ρ c (Proc.devRef .tc Cert.KernelIdeal.main_v29) = W5 m ρ c (Proc.devRef .tc Cert.KernelIdeal.main_v29) :=
  Cert.KernelIdeal.Gen.W6_of_ne m ρ c Cert.KernelIdeal.main_v29 (by decide)

theorem n12 : W12 m ρ c (Proc.devRef .tc Cert.KernelIdeal.main_v29) = W5 m ρ c (Proc.devRef .tc Cert.KernelIdeal.main_v29) :=
  (Cert.KernelIdeal.Gen.W12_of_ne m ρ c Cert.KernelIdeal.main_v29 (by decide)).trans
    ((Cert.KernelIdeal.KCarry.keep_6to11 m ρ c Cert.KernelIdeal.main_v29 (by decide)).trans (n6 m ρ c))

theorem n18 : W18 m ρ c (Proc.devRef .tc Cert.KernelIdeal.main_v29) = W5 m ρ c (Proc.devRef .tc Cert.KernelIdeal.main_v29) :=
  (Cert.KernelIdeal.Gen.W18_of_ne m ρ c Cert.KernelIdeal.main_v29 (by decide)).trans
    ((Cert.KernelIdeal.KCarry.keep_12to17 m ρ c Cert.KernelIdeal.main_v29 (by decide)).trans (n12 m ρ c))

end Norm

/-- A buffer that none of the reference's first k segments writes holds after them what it held at the launch. -/
theorem u0 (U0 : RVal) (k : Nat) (r : Ref Cert.ReferenceIdeal.sig .tc) (hk : k ≤ 26 := by omega)
    (h : ∀ i, i < k → 0 ≤ i → r ∉ Cert.ReferenceIdeal.RefRun.segWs.getD i [] := by decide) :
    Uat U0 k (Proc.devRef .tc r) = U0 (Proc.devRef .tc r) :=
  Uat_keep U0 r 0 k (Nat.zero_le _) hk h

/-- The same between two stages i ≤ j. -/
theorem uu (U0 : RVal) (i j : Nat) (r : Ref Cert.ReferenceIdeal.sig .tc) (hij : i ≤ j := by omega) (hj : j ≤ 26 := by omega)
    (h : ∀ k, k < j → i ≤ k → r ∉ Cert.ReferenceIdeal.RefRun.segWs.getD k [] := by decide) :
    Uat U0 j (Proc.devRef .tc r) = Uat U0 i (Proc.devRef .tc r) :=
  Uat_keep U0 r i j hij hj h

end Cert.Bridge

end
-- ==== Proof.BridgeHead.lean ====
/-
  The two programs side by side, up to the first layer.

  From the same edge index both programs cut the same two index vectors; the kernel program's first region computes the
  node embedding that the reference computes by a matrix product, a bias and a rectifier; the edge normalisation and the
  first layer's two weight matrices come out of the same host operations.  Stated over the kernel program's boundary
  contents W1, W2, W5 and the reference's contents after 1, 2, 3, 4 and 7 segments.
-/
import proofs.«122625_j53163105190631_2_alg».proof.Proof.Gen.KernelIdeal.Frame
import proofs.«122625_j53163105190631_2_alg».proof.Proof.KAt
import proofs.«122625_j53163105190631_2_alg».proof.Proof.KRegions
import proofs.«122625_j53163105190631_2_alg».proof.Proof.RefSeq
import proofs.«122625_j53163105190631_2_alg».proof.Proof.SimHead
import proofs.«122625_j53163105190631_2_alg».proof.Proof.SimTail
import proofs.«122625_j53163105190631_2_alg».proof.Proof.BridgeBase
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.Sim Cert.KernelIdeal.KAt Cert.KernelIdeal.KRegions Cert.KernelIdeal.RegionValue

theorem head (m : KMem) (ρ : KDev → PrngReg) (c : KDev) (U0 : RVal) (A : ArgsAgree m c U0) :
    ((W1 m ρ c (Proc.devRef .tc Cert.KernelIdeal.main_v1) : IVec Cert.KernelIdeal.S1600000 32) = Uat U0 1 (Proc.devRef .tc Cert.ReferenceIdeal.main_v1))
    ∧ ((W1 m ρ c (Proc.devRef .tc Cert.KernelIdeal.main_v3) : IVec Cert.KernelIdeal.S1600000 32) = Uat U0 1 (Proc.devRef .tc Cert.ReferenceIdeal.main_v3))
    ∧ ((W2 m ρ c (Proc.devRef .tc Cert.KernelIdeal.main_v4) : Cert.KernelIdeal.S100000x72.Idx → EReal) = Uat U0 2 (Proc.devRef .tc Cert.ReferenceIdeal.main_v8))
    ∧ ((W5 m ρ c (Proc.devRef .tc Cert.KernelIdeal.main_v29) : Cert.KernelIdeal.S1600000.Idx → EReal) = Uat U0 3 (Proc.devRef .tc Cert.ReferenceIdeal.main_v33))
    ∧ ((W5 m ρ c (Proc.devRef .tc Cert.KernelIdeal.main_v31) : Cert.KernelIdeal.S72x72.Idx → EReal) = Uat U0 4 (Proc.devRef .tc Cert.ReferenceIdeal.main_v35))
    ∧ ((W5 m ρ c (Proc.devRef .tc Cert.KernelIdeal.main_v33) : Cert.KernelIdeal.S72x72.Idx → EReal) = Uat U0 7 (Proc.devRef .tc Cert.ReferenceIdeal.main_v51)) := by
  -- the index vectors
  have a1 : (W0 m ρ c (Proc.devRef .tc Cert.KernelIdeal.main_arg1) : IVec Cert.KernelIdeal.S2x1600000 32) = U0 (Proc.devRef .tc Cert.ReferenceIdeal.main_arg1) := A.arg1
  obtain ⟨b1, b3⟩ := sim_idx (W0 m ρ c) U0 a1
  have B1 : (W1 m ρ c (Proc.devRef .tc Cert.KernelIdeal.main_v1) : IVec Cert.KernelIdeal.S1600000 32) = Uat U0 1 (Proc.devRef .tc Cert.ReferenceIdeal.main_v1) := b1
  have B1' : (W1 m ρ c (Proc.devRef .tc Cert.KernelIdeal.main_v3) : IVec Cert.KernelIdeal.S1600000 32) = Uat U0 1 (Proc.devRef .tc Cert.ReferenceIdeal.main_v3) := b3
  -- the node embedding
  have e0 : (m ((c : Thread Cert.KernelIdeal.nD Cert.KernelIdeal.τ).loc Cert.KernelIdeal.main_arg0) : Cert.KernelIdeal.S100000x64.Idx → EReal) = Uat U0 1 (Proc.devRef .tc Cert.ReferenceIdeal.main_arg0) := A.arg0.trans (u0 U0 1 Cert.ReferenceIdeal.main_arg0).symm
  have e3 : (m ((c : Thread Cert.KernelIdeal.nD Cert.KernelIdeal.τ).loc Cert.KernelIdeal.main_arg3) : Cert.KernelIdeal.S64x72.Idx → EReal) = Uat U0 1 (Proc.devRef .tc Cert.ReferenceIdeal.main_arg3) := A.arg3.trans (u0 U0 1 Cert.ReferenceIdeal.main_arg3).symm
  have e4 : (m ((c : Thread Cert.KernelIdeal.nD Cert.KernelIdeal.τ).loc Cert.KernelIdeal.main_arg4) : Cert.KernelIdeal.S72.Idx → EReal) = Uat U0 1 (Proc.devRef .tc Cert.ReferenceIdeal.main_arg4) := A.arg4.trans (u0 U0 1 Cert.ReferenceIdeal.main_arg4).symm
  have B2 : (W2 m ρ c (Proc.devRef .tc Cert.KernelIdeal.main_v4) : Cert.KernelIdeal.S100000x72.Idx → EReal) = Uat U0 2 (Proc.devRef .tc Cert.ReferenceIdeal.main_v8) := by
    rw [k_h0 m ρ c, e0, e3, e4]
    exact (ref_node (Uat U0 1)).symm
  -- the edge normalisation
  have h1 : (W2 m ρ c (Proc.devRef .tc Cert.KernelIdeal.main_v1) : IVec Cert.KernelIdeal.S1600000 32) = Uat U0 2 (Proc.devRef .tc Cert.ReferenceIdeal.main_v1) :=
    (k2 m ρ c Cert.KernelIdeal.main_v1).trans (B1.trans (uu U0 1 2 Cert.ReferenceIdeal.main_v1).symm)
  have h3 : (W2 m ρ c (Proc.devRef .tc Cert.KernelIdeal.main_v3) : IVec Cert.KernelIdeal.S1600000 32) = Uat U0 2 (Proc.devRef .tc Cert.ReferenceIdeal.main_v3) :=
    (k2 m ρ c Cert.KernelIdeal.main_v3).trans (B1'.trans (uu U0 1 2 Cert.ReferenceIdeal.main_v3).symm)
  have B3 : (W5 m ρ c (Proc.devRef .tc Cert.KernelIdeal.main_v29) : Cert.KernelIdeal.S1600000.Idx → EReal) = Uat U0 3 (Proc.devRef .tc Cert.ReferenceIdeal.main_v33) := sim_norm (W2 m ρ c) (Uat U0 2) h1 h3
  -- the first layer's weights
  have e5 : (W2 m ρ c (Proc.devRef .tc Cert.KernelIdeal.main_arg5) : Cert.KernelIdeal.S3x72x72.Idx → EReal) = Uat U0 3 (Proc.devRef .tc Cert.ReferenceIdeal.main_arg5) :=
    (m2 m ρ c Cert.KernelIdeal.main_arg5).trans (A.arg5.trans (u0 U0 3 Cert.ReferenceIdeal.main_arg5).symm)
  have B4 : (W5 m ρ c (Proc.devRef .tc Cert.KernelIdeal.main_v31) : Cert.KernelIdeal.S72x72.Idx → EReal) = Uat U0 4 (Proc.devRef .tc Cert.ReferenceIdeal.main_v35) := sim_wi0 (W2 m ρ c) (Uat U0 3) e5
  have e6 : (W2 m ρ c (Proc.devRef .tc Cert.KernelIdeal.main_arg6) : Cert.KernelIdeal.S3x72x72.Idx → EReal) = Uat U0 6 (Proc.devRef .tc Cert.ReferenceIdeal.main_arg6) :=
    (m2 m ρ c Cert.KernelIdeal.main_arg6).trans (A.arg6.trans (u0 U0 6 Cert.ReferenceIdeal.main_arg6).symm)
  have B5 : (W5 m ρ c (Proc.devRef .tc Cert.KernelIdeal.main_v33) : Cert.KernelIdeal.S72x72.Idx → EReal) = Uat U0 7 (Proc.devRef .tc Cert.ReferenceIdeal.main_v51) := sim_wr0 (W2 m ρ c) (Uat U0 6) e6
  exact ⟨B1, B1', B2, B3, B4, B5⟩

end Cert.Bridge

end
-- ==== Proof.SimLayer0.lean ====
/-
  Layer 0 of the network, side by side.

  Both programs gather the transformed features' rows at the source indices, scale them by the edge normalisation,
  scatter-add them at the destination indices, add the root product and the bias, apply the rectifier and the batch
  normalisation over the node axis.  The kernel program gets the transformed features and the root product from its
  region; the reference from two matrix products.  Each lemma runs the kernel program's stretch from arbitrary contents
  W and the reference's segment from arbitrary contents U agreeing on the buffers read: both sides unfold to the same
  composition of pure operations.
-/
import proofs.«122625_j53163105190631_2_alg».proof.Proof.Gen.KernelIdeal.Launch
import proofs.«122625_j53163105190631_2_alg».proof.Proof.RefOps
import proofs.«122625_j53163105190631_2_alg».proof.Proof.SimBase
import Idealize.ShloMosaic.Lib.StableHlo.Run
import Idealize.ShloMosaic.PureOps.Ideal

set_option maxRecDepth 16384

noncomputable section

namespace Cert.Sim

open Idealize.ShloMosaic Idealize.ShloMosaic.StableHlo
open Cert.KernelIdeal.Gen (hostOps0 hostOps1 hostOps1_1 hostOps1_2 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7 hostOps4_8 hostOps4_9 hostOps4_10 hostOps5)
open Cert.ReferenceIdeal.RefRun

/-- Buffer contents of the kernel program's core, and of the reference's, at the ideal values. -/
local notation "KVal" => Valuation Cert.KernelIdeal.τ Cert.KernelIdeal.sig (Elt Ideal)
local notation "RVal" => Valuation Cert.ReferenceIdeal.τ Cert.ReferenceIdeal.sig (Elt Ideal)

/-- The reference's transformed features and root product of this layer: two matrix products. -/
theorem ref_t0 (U : RVal) :
    (after segT0 U (Proc.devRef .tc Cert.ReferenceIdeal.main_v36) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v8)) (U (Proc.devRef .tc Cert.ReferenceIdeal.main_v35)) := by
  after_results_simp

theorem ref_root0 (U : RVal) :
    (after segRoot0 U (Proc.devRef .tc Cert.ReferenceIdeal.main_v52) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v8)) (U (Proc.devRef .tc Cert.ReferenceIdeal.main_v51)) := by
  after_results_simp

/-- The normalised neighbourhood sum. -/
theorem sim_agg0 (W : KVal) (U : RVal)
    (hn : (W (Proc.devRef .tc Cert.KernelIdeal.main_v29) : Cert.KernelIdeal.S1600000.Idx → EReal) = U (Proc.devRef .tc Cert.ReferenceIdeal.main_v33))
    (h1 : (W (Proc.devRef .tc Cert.KernelIdeal.main_v1) : IVec Cert.KernelIdeal.S1600000 32) = U (Proc.devRef .tc Cert.ReferenceIdeal.main_v1))
    (h3 : (W (Proc.devRef .tc Cert.KernelIdeal.main_v3) : IVec Cert.KernelIdeal.S1600000 32) = U (Proc.devRef .tc Cert.ReferenceIdeal.main_v3))
    (ht : (W (Proc.devRef .tc Cert.KernelIdeal.main_v34_0) : Cert.KernelIdeal.S100000x72.Idx → EReal) = U (Proc.devRef .tc Cert.ReferenceIdeal.main_v36)) :
    (after hostOps2 W (Proc.devRef .tc Cert.KernelIdeal.main_v47) : Cert.KernelIdeal.S100000x72.Idx → EReal) = after segAgg0 U (Proc.devRef .tc Cert.ReferenceIdeal.main_v49) := by
  after_results_simp
  rw [hn, h1, h3, ht]
  try rfl

/-- The sum plus the root product plus the bias, given the sum. -/
theorem sim_bias0 (W : KVal) (U : RVal)
    (hagg : (after hostOps2 W (Proc.devRef .tc Cert.KernelIdeal.main_v47) : Cert.KernelIdeal.S100000x72.Idx → EReal) = U (Proc.devRef .tc Cert.ReferenceIdeal.main_v49))
    (hroot : (W (Proc.devRef .tc Cert.KernelIdeal.main_v34_1) : Cert.KernelIdeal.S100000x72.Idx → EReal) = U (Proc.devRef .tc Cert.ReferenceIdeal.main_v52))
    (h7 : (W (Proc.devRef .tc Cert.KernelIdeal.main_arg7) : Cert.KernelIdeal.S3x72.Idx → EReal) = U (Proc.devRef .tc Cert.ReferenceIdeal.main_arg7)) :
    (after hostOps2 W (Proc.devRef .tc Cert.KernelIdeal.main_v53) : Cert.KernelIdeal.S100000x72.Idx → EReal) = after segBias0 U (Proc.devRef .tc Cert.ReferenceIdeal.main_v58) := by
  have e := hagg
  after_results_at e
  after_results_simp
  rw [e, hroot, h7]
  try rfl

/-- The rectifier and the batch normalisation. -/
theorem sim_bn0 (W : KVal) (U : RVal)
    (hpre : (W (Proc.devRef .tc Cert.KernelIdeal.main_v53) : Cert.KernelIdeal.S100000x72.Idx → EReal) = U (Proc.devRef .tc Cert.ReferenceIdeal.main_v58))
    (h8 : (W (Proc.devRef .tc Cert.KernelIdeal.main_arg8) : Cert.KernelIdeal.S3x72.Idx → EReal) = U (Proc.devRef .tc Cert.ReferenceIdeal.main_arg8))
    (h9 : (W (Proc.devRef .tc Cert.KernelIdeal.main_arg9) : Cert.KernelIdeal.S3x72.Idx → EReal) = U (Proc.devRef .tc Cert.ReferenceIdeal.main_arg9)) :
    (after hostOps2_4 (after hostOps2_3 (after hostOps2_2 (after hostOps2_1 W))) (Proc.devRef .tc Cert.KernelIdeal.main_v77) : Cert.KernelIdeal.S100000x72.Idx → EReal) = after segBn0 U (Proc.devRef .tc Cert.ReferenceIdeal.main_v82) := by
  after_results_simp
  rw [hpre, h8, h9]
  try rfl

/-- The next layer's two weight matrices: slices of the stacked weights. -/
theorem sim_wi1 (W : KVal) (U : RVal)
    (h : (W (Proc.devRef .tc Cert.KernelIdeal.main_arg5) : Cert.KernelIdeal.S3x72x72.Idx → EReal) = U (Proc.devRef .tc Cert.ReferenceIdeal.main_arg5)) :
    (after hostOps2_4 (after hostOps2_3 (after hostOps2_2 (after hostOps2_1 W))) (Proc.devRef .tc Cert.KernelIdeal.main_v79) : Cert.KernelIdeal.S72x72.Idx → EReal) = after segWi1 U (Proc.devRef .tc Cert.ReferenceIdeal.main_v84) := by
  after_results_simp
  rw [h]
  try rfl

theorem sim_wr1 (W : KVal) (U : RVal)
    (h : (W (Proc.devRef .tc Cert.KernelIdeal.main_arg6) : Cert.KernelIdeal.S3x72x72.Idx → EReal) = U (Proc.devRef .tc Cert.ReferenceIdeal.main_arg6)) :
    (after hostOps2_4 (after hostOps2_3 (after hostOps2_2 (after hostOps2_1 W))) (Proc.devRef .tc Cert.KernelIdeal.main_v81) : Cert.KernelIdeal.S72x72.Idx → EReal) = after segWr1 U (Proc.devRef .tc Cert.ReferenceIdeal.main_v100) := by
  after_results_simp
  rw [h]
  try rfl

end Cert.Sim

end
-- ==== Proof.BridgeLayer0.lean ====
/-
  The two programs side by side through layer 0.

  The kernel program's region gives the transformed features and the root product that the reference gets from two
  matrix products of the same operands; the neighbourhood sum, the bias, the rectifier and the batch normalisation are
  the same host operations on both sides.  Stated over the kernel program's boundary contents and the reference's
  contents after the corresponding numbers of segments; the index vectors, the edge normalisation and the arguments
  are carried to where they are read.
-/
import proofs.«122625_j53163105190631_2_alg».proof.Proof.Gen.KernelIdeal.Frame
import proofs.«122625_j53163105190631_2_alg».proof.Proof.KAt
import proofs.«122625_j53163105190631_2_alg».proof.Proof.KRegions
import proofs.«122625_j53163105190631_2_alg».proof.Proof.RefSeq
import proofs.«122625_j53163105190631_2_alg».proof.Proof.SimLayer0
import proofs.«122625_j53163105190631_2_alg».proof.Proof.BridgeBase
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.Sim Cert.KernelIdeal.KAt Cert.KernelIdeal.KRegions Cert.KernelIdeal.RegionValue

theorem layer0 (m : KMem) (ρ : KDev → PrngReg) (c : KDev) (U0 : RVal) (A : ArgsAgree m c U0)
    (Hv1 : (W1 m ρ c (Proc.devRef .tc Cert.KernelIdeal.main_v1) : IVec Cert.KernelIdeal.S1600000 32) = Uat U0 1 (Proc.devRef .tc Cert.ReferenceIdeal.main_v1))
    (Hv3 : (W1 m ρ c (Proc.devRef .tc Cert.KernelIdeal.main_v3) : IVec Cert.KernelIdeal.S1600000 32) = Uat U0 1 (Proc.devRef .tc Cert.ReferenceIdeal.main_v3))
    (Hn : (W5 m ρ c (Proc.devRef .tc Cert.KernelIdeal.main_v29) : Cert.KernelIdeal.S1600000.Idx → EReal) = Uat U0 3 (Proc.devRef .tc Cert.ReferenceIdeal.main_v33))
    (Hh : (W2 m ρ c (Proc.devRef .tc Cert.KernelIdeal.main_v4) : Cert.KernelIdeal.S100000x72.Idx → EReal) = Uat U0 2 (Proc.devRef .tc Cert.ReferenceIdeal.main_v8))
    (Hwi : (W5 m ρ c (Proc.devRef .tc Cert.KernelIdeal.main_v31) : Cert.KernelIdeal.S72x72.Idx → EReal) = Uat U0 4 (Proc.devRef .tc Cert.ReferenceIdeal.main_v35))
    (Hwr : (W5 m ρ c (Proc.devRef .tc Cert.KernelIdeal.main_v33) : Cert.KernelIdeal.S72x72.Idx → EReal) = Uat U0 7 (Proc.devRef .tc Cert.ReferenceIdeal.main_v51)) :
    ((W11 m ρ c (Proc.devRef .tc Cert.KernelIdeal.main_v77) : Cert.KernelIdeal.S100000x72.Idx → EReal) = Uat U0 10 (Proc.devRef .tc Cert.ReferenceIdeal.main_v82))
    ∧ ((W11 m ρ c (Proc.devRef .tc Cert.KernelIdeal.main_v79) : Cert.KernelIdeal.S72x72.Idx → EReal) = Uat U0 11 (Proc.devRef .tc Cert.ReferenceIdeal.main_v84))
    ∧ ((W11 m ρ c (Proc.devRef .tc Cert.KernelIdeal.main_v81) : Cert.KernelIdeal.S72x72.Idx → EReal) = Uat U0 14 (Proc.devRef .tc Cert.ReferenceIdeal.main_v100)) := by
  -- the transformed features
  have Hh4 : (W2 m ρ c (Proc.devRef .tc Cert.KernelIdeal.main_v4) : Cert.KernelIdeal.S100000x72.Idx → EReal) = Uat U0 4 (Proc.devRef .tc Cert.ReferenceIdeal.main_v8) := Hh.trans (uu U0 2 4 Cert.ReferenceIdeal.main_v8).symm
  have T : (W6 m ρ c (Proc.devRef .tc Cert.KernelIdeal.main_v34_0) : Cert.KernelIdeal.S100000x72.Idx → EReal) = Uat U0 5 (Proc.devRef .tc Cert.ReferenceIdeal.main_v36) := by
    rw [k_t0 m ρ c, Hh4, Hwi]
    exact (ref_t0 (Uat U0 4)).symm
  -- the neighbourhood sum
  have hn : (W6 m ρ c (Proc.devRef .tc Cert.KernelIdeal.main_v29) : Cert.KernelIdeal.S1600000.Idx → EReal) = Uat U0 5 (Proc.devRef .tc Cert.ReferenceIdeal.main_v33) :=
    (n6 m ρ c).trans (Hn.trans (uu U0 3 5 Cert.ReferenceIdeal.main_v33).symm)
  have h1 : (W6 m ρ c (Proc.devRef .tc Cert.KernelIdeal.main_v1) : IVec Cert.KernelIdeal.S1600000 32) = Uat U0 5 (Proc.devRef .tc Cert.ReferenceIdeal.main_v1) :=
    (k6 m ρ c Cert.KernelIdeal.main_v1).trans (Hv1.trans (uu U0 1 5 Cert.ReferenceIdeal.main_v1).symm)
  have h3 : (W6 m ρ c (Proc.devRef .tc Cert.KernelIdeal.main_v3) : IVec Cert.KernelIdeal.S1600000 32) = Uat U0 5 (Proc.devRef .tc Cert.ReferenceIdeal.main_v3) :=
    (k6 m ρ c Cert.KernelIdeal.main_v3).trans (Hv3.trans (uu U0 1 5 Cert.ReferenceIdeal.main_v3).symm)
  have AGG : (after Cert.KernelIdeal.Gen.hostOps2 (W6 m ρ c) (Proc.devRef .tc Cert.KernelIdeal.main_v47) : Cert.KernelIdeal.S100000x72.Idx → EReal) = Uat U0 6 (Proc.devRef .tc Cert.ReferenceIdeal.main_v49) :=
    sim_agg0 (W6 m ρ c) (Uat U0 5) hn h1 h3 T
  -- the root product
  have Hh7 : (W2 m ρ c (Proc.devRef .tc Cert.KernelIdeal.main_v4) : Cert.KernelIdeal.S100000x72.Idx → EReal) = Uat U0 7 (Proc.devRef .tc Cert.ReferenceIdeal.main_v8) := Hh.trans (uu U0 2 7 Cert.ReferenceIdeal.main_v8).symm
  have ROOT : (W6 m ρ c (Proc.devRef .tc Cert.KernelIdeal.main_v34_1) : Cert.KernelIdeal.S100000x72.Idx → EReal) = Uat U0 8 (Proc.devRef .tc Cert.ReferenceIdeal.main_v52) := by
    rw [k_r0 m ρ c, Hh7, Hwr]
    exact (ref_root0 (Uat U0 7)).symm
  -- the bias
  have h7 : (W6 m ρ c (Proc.devRef .tc Cert.KernelIdeal.main_arg7) : Cert.KernelIdeal.S3x72.Idx → EReal) = Uat U0 8 (Proc.devRef .tc Cert.ReferenceIdeal.main_arg7) :=
    (m6 m ρ c Cert.KernelIdeal.main_arg7).trans (A.arg7.trans (u0 U0 8 Cert.ReferenceIdeal.main_arg7).symm)
  have PRE : (W7 m ρ c (Proc.devRef .tc Cert.KernelIdeal.main_v53) : Cert.KernelIdeal.S100000x72.Idx → EReal) = Uat U0 9 (Proc.devRef .tc Cert.ReferenceIdeal.main_v58) :=
    sim_bias0 (W6 m ρ c) (Uat U0 8) (AGG.trans (uu U0 6 8 Cert.ReferenceIdeal.main_v49).symm) ROOT h7
  -- the rectifier and the batch normalisation
  have h8 : (W7 m ρ c (Proc.devRef .tc Cert.KernelIdeal.main_arg8) : Cert.KernelIdeal.S3x72.Idx → EReal) = Uat U0 9 (Proc.devRef .tc Cert.ReferenceIdeal.main_arg8) :=
    (m7 m ρ c Cert.KernelIdeal.main_arg8).trans (A.arg8.trans (u0 U0 9 Cert.ReferenceIdeal.main_arg8).symm)
  have h9 : (W7 m ρ c (Proc.devRef .tc Cert.KernelIdeal.main_arg9) : Cert.KernelIdeal.S3x72.Idx → EReal) = Uat U0 9 (Proc.devRef .tc Cert.ReferenceIdeal.main_arg9) :=
    (m7 m ρ c Cert.KernelIdeal.main_arg9).trans (A.arg9.trans (u0 U0 9 Cert.ReferenceIdeal.main_arg9).symm)
  have OUT : (W11 m ρ c (Proc.devRef .tc Cert.KernelIdeal.main_v77) : Cert.KernelIdeal.S100000x72.Idx → EReal) = Uat U0 10 (Proc.devRef .tc Cert.ReferenceIdeal.main_v82) := sim_bn0 (W7 m ρ c) (Uat U0 9) PRE h8 h9
  -- the next layer's weights
  have e5 : (W7 m ρ c (Proc.devRef .tc Cert.KernelIdeal.main_arg5) : Cert.KernelIdeal.S3x72x72.Idx → EReal) = Uat U0 10 (Proc.devRef .tc Cert.ReferenceIdeal.main_arg5) :=
    (m7 m ρ c Cert.KernelIdeal.main_arg5).trans (A.arg5.trans (u0 U0 10 Cert.ReferenceIdeal.main_arg5).symm)
  have WI : (W11 m ρ c (Proc.devRef .tc Cert.KernelIdeal.main_v79) : Cert.KernelIdeal.S72x72.Idx → EReal) = Uat U0 11 (Proc.devRef .tc Cert.ReferenceIdeal.main_v84) := sim_wi1 (W7 m ρ c) (Uat U0 10) e5
  have e6 : (W7 m ρ c (Proc.devRef .tc Cert.KernelIdeal.main_arg6) : Cert.KernelIdeal.S3x72x72.Idx → EReal) = Uat U0 13 (Proc.devRef .tc Cert.ReferenceIdeal.main_arg6) :=
    (m7 m ρ c Cert.KernelIdeal.main_arg6).trans (A.arg6.trans (u0 U0 13 Cert.ReferenceIdeal.main_arg6).symm)
  have WR : (W11 m ρ c (Proc.devRef .tc Cert.KernelIdeal.main_v81) : Cert.KernelIdeal.S72x72.Idx → EReal) = Uat U0 14 (Proc.devRef .tc Cert.ReferenceIdeal.main_v100) := sim_wr1 (W7 m ρ c) (Uat U0 13) e6
  exact ⟨OUT, WI, WR⟩

end Cert.Bridge

end
-- ==== Proof.SimLayer1.lean ====
/-
  Layer 1 of the network, side by side.

  Both programs gather the transformed features' rows at the source indices, scale them by the edge normalisation,
  scatter-add them at the destination indices, add the root product and the bias, apply the rectifier and the batch
  normalisation over the node axis.  The kernel program gets the transformed features and the root product from its
  region; the reference from two matrix products.  Each lemma runs the kernel program's stretch from arbitrary contents
  W and the reference's segment from arbitrary contents U agreeing on the buffers read: both sides unfold to the same
  composition of pure operations.
-/
import proofs.«122625_j53163105190631_2_alg».proof.Proof.Gen.KernelIdeal.Launch
import proofs.«122625_j53163105190631_2_alg».proof.Proof.RefOps
import proofs.«122625_j53163105190631_2_alg».proof.Proof.SimBase
import Idealize.ShloMosaic.Lib.StableHlo.Run
import Idealize.ShloMosaic.PureOps.Ideal

set_option maxRecDepth 16384

noncomputable section

namespace Cert.Sim

open Idealize.ShloMosaic Idealize.ShloMosaic.StableHlo
open Cert.KernelIdeal.Gen (hostOps0 hostOps1 hostOps1_1 hostOps1_2 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7 hostOps4_8 hostOps4_9 hostOps4_10 hostOps5)
open Cert.ReferenceIdeal.RefRun

/-- Buffer contents of the kernel program's core, and of the reference's, at the ideal values. -/
local notation "KVal" => Valuation Cert.KernelIdeal.τ Cert.KernelIdeal.sig (Elt Ideal)
local notation "RVal" => Valuation Cert.ReferenceIdeal.τ Cert.ReferenceIdeal.sig (Elt Ideal)

/-- The reference's transformed features and root product of this layer: two matrix products. -/
theorem ref_t1 (U : RVal) :
    (after segT1 U (Proc.devRef .tc Cert.ReferenceIdeal.main_v85) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v82)) (U (Proc.devRef .tc Cert.ReferenceIdeal.main_v84)) := by
  after_results_simp

theorem ref_root1 (U : RVal) :
    (after segRoot1 U (Proc.devRef .tc Cert.ReferenceIdeal.main_v101) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v82)) (U (Proc.devRef .tc Cert.ReferenceIdeal.main_v100)) := by
  after_results_simp

/-- The normalised neighbourhood sum. -/
theorem sim_agg1 (W : KVal) (U : RVal)
    (hn : (W (Proc.devRef .tc Cert.KernelIdeal.main_v29) : Cert.KernelIdeal.S1600000.Idx → EReal) = U (Proc.devRef .tc Cert.ReferenceIdeal.main_v33))
    (h1 : (W (Proc.devRef .tc Cert.KernelIdeal.main_v1) : IVec Cert.KernelIdeal.S1600000 32) = U (Proc.devRef .tc Cert.ReferenceIdeal.main_v1))
    (h3 : (W (Proc.devRef .tc Cert.KernelIdeal.main_v3) : IVec Cert.KernelIdeal.S1600000 32) = U (Proc.devRef .tc Cert.ReferenceIdeal.main_v3))
    (ht : (W (Proc.devRef .tc Cert.KernelIdeal.main_v82_0) : Cert.KernelIdeal.S100000x72.Idx → EReal) = U (Proc.devRef .tc Cert.ReferenceIdeal.main_v85)) :
    (after hostOps3 W (Proc.devRef .tc Cert.KernelIdeal.main_v95) : Cert.KernelIdeal.S100000x72.Idx → EReal) = after segAgg1 U (Proc.devRef .tc Cert.ReferenceIdeal.main_v98) := by
  after_results_simp
  rw [hn, h1, h3, ht]
  try rfl

/-- The sum plus the root product plus the bias, given the sum. -/
theorem sim_bias1 (W : KVal) (U : RVal)
    (hagg : (after hostOps3 W (Proc.devRef .tc Cert.KernelIdeal.main_v95) : Cert.KernelIdeal.S100000x72.Idx → EReal) = U (Proc.devRef .tc Cert.ReferenceIdeal.main_v98))
    (hroot : (W (Proc.devRef .tc Cert.KernelIdeal.main_v82_1) : Cert.KernelIdeal.S100000x72.Idx → EReal) = U (Proc.devRef .tc Cert.ReferenceIdeal.main_v101))
    (h7 : (W (Proc.devRef .tc Cert.KernelIdeal.main_arg7) : Cert.KernelIdeal.S3x72.Idx → EReal) = U (Proc.devRef .tc Cert.ReferenceIdeal.main_arg7)) :
    (after hostOps3 W (Proc.devRef .tc Cert.KernelIdeal.main_v101) : Cert.KernelIdeal.S100000x72.Idx → EReal) = after segBias1 U (Proc.devRef .tc Cert.ReferenceIdeal.main_v107) := by
  have e := hagg
  after_results_at e
  after_results_simp
  rw [e, hroot, h7]
  try rfl

/-- The rectifier and the batch normalisation. -/
theorem sim_bn1 (W : KVal) (U : RVal)
    (hpre : (W (Proc.devRef .tc Cert.KernelIdeal.main_v101) : Cert.KernelIdeal.S100000x72.Idx → EReal) = U (Proc.devRef .tc Cert.ReferenceIdeal.main_v107))
    (h8 : (W (Proc.devRef .tc Cert.KernelIdeal.main_arg8) : Cert.KernelIdeal.S3x72.Idx → EReal) = U (Proc.devRef .tc Cert.ReferenceIdeal.main_arg8))
    (h9 : (W (Proc.devRef .tc Cert.KernelIdeal.main_arg9) : Cert.KernelIdeal.S3x72.Idx → EReal) = U (Proc.devRef .tc Cert.ReferenceIdeal.main_arg9)) :
    (after hostOps3_4 (after hostOps3_3 (after hostOps3_2 (after hostOps3_1 W))) (Proc.devRef .tc Cert.KernelIdeal.main_v125) : Cert.KernelIdeal.S100000x72.Idx → EReal) = after segBn1 U (Proc.devRef .tc Cert.ReferenceIdeal.main_v131) := by
  after_results_simp
  rw [hpre, h8, h9]
  try rfl

/-- The next layer's two weight matrices: slices of the stacked weights. -/
theorem sim_wi2 (W : KVal) (U : RVal)
    (h : (W (Proc.devRef .tc Cert.KernelIdeal.main_arg5) : Cert.KernelIdeal.S3x72x72.Idx → EReal) = U (Proc.devRef .tc Cert.ReferenceIdeal.main_arg5)) :
    (after hostOps3_4 (after hostOps3_3 (after hostOps3_2 (after hostOps3_1 W))) (Proc.devRef .tc Cert.KernelIdeal.main_v127) : Cert.KernelIdeal.S72x72.Idx → EReal) = after segWi2 U (Proc.devRef .tc Cert.ReferenceIdeal.main_v133) := by
  after_results_simp
  rw [h]
  try rfl

theorem sim_wr2 (W : KVal) (U : RVal)
    (h : (W (Proc.devRef .tc Cert.KernelIdeal.main_arg6) : Cert.KernelIdeal.S3x72x72.Idx → EReal) = U (Proc.devRef .tc Cert.ReferenceIdeal.main_arg6)) :
    (after hostOps3_4 (after hostOps3_3 (after hostOps3_2 (after hostOps3_1 W))) (Proc.devRef .tc Cert.KernelIdeal.main_v129) : Cert.KernelIdeal.S72x72.Idx → EReal) = after segWr2 U (Proc.devRef .tc Cert.ReferenceIdeal.main_v149) := by
  after_results_simp
  rw [h]
  try rfl

end Cert.Sim

end
-- ==== Proof.BridgeLayer1.lean ====
/-
  The two programs side by side through layer 1.

  The kernel program's region gives the transformed features and the root product that the reference gets from two
  matrix products of the same operands; the neighbourhood sum, the bias, the rectifier and the batch normalisation are
  the same host operations on both sides.  Stated over the kernel program's boundary contents and the reference's
  contents after the corresponding numbers of segments; the index vectors, the edge normalisation and the arguments
  are carried to where they are read.
-/
import proofs.«122625_j53163105190631_2_alg».proof.Proof.Gen.KernelIdeal.Frame
import proofs.«122625_j53163105190631_2_alg».proof.Proof.KAt
import proofs.«122625_j53163105190631_2_alg».proof.Proof.KRegions
import proofs.«122625_j53163105190631_2_alg».proof.Proof.RefSeq
import proofs.«122625_j53163105190631_2_alg».proof.Proof.SimLayer1
import proofs.«122625_j53163105190631_2_alg».proof.Proof.BridgeBase
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.Sim Cert.KernelIdeal.KAt Cert.KernelIdeal.KRegions Cert.KernelIdeal.RegionValue

theorem layer1 (m : KMem) (ρ : KDev → PrngReg) (c : KDev) (U0 : RVal) (A : ArgsAgree m c U0)
    (Hv1 : (W1 m ρ c (Proc.devRef .tc Cert.KernelIdeal.main_v1) : IVec Cert.KernelIdeal.S1600000 32) = Uat U0 1 (Proc.devRef .tc Cert.ReferenceIdeal.main_v1))
    (Hv3 : (W1 m ρ c (Proc.devRef .tc Cert.KernelIdeal.main_v3) : IVec Cert.KernelIdeal.S1600000 32) = Uat U0 1 (Proc.devRef .tc Cert.ReferenceIdeal.main_v3))
    (Hn : (W5 m ρ c (Proc.devRef .tc Cert.KernelIdeal.main_v29) : Cert.KernelIdeal.S1600000.Idx → EReal) = Uat U0 3 (Proc.devRef .tc Cert.ReferenceIdeal.main_v33))
    (Hh : (W11 m ρ c (Proc.devRef .tc Cert.KernelIdeal.main_v77) : Cert.KernelIdeal.S100000x72.Idx → EReal) = Uat U0 10 (Proc.devRef .tc Cert.ReferenceIdeal.main_v82))
    (Hwi : (W11 m ρ c (Proc.devRef .tc Cert.KernelIdeal.main_v79) : Cert.KernelIdeal.S72x72.Idx → EReal) = Uat U0 11 (Proc.devRef .tc Cert.ReferenceIdeal.main_v84))
    (Hwr : (W11 m ρ c (Proc.devRef .tc Cert.KernelIdeal.main_v81) : Cert.KernelIdeal.S72x72.Idx → EReal) = Uat U0 14 (Proc.devRef .tc Cert.ReferenceIdeal.main_v100)) :
    ((W17 m ρ c (Proc.devRef .tc Cert.KernelIdeal.main_v125) : Cert.KernelIdeal.S100000x72.Idx → EReal) = Uat U0 17 (Proc.devRef .tc Cert.ReferenceIdeal.main_v131))
    ∧ ((W17 m ρ c (Proc.devRef .tc Cert.KernelIdeal.main_v127) : Cert.KernelIdeal.S72x72.Idx → EReal) = Uat U0 18 (Proc.devRef .tc Cert.ReferenceIdeal.main_v133))
    ∧ ((W17 m ρ c (Proc.devRef .tc Cert.KernelIdeal.main_v129) : Cert.KernelIdeal.S72x72.Idx → EReal) = Uat U0 21 (Proc.devRef .tc Cert.ReferenceIdeal.main_v149)) := by
  -- the transformed features
  have Hh4 : (W11 m ρ c (Proc.devRef .tc Cert.KernelIdeal.main_v77) : Cert.KernelIdeal.S100000x72.Idx → EReal) = Uat U0 11 (Proc.devRef .tc Cert.ReferenceIdeal.main_v82) := Hh.trans (uu U0 10 11 Cert.ReferenceIdeal.main_v82).symm
  have T : (W12 m ρ c (Proc.devRef .tc Cert.KernelIdeal.main_v82_0) : Cert.KernelIdeal.S100000x72.Idx → EReal) = Uat U0 12 (Proc.devRef .tc Cert.ReferenceIdeal.main_v85) := by
    rw [k_t1 m ρ c, Hh4, Hwi]
    exact (ref_t1 (Uat U0 11)).symm
  -- the neighbourhood sum
  have hn : (W12 m ρ c (Proc.devRef .tc Cert.KernelIdeal.main_v29) : Cert.KernelIdeal.S1600000.Idx → EReal) = Uat U0 12 (Proc.devRef .tc Cert.ReferenceIdeal.main_v33) :=
    (n12 m ρ c).trans (Hn.trans (uu U0 3 12 Cert.ReferenceIdeal.main_v33).symm)
  have h1 : (W12 m ρ c (Proc.devRef .tc Cert.KernelIdeal.main_v1) : IVec Cert.KernelIdeal.S1600000 32) = Uat U0 12 (Proc.devRef .tc Cert.ReferenceIdeal.main_v1) :=
    (k12 m ρ c Cert.KernelIdeal.main_v1).trans (Hv1.trans (uu U0 1 12 Cert.ReferenceIdeal.main_v1).symm)
  have h3 : (W12 m ρ c (Proc.devRef .tc Cert.KernelIdeal.main_v3) : IVec Cert.KernelIdeal.S1600000 32) = Uat U0 12 (Proc.devRef .tc Cert.ReferenceIdeal.main_v3) :=
    (k12 m ρ c Cert.KernelIdeal.main_v3).trans (Hv3.trans (uu U0 1 12 Cert.ReferenceIdeal.main_v3).symm)
  have AGG : (after Cert.KernelIdeal.Gen.hostOps3 (W12 m ρ c) (Proc.devRef .tc Cert.KernelIdeal.main_v95) : Cert.KernelIdeal.S100000x72.Idx → EReal) = Uat U0 13 (Proc.devRef .tc Cert.ReferenceIdeal.main_v98) :=
    sim_agg1 (W12 m ρ c) (Uat U0 12) hn h1 h3 T
  -- the root product
  have Hh7 : (W11 m ρ c (Proc.devRef .tc Cert.KernelIdeal.main_v77) : Cert.KernelIdeal.S100000x72.Idx → EReal) = Uat U0 14 (Proc.devRef .tc Cert.ReferenceIdeal.main_v82) := Hh.trans (uu U0 10 14 Cert.ReferenceIdeal.main_v82).symm
  have ROOT : (W12 m ρ c (Proc.devRef .tc Cert.KernelIdeal.main_v82_1) : Cert.KernelIdeal.S100000x72.Idx → EReal) = Uat U0 15 (Proc.devRef .tc Cert.ReferenceIdeal.main_v101) := by
    rw [k_r1 m ρ c, Hh7, Hwr]
    exact (ref_root1 (Uat U0 14)).symm
  -- the bias
  have h7 : (W12 m ρ c (Proc.devRef .tc Cert.KernelIdeal.main_arg7) : Cert.KernelIdeal.S3x72.Idx → EReal) = Uat U0 15 (Proc.devRef .tc Cert.ReferenceIdeal.main_arg7) :=
    (m12 m ρ c Cert.KernelIdeal.main_arg7).trans (A.arg7.trans (u0 U0 15 Cert.ReferenceIdeal.main_arg7).symm)
  have PRE : (W13 m ρ c (Proc.devRef .tc Cert.KernelIdeal.main_v101) : Cert.KernelIdeal.S100000x72.Idx → EReal) = Uat U0 16 (Proc.devRef .tc Cert.ReferenceIdeal.main_v107) :=
    sim_bias1 (W12 m ρ c) (Uat U0 15) (AGG.trans (uu U0 13 15 Cert.ReferenceIdeal.main_v98).symm) ROOT h7
  -- the rectifier and the batch normalisation
  have h8 : (W13 m ρ c (Proc.devRef .tc Cert.KernelIdeal.main_arg8) : Cert.KernelIdeal.S3x72.Idx → EReal) = Uat U0 16 (Proc.devRef .tc Cert.ReferenceIdeal.main_arg8) :=
    (m13 m ρ c Cert.KernelIdeal.main_arg8).trans (A.arg8.trans (u0 U0 16 Cert.ReferenceIdeal.main_arg8).symm)
  have h9 : (W13 m ρ c (Proc.devRef .tc Cert.KernelIdeal.main_arg9) : Cert.KernelIdeal.S3x72.Idx → EReal) = Uat U0 16 (Proc.devRef .tc Cert.ReferenceIdeal.main_arg9) :=
    (m13 m ρ c Cert.KernelIdeal.main_arg9).trans (A.arg9.trans (u0 U0 16 Cert.ReferenceIdeal.main_arg9).symm)
  have OUT : (W17 m ρ c (Proc.devRef .tc Cert.KernelIdeal.main_v125) : Cert.KernelIdeal.S100000x72.Idx → EReal) = Uat U0 17 (Proc.devRef .tc Cert.ReferenceIdeal.main_v131) := sim_bn1 (W13 m ρ c) (Uat U0 16) PRE h8 h9
  -- the next layer's weights
  have e5 : (W13 m ρ c (Proc.devRef .tc Cert.KernelIdeal.main_arg5) : Cert.KernelIdeal.S3x72x72.Idx → EReal) = Uat U0 17 (Proc.devRef .tc Cert.ReferenceIdeal.main_arg5) :=
    (m13 m ρ c Cert.KernelIdeal.main_arg5).trans (A.arg5.trans (u0 U0 17 Cert.ReferenceIdeal.main_arg5).symm)
  have WI : (W17 m ρ c (Proc.devRef .tc Cert.KernelIdeal.main_v127) : Cert.KernelIdeal.S72x72.Idx → EReal) = Uat U0 18 (Proc.devRef .tc Cert.ReferenceIdeal.main_v133) := sim_wi2 (W13 m ρ c) (Uat U0 17) e5
  have e6 : (W13 m ρ c (Proc.devRef .tc Cert.KernelIdeal.main_arg6) : Cert.KernelIdeal.S3x72x72.Idx → EReal) = Uat U0 20 (Proc.devRef .tc Cert.ReferenceIdeal.main_arg6) :=
    (m13 m ρ c Cert.KernelIdeal.main_arg6).trans (A.arg6.trans (u0 U0 20 Cert.ReferenceIdeal.main_arg6).symm)
  have WR : (W17 m ρ c (Proc.devRef .tc Cert.KernelIdeal.main_v129) : Cert.KernelIdeal.S72x72.Idx → EReal) = Uat U0 21 (Proc.devRef .tc Cert.ReferenceIdeal.main_v149) := sim_wr2 (W13 m ρ c) (Uat U0 20) e6
  exact ⟨OUT, WI, WR⟩

end Cert.Bridge

end
-- ==== Proof.SimLayer2.lean ====
/-
  Layer 2 of the network, side by side.

  Both programs gather the transformed features' rows at the source indices, scale them by the edge normalisation,
  scatter-add them at the destination indices, add the root product and the bias, apply the rectifier and the batch
  normalisation over the node axis.  The kernel program gets the transformed features and the root product from its
  region; the reference from two matrix products.  Each lemma runs the kernel program's stretch from arbitrary contents
  W and the reference's segment from arbitrary contents U agreeing on the buffers read: both sides unfold to the same
  composition of pure operations.
-/
import proofs.«122625_j53163105190631_2_alg».proof.Proof.Gen.KernelIdeal.Launch
import proofs.«122625_j53163105190631_2_alg».proof.Proof.RefOps
import proofs.«122625_j53163105190631_2_alg».proof.Proof.SimBase
import Idealize.ShloMosaic.Lib.StableHlo.Run
import Idealize.ShloMosaic.PureOps.Ideal

set_option maxRecDepth 16384

noncomputable section

namespace Cert.Sim

open Idealize.ShloMosaic Idealize.ShloMosaic.StableHlo
open Cert.KernelIdeal.Gen (hostOps0 hostOps1 hostOps1_1 hostOps1_2 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7 hostOps4_8 hostOps4_9 hostOps4_10 hostOps5)
open Cert.ReferenceIdeal.RefRun

/-- Buffer contents of the kernel program's core, and of the reference's, at the ideal values. -/
local notation "KVal" => Valuation Cert.KernelIdeal.τ Cert.KernelIdeal.sig (Elt Ideal)
local notation "RVal" => Valuation Cert.ReferenceIdeal.τ Cert.ReferenceIdeal.sig (Elt Ideal)

/-- The reference's transformed features and root product of this layer: two matrix products. -/
theorem ref_t2 (U : RVal) :
    (after segT2 U (Proc.devRef .tc Cert.ReferenceIdeal.main_v134) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v131)) (U (Proc.devRef .tc Cert.ReferenceIdeal.main_v133)) := by
  after_results_simp

theorem ref_root2 (U : RVal) :
    (after segRoot2 U (Proc.devRef .tc Cert.ReferenceIdeal.main_v150) : Cert.ReferenceIdeal.S100000x72.Idx → EReal)
      = Host.dotGeneral (F := Ideal) (φ₁ := .f32) (φ₂ := .f32) Cert.ReferenceIdeal.dot_S100000x72_S72x72_S100000x72_1_0_0_1_n_n none (U (Proc.devRef .tc Cert.ReferenceIdeal.main_v131)) (U (Proc.devRef .tc Cert.ReferenceIdeal.main_v149)) := by
  after_results_simp

/-- The normalised neighbourhood sum. -/
theorem sim_agg2 (W : KVal) (U : RVal)
    (hn : (W (Proc.devRef .tc Cert.KernelIdeal.main_v29) : Cert.KernelIdeal.S1600000.Idx → EReal) = U (Proc.devRef .tc Cert.ReferenceIdeal.main_v33))
    (h1 : (W (Proc.devRef .tc Cert.KernelIdeal.main_v1) : IVec Cert.KernelIdeal.S1600000 32) = U (Proc.devRef .tc Cert.ReferenceIdeal.main_v1))
    (h3 : (W (Proc.devRef .tc Cert.KernelIdeal.main_v3) : IVec Cert.KernelIdeal.S1600000 32) = U (Proc.devRef .tc Cert.ReferenceIdeal.main_v3))
    (ht : (W (Proc.devRef .tc Cert.KernelIdeal.main_v130_0) : Cert.KernelIdeal.S100000x72.Idx → EReal) = U (Proc.devRef .tc Cert.ReferenceIdeal.main_v134)) :
    (after hostOps4 W (Proc.devRef .tc Cert.KernelIdeal.main_v143) : Cert.KernelIdeal.S100000x72.Idx → EReal) = after segAgg2 U (Proc.devRef .tc Cert.ReferenceIdeal.main_v147) := by
  after_results_simp
  rw [hn, h1, h3, ht]
  try rfl

/-- The sum plus the root product plus the bias, given the sum. -/
theorem sim_bias2 (W : KVal) (U : RVal)
    (hagg : (after hostOps4 W (Proc.devRef .tc Cert.KernelIdeal.main_v143) : Cert.KernelIdeal.S100000x72.Idx → EReal) = U (Proc.devRef .tc Cert.ReferenceIdeal.main_v147))
    (hroot : (W (Proc.devRef .tc Cert.KernelIdeal.main_v130_1) : Cert.KernelIdeal.S100000x72.Idx → EReal) = U (Proc.devRef .tc Cert.ReferenceIdeal.main_v150))
    (h7 : (W (Proc.devRef .tc Cert.KernelIdeal.main_arg7) : Cert.KernelIdeal.S3x72.Idx → EReal) = U (Proc.devRef .tc Cert.ReferenceIdeal.main_arg7)) :
    (after hostOps4 W (Proc.devRef .tc Cert.KernelIdeal.main_v149) : Cert.KernelIdeal.S100000x72.Idx → EReal) = after segBias2 U (Proc.devRef .tc Cert.ReferenceIdeal.main_v156) := by
  have e := hagg
  after_results_at e
  after_results_simp
  rw [e, hroot, h7]
  try rfl

/-- The rectifier and the batch normalisation. -/
theorem sim_bn2 (W : KVal) (U : RVal)
    (hpre : (W (Proc.devRef .tc Cert.KernelIdeal.main_v149) : Cert.KernelIdeal.S100000x72.Idx → EReal) = U (Proc.devRef .tc Cert.ReferenceIdeal.main_v156))
    (h8 : (W (Proc.devRef .tc Cert.KernelIdeal.main_arg8) : Cert.KernelIdeal.S3x72.Idx → EReal) = U (Proc.devRef .tc Cert.ReferenceIdeal.main_arg8))
    (h9 : (W (Proc.devRef .tc Cert.KernelIdeal.main_arg9) : Cert.KernelIdeal.S3x72.Idx → EReal) = U (Proc.devRef .tc Cert.ReferenceIdeal.main_arg9)) :
    (after hostOps4_4 (after hostOps4_3 (after hostOps4_2 (after hostOps4_1 W))) (Proc.devRef .tc Cert.KernelIdeal.main_v173) : Cert.KernelIdeal.S100000x72.Idx → EReal) = after segBn2 U (Proc.devRef .tc Cert.ReferenceIdeal.main_v180) := by
  after_results_simp
  rw [hpre, h8, h9]
  try rfl

end Cert.Sim

end
-- ==== Proof.BridgeLayer2.lean ====
/-
  The two programs side by side through layer 2.

  The kernel program's region gives the transformed features and the root product that the reference gets from two
  matrix products of the same operands; the neighbourhood sum, the bias, the rectifier and the batch normalisation are
  the same host operations on both sides.  Stated over the kernel program's boundary contents and the reference's
  contents after the corresponding numbers of segments; the index vectors, the edge normalisation and the arguments
  are carried to where they are read.
-/
import proofs.«122625_j53163105190631_2_alg».proof.Proof.Gen.KernelIdeal.Frame
import proofs.«122625_j53163105190631_2_alg».proof.Proof.KAt
import proofs.«122625_j53163105190631_2_alg».proof.Proof.KRegions
import proofs.«122625_j53163105190631_2_alg».proof.Proof.RefSeq
import proofs.«122625_j53163105190631_2_alg».proof.Proof.SimLayer2
import proofs.«122625_j53163105190631_2_alg».proof.Proof.BridgeBase
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.Sim Cert.KernelIdeal.KAt Cert.KernelIdeal.KRegions Cert.KernelIdeal.RegionValue

theorem layer2 (m : KMem) (ρ : KDev → PrngReg) (c : KDev) (U0 : RVal) (A : ArgsAgree m c U0)
    (Hv1 : (W1 m ρ c (Proc.devRef .tc Cert.KernelIdeal.main_v1) : IVec Cert.KernelIdeal.S1600000 32) = Uat U0 1 (Proc.devRef .tc Cert.ReferenceIdeal.main_v1))
    (Hv3 : (W1 m ρ c (Proc.devRef .tc Cert.KernelIdeal.main_v3) : IVec Cert.KernelIdeal.S1600000 32) = Uat U0 1 (Proc.devRef .tc Cert.ReferenceIdeal.main_v3))
    (Hn : (W5 m ρ c (Proc.devRef .tc Cert.KernelIdeal.main_v29) : Cert.KernelIdeal.S1600000.Idx → EReal) = Uat U0 3 (Proc.devRef .tc Cert.ReferenceIdeal.main_v33))
    (Hh : (W17 m ρ c (Proc.devRef .tc Cert.KernelIdeal.main_v125) : Cert.KernelIdeal.S100000x72.Idx → EReal) = Uat U0 17 (Proc.devRef .tc Cert.ReferenceIdeal.main_v131))
    (Hwi : (W17 m ρ c (Proc.devRef .tc Cert.KernelIdeal.main_v127) : Cert.KernelIdeal.S72x72.Idx → EReal) = Uat U0 18 (Proc.devRef .tc Cert.ReferenceIdeal.main_v133))
    (Hwr : (W17 m ρ c (Proc.devRef .tc Cert.KernelIdeal.main_v129) : Cert.KernelIdeal.S72x72.Idx → EReal) = Uat U0 21 (Proc.devRef .tc Cert.ReferenceIdeal.main_v149)) :
    ((W23 m ρ c (Proc.devRef .tc Cert.KernelIdeal.main_v173) : Cert.KernelIdeal.S100000x72.Idx → EReal) = Uat U0 24 (Proc.devRef .tc Cert.ReferenceIdeal.main_v180)) := by
  -- the transformed features
  have Hh4 : (W17 m ρ c (Proc.devRef .tc Cert.KernelIdeal.main_v125) : Cert.KernelIdeal.S100000x72.Idx → EReal) = Uat U0 18 (Proc.devRef .tc Cert.ReferenceIdeal.main_v131) := Hh.trans (uu U0 17 18 Cert.ReferenceIdeal.main_v131).symm
  have T : (W18 m ρ c (Proc.devRef .tc Cert.KernelIdeal.main_v130_0) : Cert.KernelIdeal.S100000x72.Idx → EReal) = Uat U0 19 (Proc.devRef .tc Cert.ReferenceIdeal.main_v134) := by
    rw [k_t2 m ρ c, Hh4, Hwi]
    exact (ref_t2 (Uat U0 18)).symm
  -- the neighbourhood sum
  have hn : (W18 m ρ c (Proc.devRef .tc Cert.KernelIdeal.main_v29) : Cert.KernelIdeal.S1600000.Idx → EReal) = Uat U0 19 (Proc.devRef .tc Cert.ReferenceIdeal.main_v33) :=
    (n18 m ρ c).trans (Hn.trans (uu U0 3 19 Cert.ReferenceIdeal.main_v33).symm)
  have h1 : (W18 m ρ c (Proc.devRef .tc Cert.KernelIdeal.main_v1) : IVec Cert.KernelIdeal.S1600000 32) = Uat U0 19 (Proc.devRef .tc Cert.ReferenceIdeal.main_v1) :=
    (k18 m ρ c Cert.KernelIdeal.main_v1).trans (Hv1.trans (uu U0 1 19 Cert.ReferenceIdeal.main_v1).symm)
  have h3 : (W18 m ρ c (Proc.devRef .tc Cert.KernelIdeal.main_v3) : IVec Cert.KernelIdeal.S1600000 32) = Uat U0 19 (Proc.devRef .tc Cert.ReferenceIdeal.main_v3) :=
    (k18 m ρ c Cert.KernelIdeal.main_v3).trans (Hv3.trans (uu U0 1 19 Cert.ReferenceIdeal.main_v3).symm)
  have AGG : (after Cert.KernelIdeal.Gen.hostOps4 (W18 m ρ c) (Proc.devRef .tc Cert.KernelIdeal.main_v143) : Cert.KernelIdeal.S100000x72.Idx → EReal) = Uat U0 20 (Proc.devRef .tc Cert.ReferenceIdeal.main_v147) :=
    sim_agg2 (W18 m ρ c) (Uat U0 19) hn h1 h3 T
  -- the root product
  have Hh7 : (W17 m ρ c (Proc.devRef .tc Cert.KernelIdeal.main_v125) : Cert.KernelIdeal.S100000x72.Idx → EReal) = Uat U0 21 (Proc.devRef .tc Cert.ReferenceIdeal.main_v131) := Hh.trans (uu U0 17 21 Cert.ReferenceIdeal.main_v131).symm
  have ROOT : (W18 m ρ c (Proc.devRef .tc Cert.KernelIdeal.main_v130_1) : Cert.KernelIdeal.S100000x72.Idx → EReal) = Uat U0 22 (Proc.devRef .tc Cert.ReferenceIdeal.main_v150) := by
    rw [k_r2 m ρ c, Hh7, Hwr]
    exact (ref_root2 (Uat U0 21)).symm
  -- the bias
  have h7 : (W18 m ρ c (Proc.devRef .tc Cert.KernelIdeal.main_arg7) : Cert.KernelIdeal.S3x72.Idx → EReal) = Uat U0 22 (Proc.devRef .tc Cert.ReferenceIdeal.main_arg7) :=
    (m18 m ρ c Cert.KernelIdeal.main_arg7).trans (A.arg7.trans (u0 U0 22 Cert.ReferenceIdeal.main_arg7).symm)
  have PRE : (W19 m ρ c (Proc.devRef .tc Cert.KernelIdeal.main_v149) : Cert.KernelIdeal.S100000x72.Idx → EReal) = Uat U0 23 (Proc.devRef .tc Cert.ReferenceIdeal.main_v156) :=
    sim_bias2 (W18 m ρ c) (Uat U0 22) (AGG.trans (uu U0 20 22 Cert.ReferenceIdeal.main_v147).symm) ROOT h7
  -- the rectifier and the batch normalisation
  have h8 : (W19 m ρ c (Proc.devRef .tc Cert.KernelIdeal.main_arg8) : Cert.KernelIdeal.S3x72.Idx → EReal) = Uat U0 23 (Proc.devRef .tc Cert.ReferenceIdeal.main_arg8) :=
    (m19 m ρ c Cert.KernelIdeal.main_arg8).trans (A.arg8.trans (u0 U0 23 Cert.ReferenceIdeal.main_arg8).symm)
  have h9 : (W19 m ρ c (Proc.devRef .tc Cert.KernelIdeal.main_arg9) : Cert.KernelIdeal.S3x72.Idx → EReal) = Uat U0 23 (Proc.devRef .tc Cert.ReferenceIdeal.main_arg9) :=
    (m19 m ρ c Cert.KernelIdeal.main_arg9).trans (A.arg9.trans (u0 U0 23 Cert.ReferenceIdeal.main_arg9).symm)
  have OUT : (W23 m ρ c (Proc.devRef .tc Cert.KernelIdeal.main_v173) : Cert.KernelIdeal.S100000x72.Idx → EReal) = Uat U0 24 (Proc.devRef .tc Cert.ReferenceIdeal.main_v180) := sim_bn2 (W19 m ρ c) (Uat U0 23) PRE h8 h9
  exact OUT

end Cert.Bridge

end
-- ==== Proof.KEdgeIn.lean ====
/-
  The rows of the last region's three edge-indexed inputs, read off the kernel program's host operations.

  Before the last region the kernel program pads the two index vectors and the edge attributes from 1600000 to
  1601536 rows, normalises and spreads the padded indices and gathers rows of the (narrowed) node features.  On a
  row e below 1600000 the padding is invisible: the gathered row is the node-feature row named by the index word at e,
  and the padded attribute row is the attribute row e.
-/
import proofs.«122625_j53163105190631_2_alg».proof.Proof.Gen.KernelIdeal.Launch
import proofs.«122625_j53163105190631_2_alg».proof.Proof.GatherRows
import Idealize.ShloMosaic.Lib.StableHlo.Run
import Idealize.ShloMosaic.PureOps.Ideal
import Idealize.ShloMosaic.Lib.KernelVsHost
import Idealize.ShloMosaic.Lib.Pipeline.Value

set_option maxRecDepth 16384

noncomputable section

namespace Cert.KernelIdeal.KEdgeIn

open Idealize.ShloMosaic Idealize.ShloMosaic.StableHlo Idealize.ShloMosaic.ValueIdx
open Cert.KernelIdeal Cert.KernelIdeal.Gen Cert.Sim.GatherRows

/-- The six stretches between the last layer's output and the last region, run from contents W. -/
abbrev edgeIn (W : Valuation τ sig (Elt Ideal)) : Valuation τ sig (Elt Ideal) :=
  after hostOps4_10 (after hostOps4_9 (after hostOps4_8 (after hostOps4_7 (after hostOps4_6 (after hostOps4_5 W)))))

/-- Row e of the source-side gather: the narrowed node features' row named by the source index word at e. -/
theorem hs_row (W : Valuation τ sig (Elt Ideal)) (e : Fin 1600000) (k : Fin 72) :
    (edgeIn W (Proc.devRef .tc main_v184) : S1601536x72.Idx → EReal) (ix2 (⟨e.val, by omega⟩ : Fin 1601536) k)
      = (W (Proc.devRef .tc main_v174) : S100000x72.Idx → EReal)
          (ix2 (rowOf ((W (Proc.devRef .tc main_v1) : IVec S1600000 32) (ix1 e))) k) := by
  after_results_simp
  simp only [TRef.toBuf, TRef.ofBuf, cast_eq, id_eq]
  exact gather_row_of_word Facts₀.gather_S100000x72_S1601536x1_S1601536x72_1_0_n_n_0_1_172_wf _ _ _ k _ (kernel_table _ _ e)

/-- Row e of the destination-side gather: the narrowed node features' row named by the destination index word at e. -/
theorem hd_row (W : Valuation τ sig (Elt Ideal)) (e : Fin 1600000) (k : Fin 72) :
    (edgeIn W (Proc.devRef .tc main_v191) : S1601536x72.Idx → EReal) (ix2 (⟨e.val, by omega⟩ : Fin 1601536) k)
      = (W (Proc.devRef .tc main_v174) : S100000x72.Idx → EReal)
          (ix2 (rowOf ((W (Proc.devRef .tc main_v3) : IVec S1600000 32) (ix1 e))) k) := by
  after_results_simp
  simp only [TRef.toBuf, TRef.ofBuf, cast_eq, id_eq]
  exact gather_row_of_word Facts₀.gather_S100000x72_S1601536x1_S1601536x72_1_0_n_n_0_1_172_wf _ _ _ k _ (kernel_table _ _ e)

/-- Row e of the padded edge attributes: the attributes' row e. -/
theorem ea_row (W : Valuation τ sig (Elt Ideal)) (e : Fin 1600000) (k : Fin 8) :
    (edgeIn W (Proc.devRef .tc main_v177) : S1601536x8.Idx → EReal) (ix2 (⟨e.val, by omega⟩ : Fin 1601536) k)
      = (W (Proc.devRef .tc main_arg2) : S1600000x8.Idx → EReal) (ix2 e k) := by
  after_results_simp
  simp only [TRef.toBuf, TRef.ofBuf, cast_eq, id_eq]
  exact pad_apply_of_inside _ _ _ _ _ Facts₀.pads_S1600000x8_S1601536x8_015360_000 Facts₀.h_S_ _ (ix2 e k) (fun a => by
    match a with
    | ⟨0, _⟩ => simp [ix2]
    | ⟨1, _⟩ => simp [ix2])

/-- The program's last host operation cuts the last region's [1601536] output to its first 1600000 entries. -/
theorem out_row (W : Valuation τ sig (Elt Ideal)) (e : Fin 1600000) :
    (after hostOps5 W (Proc.devRef .tc main_v193) : S1600000.Idx → EReal) (ix1 e)
      = (W (Proc.devRef .tc main_v192) : S1601536.Idx → EReal) (ix1 (⟨e.val, by omega⟩ : Fin 1601536)) := by
  after_results_simp
  exact extractStridedSlice_apply _ _ Facts₀.slices_S1601536_S1600000_0 (ix1 e) (ix1 (⟨e.val, by omega⟩ : Fin 1601536)) (fun a => by
    have ha : a = 0 := Subsingleton.elim _ _
    subst ha
    simp [ix1])

end Cert.KernelIdeal.KEdgeIn

end
-- ==== Proof.RegionEdge.lean ====
import proofs.«122625_j53163105190631_2_alg».proof.Proof.Gen.KernelIdeal.Frame
import proofs.«122625_j53163105190631_2_alg».proof.Proof.Gen.ReferenceIdeal
import proofs.«122625_j53163105190631_2_alg».proof.Proof.LibMlpAt
import Idealize.ShloMosaic.Lib.ValueIdx
import Idealize.ShloMosaic.Lib.ValueLayout
import Idealize.ShloMosaic.Lib.Pipeline.Value
import Idealize.ShloMosaic.PureOps.Ideal.Laws

/-!
  The edge perceptron, one edge at a time.

  For one edge with source-node features hs, destination-node features hd (72 entries each) and edge attributes ea
  (8 entries) the output is
      out = Σ_j tanh( Σ_i cat(e1, e2)_i · W14[i, j] + b15[j] ) · W16[j, 0] + b17[0],
      e1_k = Σ_i cat(hs, hd)_i · W10[i, k] + b11[k],     e2_k = Σ_i ea_i · W12[i, k] + b13[k],
  where cat joins two 72-vectors into one of 144 entries. Both programs compute this, row by row: the tiled one on
  blocks of 4096 edges with matrix products into a zero accumulator (changes of float format are the identity at the
  ideal values), the plain one on all 1600000 edges with `dot_general`s. Neither needs the entries to be finite.
-/

set_option maxRecDepth 16384

noncomputable section

open scoped BigOperators

namespace Cert.KernelIdeal.RegionValue

open Idealize.ShloMosaic Idealize.ShloMosaic.ValueIdx Idealize.ShloMosaic.TcCoe
open Idealize.ShloMosaic.Pipeline (Dat Cfg Window)

/-! ## Layout operations read at an index -/

section Layout
variable {α : Type}

/-- An `[a, 1]` column cast to the vector `[a]` reads, at `i`, the column's entry of row `i`. -/
theorem edge_shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Two vectors joined end to end: the first `A` entries are `a`'s, the remaining `B` are `b`'s. -/
def cat2 {A B C : Nat} (hC : C = A + B) (a : Fin A → α) (b : Fin B → α) (i : Fin C) : α :=
  if hi : i.val < A then a ⟨i.val, hi⟩ else b ⟨i.val - A, by have := i.isLt; omega⟩

/-- Two matrices with the same rows concatenated along the columns: row `p` of the result is row `p` of the first
    joined with row `p` of the second. -/
theorem edge_concat_cols {N A B C : Nat} (hC : C = A + B) (x₁ : (⟨2, ![N, A]⟩ : Shape).Idx → α) (x₂ : (⟨2, ![N, B]⟩ : Shape).Idx → α)
    (h : Shape.Concatenates [(⟨2, ![N, A]⟩ : Shape), ⟨2, ![N, B]⟩] ⟨2, ![N, C]⟩ 1) (p : Fin N) (i : Fin C) :
    concatenate ⟨2, ![N, C]⟩ 1 [⟨⟨2, ![N, A]⟩, x₁⟩, ⟨⟨2, ![N, B]⟩, x₂⟩] h (ix2 p i)
      = cat2 hC (fun k => x₁ (ix2 p k)) (fun k => x₂ (ix2 p k)) i := by
  unfold cat2
  split
  · rename_i hi
    exact concatenate_pair_apply_left (1 : Fin 2) x₁ x₂ h (ix2 p i) rfl (ix2 p ⟨i.val, hi⟩)
      (fun b => by match b with | ⟨0, _⟩ => rfl | ⟨1, _⟩ => rfl)
  · rename_i hi
    exact concatenate_pair_apply_right (1 : Fin 2) x₁ x₂ h (ix2 p i) rfl rfl (ix2 p ⟨i.val - A, by have := i.isLt; omega⟩)
      (fun b hb => by match b with | ⟨0, _⟩ => rfl | ⟨1, _⟩ => exact absurd rfl hb)
      (by show (i.val - A) + A = i.val; omega)

/-- A vector `[D]` made a row `[1, D]` by a broadcast along a new leading axis reads, at `(0, q)`, its entry `q`. -/
theorem edge_bcastVecRow_at {D : Nat} (h : (⟨1, ![D]⟩ : Shape).BroadcastsInDim ⟨2, ![1, D]⟩ (![1] : Fin 1 → Fin 2))
    (x : (⟨1, ![D]⟩ : Shape).Idx → α) (u : Fin 1) (q : Fin D) :
    broadcastInDim ⟨2, ![1, D]⟩ (![1] : Fin 1 → Fin 2) h x (ix2 u q) = x (ix1 q) := by
  refine broadcastInDim_apply _ h x (ix2 u q) (ix1 q) fun ax => ?_
  match ax with
  | ⟨0, _⟩ =>
    show q.val = if D = 1 then 0 else q.val
    split
    · have := q.isLt; omega
    · rfl

end Layout

/-! ## One affine layer at a row -/

/-- An affine map of a row: entry `k` is the row against column `k` of the weights, plus the bias at `k`. -/
def affRow {K D : Nat} (x : Fin K → EReal) (w : FVec Ideal ⟨2, ![K, D]⟩ .f32) (b : FVec Ideal ⟨1, ![D]⟩ .f32) (k : Fin D) : EReal :=
  (∑ i : Fin K, x i * w (ix2 i k)) + b (ix1 k)

/-- A tile's spelling of one affine layer — the weights narrowed to bf16, a matrix product into the zero accumulator,
    the bias made a row and broadcast over the rows — reads, at `(p, q)`, the affine map of row `p` at `q`. -/
theorem edge_tileAff_at {T K D : Nat} {φ₁ : FTy} (w : DotDims.WF ⟨2, ![T, K]⟩ ⟨2, ![K, D]⟩ ⟨2, ![T, D]⟩ [1] [0] [0] [1] [] [])
    (hc : (⟨1, ![D]⟩ : Shape).ShapeCasts ⟨2, ![1, D]⟩) (hb : (⟨2, ![1, D]⟩ : Shape).Broadcasts ⟨2, ![T, D]⟩)
    (hlt : FTy.bf16.bits < FTy.f32.bits)
    (A : FVec Ideal ⟨2, ![T, K]⟩ φ₁) (W : FVec Ideal ⟨2, ![K, D]⟩ .f32) (b : FVec Ideal ⟨1, ![D]⟩ .f32) (p : Fin T) (q : Fin D) :
    addf (matmul (Cert.Mlp.D2 w) none A (truncf .bf16 W hlt) (constant ⟨2, ![T, D]⟩ .f32 0x00000000#32))
        (broadcastTo ⟨2, ![T, D]⟩ (shapeCast ⟨2, ![1, D]⟩ b hc) hb) (ix2 p q)
      = affRow (fun i => A (ix2 p i)) W b q := by
  unfold affRow
  rw [addf_apply, Cert.Mlp.matmul_zero_at, broadcastTo_1b_ab_apply, shapeCast_a_1a_apply]
  refine congrArg (· + b (ix1 q)) (Finset.sum_congr rfl fun i _ => ?_)
  rw [truncf_apply]

/-- The host's spelling — a `dot_general`, the bias made a row and broadcast over the rows — reads the same. -/
theorem edge_hostAff_at {N K D : Nat} (w : DotDims.WF ⟨2, ![N, K]⟩ ⟨2, ![K, D]⟩ ⟨2, ![N, D]⟩ [1] [0] [0] [1] [] [])
    (hr : (⟨1, ![D]⟩ : Shape).BroadcastsInDim ⟨2, ![1, D]⟩ (![1] : Fin 1 → Fin 2))
    (hb : (⟨2, ![1, D]⟩ : Shape).BroadcastsInDim ⟨2, ![N, D]⟩ (![0, 1] : Fin 2 → Fin 2))
    (A : FVec Ideal ⟨2, ![N, K]⟩ .f32) (W : FVec Ideal ⟨2, ![K, D]⟩ .f32) (b : FVec Ideal ⟨1, ![D]⟩ .f32) (r : Fin N) (q : Fin D) :
    addf (Host.dotGeneral (Cert.Mlp.D2 w) none A W)
        (broadcastInDim ⟨2, ![N, D]⟩ (![0, 1] : Fin 2 → Fin 2) hb (broadcastInDim ⟨2, ![1, D]⟩ (![1] : Fin 1 → Fin 2) hr b)) (ix2 r q)
      = affRow (fun i => A (ix2 r i)) W b q := by
  unfold affRow
  rw [addf_apply, Cert.Mlp.dotGeneral_at, Cert.Mlp.bcastRow_at, edge_bcastVecRow_at]

/-- The hyperbolic tangent of a tile, and the host's, read at an index: the same function of the entry. -/
theorem edge_tanh_apply {s : Shape} {φ : FTy} (x : FVec Ideal s φ) (i : s.Idx) : tanh x i = Ideal.tanh (x i) := rfl
theorem edge_hostTanh_apply {s : Shape} {φ : FTy} (x : FVec Ideal s φ) (i : s.Idx) : Host.tanh x i = Ideal.tanh (x i) := rfl

/-! ## The edge perceptron of one edge -/

/-- One edge's output from its source features, destination features and attributes. -/
def edgeRow (hs hd : Fin 72 → EReal) (ea : Fin 8 → EReal) (w10 : FVec Ideal S144x72 .f32) (w11 : FVec Ideal S72 .f32)
    (w12 : FVec Ideal S8x72 .f32) (w13 : FVec Ideal S72 .f32) (w14 : FVec Ideal S144x72 .f32) (w15 : FVec Ideal S72 .f32)
    (w16 : FVec Ideal S72x1 .f32) (w17 : FVec Ideal S1 .f32) : EReal :=
  affRow (fun j => Ideal.tanh (affRow (cat2 (by norm_num : 144 = 72 + 72) (affRow (cat2 (by norm_num : 144 = 72 + 72) hs hd) w10 w11) (affRow ea w12 w13)) w14 w15 j))
    w16 w17 (0 : Fin 1)

/-! ## The tiled program's payload at a row -/

theorem edge_dotA : dot_S4096x144_S144x72_S4096x72_1_0_0_1_n_n = Cert.Mlp.D2 Facts₀.dot_S4096x144_S144x72_S4096x72_1_0_0_1_n_n_wf := rfl
theorem edge_dotB : dot_S4096x8_S8x72_S4096x72_1_0_0_1_n_n = Cert.Mlp.D2 Facts₀.dot_S4096x8_S8x72_S4096x72_1_0_0_1_n_n_wf := rfl
theorem edge_dotC : dot_S4096x72_S72x1_S4096x1_1_0_0_1_n_n = Cert.Mlp.D2 Facts₀.dot_S4096x72_S72x1_S4096x1_1_0_0_1_n_n_wf := rfl

/-- Row `p` of the block the body stores is the edge perceptron of row `p` of its three data blocks. -/
theorem edge_pay_at (x0 x1 : FVec Ideal S4096x72 .bf16) (x2 : FVec Ideal S4096x8 .f32) (x3 : FVec Ideal S144x72 .f32)
    (x4 : FVec Ideal S72 .f32) (x5 : FVec Ideal S8x72 .f32) (x6 : FVec Ideal S72 .f32) (x7 : FVec Ideal S144x72 .f32)
    (x8 : FVec Ideal S72 .f32) (x9 : FVec Ideal S72x1 .f32) (x10 : FVec Ideal S1 .f32) (p : Fin 4096) :
    Gen.k4_pay1 (F := Ideal) (Gen.k4_pay2 (F := Ideal) x0 x1 x3 x4 x2 x5 x6 x7 x8 x9) x10 (ix1 p)
      = edgeRow (fun k => x0 (ix2 p k)) (fun k => x1 (ix2 p k)) (fun k => x2 (ix2 p k)) x3 x4 x5 x6 x7 x8 x9 x10 := by
  dsimp only [Gen.k4_pay1, Gen.k4_pay2]
  rw [edge_dotA, edge_dotB, edge_dotC]
  unfold edgeRow
  rw [edge_shapeCast_a1_a_apply, edge_tileAff_at]
  refine congrArg (fun f => affRow f x9 x10 (0 : Fin 1)) (funext fun j => ?_)
  rw [truncf_apply, edge_tanh_apply, edge_tileAff_at]
  refine congrArg (fun f => Ideal.tanh (affRow f x7 x8 j)) (funext fun i => ?_)
  rw [edge_concat_cols (by norm_num : 144 = 72 + 72)]
  refine congrArg₂ (fun f g => cat2 (by norm_num : 144 = 72 + 72) f g i) (funext fun k => ?_) (funext fun k => ?_)
  · rw [truncf_apply, edge_tileAff_at]
    refine congrArg (fun f => affRow f x3 x4 k) (funext fun i' => ?_)
    rw [edge_concat_cols (by norm_num : 144 = 72 + 72), shapeCast_self, shapeCast_self]
  · rw [truncf_apply, edge_tileAff_at]
    refine congrArg (fun f => affRow f x5 x6 k) (funext fun i' => ?_)
    rw [truncf_apply, shapeCast_self]

/-! ## The plain program's operations, and their value at a row -/

/-- The plain program's edge perceptron on all edges at once: its operations from the concatenation of the gathered
    node features to the final reshape, composed. -/
def refEdge (HS HD : FVec Ideal Cert.ReferenceIdeal.S1600000x72 .f32) (EA : FVec Ideal Cert.ReferenceIdeal.S1600000x8 .f32)
    (w10 : FVec Ideal S144x72 .f32) (w11 : FVec Ideal S72 .f32) (w12 : FVec Ideal S8x72 .f32) (w13 : FVec Ideal S72 .f32)
    (w14 : FVec Ideal S144x72 .f32) (w15 : FVec Ideal S72 .f32) (w16 : FVec Ideal S72x1 .f32) (w17 : FVec Ideal S1 .f32) :
    FVec Ideal Cert.ReferenceIdeal.S1600000 .f32 :=
  have v195 : FVec Ideal Cert.ReferenceIdeal.S1600000x144 .f32 := concatenate Cert.ReferenceIdeal.S1600000x144 1 [⟨Cert.ReferenceIdeal.S1600000x72, HS⟩, ⟨Cert.ReferenceIdeal.S1600000x72, HD⟩] Cert.ReferenceIdeal.Facts₀.concatenates_S1600000x72_S1600000x72_S1600000x144_d1
  have v196 : FVec Ideal Cert.ReferenceIdeal.S1600000x72 .f32 := Host.dotGeneral (F := Ideal) Cert.ReferenceIdeal.dot_S1600000x144_S144x72_S1600000x72_1_0_0_1_n_n none v195 w10
  have v197 : FVec Ideal Cert.ReferenceIdeal.S1x72 .f32 := broadcastInDim Cert.ReferenceIdeal.S1x72 ![1] Cert.ReferenceIdeal.Facts₀.bcast_S72_S1x72_1 w11
  have v198 : FVec Ideal Cert.ReferenceIdeal.S1600000x72 .f32 := broadcastInDim Cert.ReferenceIdeal.S1600000x72 ![0, 1] Cert.ReferenceIdeal.Facts₀.bcast_S1x72_S1600000x72_0_1 v197
  have v199 : FVec Ideal Cert.ReferenceIdeal.S1600000x72 .f32 := addf v196 v198
  have v200 : FVec Ideal Cert.ReferenceIdeal.S1600000x72 .f32 := Host.dotGeneral (F := Ideal) Cert.ReferenceIdeal.dot_S1600000x8_S8x72_S1600000x72_1_0_0_1_n_n none EA w12
  have v201 : FVec Ideal Cert.ReferenceIdeal.S1x72 .f32 := broadcastInDim Cert.ReferenceIdeal.S1x72 ![1] Cert.ReferenceIdeal.Facts₀.bcast_S72_S1x72_1 w13
  have v202 : FVec Ideal Cert.ReferenceIdeal.S1600000x72 .f32 := broadcastInDim Cert.ReferenceIdeal.S1600000x72 ![0, 1] Cert.ReferenceIdeal.Facts₀.bcast_S1x72_S1600000x72_0_1 v201
  have v203 : FVec Ideal Cert.ReferenceIdeal.S1600000x72 .f32 := addf v200 v202
  have v204 : FVec Ideal Cert.ReferenceIdeal.S1600000x144 .f32 := concatenate Cert.ReferenceIdeal.S1600000x144 1 [⟨Cert.ReferenceIdeal.S1600000x72, v199⟩, ⟨Cert.ReferenceIdeal.S1600000x72, v203⟩] Cert.ReferenceIdeal.Facts₀.concatenates_S1600000x72_S1600000x72_S1600000x144_d1
  have v205 : FVec Ideal Cert.ReferenceIdeal.S1600000x72 .f32 := Host.dotGeneral (F := Ideal) Cert.ReferenceIdeal.dot_S1600000x144_S144x72_S1600000x72_1_0_0_1_n_n none v204 w14
  have v206 : FVec Ideal Cert.ReferenceIdeal.S1x72 .f32 := broadcastInDim Cert.ReferenceIdeal.S1x72 ![1] Cert.ReferenceIdeal.Facts₀.bcast_S72_S1x72_1 w15
  have v207 : FVec Ideal Cert.ReferenceIdeal.S1600000x72 .f32 := broadcastInDim Cert.ReferenceIdeal.S1600000x72 ![0, 1] Cert.ReferenceIdeal.Facts₀.bcast_S1x72_S1600000x72_0_1 v206
  have v208 : FVec Ideal Cert.ReferenceIdeal.S1600000x72 .f32 := addf v205 v207
  have v209 : FVec Ideal Cert.ReferenceIdeal.S1600000x72 .f32 := Host.tanh (F := Ideal) v208
  have v210 : FVec Ideal Cert.ReferenceIdeal.S1600000x1 .f32 := Host.dotGeneral (F := Ideal) Cert.ReferenceIdeal.dot_S1600000x72_S72x1_S1600000x1_1_0_0_1_n_n none v209 w16
  have v211 : FVec Ideal Cert.ReferenceIdeal.S1x1 .f32 := broadcastInDim Cert.ReferenceIdeal.S1x1 ![1] Cert.ReferenceIdeal.Facts₀.bcast_S1_S1x1_1 w17
  have v212 : FVec Ideal Cert.ReferenceIdeal.S1600000x1 .f32 := broadcastInDim Cert.ReferenceIdeal.S1600000x1 ![0, 1] Cert.ReferenceIdeal.Facts₀.bcast_S1x1_S1600000x1_0_1 v211
  have v213 : FVec Ideal Cert.ReferenceIdeal.S1600000x1 .f32 := addf v210 v212
  shapeCast Cert.ReferenceIdeal.S1600000 v213 Cert.ReferenceIdeal.Facts₀.shapeCasts_S1600000x1_S1600000

theorem edge_rdotA : Cert.ReferenceIdeal.dot_S1600000x144_S144x72_S1600000x72_1_0_0_1_n_n = Cert.Mlp.D2 Cert.ReferenceIdeal.Facts₀.dot_S1600000x144_S144x72_S1600000x72_1_0_0_1_n_n_wf := rfl
theorem edge_rdotB : Cert.ReferenceIdeal.dot_S1600000x8_S8x72_S1600000x72_1_0_0_1_n_n = Cert.Mlp.D2 Cert.ReferenceIdeal.Facts₀.dot_S1600000x8_S8x72_S1600000x72_1_0_0_1_n_n_wf := rfl
theorem edge_rdotC : Cert.ReferenceIdeal.dot_S1600000x72_S72x1_S1600000x1_1_0_0_1_n_n = Cert.Mlp.D2 Cert.ReferenceIdeal.Facts₀.dot_S1600000x72_S72x1_S1600000x1_1_0_0_1_n_n_wf := rfl

/-- Entry `e` of the plain program's result is the edge perceptron of row `e` of its three data arrays. -/
theorem edge_ref_at (HS HD : FVec Ideal Cert.ReferenceIdeal.S1600000x72 .f32) (EA : FVec Ideal Cert.ReferenceIdeal.S1600000x8 .f32)
    (w10 : FVec Ideal S144x72 .f32) (w11 : FVec Ideal S72 .f32) (w12 : FVec Ideal S8x72 .f32) (w13 : FVec Ideal S72 .f32)
    (w14 : FVec Ideal S144x72 .f32) (w15 : FVec Ideal S72 .f32) (w16 : FVec Ideal S72x1 .f32) (w17 : FVec Ideal S1 .f32)
    (e : Fin 1600000) :
    refEdge HS HD EA w10 w11 w12 w13 w14 w15 w16 w17 (ix1 e)
      = edgeRow (fun k => HS (ix2 e k)) (fun k => HD (ix2 e k)) (fun k => EA (ix2 e k)) w10 w11 w12 w13 w14 w15 w16 w17 := by
  dsimp only [refEdge]
  rw [edge_rdotA, edge_rdotB, edge_rdotC]
  unfold edgeRow
  rw [edge_shapeCast_a1_a_apply, edge_hostAff_at]
  refine congrArg (fun f => affRow f w16 w17 (0 : Fin 1)) (funext fun j => ?_)
  rw [edge_hostTanh_apply, edge_hostAff_at]
  refine congrArg (fun f => Ideal.tanh (affRow f w14 w15 j)) (funext fun i => ?_)
  rw [edge_concat_cols (by norm_num : 144 = 72 + 72)]
  refine congrArg₂ (fun f g => cat2 (by norm_num : 144 = 72 + 72) f g i) (funext fun k => ?_) (funext fun k => ?_)
  · rw [edge_hostAff_at]
    refine congrArg (fun f => affRow f w10 w11 k) (funext fun i' => ?_)
    rw [edge_concat_cols (by norm_num : 144 = 72 + 72)]
  · rw [edge_hostAff_at]

/-! ## From blocks to the array -/

section Region

variable (V : (c : Dev nD) → (b : Ref sig .tc) → Buf (Elt Ideal) ((c : Thread nD τ).loc b))

theorem edge_hz1 : (![0] : Fin 1 → Nat) = fun _ => 0 := funext fun a => by fin_cases a; rfl
theorem edge_hz2 : (![0, 0] : Fin 2 → Nat) = fun _ => 0 := funext fun a => by fin_cases a <;> rfl

/-- The one coordinate of an index of a vector. -/
def rowOf {n : Nat} (i : (⟨1, ![n]⟩ : Shape).Idx) : Fin n := ⟨(i 0).val, (i 0).isLt⟩

theorem rowOf_ix1 {n : Nat} (a : Fin n) : rowOf (ix1 a) = a := rfl

/-- The output array as one function of the region's input arrays: entry `i` is the edge perceptron of row `i` of the
    two gathered feature arrays and of the attribute array. -/
def edgeG (c : Dev nD) : S1601536.Idx → EReal := fun i =>
  edgeRow (fun k => (V c main_v184 : S1601536x72.Idx → EReal) (ix2 (rowOf i) k))
    (fun k => (V c main_v191 : S1601536x72.Idx → EReal) (ix2 (rowOf i) k))
    (fun k => (V c main_v177 : S1601536x8.Idx → EReal) (ix2 (rowOf i) k))
    (V c main_arg10) (V c main_arg11) (V c main_arg12) (V c main_arg13) (V c main_arg14) (V c main_arg15) (V c main_arg16) (V c main_arg17)

theorem edge_t_lt (t : Fin cfg4.N) : t.val < 391 := by
  have h := t.isLt
  have e : cfg4.N = 391 := Gen.N_4
  omega

/-! ### The printed index maps, decided over the grid

The output window and the three data windows sit at block `t` of their rows at point `t`; the eight parameter windows
sit at block 0 on every axis. -/

theorem edge_idx11 : ∀ t : Fin cfg4.N, win4_11.index t (0 : Fin 1) = t.val :=
  (by decide +kernel : ∀ t : Fin grid4.N, _)
theorem edge_idx0 : ∀ t : Fin cfg4.N, win4_0.index t (0 : Fin 2) = t.val ∧ win4_0.index t (1 : Fin 2) = 0 :=
  (by decide +kernel : ∀ t : Fin grid4.N, _)
theorem edge_idx1 : ∀ t : Fin cfg4.N, win4_1.index t (0 : Fin 2) = t.val ∧ win4_1.index t (1 : Fin 2) = 0 :=
  (by decide +kernel : ∀ t : Fin grid4.N, _)
theorem edge_idx2 : ∀ t : Fin cfg4.N, win4_2.index t (0 : Fin 2) = t.val ∧ win4_2.index t (1 : Fin 2) = 0 :=
  (by decide +kernel : ∀ t : Fin grid4.N, _)
theorem edge_idx3 : ∀ t : Fin cfg4.N, win4_3.index t (0 : Fin 2) = 0 ∧ win4_3.index t (1 : Fin 2) = 0 :=
  (by decide +kernel : ∀ t : Fin grid4.N, _)
theorem edge_idx4 : ∀ t : Fin cfg4.N, win4_4.index t (0 : Fin 1) = 0 :=
  (by decide +kernel : ∀ t : Fin grid4.N, _)
theorem edge_idx5 : ∀ t : Fin cfg4.N, win4_5.index t (0 : Fin 2) = 0 ∧ win4_5.index t (1 : Fin 2) = 0 :=
  (by decide +kernel : ∀ t : Fin grid4.N, _)
theorem edge_idx6 : ∀ t : Fin cfg4.N, win4_6.index t (0 : Fin 1) = 0 :=
  (by decide +kernel : ∀ t : Fin grid4.N, _)
theorem edge_idx7 : ∀ t : Fin cfg4.N, win4_7.index t (0 : Fin 2) = 0 ∧ win4_7.index t (1 : Fin 2) = 0 :=
  (by decide +kernel : ∀ t : Fin grid4.N, _)
theorem edge_idx8 : ∀ t : Fin cfg4.N, win4_8.index t (0 : Fin 1) = 0 :=
  (by decide +kernel : ∀ t : Fin grid4.N, _)
theorem edge_idx9 : ∀ t : Fin cfg4.N, win4_9.index t (0 : Fin 2) = 0 ∧ win4_9.index t (1 : Fin 2) = 0 :=
  (by decide +kernel : ∀ t : Fin grid4.N, _)
theorem edge_idx10 : ∀ t : Fin cfg4.N, win4_10.index t (0 : Fin 1) = 0 :=
  (by decide +kernel : ∀ t : Fin grid4.N, _)

/-! ### The input blocks read where the arrays hold them

A block's coordinate on an axis is the block index times the block's extent plus the coordinate inside the block. -/

/-- Window 0's block at point `t`, row `p`, is row `4096 t + p` of its array. -/
theorem edge_iblk0_at (c : Dev nD) (t : Fin cfg4.N) (p : Fin 4096) (k : Fin 72) :
    (Gen.iblk4 V c 0 t : S4096x72.Idx → EReal) (ix2 p k)
      = (V c main_v184 : S1601536x72.Idx → EReal) (ix2 (⟨t.val * 4096 + p.val, by have := edge_t_lt t; have := p.isLt; omega⟩ : Fin 1601536) k) := by
  obtain ⟨e0, e1⟩ := edge_idx0 t
  unfold Gen.iblk4
  rw [View.read_apply]
  show V c main_v184 _ = V c main_v184 _
  congr 1
  funext a
  apply Fin.ext
  match a with
  | ⟨0, _⟩ => show win4_0.index t (0 : Fin 2) * 4096 + 1 * p.val = t.val * 4096 + p.val; rw [e0]; omega
  | ⟨1, _⟩ => show win4_0.index t (1 : Fin 2) * 72 + 1 * k.val = k.val; rw [e1]; omega

/-- Window 1's block at point `t`, row `p`, is row `4096 t + p` of its array. -/
theorem edge_iblk1_at (c : Dev nD) (t : Fin cfg4.N) (p : Fin 4096) (k : Fin 72) :
    (Gen.iblk4 V c 1 t : S4096x72.Idx → EReal) (ix2 p k)
      = (V c main_v191 : S1601536x72.Idx → EReal) (ix2 (⟨t.val * 4096 + p.val, by have := edge_t_lt t; have := p.isLt; omega⟩ : Fin 1601536) k) := by
  obtain ⟨e0, e1⟩ := edge_idx1 t
  unfold Gen.iblk4
  rw [View.read_apply]
  show V c main_v191 _ = V c main_v191 _
  congr 1
  funext a
  apply Fin.ext
  match a with
  | ⟨0, _⟩ => show win4_1.index t (0 : Fin 2) * 4096 + 1 * p.val = t.val * 4096 + p.val; rw [e0]; omega
  | ⟨1, _⟩ => show win4_1.index t (1 : Fin 2) * 72 + 1 * k.val = k.val; rw [e1]; omega

/-- Window 2's block at point `t`, row `p`, is row `4096 t + p` of its array. -/
theorem edge_iblk2_at (c : Dev nD) (t : Fin cfg4.N) (p : Fin 4096) (k : Fin 8) :
    (Gen.iblk4 V c 2 t : S4096x8.Idx → EReal) (ix2 p k)
      = (V c main_v177 : S1601536x8.Idx → EReal) (ix2 (⟨t.val * 4096 + p.val, by have := edge_t_lt t; have := p.isLt; omega⟩ : Fin 1601536) k) := by
  obtain ⟨e0, e1⟩ := edge_idx2 t
  unfold Gen.iblk4
  rw [View.read_apply]
  show V c main_v177 _ = V c main_v177 _
  congr 1
  funext a
  apply Fin.ext
  match a with
  | ⟨0, _⟩ => show win4_2.index t (0 : Fin 2) * 4096 + 1 * p.val = t.val * 4096 + p.val; rw [e0]; omega
  | ⟨1, _⟩ => show win4_2.index t (1 : Fin 2) * 8 + 1 * k.val = k.val; rw [e1]; omega

/-- Window 3's block is its whole array at every point. -/
theorem edge_iblk3 (c : Dev nD) (t : Fin cfg4.N) : (Gen.iblk4 V c 3 t : S144x72.Idx → EReal) = V c main_arg10 := by
  obtain ⟨e0, e1⟩ := edge_idx3 t
  funext y
  unfold Gen.iblk4
  rw [View.read_apply]
  show V c main_arg10 _ = V c main_arg10 y
  congr 1
  funext a
  apply Fin.ext
  match a with
  | ⟨0, _⟩ => show win4_3.index t (0 : Fin 2) * 144 + 1 * (y 0).val = (y 0).val; rw [e0]; omega
  | ⟨1, _⟩ => show win4_3.index t (1 : Fin 2) * 72 + 1 * (y 1).val = (y 1).val; rw [e1]; omega

/-- Window 4's block is its whole array at every point. -/
theorem edge_iblk4 (c : Dev nD) (t : Fin cfg4.N) : (Gen.iblk4 V c 4 t : S72.Idx → EReal) = V c main_arg11 := by
  have e0 := edge_idx4 t
  funext y
  unfold Gen.iblk4
  rw [View.read_apply]
  show V c main_arg11 _ = V c main_arg11 y
  congr 1
  funext a
  apply Fin.ext
  match a with
  | ⟨0, _⟩ => show win4_4.index t (0 : Fin 1) * 72 + 1 * (y 0).val = (y 0).val; rw [e0]; omega

/-- Window 5's block is its whole array at every point. -/
theorem edge_iblk5 (c : Dev nD) (t : Fin cfg4.N) : (Gen.iblk4 V c 5 t : S8x72.Idx → EReal) = V c main_arg12 := by
  obtain ⟨e0, e1⟩ := edge_idx5 t
  funext y
  unfold Gen.iblk4
  rw [View.read_apply]
  show V c main_arg12 _ = V c main_arg12 y
  congr 1
  funext a
  apply Fin.ext
  match a with
  | ⟨0, _⟩ => show win4_5.index t (0 : Fin 2) * 8 + 1 * (y 0).val = (y 0).val; rw [e0]; omega
  | ⟨1, _⟩ => show win4_5.index t (1 : Fin 2) * 72 + 1 * (y 1).val = (y 1).val; rw [e1]; omega

/-- Window 6's block is its whole array at every point. -/
theorem edge_iblk6 (c : Dev nD) (t : Fin cfg4.N) : (Gen.iblk4 V c 6 t : S72.Idx → EReal) = V c main_arg13 := by
  have e0 := edge_idx6 t
  funext y
  unfold Gen.iblk4
  rw [View.read_apply]
  show V c main_arg13 _ = V c main_arg13 y
  congr 1
  funext a
  apply Fin.ext
  match a with
  | ⟨0, _⟩ => show win4_6.index t (0 : Fin 1) * 72 + 1 * (y 0).val = (y 0).val; rw [e0]; omega

/-- Window 7's block is its whole array at every point. -/
theorem edge_iblk7 (c : Dev nD) (t : Fin cfg4.N) : (Gen.iblk4 V c 7 t : S144x72.Idx → EReal) = V c main_arg14 := by
  obtain ⟨e0, e1⟩ := edge_idx7 t
  funext y
  unfold Gen.iblk4
  rw [View.read_apply]
  show V c main_arg14 _ = V c main_arg14 y
  congr 1
  funext a
  apply Fin.ext
  match a with
  | ⟨0, _⟩ => show win4_7.index t (0 : Fin 2) * 144 + 1 * (y 0).val = (y 0).val; rw [e0]; omega
  | ⟨1, _⟩ => show win4_7.index t (1 : Fin 2) * 72 + 1 * (y 1).val = (y 1).val; rw [e1]; omega

/-- Window 8's block is its whole array at every point. -/
theorem edge_iblk8 (c : Dev nD) (t : Fin cfg4.N) : (Gen.iblk4 V c 8 t : S72.Idx → EReal) = V c main_arg15 := by
  have e0 := edge_idx8 t
  funext y
  unfold Gen.iblk4
  rw [View.read_apply]
  show V c main_arg15 _ = V c main_arg15 y
  congr 1
  funext a
  apply Fin.ext
  match a with
  | ⟨0, _⟩ => show win4_8.index t (0 : Fin 1) * 72 + 1 * (y 0).val = (y 0).val; rw [e0]; omega

/-- Window 9's block is its whole array at every point. -/
theorem edge_iblk9 (c : Dev nD) (t : Fin cfg4.N) : (Gen.iblk4 V c 9 t : S72x1.Idx → EReal) = V c main_arg16 := by
  obtain ⟨e0, e1⟩ := edge_idx9 t
  funext y
  unfold Gen.iblk4
  rw [View.read_apply]
  show V c main_arg16 _ = V c main_arg16 y
  congr 1
  funext a
  apply Fin.ext
  match a with
  | ⟨0, _⟩ => show win4_9.index t (0 : Fin 2) * 72 + 1 * (y 0).val = (y 0).val; rw [e0]; omega
  | ⟨1, _⟩ => show win4_9.index t (1 : Fin 2) * 1 + 1 * (y 1).val = (y 1).val; rw [e1]; omega

/-- Window 10's block is its whole array at every point. -/
theorem edge_iblk10 (c : Dev nD) (t : Fin cfg4.N) : (Gen.iblk4 V c 10 t : S1.Idx → EReal) = V c main_arg17 := by
  have e0 := edge_idx10 t
  funext y
  unfold Gen.iblk4
  rw [View.read_apply]
  show V c main_arg17 _ = V c main_arg17 y
  congr 1
  funext a
  apply Fin.ext
  match a with
  | ⟨0, _⟩ => show win4_10.index t (0 : Fin 1) * 1 + 1 * (y 0).val = (y 0).val; rw [e0]; omega

/-- An element of the output block at point `t`, position `p`, sits at position `4096 t + p` of the array. -/
theorem edge_rowOf_emb (t : Fin cfg4.N) (p : Fin 4096) :
    rowOf (((cfg4.win 11).blk t).view.emb (ix1 p) : S1601536.Idx) = ⟨t.val * 4096 + p.val, by have := edge_t_lt t; have := p.isLt; omega⟩ := by
  apply Fin.ext
  show win4_11.index t (0 : Fin 1) * 4096 + 1 * p.val = t.val * 4096 + p.val
  rw [edge_idx11 t]; omega

/-- `edgeG` at an element of the output block at point `t`: the edge perceptron of row `4096 t + p` of the data arrays. -/
theorem edge_G_at (c : Dev nD) (t : Fin cfg4.N) (p : Fin 4096) :
    edgeG V c (((cfg4.win 11).blk t).view.emb (ix1 p))
      = edgeRow (fun k => (V c main_v184 : S1601536x72.Idx → EReal) (ix2 (⟨t.val * 4096 + p.val, by have := edge_t_lt t; have := p.isLt; omega⟩ : Fin 1601536) k))
          (fun k => (V c main_v191 : S1601536x72.Idx → EReal) (ix2 (⟨t.val * 4096 + p.val, by have := edge_t_lt t; have := p.isLt; omega⟩ : Fin 1601536) k))
          (fun k => (V c main_v177 : S1601536x8.Idx → EReal) (ix2 (⟨t.val * 4096 + p.val, by have := edge_t_lt t; have := p.isLt; omega⟩ : Fin 1601536) k))
          (V c main_arg10) (V c main_arg11) (V c main_arg12) (V c main_arg13) (V c main_arg14) (V c main_arg15) (V c main_arg16) (V c main_arg17) := by
  unfold edgeG
  rw [edge_rowOf_emb]

/-- What point `t` writes back is block `t` of `edgeG` of the arrays as the region finds them. -/
theorem edge_flushed_eq (c : Dev nD) (t : Fin cfg4.N) :
    (Gen.dat4 (F := Ideal) V c).flushed 11 t = ((cfg4.win 11).blk t).view.read (Elt Ideal) (edgeG V c) := by
  show (cfg4.win 11).cut (grid4.coords t) ((Gen.dat4 V c).after 11 t) = _
  rw [Gen.after4_11]
  unfold Gen.out4_11
  rw [View.canon_unit_zero edge_hz1]
  simp only [View.ld_unit_zero (S := S4096x72) edge_hz2, View.ld_unit_zero (S := S144x72) edge_hz2, View.ld_unit_zero (S := S72) edge_hz1,
    View.ld_unit_zero (S := S4096x8) edge_hz2, View.ld_unit_zero (S := S8x72) edge_hz2, View.ld_unit_zero (S := S72x1) edge_hz2,
    View.ld_unit_zero (S := S1) edge_hz1]
  funext j
  obtain ⟨p, rfl⟩ : ∃ p : Fin 4096, j = ix1 p := ⟨j 0, eq_ix1 j⟩
  rw [View.read_apply]
  show Gen.k4_pay1 (F := Ideal) (Gen.k4_pay2 (F := Ideal) _ _ _ _ _ _ _ _ _ _) _ (ix1 p) = edgeG V c (((cfg4.win 11).blk t).view.emb (ix1 p))
  rw [edge_pay_at, edge_G_at, edge_iblk3, edge_iblk4, edge_iblk5, edge_iblk6, edge_iblk7, edge_iblk8, edge_iblk9, edge_iblk10,
    show (fun k => Gen.iblk4 V c 0 t (ix2 p k)) = _ from funext fun k => edge_iblk0_at V c t p k,
    show (fun k => Gen.iblk4 V c 1 t (ix2 p k)) = _ from funext fun k => edge_iblk1_at V c t p k,
    show (fun k => Gen.iblk4 V c 2 t (ix2 p k)) = _ from funext fun k => edge_iblk2_at V c t p k]

/-- Every position of the output array lies in the block of the point that its quotient by 4096 names. -/
theorem edge_cover (i : S1601536.Idx) :
    ∃ t : Fin cfg4.N, (cfg4.win 11).flush t = true ∧ i ∈ ((cfg4.win 11).blk t).view.set := by
  have hi : (i 0).val < 1601536 := (i 0).isLt
  have hN : cfg4.N = 391 := Gen.N_4
  have ht : (i 0).val / 4096 < cfg4.N := by omega
  refine ⟨⟨(i 0).val / 4096, ht⟩, Gen.flush4_11 _, ?_⟩
  show i ∈ ((View.whole main_v192).slice (win4_11.rect ⟨(i 0).val / 4096, ht⟩)).set
  rw [View.set_slice_whole, Rect.mem_set_unit]
  intro a
  match a with
  | ⟨0, _⟩ =>
    show win4_11.index ⟨(i 0).val / 4096, ht⟩ (0 : Fin 1) * 4096 ≤ (i 0).val ∧ (i 0).val < win4_11.index ⟨(i 0).val / 4096, ht⟩ (0 : Fin 1) * 4096 + 4096
    rw [edge_idx11]
    show (i 0).val / 4096 * 4096 ≤ (i 0).val ∧ (i 0).val < (i 0).val / 4096 * 4096 + 4096
    omega

/-- The output array after the region: `edgeG` of the arrays as the region finds them. -/
theorem edge_arr (c : Dev nD) : (Gen.dat4 (F := Ideal) V c).arrAt 11 cfg4.N = edgeG V c :=
  (Gen.dat4 (F := Ideal) V c).arrAt_eq_of_cover 11 (edgeG V c) (fun t _ => edge_flushed_eq V c t) edge_cover

/-- THE REGION'S OUTPUT AT AN EDGE: when row `e` of the region's three data arrays is row `e` of `HS`, `HD`, `EA`, entry `e`
    of the output array is entry `e` of the plain program's edge perceptron of `HS`, `HD`, `EA` and the same parameters. -/
theorem edge_final (c : Dev nD) (e : Fin 1600000)
    (HS HD : FVec Ideal Cert.ReferenceIdeal.S1600000x72 .f32) (EA : FVec Ideal Cert.ReferenceIdeal.S1600000x8 .f32)
    (hs : ∀ k : Fin 72, (V c main_v184 : S1601536x72.Idx → EReal) (ix2 (⟨e.val, by have := e.isLt; omega⟩ : Fin 1601536) k) = HS (ix2 e k))
    (hd : ∀ k : Fin 72, (V c main_v191 : S1601536x72.Idx → EReal) (ix2 (⟨e.val, by have := e.isLt; omega⟩ : Fin 1601536) k) = HD (ix2 e k))
    (ha : ∀ k : Fin 8, (V c main_v177 : S1601536x8.Idx → EReal) (ix2 (⟨e.val, by have := e.isLt; omega⟩ : Fin 1601536) k) = EA (ix2 e k)) :
    ((Gen.dat4 (F := Ideal) V c).arrAt 11 cfg4.N : S1601536.Idx → EReal) (ix1 (⟨e.val, by have := e.isLt; omega⟩ : Fin 1601536))
      = refEdge HS HD EA (V c main_arg10) (V c main_arg11) (V c main_arg12) (V c main_arg13) (V c main_arg14) (V c main_arg15)
          (V c main_arg16) (V c main_arg17) (ix1 e) := by
  rw [edge_arr, edge_ref_at]
  unfold edgeG
  rw [rowOf_ix1]
  simp only [hs, hd, ha]

end Region

end Cert.KernelIdeal.RegionValue

end
-- ==== Proof.SimTailMlp.lean ====
/-
  What the reference's edge head computes, from arbitrary buffer contents.

  The reference's last segment is a straight line of host operations on all edges at once: the two gathered
  node-feature arrays side by side through the first affine map, the edge attributes through the second, the two
  results side by side through the third and the hyperbolic tangent, the last affine map to one column, and the
  reshape to a vector. Its result is that composition of the two gathered arrays, the attributes and the eight
  parameter arrays.
-/
import proofs.«122625_j53163105190631_2_alg».proof.Proof.RefOps
import proofs.«122625_j53163105190631_2_alg».proof.Proof.RegionEdge
import Idealize.ShloMosaic.Lib.StableHlo.Run
import Idealize.ShloMosaic.PureOps.Ideal

set_option maxRecDepth 16384

noncomputable section

namespace Cert.Sim

open Idealize.ShloMosaic Idealize.ShloMosaic.StableHlo Idealize.ShloMosaic.ValueIdx
open Cert.ReferenceIdeal.RefRun

local notation "RVal" => Valuation Cert.ReferenceIdeal.τ Cert.ReferenceIdeal.sig (Elt Ideal)

/-- The reference's edge head: the host's edge perceptron of the two gathered arrays, the edge attributes and the
    parameters, as the segment finds them. -/
theorem ref_mlp (U : RVal) :
    (after segMlp U (Proc.devRef .tc Cert.ReferenceIdeal.main_v214) : Cert.ReferenceIdeal.S1600000.Idx → EReal)
      = Cert.KernelIdeal.RegionValue.refEdge (U (Proc.devRef .tc Cert.ReferenceIdeal.main_v187))
          (U (Proc.devRef .tc Cert.ReferenceIdeal.main_v194)) (U (Proc.devRef .tc Cert.ReferenceIdeal.main_arg2))
          (U (Proc.devRef .tc Cert.ReferenceIdeal.main_arg10)) (U (Proc.devRef .tc Cert.ReferenceIdeal.main_arg11))
          (U (Proc.devRef .tc Cert.ReferenceIdeal.main_arg12)) (U (Proc.devRef .tc Cert.ReferenceIdeal.main_arg13))
          (U (Proc.devRef .tc Cert.ReferenceIdeal.main_arg14)) (U (Proc.devRef .tc Cert.ReferenceIdeal.main_arg15))
          (U (Proc.devRef .tc Cert.ReferenceIdeal.main_arg16)) (U (Proc.devRef .tc Cert.ReferenceIdeal.main_arg17)) := by
  after_results_simp
  rfl

end Cert.Sim

end
-- ==== Proof.BridgeTail.lean ====
/-
  The two programs side by side through the edge head, and the whole bridge.

  After the last layer the kernel program narrows the node features, pads the index vectors and the edge attributes and
  gathers the two endpoint rows of every (padded) edge; its last region computes the edge head row by row, and the
  first 1600000 entries are the result.  The reference gathers the same rows without padding and applies the same head.
  On every edge e below 1600000 the two results are the same function of the same rows.
-/
import proofs.«122625_j53163105190631_2_alg».proof.Proof.Gen.KernelIdeal.Frame
import proofs.«122625_j53163105190631_2_alg».proof.Proof.KAt
import proofs.«122625_j53163105190631_2_alg».proof.Proof.KEdgeIn
import proofs.«122625_j53163105190631_2_alg».proof.Proof.RegionEdge
import proofs.«122625_j53163105190631_2_alg».proof.Proof.RefSeq
import proofs.«122625_j53163105190631_2_alg».proof.Proof.SimTail
import proofs.«122625_j53163105190631_2_alg».proof.Proof.SimTailMlp
import proofs.«122625_j53163105190631_2_alg».proof.Proof.BridgeBase
import Idealize.ShloMosaic.PureOps.Ideal

set_option maxRecDepth 16384

noncomputable section

namespace Cert.Bridge

open Idealize.ShloMosaic Idealize.ShloMosaic.TcCoe Idealize.ShloMosaic.StableHlo
open Cert.KernelIdeal.Gen (W0 W1 W2 W3 W4 W5 W6 W7 W8 W9 W10 W11 W12 W13 W14 W15 W16 W17 W18 W19 W20 W21 W22 W23 W24 W25 W26 W27 W28 W29 W30 W31)
open Cert.ReferenceIdeal.RefRun (Uat Uat_keep Uat_succ Uat_all)
open Cert.Sim Cert.KernelIdeal.KAt Cert.KernelIdeal.RegionValue

open Idealize.ShloMosaic.ValueIdx Cert.KernelIdeal.KEdgeIn

/-- Narrowing the last layer's output keeps every entry's ideal value. -/
theorem narrowed (W : Valuation Cert.KernelIdeal.τ Cert.KernelIdeal.sig (Elt Ideal)) :
    (after Cert.KernelIdeal.Gen.hostOps4_4 W (Proc.devRef .tc Cert.KernelIdeal.main_v174) : Cert.KernelIdeal.S100000x72.Idx → EReal)
      = after Cert.KernelIdeal.Gen.hostOps4_4 W (Proc.devRef .tc Cert.KernelIdeal.main_v173) := by
  after_results_simp
  rfl

theorem tail (m : KMem) (ρ : KDev → PrngReg) (c : KDev) (U0 : RVal) (A : ArgsAgree m c U0)
    (Hv1 : (W1 m ρ c (Proc.devRef .tc Cert.KernelIdeal.main_v1) : IVec Cert.KernelIdeal.S1600000 32) = Uat U0 1 (Proc.devRef .tc Cert.ReferenceIdeal.main_v1))
    (Hv3 : (W1 m ρ c (Proc.devRef .tc Cert.KernelIdeal.main_v3) : IVec Cert.KernelIdeal.S1600000 32) = Uat U0 1 (Proc.devRef .tc Cert.ReferenceIdeal.main_v3))
    (Hh : (W23 m ρ c (Proc.devRef .tc Cert.KernelIdeal.main_v173) : Cert.KernelIdeal.S100000x72.Idx → EReal) = Uat U0 24 (Proc.devRef .tc Cert.ReferenceIdeal.main_v180)) :
    (W31 m ρ c (Proc.devRef .tc Cert.KernelIdeal.main_v193) : Cert.KernelIdeal.S1600000.Idx → EReal) = Uat U0 26 (Proc.devRef .tc Cert.ReferenceIdeal.main_v214) := by
  funext i
  obtain ⟨e, rfl⟩ : ∃ e : Fin 1600000, i = ix1 e := ⟨i 0, eq_ix1 i⟩
  -- the index vectors and the node features where the gathers read them
  have h1 : (W23 m ρ c (Proc.devRef .tc Cert.KernelIdeal.main_v1) : IVec Cert.KernelIdeal.S1600000 32) = Uat U0 24 (Proc.devRef .tc Cert.ReferenceIdeal.main_v1) :=
    (k23 m ρ c Cert.KernelIdeal.main_v1).trans (Hv1.trans (uu U0 1 24 Cert.ReferenceIdeal.main_v1).symm)
  have h3 : (W23 m ρ c (Proc.devRef .tc Cert.KernelIdeal.main_v3) : IVec Cert.KernelIdeal.S1600000 32) = Uat U0 24 (Proc.devRef .tc Cert.ReferenceIdeal.main_v3) :=
    (k23 m ρ c Cert.KernelIdeal.main_v3).trans (Hv3.trans (uu U0 1 24 Cert.ReferenceIdeal.main_v3).symm)
  have hf : (W23 m ρ c (Proc.devRef .tc Cert.KernelIdeal.main_v174) : Cert.KernelIdeal.S100000x72.Idx → EReal) = Uat U0 24 (Proc.devRef .tc Cert.ReferenceIdeal.main_v180) := (narrowed (W22 m ρ c)).trans Hh
  -- the three edge-indexed inputs of the last region, row e
  have hs : ∀ k : Fin 72, (Cert.KernelIdeal.Gen.V29 m ρ c Cert.KernelIdeal.main_v184 : Cert.KernelIdeal.S1601536x72.Idx → EReal) (ix2 (⟨e.val, by omega⟩ : Fin 1601536) k)
      = (Uat U0 25 (Proc.devRef .tc Cert.ReferenceIdeal.main_v187) : Cert.ReferenceIdeal.S1600000x72.Idx → EReal) (ix2 e k) := fun k => by
    refine (hs_row (W23 m ρ c) e k).trans ?_
    rw [hf, h1]
    exact (ref_hs_row (Uat U0 24) e k).symm
  have hd : ∀ k : Fin 72, (Cert.KernelIdeal.Gen.V29 m ρ c Cert.KernelIdeal.main_v191 : Cert.KernelIdeal.S1601536x72.Idx → EReal) (ix2 (⟨e.val, by omega⟩ : Fin 1601536) k)
      = (Uat U0 25 (Proc.devRef .tc Cert.ReferenceIdeal.main_v194) : Cert.ReferenceIdeal.S1600000x72.Idx → EReal) (ix2 e k) := fun k => by
    refine (hd_row (W23 m ρ c) e k).trans ?_
    rw [hf, h3]
    exact (ref_hd_row (Uat U0 24) e k).symm
  have ea2 : (W23 m ρ c (Proc.devRef .tc Cert.KernelIdeal.main_arg2) : Cert.KernelIdeal.S1600000x8.Idx → EReal) = Uat U0 25 (Proc.devRef .tc Cert.ReferenceIdeal.main_arg2) :=
    (m23 m ρ c Cert.KernelIdeal.main_arg2).trans (A.arg2.trans (u0 U0 25 Cert.ReferenceIdeal.main_arg2).symm)
  have ha : ∀ k : Fin 8, (Cert.KernelIdeal.Gen.V29 m ρ c Cert.KernelIdeal.main_v177 : Cert.KernelIdeal.S1601536x8.Idx → EReal) (ix2 (⟨e.val, by omega⟩ : Fin 1601536) k)
      = (Uat U0 25 (Proc.devRef .tc Cert.ReferenceIdeal.main_arg2) : Cert.ReferenceIdeal.S1600000x8.Idx → EReal) (ix2 e k) := fun k => by
    refine (ea_row (W23 m ρ c) e k).trans ?_
    rw [ea2]
  -- the head's parameters
  have p10 : (Cert.KernelIdeal.Gen.V29 m ρ c Cert.KernelIdeal.main_arg10 : Cert.KernelIdeal.S144x72.Idx → EReal) = Uat U0 25 (Proc.devRef .tc Cert.ReferenceIdeal.main_arg10) :=
    (m29 m ρ c Cert.KernelIdeal.main_arg10).trans (A.arg10.trans (u0 U0 25 Cert.ReferenceIdeal.main_arg10).symm)
  have p11 : (Cert.KernelIdeal.Gen.V29 m ρ c Cert.KernelIdeal.main_arg11 : Cert.KernelIdeal.S72.Idx → EReal) = Uat U0 25 (Proc.devRef .tc Cert.ReferenceIdeal.main_arg11) :=
    (m29 m ρ c Cert.KernelIdeal.main_arg11).trans (A.arg11.trans (u0 U0 25 Cert.ReferenceIdeal.main_arg11).symm)
  have p12 : (Cert.KernelIdeal.Gen.V29 m ρ c Cert.KernelIdeal.main_arg12 : Cert.KernelIdeal.S8x72.Idx → EReal) = Uat U0 25 (Proc.devRef .tc Cert.ReferenceIdeal.main_arg12) :=
    (m29 m ρ c Cert.KernelIdeal.main_arg12).trans (A.arg12.trans (u0 U0 25 Cert.ReferenceIdeal.main_arg12).symm)
  have p13 : (Cert.KernelIdeal.Gen.V29 m ρ c Cert.KernelIdeal.main_arg13 : Cert.KernelIdeal.S72.Idx → EReal) = Uat U0 25 (Proc.devRef .tc Cert.ReferenceIdeal.main_arg13) :=
    (m29 m ρ c Cert.KernelIdeal.main_arg13).trans (A.arg13.trans (u0 U0 25 Cert.ReferenceIdeal.main_arg13).symm)
  have p14 : (Cert.KernelIdeal.Gen.V29 m ρ c Cert.KernelIdeal.main_arg14 : Cert.KernelIdeal.S144x72.Idx → EReal) = Uat U0 25 (Proc.devRef .tc Cert.ReferenceIdeal.main_arg14) :=
    (m29 m ρ c Cert.KernelIdeal.main_arg14).trans (A.arg14.trans (u0 U0 25 Cert.ReferenceIdeal.main_arg14).symm)
  have p15 : (Cert.KernelIdeal.Gen.V29 m ρ c Cert.KernelIdeal.main_arg15 : Cert.KernelIdeal.S72.Idx → EReal) = Uat U0 25 (Proc.devRef .tc Cert.ReferenceIdeal.main_arg15) :=
    (m29 m ρ c Cert.KernelIdeal.main_arg15).trans (A.arg15.trans (u0 U0 25 Cert.ReferenceIdeal.main_arg15).symm)
  have p16 : (Cert.KernelIdeal.Gen.V29 m ρ c Cert.KernelIdeal.main_arg16 : Cert.KernelIdeal.S72x1.Idx → EReal) = Uat U0 25 (Proc.devRef .tc Cert.ReferenceIdeal.main_arg16) :=
    (m29 m ρ c Cert.KernelIdeal.main_arg16).trans (A.arg16.trans (u0 U0 25 Cert.ReferenceIdeal.main_arg16).symm)
  have p17 : (Cert.KernelIdeal.Gen.V29 m ρ c Cert.KernelIdeal.main_arg17 : Cert.KernelIdeal.S1.Idx → EReal) = Uat U0 25 (Proc.devRef .tc Cert.ReferenceIdeal.main_arg17) :=
    (m29 m ρ c Cert.KernelIdeal.main_arg17).trans (A.arg17.trans (u0 U0 25 Cert.ReferenceIdeal.main_arg17).symm)
  -- the kernel program's result at e: the last region's output at e
  have hk : (W31 m ρ c (Proc.devRef .tc Cert.KernelIdeal.main_v193) : Cert.KernelIdeal.S1600000.Idx → EReal) (ix1 e)
      = refEdge (Uat U0 25 (Proc.devRef .tc Cert.ReferenceIdeal.main_v187)) (Uat U0 25 (Proc.devRef .tc Cert.ReferenceIdeal.main_v194)) (Uat U0 25 (Proc.devRef .tc Cert.ReferenceIdeal.main_arg2))
          (Cert.KernelIdeal.Gen.V29 m ρ c Cert.KernelIdeal.main_arg10) (Cert.KernelIdeal.Gen.V29 m ρ c Cert.KernelIdeal.main_arg11) (Cert.KernelIdeal.Gen.V29 m ρ c Cert.KernelIdeal.main_arg12) (Cert.KernelIdeal.Gen.V29 m ρ c Cert.KernelIdeal.main_arg13) (Cert.KernelIdeal.Gen.V29 m ρ c Cert.KernelIdeal.main_arg14) (Cert.KernelIdeal.Gen.V29 m ρ c Cert.KernelIdeal.main_arg15) (Cert.KernelIdeal.Gen.V29 m ρ c Cert.KernelIdeal.main_arg16) (Cert.KernelIdeal.Gen.V29 m ρ c Cert.KernelIdeal.main_arg17) (ix1 e) := by
    refine (out_row (W30 m ρ c) e).trans ?_
    rw [Cert.KernelIdeal.Gen.W30_arr m ρ c 11]
    exact edge_final (Cert.KernelIdeal.Gen.V29 m ρ) c e _ _ _ hs hd ha
  rw [hk, p10, p11, p12, p13, p14, p15, p16, p17]
  exact (congrFun (ref_mlp (Uat U0 25)) (ix1 e)).symm

end Cert.Bridge

end
-- ==== Proof.lean ====
/-
  The certificate of the edge-scoring network: an embedding of the nodes, three graph-convolution layers with batch
  normalisation, and a two-layer head on the gathered endpoint features of every edge.

  The kernel program computes it with five regions — the node embedding, one region per layer for the two dense
  products of the layer, and the edge head tiled over the (padded) edges — among host operations that are, operation for
  operation, the reference's: the degree normalisation of the edges, the gather–scale–scatter-add aggregation, the
  bias, the rectifier, the batch normalisation, the gathers of the endpoint rows.  At the ideal values a narrowing of
  the float format is the identity and a matrix product into a zero accumulator is the host's matrix product, with the
  sums in the same order; so the two programs compute, entry by entry, the same extended real.

  * The three frames: the generated frame of each kernel program; for the reference its run, written out as one
    straight line of operations, with the arguments read back unchanged.
  * The idealisation rewrote nothing, so its statement is empty.
  * The value claim: the kernel program's run names its result as the last boundary contents at the result buffer;
    the bridge (head, three layers, tail) identifies it with what the reference's operations leave at its result.
-/
import proofs.«122625_j53163105190631_2_alg».proof.Defs
import proofs.«122625_j53163105190631_2_alg».proof.Proof.Gen.Kernel
import proofs.«122625_j53163105190631_2_alg».proof.Proof.Gen.Kernel.Frame
import proofs.«122625_j53163105190631_2_alg».proof.Proof.Gen.KernelIdeal
import proofs.«122625_j53163105190631_2_alg».proof.Proof.Gen.KernelIdeal.Frame
import proofs.«122625_j53163105190631_2_alg».proof.Proof.Gen.ReferenceIdeal
import proofs.«122625_j53163105190631_2_alg».proof.Proof.Gen.Pre_finite_inputs
import proofs.«122625_j53163105190631_2_alg».proof.Proof.KRun
import proofs.«122625_j53163105190631_2_alg».proof.Proof.RefRun
import proofs.«122625_j53163105190631_2_alg».proof.Proof.RefArgs
import proofs.«122625_j53163105190631_2_alg».proof.Proof.BridgeHead
import proofs.«122625_j53163105190631_2_alg».proof.Proof.BridgeLayer0
import proofs.«122625_j53163105190631_2_alg».proof.Proof.BridgeLayer1
import proofs.«122625_j53163105190631_2_alg».proof.Proof.BridgeLayer2
import proofs.«122625_j53163105190631_2_alg».proof.Proof.BridgeTail
import Idealize.ShloMosaic.Adequacy
import Idealize.ShloMosaic.Init

set_option maxRecDepth 16384

noncomputable section

namespace Cert.Proof

open Idealize.ShloMosaic Idealize.ShloMosaic.TcCoe Idealize.SL.Sem
open Cert.Bridge Cert.ReferenceIdeal.RefRun

theorem frame_k : Cert.frame_Kernel := fun m ρ _ => Cert.Kernel.Gen.frame m ρ

theorem frame_ki : Cert.frame_KernelIdeal := fun m ρ _ => Cert.KernelIdeal.Gen.frame m ρ

/-- The reference runs and gives its arguments back: its run as one line of operations, none of which writes an
    argument. -/
theorem frame_ri : Cert.frame_ReferenceIdeal :=
  frame_ri_of (fun m ρ => run (F := Ideal) m ρ)

/-- The idealisation rewrote no operation. -/
theorem preserves : Cert.preserves_Kernel_KernelIdeal := trivial

/-- The kernel program's result buffer at the end of its run holds what the reference's operations leave in the
    reference's result buffer, when the two are launched on the same arguments. -/
theorem bridge (m : KMem) (ρ : KDev → PrngReg) (c : KDev) (U0 : RVal) (A : ArgsAgree m c U0) :
    (Cert.KernelIdeal.Gen.W31 m ρ c (Proc.devRef .tc Cert.KernelIdeal.main_v193) : Cert.KernelIdeal.S1600000.Idx → EReal)
      = StableHlo.after (ops (F := Ideal)) U0 (Proc.devRef .tc Cert.ReferenceIdeal.main_v214) := by
  obtain ⟨B1, B1', B2, B3, B4, B5⟩ := head m ρ c U0 A
  obtain ⟨O0, WI1, WR1⟩ := layer0 m ρ c U0 A B1 B1' B3 B2 B4 B5
  obtain ⟨O1, WI2, WR2⟩ := layer1 m ρ c U0 A B1 B1' B3 O0 WI1 WR1
  have O2 := layer2 m ρ c U0 A B1 B1' B3 O1 WI2 WR2
  exact (tail m ρ c U0 A B1 B1' O2).trans (congrFun (Uat_all U0) _)

/-- Both idealised programs run from memories agreeing on the arguments, end with the same result array and give
    their arguments back. -/
theorem algebraic : Cert.algebraic_KernelIdeal_ReferenceIdeal := by
  intro m ρ m' ρ' _ hagree
  refine ⟨fun c => Cert.KernelIdeal.Gen.W31 m ρ c (Proc.devRef .tc Cert.KernelIdeal.main_v193),
    Cert.KernelIdeal.KRun.run_result m ρ, ?_⟩
  refine (θ_run (Cert.ReferenceIdeal.defs (F := Ideal)) _ _).mono (fun r h c => ?_) (run (F := Ideal) m' ρ')
  obtain ⟨a0, a1, a2, a3, a4, a5, a6, a7, a8, a9, a10, a11, a12, a13, a14, a15, a16, a17⟩ := hagree c
  have A : ArgsAgree m c (StableHlo.launchContents m' c) :=
    ⟨a0.symm, a1.symm, a2.symm, a3.symm, a4.symm, a5.symm, a6.symm, a7.symm, a8.symm, a9.symm, a10.symm, a11.symm, a12.symm, a13.symm, a14.symm, a15.symm, a16.symm, a17.symm⟩
  refine ⟨?_, (h c Cert.ReferenceIdeal.main_arg0).trans (ops_keeps_arg0 _),
    (h c Cert.ReferenceIdeal.main_arg1).trans (ops_keeps_arg1 _),
    (h c Cert.ReferenceIdeal.main_arg2).trans (ops_keeps_arg2 _),
    (h c Cert.ReferenceIdeal.main_arg3).trans (ops_keeps_arg3 _),
    (h c Cert.ReferenceIdeal.main_arg4).trans (ops_keeps_arg4 _),
    (h c Cert.ReferenceIdeal.main_arg5).trans (ops_keeps_arg5 _),
    (h c Cert.ReferenceIdeal.main_arg6).trans (ops_keeps_arg6 _),
    (h c Cert.ReferenceIdeal.main_arg7).trans (ops_keeps_arg7 _),
    (h c Cert.ReferenceIdeal.main_arg8).trans (ops_keeps_arg8 _),
    (h c Cert.ReferenceIdeal.main_arg9).trans (ops_keeps_arg9 _),
    (h c Cert.ReferenceIdeal.main_arg10).trans (ops_keeps_arg10 _),
    (h c Cert.ReferenceIdeal.main_arg11).trans (ops_keeps_arg11 _),
    (h c Cert.ReferenceIdeal.main_arg12).trans (ops_keeps_arg12 _),
    (h c Cert.ReferenceIdeal.main_arg13).trans (ops_keeps_arg13 _),
    (h c Cert.ReferenceIdeal.main_arg14).trans (ops_keeps_arg14 _),
    (h c Cert.ReferenceIdeal.main_arg15).trans (ops_keeps_arg15 _),
    (h c Cert.ReferenceIdeal.main_arg16).trans (ops_keeps_arg16 _),
    (h c Cert.ReferenceIdeal.main_arg17).trans (ops_keeps_arg17 _)⟩
  rw [h c Cert.ReferenceIdeal.main_v214]
  exact (bridge m ρ c (StableHlo.launchContents m' c) A).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
